-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part2 {F : FTy → Type} [FloatOps F] (main_arg8 : FVec F S3x64 .f32) (main_arg9 : FVec F S3x64 .f32) (main_v33 : IVec S_ 1) : IVec S_ 1 :=
  let main_v34 : FVec F S3x64 .f32 := Host.absf main_arg8
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3x64 .f32 := Host.absf main_arg9
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  main_v43

def fn_part1 {F : FTy → Type} [FloatOps F] (main_arg5 : FVec F S64 .f32) (main_arg6 : FVec F S3x64x64 .f32) (main_arg7 : FVec F S3x64x64 .f32) (main_arg8 : FVec F S3x64 .f32) (main_arg9 : FVec F S3x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S3x64x64 .f32 := Host.absf main_arg6
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64x64 .f32 := Host.absf main_arg7
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x64 .f32) (main_arg3 : FVec F S64 .f32) (main_arg4 : FVec F S64 .f32) (main_arg5 : FVec F S64 .f32) (main_arg6 : FVec F S3x64x64 .f32) (main_arg7 : FVec F S3x64x64 .f32) (main_arg8 : FVec F S3x64 .f32) (main_arg9 : FVec F S3x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S1x800000 : Shape := ⟨2, ![1, 800000]⟩
abbrev S800000 : Shape := ⟨1, ![800000]⟩
abbrev S1x64 : Shape := ⟨2, ![1, 64]⟩
abbrev S50000x64 : Shape := ⟨2, ![50000, 64]⟩
abbrev S2000x128 : Shape := ⟨2, ![2000, 128]⟩
abbrev S2000x64 : Shape := ⟨2, ![2000, 64]⟩
abbrev S_ : Shape := ⟨0, ![]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩

abbrev nBuf : Space → Nat
  | .hbm => 137
  | .vmem => 64
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64, .f32⟩
  | 5 => ⟨S64, .f32⟩
  | 6 => ⟨S3x64x64, .f32⟩
  | 7 => ⟨S3x64x64, .f32⟩
  | 8 => ⟨S3x64, .f32⟩
  | 9 => ⟨S3x64, .f32⟩
  | 10 => ⟨S1x800000, .i32⟩
  | 11 => ⟨S800000, .i32⟩
  | 12 => ⟨S1x800000, .i32⟩
  | 13 => ⟨S800000, .i32⟩
  | 14 => ⟨S1x64, .f32⟩
  | 15 => ⟨S50000x64, .f32⟩
  | 16 => ⟨S1x64, .f32⟩
  | 17 => ⟨S1x64, .f32⟩
  | 18 => ⟨S_, .f32⟩
  | 19 => ⟨S1x64, .f32⟩
  | 20 => ⟨S1x64, .f32⟩
  | 21 => ⟨S_, .f32⟩
  | 22 => ⟨S1x64, .f32⟩
  | 23 => ⟨S1x64, .f32⟩
  | 24 => ⟨S1x64, .f32⟩
  | 25 => ⟨S1x64, .f32⟩
  | 26 => ⟨S1x64, .f32⟩
  | 27 => ⟨S1x64, .f32⟩
  | 28 => ⟨S50000x64, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x64, .f32⟩
  | 38 => ⟨S_, .f32⟩
  | 39 => ⟨S50000x64, .f32⟩
  | 40 => ⟨S800000x1, .i32⟩
  | 41 => ⟨S50000x64, .f32⟩
  | 42 => ⟨S50000x64, .f32⟩
  | 43 => ⟨S1x64x64, .f32⟩
  | 44 => ⟨S64x64, .f32⟩
  | 45 => ⟨S1x64x64, .f32⟩
  | 46 => ⟨S64x64, .f32⟩
  | 47 => ⟨S50000x64, .f32⟩
  | 48 => ⟨S1x64, .f32⟩
  | 49 => ⟨S1x64, .f32⟩
  | 50 => ⟨S_, .f32⟩
  | 51 => ⟨S1x64, .f32⟩
  | 52 => ⟨S1x64, .f32⟩
  | 53 => ⟨S_, .f32⟩
  | 54 => ⟨S1x64, .f32⟩
  | 55 => ⟨S1x64, .f32⟩
  | 56 => ⟨S1x64, .f32⟩
  | 57 => ⟨S1x64, .f32⟩
  | 58 => ⟨S1x64, .f32⟩
  | 59 => ⟨S64, .f32⟩
  | 60 => ⟨S1x64, .f32⟩
  | 61 => ⟨S64, .f32⟩
  | 62 => ⟨S1x64, .f32⟩
  | 63 => ⟨S1x64, .f32⟩
  | 64 => ⟨S50000x64, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x64, .f32⟩
  | 74 => ⟨S_, .f32⟩
  | 75 => ⟨S50000x64, .f32⟩
  | 76 => ⟨S800000x1, .i32⟩
  | 77 => ⟨S50000x64, .f32⟩
  | 78 => ⟨S50000x64, .f32⟩
  | 79 => ⟨S1x64x64, .f32⟩
  | 80 => ⟨S64x64, .f32⟩
  | 81 => ⟨S1x64x64, .f32⟩
  | 82 => ⟨S64x64, .f32⟩
  | 83 => ⟨S50000x64, .f32⟩
  | 84 => ⟨S1x64, .f32⟩
  | 85 => ⟨S1x64, .f32⟩
  | 86 => ⟨S_, .f32⟩
  | 87 => ⟨S1x64, .f32⟩
  | 88 => ⟨S1x64, .f32⟩
  | 89 => ⟨S_, .f32⟩
  | 90 => ⟨S1x64, .f32⟩
  | 91 => ⟨S1x64, .f32⟩
  | 92 => ⟨S1x64, .f32⟩
  | 93 => ⟨S1x64, .f32⟩
  | 94 => ⟨S1x64, .f32⟩
  | 95 => ⟨S64, .f32⟩
  | 96 => ⟨S1x64, .f32⟩
  | 97 => ⟨S64, .f32⟩
  | 98 => ⟨S1x64, .f32⟩
  | 99 => ⟨S1x64, .f32⟩
  | 100 => ⟨S50000x64, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x64, .f32⟩
  | 110 => ⟨S_, .f32⟩
  | 111 => ⟨S50000x64, .f32⟩
  | 112 => ⟨S800000x1, .i32⟩
  | 113 => ⟨S50000x64, .f32⟩
  | 114 => ⟨S50000x64, .f32⟩
  | 115 => ⟨S1x64x64, .f32⟩
  | 116 => ⟨S64x64, .f32⟩
  | 117 => ⟨S1x64x64, .f32⟩
  | 118 => ⟨S64x64, .f32⟩
  | 119 => ⟨S50000x64, .f32⟩
  | 120 => ⟨S1x64, .f32⟩
  | 121 => ⟨S1x64, .f32⟩
  | 122 => ⟨S_, .f32⟩
  | 123 => ⟨S1x64, .f32⟩
  | 124 => ⟨S1x64, .f32⟩
  | 125 => ⟨S_, .f32⟩
  | 126 => ⟨S1x64, .f32⟩
  | 127 => ⟨S1x64, .f32⟩
  | _ => ⟨S50000x128, .f32⟩

abbrev hbmTy0_1 (i : Nat) : BufTy := match i % 128 with
  | 0 => ⟨S1x64, .f32⟩
  | 1 => ⟨S1x64, .f32⟩
  | 2 => ⟨S1x64, .f32⟩
  | 3 => ⟨S64, .f32⟩
  | 4 => ⟨S1x64, .f32⟩
  | 5 => ⟨S64, .f32⟩
  | 6 => ⟨S1x64, .f32⟩
  | 7 => ⟨S1x64, .f32⟩
  | 8 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | .local _ .vmem, ⟨6, _⟩ => ⟨S1x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S64x64, .f32⟩
  | .local _ .vmem, ⟨19, _⟩ => ⟨S64x64, .f32⟩
  | .local _ .vmem, ⟨20, _⟩ => ⟨S2000x64, .f32⟩
  | .local _ .vmem, ⟨21, _⟩ => ⟨S2000x64, .f32⟩
  | .local _ .vmem, ⟨22, _⟩ => ⟨S1x64, .f32⟩
  | .local _ .vmem, ⟨23, _⟩ => ⟨S1x64, .f32⟩
  | .local _ .vmem, ⟨24, _⟩ => ⟨S2000x64, .f32⟩
  | .local _ .vmem, ⟨25, _⟩ => ⟨S2000x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S64x64, .f32⟩
  | .local _ .vmem, ⟨35, _⟩ => ⟨S64x64, .f32⟩
  | .local _ .vmem, ⟨36, _⟩ => ⟨S2000x64, .f32⟩
  | .local _ .vmem, ⟨37, _⟩ => ⟨S2000x64, .f32⟩
  | .local _ .vmem, ⟨38, _⟩ => ⟨S1x64, .f32⟩
  | .local _ .vmem, ⟨39, _⟩ => ⟨S1x64, .f32⟩
  | .local _ .vmem, ⟨40, _⟩ => ⟨S2000x64, .f32⟩
  | .local _ .vmem, ⟨41, _⟩ => ⟨S2000x64, .f32⟩
  | .local _ .vmem, ⟨42, _⟩ => ⟨S1x64, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S2000x64, .f32⟩
  | .local _ .vmem, ⟨47, _⟩ => ⟨S2000x64, .f32⟩
  | .local _ .vmem, ⟨48, _⟩ => ⟨S2000x64, .f32⟩
  | .local _ .vmem, ⟨49, _⟩ => ⟨S2000x64, .f32⟩
  | .local _ .vmem, ⟨50, _⟩ => ⟨S64x64, .f32⟩
  | .local _ .vmem, ⟨51, _⟩ => ⟨S64x64, .f32⟩
  | .local _ .vmem, ⟨52, _⟩ => ⟨S2000x64, .f32⟩
  | .local _ .vmem, ⟨53, _⟩ => ⟨S2000x64, .f32⟩
  | .local _ .vmem, ⟨54, _⟩ => ⟨S1x64, .f32⟩
  | .local _ .vmem, ⟨55, _⟩ => ⟨S1x64, .f32⟩
  | .local _ .vmem, ⟨56, _⟩ => ⟨S2000x64, .f32⟩
  | .local _ .vmem, ⟨57, _⟩ => ⟨S2000x64, .f32⟩
  | .local _ .vmem, ⟨58, _⟩ => ⟨S1x64, .f32⟩
  | .local _ .vmem, ⟨59, _⟩ => ⟨S1x64, .f32⟩
  | .local _ .vmem, ⟨60, _⟩ => ⟨S1x64, .f32⟩
  | .local _ .vmem, ⟨61, _⟩ => ⟨S1x64, .f32⟩
  | .local _ .vmem, ⟨62, _⟩ => ⟨S2000x64, .f32⟩
  | .local _ .vmem, ⟨63, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30_0 : Ref sig .tc := ⟨.hbm, 47, rfl⟩
abbrev main_v30_1 : Ref sig .tc := ⟨.hbm, 48, rfl⟩
abbrev main_v30_2 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_5 : Ref sig .tc := ⟨.hbm, 65, rfl⟩
abbrev main_v44 : Ref sig .tc := ⟨.hbm, 66, rfl⟩
abbrev main_v45 : Ref sig .tc := ⟨.hbm, 67, rfl⟩
abbrev main_c_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_7 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59_0 : Ref sig .tc := ⟨.hbm, 83, rfl⟩
abbrev main_v59_1 : Ref sig .tc := ⟨.hbm, 84, rfl⟩
abbrev main_v59_2 : Ref sig .tc := ⟨.hbm, 85, rfl⟩
abbrev main_cst_8 : Ref sig .tc := ⟨.hbm, 86, rfl⟩
abbrev main_v60 : Ref sig .tc := ⟨.hbm, 87, rfl⟩
abbrev main_v61 : Ref sig .tc := ⟨.hbm, 88, rfl⟩
abbrev main_cst_9 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_10 : Ref sig .tc := ⟨.hbm, 101, rfl⟩
abbrev main_v73 : Ref sig .tc := ⟨.hbm, 102, rfl⟩
abbrev main_v74 : Ref sig .tc := ⟨.hbm, 103, rfl⟩
abbrev main_c_11 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_12 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88_0 : Ref sig .tc := ⟨.hbm, 119, rfl⟩
abbrev main_v88_1 : Ref sig .tc := ⟨.hbm, 120, rfl⟩
abbrev main_v88_2 : Ref sig .tc := ⟨.hbm, 121, rfl⟩
abbrev main_cst_13 : Ref sig .tc := ⟨.hbm, 122, rfl⟩
abbrev main_v89 : Ref sig .tc := ⟨.hbm, 123, rfl⟩
abbrev main_v90 : Ref sig .tc := ⟨.hbm, 124, rfl⟩
abbrev main_cst_14 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg5_0 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg3_1 : Ref sig .tc := ⟨.vmem, 53, rfl⟩
abbrev cc6_stg4_0 : Ref sig .tc := ⟨.vmem, 54, rfl⟩
abbrev cc6_stg5_0 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg5_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc4_sem4_0 : DmaSem sig := 38
abbrev cc4_sem5_0 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem3_1 : DmaSem sig := 53
abbrev cc6_sem4_0 : DmaSem sig := 54
abbrev cc6_sem5_0 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem3_0 : DmaSem sig := 60
abbrev cc7_sem4_0 : DmaSem sig := 61
abbrev cc7_sem5_0 : DmaSem sig := 62
abbrev cc7_sem5_1 : DmaSem sig := 63

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S64_S1x64 : S64.ShapeCasts S1x64
  inb_S1x64_S1x64_0_0 : ∀ a, (![0, 0] : Fin 2 → Nat) a + S1x64.size a ≤ S1x64.size a
  h_S1x64 : 0 < S1x64.numel
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  reduces_S2000x64_S64 : S2000x64.Reduces [0] S64
  bcast_S_S1x64 : S_.BroadcastsInDim S1x64 (![] : Fin 0 → Fin S1x64.rank)
  shapeCasts_S2000x64_S2000x64 : S2000x64.ShapeCasts S2000x64
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x64.size a ≤ S50000x64.size a
  hwx3_5 : ∀ i : grid3.Coords, EltTy.bits .f32 = 32 ∨ (Rect.block (s := S50000x64) S2000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S50000x64.size a
  hwx4_3 : ∀ i : grid4.Coords, EltTy.bits .f32 = 32 ∨ (Rect.block (s := S50000x64) S2000x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x64.size a ≤ S50000x64.size a
  hwx5_5 : ∀ i : grid5.Coords, EltTy.bits .f32 = 32 ∨ (Rect.block (s := S50000x64) S2000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x64.size a ≤ S50000x64.size a
  hwx6_3 : ∀ i : grid6.Coords, EltTy.bits .f32 = 32 ∨ (Rect.block (s := S50000x64) S2000x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S50000x64.size a
  hwx7_0 : ∀ i : grid7.Coords, EltTy.bits .f32 = 32 ∨ (Rect.block (s := S50000x64) S2000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x64.size a ≤ S50000x64.size a
  hwx7_5 : ∀ i : grid7.Coords, EltTy.bits .f32 = 32 ∨ (Rect.block (s := S50000x64) S2000x64.size (cc7_transform_5 i) (hinb7_5 i)).WholeWords (EltTy.packing .f32)

variable [Facts₀]

def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S2000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S1x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5_0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v25) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30_0) S2000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v30_1) S1x64.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30_2) S1x64.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v30_0) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v36) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v42) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v43) S2000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v54) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v56) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v58) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v59_0) S2000x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v59_1) S1x64.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v59_2) S1x64.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v59_0) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v65) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v70) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v71) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v72) S2000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v83) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v85) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v87) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v88_0) S2000x64.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v88_1) S1x64.size cc6_transform_4 reads6_4 true true 1 stage6_4 sem6_4
    hrank6 hreads6_4 hinb6_4 nbuf6_4 (Memref.isWhole_whole _) hwx6_4 hstage6_4

abbrev win6_5 : Pipeline.Window sig grid6 :=
  Pipeline.Window.ofSpec (Memref.whole main_v88_2) S1x64.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v88_0) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v90) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v94) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v99) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v100) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v101) S2000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩

abbrev nBuf : Space → Nat
  | .hbm => 228
  | .vmem => 0
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64, .f32⟩
  | 5 => ⟨S64, .f32⟩
  | 6 => ⟨S3x64x64, .f32⟩
  | 7 => ⟨S3x64x64, .f32⟩
  | 8 => ⟨S3x64, .f32⟩
  | 9 => ⟨S3x64, .f32⟩
  | 10 => ⟨S1x800000, .i32⟩
  | 11 => ⟨S800000, .i32⟩
  | 12 => ⟨S1x800000, .i32⟩
  | 13 => ⟨S800000, .i32⟩
  | 14 => ⟨S50000x64, .f32⟩
  | 15 => ⟨S1x64, .f32⟩
  | 16 => ⟨S50000x64, .f32⟩
  | 17 => ⟨S50000x64, .f32⟩
  | 18 => ⟨S_, .f32⟩
  | 19 => ⟨S64, .f32⟩
  | 20 => ⟨S_, .f32⟩
  | 21 => ⟨S64, .f32⟩
  | 22 => ⟨S64, .f32⟩
  | 23 => ⟨S1x64, .f32⟩
  | 24 => ⟨S50000x64, .f32⟩
  | 25 => ⟨S50000x64, .f32⟩
  | 26 => ⟨S50000x64, .f32⟩
  | 27 => ⟨S_, .f32⟩
  | 28 => ⟨S64, .f32⟩
  | 29 => ⟨S_, .f32⟩
  | 30 => ⟨S64, .f32⟩
  | 31 => ⟨S64, .f32⟩
  | 32 => ⟨S1x64, .f32⟩
  | 33 => ⟨S50000x64, .f32⟩
  | 34 => ⟨S50000x64, .f32⟩
  | 35 => ⟨S1x64, .f32⟩
  | 36 => ⟨S50000x64, .f32⟩
  | 37 => ⟨S50000x64, .f32⟩
  | 38 => ⟨S_, .f32⟩
  | 39 => ⟨S64, .f32⟩
  | 40 => ⟨S64, .f32⟩
  | 41 => ⟨S64, .f32⟩
  | 42 => ⟨S1x64, .f32⟩
  | 43 => ⟨S50000x64, .f32⟩
  | 44 => ⟨S50000x64, .f32⟩
  | 45 => ⟨S1x64, .f32⟩
  | 46 => ⟨S50000x64, .f32⟩
  | 47 => ⟨S50000x64, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x64, .f32⟩
  | 57 => ⟨S_, .f32⟩
  | 58 => ⟨S50000x64, .f32⟩
  | 59 => ⟨S800000x1, .i32⟩
  | 60 => ⟨S50000x64, .f32⟩
  | 61 => ⟨S50000x64, .f32⟩
  | 62 => ⟨S1x64x64, .f32⟩
  | 63 => ⟨S64x64, .f32⟩
  | 64 => ⟨S50000x64, .f32⟩
  | 65 => ⟨S_, .f32⟩
  | 66 => ⟨S50000x64, .f32⟩
  | 67 => ⟨S50000x64, .f32⟩
  | 68 => ⟨S1x64x64, .f32⟩
  | 69 => ⟨S64x64, .f32⟩
  | 70 => ⟨S50000x64, .f32⟩
  | 71 => ⟨S_, .f32⟩
  | 72 => ⟨S50000x64, .f32⟩
  | 73 => ⟨S50000x64, .f32⟩
  | 74 => ⟨S1x64, .f32⟩
  | 75 => ⟨S64, .f32⟩
  | 76 => ⟨S1x64, .f32⟩
  | 77 => ⟨S64, .f32⟩
  | 78 => ⟨S_, .f32⟩
  | 79 => ⟨S64, .f32⟩
  | 80 => ⟨S_, .f32⟩
  | 81 => ⟨S64, .f32⟩
  | 82 => ⟨S64, .f32⟩
  | 83 => ⟨S1x64, .f32⟩
  | 84 => ⟨S50000x64, .f32⟩
  | 85 => ⟨S50000x64, .f32⟩
  | 86 => ⟨S50000x64, .f32⟩
  | 87 => ⟨S_, .f32⟩
  | 88 => ⟨S64, .f32⟩
  | 89 => ⟨S_, .f32⟩
  | 90 => ⟨S64, .f32⟩
  | 91 => ⟨S64, .f32⟩
  | 92 => ⟨S1x64, .f32⟩
  | 93 => ⟨S50000x64, .f32⟩
  | 94 => ⟨S50000x64, .f32⟩
  | 95 => ⟨S1x64, .f32⟩
  | 96 => ⟨S50000x64, .f32⟩
  | 97 => ⟨S50000x64, .f32⟩
  | 98 => ⟨S_, .f32⟩
  | 99 => ⟨S64, .f32⟩
  | 100 => ⟨S64, .f32⟩
  | 101 => ⟨S64, .f32⟩
  | 102 => ⟨S1x64, .f32⟩
  | 103 => ⟨S50000x64, .f32⟩
  | 104 => ⟨S50000x64, .f32⟩
  | 105 => ⟨S1x64, .f32⟩
  | 106 => ⟨S50000x64, .f32⟩
  | 107 => ⟨S50000x64, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x64, .f32⟩
  | 117 => ⟨S_, .f32⟩
  | 118 => ⟨S50000x64, .f32⟩
  | 119 => ⟨S800000x1, .i32⟩
  | 120 => ⟨S50000x64, .f32⟩
  | 121 => ⟨S50000x64, .f32⟩
  | 122 => ⟨S1x64x64, .f32⟩
  | 123 => ⟨S64x64, .f32⟩
  | 124 => ⟨S50000x64, .f32⟩
  | 125 => ⟨S_, .f32⟩
  | 126 => ⟨S50000x64, .f32⟩
  | 127 => ⟨S50000x64, .f32⟩
  | _ => ⟨S50000x128, .f32⟩

abbrev hbmTy0_1 (i : Nat) : BufTy := match i % 128 with
  | 0 => ⟨S1x64x64, .f32⟩
  | 1 => ⟨S64x64, .f32⟩
  | 2 => ⟨S50000x64, .f32⟩
  | 3 => ⟨S_, .f32⟩
  | 4 => ⟨S50000x64, .f32⟩
  | 5 => ⟨S50000x64, .f32⟩
  | 6 => ⟨S1x64, .f32⟩
  | 7 => ⟨S64, .f32⟩
  | 8 => ⟨S1x64, .f32⟩
  | 9 => ⟨S64, .f32⟩
  | 10 => ⟨S_, .f32⟩
  | 11 => ⟨S64, .f32⟩
  | 12 => ⟨S_, .f32⟩
  | 13 => ⟨S64, .f32⟩
  | 14 => ⟨S64, .f32⟩
  | 15 => ⟨S1x64, .f32⟩
  | 16 => ⟨S50000x64, .f32⟩
  | 17 => ⟨S50000x64, .f32⟩
  | 18 => ⟨S50000x64, .f32⟩
  | 19 => ⟨S_, .f32⟩
  | 20 => ⟨S64, .f32⟩
  | 21 => ⟨S_, .f32⟩
  | 22 => ⟨S64, .f32⟩
  | 23 => ⟨S64, .f32⟩
  | 24 => ⟨S1x64, .f32⟩
  | 25 => ⟨S50000x64, .f32⟩
  | 26 => ⟨S50000x64, .f32⟩
  | 27 => ⟨S1x64, .f32⟩
  | 28 => ⟨S50000x64, .f32⟩
  | 29 => ⟨S50000x64, .f32⟩
  | 30 => ⟨S_, .f32⟩
  | 31 => ⟨S64, .f32⟩
  | 32 => ⟨S64, .f32⟩
  | 33 => ⟨S64, .f32⟩
  | 34 => ⟨S1x64, .f32⟩
  | 35 => ⟨S50000x64, .f32⟩
  | 36 => ⟨S50000x64, .f32⟩
  | 37 => ⟨S1x64, .f32⟩
  | 38 => ⟨S50000x64, .f32⟩
  | 39 => ⟨S50000x64, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x64, .f32⟩
  | 49 => ⟨S_, .f32⟩
  | 50 => ⟨S50000x64, .f32⟩
  | 51 => ⟨S800000x1, .i32⟩
  | 52 => ⟨S50000x64, .f32⟩
  | 53 => ⟨S50000x64, .f32⟩
  | 54 => ⟨S1x64x64, .f32⟩
  | 55 => ⟨S64x64, .f32⟩
  | 56 => ⟨S50000x64, .f32⟩
  | 57 => ⟨S_, .f32⟩
  | 58 => ⟨S50000x64, .f32⟩
  | 59 => ⟨S50000x64, .f32⟩
  | 60 => ⟨S1x64x64, .f32⟩
  | 61 => ⟨S64x64, .f32⟩
  | 62 => ⟨S50000x64, .f32⟩
  | 63 => ⟨S_, .f32⟩
  | 64 => ⟨S50000x64, .f32⟩
  | 65 => ⟨S50000x64, .f32⟩
  | 66 => ⟨S1x64, .f32⟩
  | 67 => ⟨S64, .f32⟩
  | 68 => ⟨S1x64, .f32⟩
  | 69 => ⟨S64, .f32⟩
  | 70 => ⟨S_, .f32⟩
  | 71 => ⟨S64, .f32⟩
  | 72 => ⟨S_, .f32⟩
  | 73 => ⟨S64, .f32⟩
  | 74 => ⟨S64, .f32⟩
  | 75 => ⟨S1x64, .f32⟩
  | 76 => ⟨S50000x64, .f32⟩
  | 77 => ⟨S50000x64, .f32⟩
  | 78 => ⟨S50000x64, .f32⟩
  | 79 => ⟨S_, .f32⟩
  | 80 => ⟨S64, .f32⟩
  | 81 => ⟨S_, .f32⟩
  | 82 => ⟨S64, .f32⟩
  | 83 => ⟨S64, .f32⟩
  | 84 => ⟨S1x64, .f32⟩
  | 85 => ⟨S50000x64, .f32⟩
  | 86 => ⟨S50000x64, .f32⟩
  | 87 => ⟨S1x64, .f32⟩
  | 88 => ⟨S50000x64, .f32⟩
  | 89 => ⟨S50000x64, .f32⟩
  | 90 => ⟨S_, .f32⟩
  | 91 => ⟨S64, .f32⟩
  | 92 => ⟨S64, .f32⟩
  | 93 => ⟨S64, .f32⟩
  | 94 => ⟨S1x64, .f32⟩
  | 95 => ⟨S50000x64, .f32⟩
  | 96 => ⟨S50000x64, .f32⟩
  | 97 => ⟨S1x64, .f32⟩
  | 98 => ⟨S50000x64, .f32⟩
  | 99 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c : Ref sig .tc := ⟨.hbm, 48, rfl⟩
abbrev main_v33 : Ref sig .tc := ⟨.hbm, 49, rfl⟩
abbrev main_v34 : Ref sig .tc := ⟨.hbm, 50, rfl⟩
abbrev main_c_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call0_cst : Ref sig .tc := ⟨.hbm, 65, rfl⟩
abbrev main_call0_v0 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_6 : Ref sig .tc := ⟨.hbm, 78, rfl⟩
abbrev main_v56 : Ref sig .tc := ⟨.hbm, 79, rfl⟩
abbrev main_cst_7 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_8 : Ref sig .tc := ⟨.hbm, 87, rfl⟩
abbrev main_v63 : Ref sig .tc := ⟨.hbm, 88, rfl⟩
abbrev main_cst_9 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_10 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c_11 : Ref sig .tc := ⟨.hbm, 108, rfl⟩
abbrev main_v81 : Ref sig .tc := ⟨.hbm, 109, rfl⟩
abbrev main_v82 : Ref sig .tc := ⟨.hbm, 110, rfl⟩
abbrev main_c_12 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_13 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_call2_cst : Ref sig .tc := ⟨.hbm, 125, rfl⟩
abbrev main_call2_v0 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_call3_cst : Ref sig .tc := ⟨.hbm, 131, rfl⟩
abbrev main_call3_v0 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_14 : Ref sig .tc := ⟨.hbm, 138, rfl⟩
abbrev main_v104 : Ref sig .tc := ⟨.hbm, 139, rfl⟩
abbrev main_cst_15 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_16 : Ref sig .tc := ⟨.hbm, 147, rfl⟩
abbrev main_v111 : Ref sig .tc := ⟨.hbm, 148, rfl⟩
abbrev main_cst_17 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_18 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_c_19 : Ref sig .tc := ⟨.hbm, 168, rfl⟩
abbrev main_v129 : Ref sig .tc := ⟨.hbm, 169, rfl⟩
abbrev main_v130 : Ref sig .tc := ⟨.hbm, 170, rfl⟩
abbrev main_c_20 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_cst_21 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_call4_cst : Ref sig .tc := ⟨.hbm, 185, rfl⟩
abbrev main_call4_v0 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_call5_cst : Ref sig .tc := ⟨.hbm, 191, rfl⟩
abbrev main_call5_v0 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_cst_22 : Ref sig .tc := ⟨.hbm, 198, rfl⟩
abbrev main_v152 : Ref sig .tc := ⟨.hbm, 199, rfl⟩
abbrev main_cst_23 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_cst_24 : Ref sig .tc := ⟨.hbm, 207, rfl⟩
abbrev main_v159 : Ref sig .tc := ⟨.hbm, 208, rfl⟩
abbrev main_cst_25 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_cst_26 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KRun.lean ====
/-
  The idealized kernel's run with its result named.

  The program is sixteen segments: eight stretches of host operations, each followed by a grid of kernel launches.
  The launch theorem for such a chain of segments gives: every weakly fair execution terminates without a fault,
  and in the final state every buffer that outlives the launches holds the last boundary's contents, the fold of the
  segments over the launch memory.  Read at the result buffer this names the result; read at the ten arguments, which
  no segment writes, it returns them as launched.
-/
import proofs.«131751_j26465588478351_1_alg».proof.Proof.Gen.KernelIdeal.Frame

set_option maxRecDepth 16384

noncomputable section

namespace Cert.KernelIdeal.KV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of the program terminates, nothing faulting; the result buffer ends at the last
    boundary's contents and the arguments as launched. -/
theorem run_value : θ_run defs (onTc (τ := τ) (main (F := F))) ⟨m, fun _ => 0, ρ⟩ (fun r => ∀ c : Dev nD,
      r.2.mem ((c.tc : Thread nD τ).loc main_v101) = W16 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v101 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c)⟩)

end Cert.KernelIdeal.KV

end
-- ==== Proof.Spec.lean ====
/-
  The network both programs compute, as functions of rows and columns over the extended reals.

  A feature table is a function of a row (a node) and a column (a feature).  A layer multiplies the table by a
  weight matrix (mm), clips at zero (relu), and normalises every column: the column's mean is its sum divided by
  the number of rows; its variance is written in two ways — the mean of the squares less the squared mean (varK)
  and the mean of the squared deviations from the mean (varR) — which agree on real-valued tables and need not at
  the infinities; the normalised entry is gamma * (z - mean) * (variance + epsilon)^(-1/2) + beta (norm).
  The float words of zero, of the row count 50000 and of epsilon are kept as words: both programs spell the same
  words, so they are never evaluated here.
-/
import Idealize.ShloMosaic.PureOps.Ideal
import Idealize.ShloMosaic.Lib.ValueIdx

noncomputable section

namespace Cert.Spec

open Idealize.ShloMosaic Idealize.ShloMosaic.ValueIdx

/-- The float word of +0.0, of the row count 50000.0, and of the normalisation's epsilon, at the ideal values. -/
abbrev Zw : EReal := Ideal.ofBits .f32 0x00000000#32
abbrev Nw : EReal := Ideal.ofBits .f32 0x47435000#32
abbrev εw : EReal := Ideal.ofBits .f32 0x3727C5AC#32

/-! ## Arrays read by row and column -/

/-- A two-axis array as a function of its row and its column. -/
def cur {α : Type} {n k : ℕ} (x : (⟨2, ![n, k]⟩ : Shape).Idx → α) : Fin n → Fin k → α := fun r c => x (ix2 r c)

/-- A one-row array as a function of its column. -/
def row {α : Type} {k : ℕ} (x : (⟨2, ![1, k]⟩ : Shape).Idx → α) : Fin k → α := fun c => x (ix2 0 c)

/-- A one-axis array as a function of its position. -/
def vec {α : Type} {k : ℕ} (x : (⟨1, ![k]⟩ : Shape).Idx → α) : Fin k → α := fun c => x (ix1 c)

/-- Two-axis arrays that agree at every row and column are equal. -/
theorem ext2 {α : Type} {n k : ℕ} {x y : (⟨2, ![n, k]⟩ : Shape).Idx → α} (h : ∀ r c, x (ix2 r c) = y (ix2 r c)) : x = y :=
  funext fun i => by rw [eq_ix2 i]; exact h _ _

/-! ## The layers -/

variable {n q k : ℕ}

/-- The product of a table with a weight matrix: entry (r, c) sums, over the inner position j, a r j * w j c. -/
def mm (a : Fin n → Fin q → EReal) (w : Fin q → Fin k → EReal) : Fin n → Fin k → EReal := fun r c => ∑ j, a r j * w j c

/-- Clipping at zero. -/
def relu (a : Fin n → Fin k → EReal) : Fin n → Fin k → EReal := fun r c => max (a r c) Zw

/-- The input transform: the product with the weights plus the bias of the column. -/
def lin (x : Fin n → Fin q → EReal) (w : Fin q → Fin k → EReal) (b : Fin k → EReal) : Fin n → Fin k → EReal :=
  fun r c => mm x w r c + b c

/-- The two-layer perceptron of a graph layer: product, clip, product, clip. -/
def mlp (a : Fin n → Fin q → EReal) (w1 : Fin q → Fin k → EReal) (w2 : Fin k → Fin k → EReal) : Fin n → Fin k → EReal :=
  relu (mm (relu (mm a w1)) w2)

/-- The sum of a column. -/
def colSum (a : Fin n → Fin k → EReal) : Fin k → EReal := fun c => ∑ r, a r c

/-- The table of squares. -/
def sq (a : Fin n → Fin k → EReal) : Fin n → Fin k → EReal := fun r c => a r c * a r c

/-- The mean of a column: its sum divided by the row count's word. -/
def mean (a : Fin n → Fin k → EReal) : Fin k → EReal := fun c => Ideal.div (colSum a c) Nw

/-- The variance as the mean of the squares less the squared mean. -/
def varK (a : Fin n → Fin k → EReal) : Fin k → EReal := fun c => Ideal.div (colSum (sq a) c) Nw - mean a c * mean a c

/-- The variance as the mean of the squared deviations from the mean. -/
def varR (a : Fin n → Fin k → EReal) : Fin k → EReal :=
  fun c => Ideal.div (colSum (sq fun r c => a r c - mean a c) c) Nw

/-- The normalised, scaled and shifted entry. -/
def norm (z : Fin n → Fin k → EReal) (mu var g b : Fin k → EReal) : Fin n → Fin k → EReal :=
  fun r c => ((g c * (z r c - mu c)) * FloatOps.rsqrt (F := Ideal) (φ := .f32) (var c + εw)) + b c

/-- Batch normalisation with the variance in its first spelling, and in its second. -/
def bnK (z : Fin n → Fin k → EReal) (g b : Fin k → EReal) : Fin n → Fin k → EReal := norm z (mean z) (varK z) g b
def bnR (z : Fin n → Fin k → EReal) (g b : Fin k → EReal) : Fin n → Fin k → EReal := norm z (mean z) (varR z) g b

end Cert.Spec

end
-- ==== Proof.LibRealAlgebra.lean ====
/-
  Real arithmetic inside the extended reals. The coercion of the reals commutes with finite sums, with the quotient by a
  nonzero real and with the maximum; the float words 0, 1 and 100000 denote those reals and the batch-norm epsilon a
  positive real. Two identities of a graph-convolution layer with batch normalisation, on real-valued data:
  (1) the mean of a set of gathered rows (their sum times the reciprocal of the count), multiplied on the right by a weight
      column, is the sum of the rows' products with the column divided by the count;
  (2) the mean square minus the squared mean is the mean of the squared deviations from the mean.
-/
import Idealize.ShloMosaic.PureOps.Ideal

noncomputable section

namespace Cert.Lib

open Idealize.ShloMosaic

/-! ## Literals -/

/-- The word of `+0.0` denotes 0. -/
theorem ofBits_zero : Ideal.ofBits .f32 0x00000000#32 = 0 := by
  simp [Ideal.ofBits, Ideal.ieee]

/-- The word of `1.0` denotes 1. -/
theorem ofBits_one : Ideal.ofBits .f32 0x3F800000#32 = 1 := by
  simp [Ideal.ofBits, Ideal.ieee, -EReal.coe_mul]; norm_num

/-- The word of `100000.0` denotes the real 100000. -/
theorem ofBits_1e5 : Ideal.ofBits .f32 0x47C35000#32 = ((100000 : ℝ) : EReal) := by
  simp [Ideal.ofBits, Ideal.ieee, -EReal.coe_mul]; norm_num

/-- The batch-norm epsilon's word denotes a positive real. -/
theorem ofBits_eps : ∃ r : ℝ, 0 < r ∧ Ideal.ofBits .f32 0x3727C5AC#32 = (r : EReal) := by
  refine ⟨_, ?_, by simp [Ideal.ofBits, Ideal.ieee, -EReal.coe_mul]; rfl⟩
  norm_num

/-! ## The coercion and finite sums, quotients, maxima -/

/-- The coercion of the reals commutes with finite sums. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The quotient of a real by a nonzero real. -/
theorem div_coe_coe (x y : ℝ) (hy : y ≠ 0) : Ideal.div (x : EReal) (y : EReal) = ((x / y : ℝ) : EReal) := by
  rw [Ideal.div_coe hy, ← EReal.coe_mul, mul_one_div]

/-! ## The two identities -/

/-- The mean of gathered rows, then the weights: over the reals. -/
theorem mean_then_weights_real {E K : Type*} [Fintype K] (S : Finset E) (X : E → K → ℝ) (W : K → ℝ) (c : ℝ) (hc : c ≠ 0) :
    (∑ k, ((∑ e ∈ S, X e k) * (1 / c)) * W k) = (∑ e ∈ S, ∑ k, X e k * W k) / c := by
  rw [Finset.sum_comm, Finset.sum_div]
  refine Finset.sum_congr rfl fun k _ => ?_
  rw [Finset.sum_mul, Finset.sum_mul, Finset.sum_div]
  refine Finset.sum_congr rfl fun e _ => ?_
  field_simp

/-- The mean square minus the squared mean is the mean squared deviation: over the reals. -/
theorem var_real {V : Type*} [Fintype V] (x : V → ℝ) (n : ℝ) (hn : n ≠ 0) (hcard : (Fintype.card V : ℝ) = n) :
    (∑ v, x v * x v) / n - (∑ v, x v) / n * ((∑ v, x v) / n)
      = (∑ v, (x v - (∑ u, x u) / n) * (x v - (∑ u, x u) / n)) / n := by
  have h : ∀ v, (x v - (∑ u, x u) / n) * (x v - (∑ u, x u) / n)
      = x v * x v - 2 * ((∑ u, x u) / n) * x v + ((∑ u, x u) / n) * ((∑ u, x u) / n) := fun v => by ring
  simp only [h, Finset.sum_add_distrib, Finset.sum_sub_distrib, ← Finset.mul_sum, Finset.sum_const, Finset.card_univ,
    nsmul_eq_mul, hcard]
  field_simp
  ring

end Cert.Lib

end
-- ==== Proof.LibGatherScatter.lean ====
/-
  General lemmas reading a row gather and a row scatter-add at an index, at the ideal values.

  A gather of whole rows of an n × k array at e start indices (one signed word per result row) reads, at result
  element (a, b), the operand's element (r, b), r the start index clamped into [0, n − 1].  A scatter of e update
  rows into an n × k array (or of e update scalars into an n-vector) sends update row a to operand row w when the
  signed scatter index w lies in [0, n), and drops it otherwise; the accumulating scatter at the ideal values is
  then the operand plus, at row v, the sum of the update rows whose index is v.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Lib

/-- The row a gather's start index reads: the index word read as a signed integer and clamped into
    [0, n − 1]. -/
def rowOf (n : ℕ) (hn : 0 < n) (w : BitVec 32) : Fin n := ⟨min w.toInt.toNat (n - 1), by omega⟩

/-- The value of rowOf: the signed reading clamped into [0, n − 1]. -/
theorem rowOf_val (n : ℕ) (hn : 0 < n) (w : BitVec 32) : (rowOf n hn w).val = min w.toInt.toNat (n - 1) := rfl

/-- A GATHER OF ROWS READ AT (a, b): with one start index per result row, naming operand axis 0, a slice of one
    whole row (slice sizes [1, k], axis 0 collapsed, axis 1 the offset axis), result element (a, b) is the
    operand's element (r, b) where r is start index a read signed and clamped into [0, n − 1]. -/
theorem gather_rows_apply {α : Type} {n e k : ℕ} (hn : 0 < n)
    (d : GatherDims ⟨2, ![n, k]⟩ ⟨2, ![e, 1]⟩ ⟨2, ![e, k]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, k])
    (x : (⟨2, ![n, k]⟩ : Shape).Idx → α) (idx : IVec ⟨2, ![e, 1]⟩ 32) (a : Fin e) (b : Fin k) :
    Host.gather d x idx (ix2 a b) = x (ix2 (rowOf n hn (idx (ix2 a 0))) b) := by
  obtain ⟨od, cd, ob, sb, sm, iv, ss, wf⟩ := d
  dsimp only at hod hcd hob hsb hsm hiv hss
  subst hod hcd hob hsb hsm hiv hss
  unfold Host.gather
  refine congrArg x ?_
  funext c
  refine Fin.ext ?_
  match c with
  | ⟨0, _⟩ =>
    show GatherDims.start _ (ix2 a b) idx 0 + GatherDims.batchCoord _ (ix2 a b) 0 + GatherDims.offCoord _ (ix2 a b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (D : GatherDims ⟨2, ![n, k]⟩ ⟨2, ![e, 1]⟩ ⟨2, ![e, k]⟩)
        (hD : D = ⟨[1], [0], [], [], [0], 1, ![1, k], wf⟩) (c : Fin D.startIndexMap.length),
        D.siIdx (ix2 a b) c = ix2 a 0 := by
      intro D hD c
      subst hD
      funext q; refine Fin.ext ?_
      match q with
      | ⟨0, _⟩ => rfl
      | ⟨1, _⟩ =>
        have := c.isLt
        show c.val = 0
        simpa using this
    rw [hsi _ rfl]
    rfl
  | ⟨1, _⟩ =>
    show GatherDims.start _ (ix2 a b) idx 1 + GatherDims.batchCoord _ (ix2 a b) 1 + GatherDims.offCoord _ (ix2 a b) 1 = _
    rw [GatherDims.batchCoord_eq_zero _ _ _ List.not_mem_nil]
    have hst : GatherDims.start (⟨[1], [0], [], [], [0], 1, ![1, k], wf⟩ :
        GatherDims ⟨2, ![n, k]⟩ ⟨2, ![e, 1]⟩ ⟨2, ![e, k]⟩) (ix2 a b) idx 1 = 0 := by
      unfold GatherDims.start
      rw [dif_neg (fun h => absurd (congrArg Fin.val (List.mem_singleton.mp h)) Nat.one_ne_zero)]
    have hoff : GatherDims.offCoord (⟨[1], [0], [], [], [0], 1, ![1, k], wf⟩ :
        GatherDims ⟨2, ![n, k]⟩ ⟨2, ![e, 1]⟩ ⟨2, ![e, k]⟩) (ix2 a b) 1 = b.val := by
      unfold GatherDims.offCoord
      rw [dif_pos ((GatherDims.mem_sKept _ _).mpr ⟨fun h => absurd (congrArg Fin.val (List.mem_singleton.mp h)) Nat.one_ne_zero, List.not_mem_nil⟩)]
      rfl
    rw [hst, hoff]
    simp

/-- Where a scatter index lands: the row the index word names when, read as a signed integer, it lies in
    [0, n); none otherwise (the update is dropped). -/
def landOf (n : ℕ) (w : BitVec 32) : Option (Fin n) :=
  if h : 0 ≤ w.toInt ∧ w.toInt < n then some ⟨w.toInt.toNat, by omega⟩ else none

/-- An index in range lands on the row it names. -/
theorem landOf_eq_some_iff (n : ℕ) (w : BitVec 32) (v : Fin n) :
    landOf n w = some v ↔ w.toInt = (v.val : ℤ) := by
  unfold landOf
  constructor
  · intro h
    split at h
    · rename_i hw
      have := congrArg Fin.val (Option.some.inj h)
      simp only at this
      omega
    · exact absurd h (by simp)
  · intro h
    have hw : 0 ≤ w.toInt ∧ w.toInt < n := by have := v.isLt; omega
    rw [dif_pos hw]
    refine congrArg some (Fin.ext ?_)
    show w.toInt.toNat = v.val
    omega

/-- The dimension numbers of a scatter of e update rows of k columns into an n × k array: the updates' axis 1 the
    window axis, the operand's axis 0 inserted and named by the one-component scatter index. -/
private abbrev sc2 (n e k : ℕ) (wf : ScatterDims.WF ⟨2, ![n, k]⟩ ⟨2, ![e, 1]⟩ ⟨2, ![e, k]⟩ [1] [0] [0] 1) :
    ScatterDims ⟨2, ![n, k]⟩ ⟨2, ![e, 1]⟩ ⟨2, ![e, k]⟩ := ⟨[1], [0], [0], 1, wf⟩

section Sc2
variable {n e k : ℕ} (wf : ScatterDims.WF ⟨2, ![n, k]⟩ ⟨2, ![e, 1]⟩ ⟨2, ![e, k]⟩ [1] [0] [0] 1)
  (idx : IVec ⟨2, ![e, 1]⟩ 32) (a : Fin e) (b : Fin k)

/-- Update element (a, b) reads scatter index a. -/
private theorem sc2_siIdx (c : Fin (sc2 n e k wf).scatterDimsToOperandDims.length) :
    (sc2 n e k wf).siIdx (ix2 a b) c = ix2 a 0 := by
  funext q; refine Fin.ext ?_
  match q with
  | ⟨0, _⟩ => rfl
  | ⟨1, _⟩ =>
    have := c.isLt
    show c.val = 0
    simpa using this

/-- On the operand's axis 0 the window starts at the scatter index, read signed. -/
private theorem sc2_start0 : (sc2 n e k wf).start (ix2 a b) idx 0 = (idx (ix2 a 0)).toInt := by
  unfold ScatterDims.start
  rw [dif_pos (List.mem_singleton.mpr rfl), sc2_siIdx]

/-- On the operand's axis 1, which the scatter index does not name, the window starts at 0. -/
private theorem sc2_start1 : (sc2 n e k wf).start (ix2 a b) idx 1 = 0 := by
  unfold ScatterDims.start
  rw [dif_neg (fun h => absurd (congrArg Fin.val (List.mem_singleton.mp h)) Nat.one_ne_zero)]

/-- The inserted axis 0 has window coordinate 0. -/
private theorem sc2_window0 : (sc2 n e k wf).window (ix2 a b) 0 = 0 := by
  unfold ScatterDims.window
  rw [dif_neg (fun h => (of_decide_eq_true (List.mem_filter.mp h).2) (List.mem_singleton.mpr rfl))]

/-- The window coordinate on axis 1 is the update's column. -/
private theorem sc2_window1 : (sc2 n e k wf).window (ix2 a b) 1 = b.val := by
  unfold ScatterDims.window
  have h1 : (1 : Fin (⟨2, ![n, k]⟩ : Shape).rank) ∈ (sc2 n e k wf).sKept :=
    List.mem_filter.mpr ⟨List.mem_finRange _, decide_eq_true
      (fun h => absurd (congrArg Fin.val (List.mem_singleton.mp h)) Nat.one_ne_zero)⟩
  rw [dif_pos h1]
  rfl

end Sc2

/-- WHERE AN UPDATE ROW'S ELEMENT LANDS: update element (a, b) of a row scatter lands on operand element (v, b),
    v the row scatter index a names, when that index read signed lies in [0, n); it is dropped otherwise. -/
theorem scatter2_resultIdx {n e k : ℕ} (d : ScatterDims ⟨2, ![n, k]⟩ ⟨2, ![e, 1]⟩ ⟨2, ![e, k]⟩)
    (huw : d.updateWindowDims = [1]) (hiw : d.insertedWindowDims = [0]) (hsd : d.scatterDimsToOperandDims = [0])
    (hiv : d.indexVectorDim = 1) (idx : IVec ⟨2, ![e, 1]⟩ 32) (a : Fin e) (b : Fin k) :
    d.resultIdx? (ix2 a b) idx = (landOf n (idx (ix2 a 0))).map (fun v => ix2 v b) := by
  obtain ⟨uw, iw, sd, iv, wf⟩ := d
  dsimp only at huw hiw hsd hiv
  subst huw hiw hsd hiv
  show (sc2 n e k wf).resultIdx? (ix2 a b) idx = _
  unfold ScatterDims.resultIdx? landOf
  by_cases h : 0 ≤ (idx (ix2 a 0)).toInt ∧ (idx (ix2 a 0)).toInt < n
  · have hall : ∀ c, 0 ≤ (sc2 n e k wf).start (ix2 a b) idx c + (sc2 n e k wf).window (ix2 a b) c ∧
        (sc2 n e k wf).start (ix2 a b) idx c + (sc2 n e k wf).window (ix2 a b) c
          < (⟨2, ![n, k]⟩ : Shape).size c := by
      intro c
      match c with
      | ⟨0, _⟩ =>
        show 0 ≤ (sc2 n e k wf).start (ix2 a b) idx 0 + ((sc2 n e k wf).window (ix2 a b) 0 : ℕ) ∧
          (sc2 n e k wf).start (ix2 a b) idx 0 + ((sc2 n e k wf).window (ix2 a b) 0 : ℕ) < (n : ℤ)
        rw [sc2_start0, sc2_window0]
        simpa using h
      | ⟨1, _⟩ =>
        show 0 ≤ (sc2 n e k wf).start (ix2 a b) idx 1 + ((sc2 n e k wf).window (ix2 a b) 1 : ℕ) ∧
          (sc2 n e k wf).start (ix2 a b) idx 1 + ((sc2 n e k wf).window (ix2 a b) 1 : ℕ) < (k : ℤ)
        rw [sc2_start1, sc2_window1]
        have := b.isLt
        omega
    rw [dif_pos hall, dif_pos h]
    refine congrArg some ?_
    funext c; refine Fin.ext ?_
    match c with
    | ⟨0, _⟩ =>
      show ((sc2 n e k wf).start (ix2 a b) idx 0 + ((sc2 n e k wf).window (ix2 a b) 0 : ℕ)).toNat
        = (idx (ix2 a 0)).toInt.toNat
      rw [sc2_start0, sc2_window0]
      simp
    | ⟨1, _⟩ =>
      show ((sc2 n e k wf).start (ix2 a b) idx 1 + ((sc2 n e k wf).window (ix2 a b) 1 : ℕ)).toNat = b.val
      rw [sc2_start1, sc2_window1]
      simp
  · rw [dif_neg h, dif_neg (fun hall => h (by
      have := hall 0
      rw [sc2_start0, sc2_window0] at this
      simpa using this))]
    rfl

/-- The dimension numbers of a scatter of e update scalars into an n-vector: no window axis, the operand's one
    axis inserted and named by the one-component scatter index. -/
private abbrev sc1 (n e : ℕ) (wf : ScatterDims.WF ⟨1, ![n]⟩ ⟨2, ![e, 1]⟩ ⟨1, ![e]⟩ [] [0] [0] 1) :
    ScatterDims ⟨1, ![n]⟩ ⟨2, ![e, 1]⟩ ⟨1, ![e]⟩ := ⟨[], [0], [0], 1, wf⟩

section Sc1
variable {n e : ℕ} (wf : ScatterDims.WF ⟨1, ![n]⟩ ⟨2, ![e, 1]⟩ ⟨1, ![e]⟩ [] [0] [0] 1)
  (idx : IVec ⟨2, ![e, 1]⟩ 32) (a : Fin e)

/-- Update element a reads scatter index a. -/
private theorem sc1_siIdx (c : Fin (sc1 n e wf).scatterDimsToOperandDims.length) :
    (sc1 n e wf).siIdx (ix1 a) c = ix2 a 0 := by
  funext q; refine Fin.ext ?_
  match q with
  | ⟨0, _⟩ => rfl
  | ⟨1, _⟩ =>
    have := c.isLt
    show c.val = 0
    simpa using this

/-- On the operand's axis the window starts at the scatter index, read signed. -/
private theorem sc1_start0 : (sc1 n e wf).start (ix1 a) idx 0 = (idx (ix2 a 0)).toInt := by
  unfold ScatterDims.start
  rw [dif_pos (List.mem_singleton.mpr rfl), sc1_siIdx]

/-- The inserted axis has window coordinate 0. -/
private theorem sc1_window0 : (sc1 n e wf).window (ix1 a) 0 = 0 := by
  unfold ScatterDims.window
  rw [dif_neg (fun h => (of_decide_eq_true (List.mem_filter.mp h).2) (List.mem_singleton.mpr rfl))]

end Sc1

/-- WHERE AN UPDATE SCALAR LANDS: update element a of a scatter into an n-vector lands on operand element v, the
    position scatter index a names, when that index read signed lies in [0, n); it is dropped otherwise. -/
theorem scatter1_resultIdx {n e : ℕ} (d : ScatterDims ⟨1, ![n]⟩ ⟨2, ![e, 1]⟩ ⟨1, ![e]⟩)
    (huw : d.updateWindowDims = []) (hiw : d.insertedWindowDims = [0]) (hsd : d.scatterDimsToOperandDims = [0])
    (hiv : d.indexVectorDim = 1) (idx : IVec ⟨2, ![e, 1]⟩ 32) (a : Fin e) :
    d.resultIdx? (ix1 a) idx = (landOf n (idx (ix2 a 0))).map ix1 := by
  obtain ⟨uw, iw, sd, iv, wf⟩ := d
  dsimp only at huw hiw hsd hiv
  subst huw hiw hsd hiv
  show (sc1 n e wf).resultIdx? (ix1 a) idx = _
  unfold ScatterDims.resultIdx? landOf
  by_cases h : 0 ≤ (idx (ix2 a 0)).toInt ∧ (idx (ix2 a 0)).toInt < n
  · have hall : ∀ c, 0 ≤ (sc1 n e wf).start (ix1 a) idx c + (sc1 n e wf).window (ix1 a) c ∧
        (sc1 n e wf).start (ix1 a) idx c + (sc1 n e wf).window (ix1 a) c
          < (⟨1, ![n]⟩ : Shape).size c := by
      intro c
      match c with
      | ⟨0, _⟩ =>
        show 0 ≤ (sc1 n e wf).start (ix1 a) idx 0 + ((sc1 n e wf).window (ix1 a) 0 : ℕ) ∧
          (sc1 n e wf).start (ix1 a) idx 0 + ((sc1 n e wf).window (ix1 a) 0 : ℕ) < (n : ℤ)
        rw [sc1_start0, sc1_window0]
        simpa using h
    rw [dif_pos hall, dif_pos h]
    refine congrArg some ?_
    funext c; refine Fin.ext ?_
    match c with
    | ⟨0, _⟩ =>
      show ((sc1 n e wf).start (ix1 a) idx 0 + ((sc1 n e wf).window (ix1 a) 0 : ℕ)).toNat
        = (idx (ix2 a 0)).toInt.toNat
      rw [sc1_start0, sc1_window0]
      simp
  · rw [dif_neg h, dif_neg (fun hall => h (by
      have := hall 0
      rw [sc1_start0, sc1_window0] at this
      simpa using this))]
    rfl

/-! ## The accumulating scatter at an index -/

/-- Two rank-2 indices agree exactly when their coordinates do. -/
private theorem ix2_eq_iff {n0 n1 : ℕ} (a a' : Fin n0) (b b' : Fin n1) :
    ix2 a b = ix2 a' b' ↔ a = a' ∧ b = b' := by
  constructor
  · intro h; exact ⟨congrFun h 0, congrFun h 1⟩
  · rintro ⟨rfl, rfl⟩; rfl

/-- Two rank-1 indices agree exactly when their coordinates do. -/
private theorem ix1_eq_iff {n0 : ℕ} (a a' : Fin n0) : ix1 a = ix1 a' ↔ a = a' := by
  constructor
  · intro h; exact congrFun h 0
  · rintro rfl; rfl

/-- A rank-1 index set is its coordinate range … -/
private def idxEquiv1 {n0 : ℕ} : (⟨1, ![n0]⟩ : Shape).Idx ≃ Fin n0 where
  toFun i := i 0
  invFun a := ix1 a
  left_inv i := (eq_ix1 i).symm
  right_inv _ := rfl

/-- … so a sum over it is the sum over the coordinate. -/
private theorem sum_idx1 {M : Type*} [AddCommMonoid M] {n0 : ℕ} (f : (⟨1, ![n0]⟩ : Shape).Idx → M) :
    ∑ i, f i = ∑ a : Fin n0, f (ix1 a) := by
  rw [← Equiv.sum_comp (idxEquiv1 (n0 := n0)).symm f]
  rfl

/-- THE ACCUMULATING ROW SCATTER AT (v, b), at the ideal values: the operand's element plus the sum, over the
    update rows a whose scatter index read signed is v, of update element (a, b). Rows whose index is negative
    or at least n contribute nothing. -/
theorem scatterAdd2_apply {φ : FTy} {n e k : ℕ} (d : ScatterDims ⟨2, ![n, k]⟩ ⟨2, ![e, 1]⟩ ⟨2, ![e, k]⟩)
    (huw : d.updateWindowDims = [1]) (hiw : d.insertedWindowDims = [0]) (hsd : d.scatterDimsToOperandDims = [0])
    (hiv : d.indexVectorDim = 1) (x : FVec Ideal ⟨2, ![n, k]⟩ φ) (idx : IVec ⟨2, ![e, 1]⟩ 32)
    (upd : FVec Ideal ⟨2, ![e, k]⟩ φ) (v : Fin n) (b : Fin k) :
    Host.scatterAdd (F := Ideal) d x idx upd (ix2 v b)
      = x (ix2 v b) + ∑ a ∈ Finset.univ.filter (fun a : Fin e => landOf n (idx (ix2 a 0)) = some v), upd (ix2 a b) := by
  show Ideal.hostScatterAdd d x idx upd (ix2 v b) = _
  unfold Ideal.hostScatterAdd
  refine congrArg (x (ix2 v b) + ·) ?_
  rw [Finset.sum_filter, Finset.sum_filter, sum_idx2]
  refine Finset.sum_congr rfl (fun a _ => ?_)
  simp only [scatter2_resultIdx d huw hiw hsd hiv]
  cases hL : landOf n (idx (ix2 a 0)) with
  | none => simp
  | some v' =>
    simp only [Option.map_some, Option.some.injEq, ix2_eq_iff]
    by_cases hv : v' = v
    · subst hv; simp
    · simp [hv]

/-- THE ACCUMULATING SCALAR SCATTER AT v, at the ideal values: the operand's element plus the sum, over the
    updates a whose scatter index read signed is v, of update element a. -/
theorem scatterAdd1_apply {φ : FTy} {n e : ℕ} (d : ScatterDims ⟨1, ![n]⟩ ⟨2, ![e, 1]⟩ ⟨1, ![e]⟩)
    (huw : d.updateWindowDims = []) (hiw : d.insertedWindowDims = [0]) (hsd : d.scatterDimsToOperandDims = [0])
    (hiv : d.indexVectorDim = 1) (x : FVec Ideal ⟨1, ![n]⟩ φ) (idx : IVec ⟨2, ![e, 1]⟩ 32)
    (upd : FVec Ideal ⟨1, ![e]⟩ φ) (v : Fin n) :
    Host.scatterAdd (F := Ideal) d x idx upd (ix1 v)
      = x (ix1 v) + ∑ a ∈ Finset.univ.filter (fun a : Fin e => landOf n (idx (ix2 a 0)) = some v), upd (ix1 a) := by
  show Ideal.hostScatterAdd d x idx upd (ix1 v) = _
  unfold Ideal.hostScatterAdd
  refine congrArg (x (ix1 v) + ·) ?_
  rw [Finset.sum_filter, Finset.sum_filter, sum_idx1]
  refine Finset.sum_congr rfl (fun a _ => ?_)
  simp only [scatter1_resultIdx d huw hiw hsd hiv]
  cases hL : landOf n (idx (ix2 a 0)) with
  | none => simp
  | some v' => simp [ix1_eq_iff]

/-! ## The vocabulary of the two programs' edge lists -/

/-- A source index counted from the end when negative: 100000 is added to it (the programs' select (cmpi slt s 0) (addi s 100000) s, read at one entry). -/
def wrapWord (s : BitVec 32) : BitVec 32 := Scalar.select (IntOp.cmpi .slt s 0#32) (IntOp.addi s 100000#32) s
/-- The row of the feature table an edge gathers: its wrapped source, clamped into the table. -/
def srcRow (e : (⟨2, ![2, 800000]⟩ : Shape).Idx → BitVec 32) (a : Fin 800000) : Fin 100000 := rowOf 100000 (by decide) (wrapWord (e (ix2 0 a)))
/-- The edges whose destination is node v (an edge whose destination is no node lands nowhere). -/
def inbox (e : (⟨2, ![2, 800000]⟩ : Shape).Idx → BitVec 32) (v : Fin 100000) : Finset (Fin 800000) := Finset.univ.filter (fun a => landOf 100000 (e (ix2 1 a)) = some v)
/-- The in-degree of v clipped below at one, as the programs compute it: max (0 + Σ over the inbox of 1) 1, the literals as their float words. -/
def degAt (e : (⟨2, ![2, 800000]⟩ : Shape).Idx → BitVec 32) (v : Fin 100000) : EReal := max (Ideal.ofBits .f32 0x00000000#32 + ∑ _a ∈ inbox e v, Ideal.ofBits .f32 0x3F800000#32) (Ideal.ofBits .f32 0x3F800000#32)

end Cert.Lib

end
-- ==== Proof.LibLayerAlgebra.lean ====
/-
  The layer algebra over the extended reals, for real-valued data. An extended real "is a real" when it is the coercion of
  one; sums, products, differences, and quotients by a nonzero real of such are such. A node's clipped in-degree is a real
  at least one. A relation's term of a layer, at one node and one output column: the sum over the node's inbox of the
  gathered rows, times the reciprocal of the clipped in-degree, then multiplied on the right by a weight column and summed
  over the features, is the inbox's sum of the rows' products with the column, divided by the clipped in-degree.
-/
import proofs.«131751_j26465588478351_1_alg».proof.Proof.LibRealAlgebra
import proofs.«131751_j26465588478351_1_alg».proof.Proof.LibGatherScatter

noncomputable section

namespace Cert.Lib

open Idealize.ShloMosaic Idealize.ShloMosaic.ValueIdx

/-- An extended real that is the coercion of a real. -/
def IsReal (x : EReal) : Prop := ∃ r : ℝ, x = (r : EReal)

theorem IsReal.coe (r : ℝ) : IsReal (r : EReal) := ⟨r, rfl⟩
theorem isReal_zero : IsReal 0 := ⟨0, rfl⟩
theorem isReal_one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.sum {ι : Type*} (s : Finset ι) {f : ι → EReal} (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))
theorem IsReal.div {x : EReal} (hx : IsReal x) {y : ℝ} (hy : y ≠ 0) : IsReal (Ideal.div x (y : EReal)) := by
  obtain ⟨a, rfl⟩ := hx; exact ⟨a / y, div_coe_coe a y hy⟩

/-- Adding one `n` times gives the real `n`. -/
theorem nsmul_one_coe (n : ℕ) : n • (1 : EReal) = ((n : ℝ) : EReal) := by
  induction n with
  | zero => simp
  | succ n ih => rw [succ_nsmul, ih, Nat.cast_succ, EReal.coe_add]; rfl

/-- The clipped in-degree is a real, and at least one: the maximum of a count and one. -/
theorem degAt_real (e : (⟨2, ![2, 800000]⟩ : Shape).Idx → BitVec 32) (v : Fin 100000) :
    ∃ r : ℝ, 1 ≤ r ∧ degAt e v = (r : EReal) := by
  refine ⟨max ((inbox e v).card : ℝ) 1, le_max_right _ _, ?_⟩
  unfold degAt
  rw [ofBits_zero, ofBits_one, zero_add, Finset.sum_const, nsmul_one_coe,
    show (1 : EReal) = ((1 : ℝ) : EReal) from rfl]
  exact (EReal.coe_strictMono.monotone.map_max).symm

/-- The mean of gathered rows, then the weights, is the inbox's sum of products divided by the count. -/
theorem rel_term {K : Type*} [Fintype K] (S : Finset (Fin 800000)) (X : Fin 800000 → K → EReal) (W : K → EReal) (c : EReal)
    (hX : ∀ a k, IsReal (X a k)) (hW : ∀ k, IsReal (W k)) (hc : ∃ r : ℝ, 1 ≤ r ∧ c = (r : EReal)) :
    (∑ k, ((Ideal.ofBits .f32 0x00000000#32 + ∑ a ∈ S, X a k) * Ideal.div (Ideal.ofBits .f32 0x3F800000#32) c) * W k)
      = Ideal.div (Ideal.ofBits .f32 0x00000000#32 + ∑ a ∈ S, ∑ k, X a k * W k) c := by
  obtain ⟨c', hc1, rfl⟩ := hc
  have hc0 : c' ≠ 0 := by linarith
  choose X' hX' using hX
  choose W' hW' using hW
  simp only [hX', hW', ofBits_zero, ofBits_one, zero_add]
  rw [show (1 : EReal) = ((1 : ℝ) : EReal) from rfl, div_coe_coe 1 c' hc0]
  simp only [← EReal.coe_mul, coe_sum]
  rw [div_coe_coe _ c' hc0, mean_then_weights_real S X' W' c' hc0]

end Cert.Lib

end
-- ==== Proof.LibNormAlgebra.lean ====
/-
  The scalar algebra of a column normalisation over the extended reals, for real-valued data: the mean of a column and
  its variance in two spellings (mean square less squared mean; mean squared deviation), which agree and give a
  nonnegative real; the reciprocal square root of a nonnegative real plus a positive constant is a positive real; the
  normalised, scaled and shifted entry is real, and so is its exponential linear unit; and two spellings of the
  exponential linear unit agree at every extended real.
-/
import proofs.«131751_j26465588478351_1_alg».proof.Proof.LibLayerAlgebra

noncomputable section

namespace Cert.Lib

open Idealize.ShloMosaic
open scoped BigOperators

local notation "Zw" => Ideal.ofBits FTy.f32 0x00000000#32
local notation "Nw" => Ideal.ofBits FTy.f32 0x47C35000#32
local notation "εw" => Ideal.ofBits FTy.f32 0x3727C5AC#32
local notation "Ow" => Ideal.ofBits FTy.f32 0x3F800000#32
-- the count less the correction, which is the integer word zero read as a float
local notation "Dw" => (Ideal.ofBits FTy.f32 0x47C35000#32 - FloatOps.sitofp (F := Ideal) FTy.f32 (0#32 : BitVec 32))

/-! ## The mean -/

/-- A sum divided by the count, with or without a leading zero. -/
theorem mean_eq (h : Fin 100000 → EReal) : Ideal.div (∑ v, h v) Nw = Ideal.div (Zw + ∑ v, h v) Nw := by
  rw [ofBits_zero, zero_add]

/-- The mean of real entries, as a real. -/
theorem mean_val (h' : Fin 100000 → ℝ) :
    Ideal.div (Zw + ∑ v, (h' v : EReal)) Nw = (((∑ v, h' v) / 100000 : ℝ) : EReal) := by
  rw [ofBits_zero, zero_add, ofBits_1e5, coe_sum, div_coe_coe _ _ (by norm_num)]

/-- The mean of real entries is real. -/
theorem mean_isReal (h : Fin 100000 → EReal) (hh : ∀ v, IsReal (h v)) : IsReal (Ideal.div (Zw + ∑ v, h v) Nw) := by
  rw [ofBits_zero, zero_add, ofBits_1e5]
  exact (IsReal.sum _ fun v _ => hh v).div (by norm_num)

/-! ## The variance's divisor -/

/-- The count less a zero correction is the real 100000. -/
theorem refDivisor_eq : Dw = ((100000 : ℝ) : EReal) := by
  show Ideal.ofBits .f32 0x47C35000#32 - (((0#32 : BitVec 32).toInt : ℝ) : EReal) = _
  rw [ofBits_1e5]
  simp

/-- The divisor is positive: the guard of the variance holds. -/
theorem refGuard : FloatOps.cmpf (F := Ideal) (φ := .f32) .ogt Dw Zw = 1#1 := by
  rw [refDivisor_eq, ofBits_zero]
  show BitVec.ofBool (decide ((0 : EReal) < ((100000 : ℝ) : EReal))) = 1#1
  have h : (0 : EReal) < ((100000 : ℝ) : EReal) := by exact_mod_cast (by norm_num : (0 : ℝ) < 100000)
  simp [h]

/-! ## The variance -/

/-- The mean square less the squared mean is the mean squared deviation from the mean, on real entries. -/
theorem var_eq (h : Fin 100000 → EReal) (hh : ∀ v, IsReal (h v)) :
    Ideal.div (∑ v, h v * h v) Nw - Ideal.div (∑ v, h v) Nw * Ideal.div (∑ v, h v) Nw
      = Ideal.div (Zw + ∑ v, (h v - Ideal.div (Zw + ∑ u, h u) Nw) * (h v - Ideal.div (Zw + ∑ u, h u) Nw)) Dw := by
  choose h' hh' using hh
  have e : h = fun v => (h' v : EReal) := funext hh'
  subst e
  have hN : (100000 : ℝ) ≠ 0 := by norm_num
  rw [refDivisor_eq, mean_val, ofBits_zero, zero_add, ofBits_1e5]
  have hQ : ∑ v, ((h' v : EReal) * (h' v : EReal)) = ((∑ v, h' v * h' v : ℝ) : EReal) := by
    rw [← coe_sum]; exact Finset.sum_congr rfl fun v _ => (EReal.coe_mul _ _).symm
  have hD : ∑ v, (((h' v : EReal) - (((∑ u, h' u) / 100000 : ℝ) : EReal)) * ((h' v : EReal) - (((∑ u, h' u) / 100000 : ℝ) : EReal)))
      = ((∑ v, (h' v - (∑ u, h' u) / 100000) * (h' v - (∑ u, h' u) / 100000) : ℝ) : EReal) := by
    rw [← coe_sum]
    exact Finset.sum_congr rfl fun v _ => by rw [← EReal.coe_sub, ← EReal.coe_mul]
  rw [hQ, hD, coe_sum, div_coe_coe _ _ hN, div_coe_coe _ _ hN, div_coe_coe _ _ hN, ← EReal.coe_mul, ← EReal.coe_sub,
    var_real h' 100000 hN (by simp)]

/-- The variance of real entries is a nonnegative real. -/
theorem var_nonneg_real (h : Fin 100000 → EReal) (hh : ∀ v, IsReal (h v)) :
    ∃ r : ℝ, 0 ≤ r ∧
      Ideal.div (Zw + ∑ v, (h v - Ideal.div (Zw + ∑ u, h u) Nw) * (h v - Ideal.div (Zw + ∑ u, h u) Nw)) Dw = (r : EReal) := by
  choose h' hh' using hh
  have e : h = fun v => (h' v : EReal) := funext hh'
  subst e
  have hN : (100000 : ℝ) ≠ 0 := by norm_num
  refine ⟨(∑ v, (h' v - (∑ u, h' u) / 100000) * (h' v - (∑ u, h' u) / 100000)) / 100000,
    div_nonneg (Finset.sum_nonneg fun v _ => mul_self_nonneg _) (by norm_num), ?_⟩
  rw [refDivisor_eq, mean_val, ofBits_zero, zero_add]
  have hD : ∑ v, (((h' v : EReal) - (((∑ u, h' u) / 100000 : ℝ) : EReal)) * ((h' v : EReal) - (((∑ u, h' u) / 100000 : ℝ) : EReal)))
      = ((∑ v, (h' v - (∑ u, h' u) / 100000) * (h' v - (∑ u, h' u) / 100000) : ℝ) : EReal) := by
    rw [← coe_sum]
    exact Finset.sum_congr rfl fun v _ => by rw [← EReal.coe_sub, ← EReal.coe_mul]
  rw [hD, div_coe_coe _ _ hN]

/-! ## The normalised entry -/

/-- The reciprocal square root of a nonnegative real plus the small constant is a positive real. -/
theorem rsqrt_real (r : ℝ) (hr : 0 ≤ r) :
    ∃ s : ℝ, 0 < s ∧ FloatOps.rsqrt (F := Ideal) (φ := .f32) ((r : EReal) + εw) = (s : EReal) := by
  obtain ⟨e, he0, he⟩ := ofBits_eps
  have hpos : 0 < r + e := by linarith
  refine ⟨(Real.sqrt (r + e))⁻¹, inv_pos.mpr (Real.sqrt_pos.mpr hpos), ?_⟩
  rw [he, ← EReal.coe_add]
  show Ideal.rsqrt ((r + e : ℝ) : EReal) = _
  rw [Ideal.rsqrt_coe, if_neg (not_lt.mpr hpos.le), if_neg hpos.ne']

/-- The scale times the entry less the mean, times the reciprocal square root of the variance plus the small constant,
    plus the shift. -/
def normAt (x mu var gamma beta : EReal) : EReal :=
  ((gamma * (x - mu)) * FloatOps.rsqrt (F := Ideal) (φ := .f32) (var + εw)) + beta

/-- The exponential linear unit: the entry where it is positive, else its exponential less one. -/
def eluAt (y : EReal) : EReal :=
  Scalar.select (FloatOps.cmpf (F := Ideal) (φ := .f32) .ogt y Zw) y (FloatOps.exp (F := Ideal) (φ := .f32) y - Ow)

/-- The normalised entry of real data, at a nonnegative real variance, is real. -/
theorem normAt_isReal {x mu var gamma beta : EReal} (hx : IsReal x) (hmu : IsReal mu) (hg : IsReal gamma) (hb : IsReal beta)
    (hvar : ∃ r : ℝ, 0 ≤ r ∧ var = (r : EReal)) : IsReal (normAt x mu var gamma beta) := by
  obtain ⟨r, hr, rfl⟩ := hvar
  obtain ⟨s, -, hs⟩ := rsqrt_real r hr
  unfold normAt
  rw [hs]
  exact ((hg.mul (hx.sub hmu)).mul (IsReal.coe s)).add hb

/-- The exponential linear unit of a real is real. -/
theorem eluAt_isReal {y : EReal} (hy : IsReal y) : IsReal (eluAt y) := by
  obtain ⟨a, rfl⟩ := hy
  unfold eluAt Scalar.select
  split
  · exact IsReal.coe a
  · rw [ofBits_one]
    show IsReal (Ideal.exp (a : EReal) - 1)
    rw [Ideal.exp_coe]
    exact (IsReal.coe _).sub isReal_one

/-- The normalised entry's exponential linear unit, on real data at a nonnegative real variance, is real. -/
theorem bnElu_isReal {x mu var gamma beta : EReal} (hx : IsReal x) (hmu : IsReal mu) (hg : IsReal gamma) (hb : IsReal beta)
    (hvar : ∃ r : ℝ, 0 ≤ r ∧ var = (r : EReal)) : IsReal (eluAt (normAt x mu var gamma beta)) :=
  eluAt_isReal (normAt_isReal hx hmu hg hb hvar)

/-! ## Two spellings of the exponential linear unit -/

/-- The entry where it is positive, else one times the exponential less one of the entry (taken at zero where the entry
    is positive). -/
def eluRefAt (y : EReal) : EReal :=
  Scalar.select (FloatOps.cmpf (F := Ideal) (φ := .f32) .ogt y Zw) y
    (Ow * FloatOps.hostUnary (F := Ideal) (φ := .f32) .expm1
      (Scalar.select (FloatOps.cmpf (F := Ideal) (φ := .f32) .ogt y Zw) Zw y))

/-- The two spellings agree at every extended real. -/
theorem elu_eq (y : EReal) :
    Scalar.select (FloatOps.cmpf (F := Ideal) (φ := .f32) .ogt y Zw) y (FloatOps.exp (F := Ideal) (φ := .f32) y - Ow) = eluRefAt y := by
  unfold eluRefAt Scalar.select
  by_cases hc : FloatOps.cmpf (F := Ideal) (φ := .f32) .ogt y Zw = 1
  · rw [if_pos hc, if_pos hc]
  · rw [if_neg hc, if_neg hc, if_neg hc, ofBits_one, one_mul]
    rfl

/-- The same, for the named form. -/
theorem eluAt_eq (y : EReal) : eluAt y = eluRefAt y := elu_eq y

end Cert.Lib

end
-- ==== Proof.Bridge.lean ====
/-
  The two spellings of batch normalisation agree on real-valued tables, and the network built from either is the same.

  A table is real-valued when every entry is the coercion of a real.  Products with weight matrices, clipping at zero,
  column sums, means, and the normalisation itself keep a table real-valued: the variance of a real column is a
  nonnegative real, so the variance plus epsilon is positive and its reciprocal square root is a positive real.
  On a real-valued table of 50000 rows the mean of the squares less the squared mean IS the mean of the squared
  deviations (the identity over the reals, moved through the coercion), so the two normalisations are one function
  there.  The network is the input transform normalised, then three graph layers, each: aggregate, two products with
  clipping, normalise.  If the aggregation keeps tables real-valued, every table met on the way is real-valued, and the
  network with the first spelling is the network with the second.
-/
import proofs.«131751_j26465588478351_1_alg».proof.Proof.Spec
import proofs.«131751_j26465588478351_1_alg».proof.Proof.LibNormAlgebra

noncomputable section

namespace Cert.Spec

open Idealize.ShloMosaic Cert.Lib

variable {n q k : ℕ}

/-- Every entry of the table is a real. -/
def RealT (a : Fin n → Fin k → EReal) : Prop := ∀ r c, IsReal (a r c)
/-- Every entry of the vector is a real. -/
def RealV (v : Fin k → EReal) : Prop := ∀ c, IsReal (v c)

/-- The row count's word denotes the real 50000. -/
theorem Nw_eq : Nw = ((50000 : ℝ) : EReal) := by
  show Ideal.ofBits .f32 0x47435000#32 = _
  simp [Ideal.ofBits, Ideal.ieee, -EReal.coe_mul]; norm_num

theorem isReal_Zw : IsReal Zw := by
  show IsReal (Ideal.ofBits .f32 0x00000000#32)
  rw [ofBits_zero]; exact isReal_zero

/-- The larger of two reals is a real. -/
theorem isReal_max {x y : EReal} (hx : IsReal x) (hy : IsReal y) : IsReal (max x y) := by
  obtain ⟨a, rfl⟩ := hx; obtain ⟨b, rfl⟩ := hy
  exact ⟨max a b, (EReal.coe_strictMono.monotone.map_max).symm⟩

/-! ## The layers keep tables real-valued -/

theorem mm_real {a : Fin n → Fin q → EReal} {w : Fin q → Fin k → EReal} (ha : RealT a) (hw : RealT w) : RealT (mm a w) :=
  fun r c => IsReal.sum _ fun j _ => (ha r j).mul (hw j c)

theorem relu_real {a : Fin n → Fin k → EReal} (ha : RealT a) : RealT (relu a) :=
  fun r c => isReal_max (ha r c) isReal_Zw

theorem lin_real {x : Fin n → Fin q → EReal} {w : Fin q → Fin k → EReal} {b : Fin k → EReal}
    (hx : RealT x) (hw : RealT w) (hb : RealV b) : RealT (lin x w b) :=
  fun r c => (mm_real hx hw r c).add (hb c)

theorem mlp_real {a : Fin n → Fin q → EReal} {w1 : Fin q → Fin k → EReal} {w2 : Fin k → Fin k → EReal}
    (ha : RealT a) (h1 : RealT w1) (h2 : RealT w2) : RealT (mlp a w1 w2) :=
  relu_real (mm_real (relu_real (mm_real ha h1)) h2)

theorem colSum_real {a : Fin n → Fin k → EReal} (ha : RealT a) : RealV (colSum a) :=
  fun c => IsReal.sum _ fun r _ => ha r c

theorem mean_real {a : Fin n → Fin k → EReal} (ha : RealT a) : RealV (mean a) := fun c => by
  unfold mean; rw [Nw_eq]; exact (colSum_real ha c).div (by norm_num)

/-! ## The variance -/

/-- The variance of a real column, in its second spelling, is a nonnegative real. -/
theorem varR_nonneg {a : Fin n → Fin k → EReal} (ha : RealT a) (c : Fin k) :
    ∃ v : ℝ, 0 ≤ v ∧ varR a c = (v : EReal) := by
  choose a' ha' using ha
  refine ⟨(∑ r, (a' r c - (∑ u, a' u c) / 50000) * (a' r c - (∑ u, a' u c) / 50000)) / 50000,
    div_nonneg (Finset.sum_nonneg fun r _ => mul_self_nonneg _) (by norm_num), ?_⟩
  unfold varR mean colSum sq
  simp only [ha', Nw_eq, coe_sum, div_coe_coe _ (50000 : ℝ) (by norm_num), ← EReal.coe_sub, ← EReal.coe_mul]

/-- On a real-valued table of 50000 rows the two spellings of the variance agree. -/
theorem varK_eq_varR {a : Fin 50000 → Fin k → EReal} (ha : RealT a) : varK a = varR a := by
  funext c
  choose a' ha' using ha
  unfold varK varR mean colSum sq
  simp only [ha', Nw_eq, coe_sum, div_coe_coe _ (50000 : ℝ) (by norm_num), ← EReal.coe_sub, ← EReal.coe_mul]
  rw [var_real (fun r => a' r c) 50000 (by norm_num) (by simp)]

/-! ## The normalisation -/

theorem norm_real {z : Fin n → Fin k → EReal} {mu var g b : Fin k → EReal} (hz : RealT z) (hmu : RealV mu)
    (hvar : ∀ c, ∃ v : ℝ, 0 ≤ v ∧ var c = (v : EReal)) (hg : RealV g) (hb : RealV b) : RealT (norm z mu var g b) :=
  fun r c => normAt_isReal (hz r c) (hmu c) (hg c) (hb c) (hvar c)

theorem bnR_real {z : Fin n → Fin k → EReal} {g b : Fin k → EReal} (hz : RealT z) (hg : RealV g) (hb : RealV b) :
    RealT (bnR z g b) :=
  norm_real hz (mean_real hz) (varR_nonneg hz) hg hb

/-- On a real-valued table of 50000 rows the two normalisations are one function. -/
theorem bnK_eq_bnR {z : Fin 50000 → Fin k → EReal} (hz : RealT z) (g b : Fin k → EReal) : bnK z g b = bnR z g b := by
  unfold bnK bnR; rw [varK_eq_varR hz]

/-! ## The network -/

/-- A feature table of the hidden width. -/
abbrev Tab := Fin 50000 → Fin 64 → EReal

/-- One graph layer over a normalisation bn and an aggregation A: aggregate, two products with clipping, normalise. -/
def layer (bn : Tab → (Fin 64 → EReal) → (Fin 64 → EReal) → Tab) (A : Tab → Tab) (h : Tab)
    (w1 w2 : Fin 64 → Fin 64 → EReal) (g b : Fin 64 → EReal) : Tab :=
  bn (mlp (A h) w1 w2) g b

/-- The network: the input transform normalised, then three graph layers with the layers' own parameters. -/
def net (bn : Tab → (Fin 64 → EReal) → (Fin 64 → EReal) → Tab) (A : Tab → Tab)
    (x : Fin 50000 → Fin 128 → EReal) (wt : Fin 128 → Fin 64 → EReal) (bt gt bbt : Fin 64 → EReal)
    (W1 W2 : Fin 3 → Fin 64 → Fin 64 → EReal) (gam bet : Fin 3 → Fin 64 → EReal) : Tab :=
  layer bn A (layer bn A (layer bn A (bn (lin x wt bt) gt bbt) (W1 0) (W2 0) (gam 0) (bet 0))
    (W1 1) (W2 1) (gam 1) (bet 1)) (W1 2) (W2 2) (gam 2) (bet 2)

theorem layer_real {A : Tab → Tab} (hA : ∀ h, RealT h → RealT (A h)) {h : Tab} (hh : RealT h)
    {w1 w2 : Fin 64 → Fin 64 → EReal} {g b : Fin 64 → EReal} (h1 : RealT w1) (h2 : RealT w2) (hg : RealV g) (hb : RealV b) :
    RealT (layer bnR A h w1 w2 g b) :=
  bnR_real (mlp_real (hA h hh) h1 h2) hg hb

theorem layer_eq {A : Tab → Tab} (hA : ∀ h, RealT h → RealT (A h)) {h : Tab} (hh : RealT h)
    {w1 w2 : Fin 64 → Fin 64 → EReal} (g b : Fin 64 → EReal) (h1 : RealT w1) (h2 : RealT w2) :
    layer bnK A h w1 w2 g b = layer bnR A h w1 w2 g b :=
  bnK_eq_bnR (mlp_real (hA h hh) h1 h2) g b

/-- With real-valued inputs and an aggregation that keeps tables real-valued, the network over the first spelling of the
    normalisation is the network over the second. -/
theorem net_eq {A : Tab → Tab} (hA : ∀ h, RealT h → RealT (A h))
    {x : Fin 50000 → Fin 128 → EReal} {wt : Fin 128 → Fin 64 → EReal} {bt gt bbt : Fin 64 → EReal}
    {W1 W2 : Fin 3 → Fin 64 → Fin 64 → EReal} {gam bet : Fin 3 → Fin 64 → EReal}
    (hx : RealT x) (hwt : RealT wt) (hbt : RealV bt) (hgt : RealV gt) (hbbt : RealV bbt)
    (hW1 : ∀ i, RealT (W1 i)) (hW2 : ∀ i, RealT (W2 i)) (hgam : ∀ i, RealV (gam i)) (hbet : ∀ i, RealV (bet i)) :
    net bnK A x wt bt gt bbt W1 W2 gam bet = net bnR A x wt bt gt bbt W1 W2 gam bet := by
  have e0 : bnK (lin x wt bt) gt bbt = bnR (lin x wt bt) gt bbt := bnK_eq_bnR (lin_real hx hwt hbt) gt bbt
  have r0 : RealT (bnR (lin x wt bt) gt bbt) := bnR_real (lin_real hx hwt hbt) hgt hbbt
  have r1 := layer_real hA r0 (hW1 0) (hW2 0) (hgam 0) (hbet 0)
  have r2 := layer_real hA r1 (hW1 1) (hW2 1) (hgam 1) (hbet 1)
  unfold net
  rw [e0, layer_eq hA r0 (gam 0) (bet 0) (hW1 0) (hW2 0), layer_eq hA r1 (gam 1) (bet 1) (hW1 1) (hW2 1),
    layer_eq hA r2 (gam 2) (bet 2) (hW1 2) (hW2 2)]

end Cert.Spec

end
-- ==== Proof.KAgg.lean ====
/-
  The neighbour aggregation, as both programs spell it on the host, keeps a table real-valued.

  Every edge has a source word and a destination word.  The source is wrapped (a negative word has the row count
  added), then clamped into the table by the gather; the gathered rows are added into a table of zeros at the rows
  the destination words name (a destination outside the table is dropped); the result is added to the table itself.
  Entry (v, b) is therefore the table's entry plus zero plus a finite sum of entries of the table, and a finite sum
  of reals is a real.
-/
import proofs.«131751_j26465588478351_1_alg».proof.Proof.Gen.KernelIdeal
import proofs.«131751_j26465588478351_1_alg».proof.Proof.Bridge

noncomputable section

namespace Cert.KernelIdeal.KV

open Idealize.ShloMosaic Idealize.ShloMosaic.ValueIdx Cert.KernelIdeal Cert.KernelIdeal.Facts₀ Cert.Lib Cert.Spec

/-- The aggregation of a feature table along the edges: the table plus, at each row, the sum of the rows its incoming
    edges gather. -/
def aggArr (h : FVec Ideal S50000x64 .f32) (src dst : IVec S800000 32) : FVec Ideal S50000x64 .f32 :=
  addf h (Host.scatterAdd (F := Ideal) scatter_S50000x64_S800000x1_S800000x64_1_0_0_1
    (broadcastInDim S50000x64 ![] bcast_S_S50000x64 (constant (F := Ideal) S_ .f32 0#32))
    (broadcastInDim S800000x1 ![0] bcast_S800000_S800000x1_0 dst)
    (Host.gather gather_S50000x64_S800000x1_S800000x64_1_0_n_n_0_1_164 h
      (broadcastInDim S800000x1 ![0] bcast_S800000_S800000x1_0
        (select (cmpi CmpIPredicate.slt src (broadcastInDim S800000 ![] bcast_S_S800000 (constantI S_ 32 0#32)))
          (addi src (broadcastInDim S800000 ![] bcast_S_S800000 (constantI S_ 32 50000#32))) src))))

/-- The aggregation of a real-valued table is real-valued. -/
theorem aggArr_real (h : FVec Ideal S50000x64 .f32) (src dst : IVec S800000 32)
    (hh : ∀ (r : Fin 50000) (c : Fin 64), IsReal (h (ix2 r c))) (r : Fin 50000) (c : Fin 64) :
    IsReal (aggArr h src dst (ix2 r c)) := by
  unfold aggArr
  rw [addf_apply]
  refine (hh r c).add ?_
  rw [scatterAdd2_apply (n := 50000) (e := 800000) (k := 64) scatter_S50000x64_S800000x1_S800000x64_1_0_0_1 rfl rfl rfl rfl]
  refine IsReal.add ?_ (IsReal.sum _ fun a _ => ?_)
  · exact isReal_Zw
  · rw [gather_rows_apply (n := 50000) (e := 800000) (k := 64) (by decide)
      gather_S50000x64_S800000x1_S800000x64_1_0_n_n_0_1_164 rfl rfl rfl rfl rfl rfl rfl]
    exact hh _ _

end Cert.KernelIdeal.KV

end
-- ==== Proof.LibSlices.lean ====
/-
  Slices and reshapes of small stacks, read at an index.

  A stack of n matrices cut at slab i and viewed as one matrix reads, at (j, c), the stack at (i, j, c).  A stack of n
  rows cut at row i, flattened to a vector and viewed again as one row, reads at column c the stack at (i, c).  A vector
  viewed as one row reads at column c the vector at c.
-/
import Idealize.ShloMosaic.Lib.Pipeline.Value
import Idealize.ShloMosaic.Lib.ValueIdx
import Idealize.ShloMosaic.Lib.ValueLayout

noncomputable section

namespace Cert.Lib

open Idealize.ShloMosaic Idealize.ShloMosaic.ValueIdx Idealize.ShloMosaic.Pipeline

variable {α : Type}

/-- Slab i of a stack of matrices, viewed as a matrix, at (j, c). -/
theorem slab_apply {n a b : ℕ} (i : ℕ) (hi : i < n) (x : (⟨3, ![n, a, b]⟩ : Shape).Idx → α)
    (hs : (⟨3, ![n, a, b]⟩ : Shape).Slices ![i, 0, 0] ⟨3, ![1, a, b]⟩)
    (hc : (⟨3, ![1, a, b]⟩ : Shape).ShapeCasts ⟨2, ![a, b]⟩) (j : Fin a) (c : Fin b) :
    shapeCast ⟨2, ![a, b]⟩ (extractStridedSlice ⟨3, ![1, a, b]⟩ ![i, 0, 0] x hs) hc (ix2 j c) = x (ix3 ⟨i, hi⟩ j c) := by
  rw [shapeCast_1ab_ab_apply]
  exact extractStridedSlice_apply _ _ _ _ _ (fun ax => by
    match ax with
    | ⟨0, _⟩ => exact (Nat.add_zero _).symm
    | ⟨1, _⟩ => exact (Nat.zero_add _).symm
    | ⟨2, _⟩ => exact (Nat.zero_add _).symm)

/-- Row i of a stack of rows, flattened and viewed again as one row, at column c. -/
theorem rowslice_apply {n b : ℕ} (i : ℕ) (hi : i < n) (x : (⟨2, ![n, b]⟩ : Shape).Idx → α)
    (hs : (⟨2, ![n, b]⟩ : Shape).Slices ![i, 0] ⟨2, ![1, b]⟩)
    (h1 : (⟨2, ![1, b]⟩ : Shape).ShapeCasts ⟨1, ![b]⟩) (h2 : (⟨1, ![b]⟩ : Shape).ShapeCasts ⟨2, ![1, b]⟩) (c : Fin b) :
    shapeCast ⟨2, ![1, b]⟩ (shapeCast ⟨1, ![b]⟩ (extractStridedSlice ⟨2, ![1, b]⟩ ![i, 0] x hs) h1) h2 (ix2 0 c)
      = x (ix2 ⟨i, hi⟩ c) := by
  rw [shapeCast_shapeCast]
  exact slice2_axis0_apply i x hs 0 c ⟨i, hi⟩ (Nat.add_zero _).symm

/-- A vector viewed as one row, at column c. -/
theorem vecrow_apply {b : ℕ} (x : (⟨1, ![b]⟩ : Shape).Idx → α) (h : (⟨1, ![b]⟩ : Shape).ShapeCasts ⟨2, ![1, b]⟩) (c : Fin b) :
    shapeCast ⟨2, ![1, b]⟩ x h (ix2 0 c) = x (ix1 c) := by
  rw [shapeCast_addUnit_apply]
  refine congrArg x (funext fun a => ?_)
  match a with | ⟨0, _⟩ => rfl

end Cert.Lib

end
-- ==== Proof.KHost.lean ====
/-
  What each stretch of host operations between the kernel launches leaves in its result buffers, from any contents W.

  Before the first launch: the edge list's two rows as the source and destination words, and the bias as one row.
  Before each normalisation launch: the column mean is the accumulated column sum divided by the row count's word, the
  variance the accumulated sum of squares divided by it less the squared mean, and the scale and shift are rows of the
  arguments; the table to normalise is untouched.  Before each perceptron launch: the table is aggregated along the
  edges, and the two weight matrices are slabs of the stacked arguments.
-/
import proofs.«131751_j26465588478351_1_alg».proof.Proof.KRun
import proofs.«131751_j26465588478351_1_alg».proof.Proof.KAgg
import proofs.«131751_j26465588478351_1_alg».proof.Proof.LibSlices

set_option maxRecDepth 16384

noncomputable section

namespace Cert.KernelIdeal.KV

open Idealize.ShloMosaic Idealize.ShloMosaic.TcCoe Idealize.ShloMosaic.Tactic Idealize.SL.Sem Idealize.ShloMosaic.StableHlo
open Idealize.ShloMosaic.ValueIdx Idealize.ShloMosaic.Pipeline
open Cert.KernelIdeal Cert.KernelIdeal.Gen Cert.Lib

/-- A buffer that no operation of the stretch writes keeps its contents. -/
macro "host_keep" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- The source words of the edges: row 0 of the edge list. -/
def srcOf (e : IVec S2x800000 32) : IVec S800000 32 :=
  shapeCast S800000 (extractStridedSlice S1x800000 ![0, 0] e Facts₀.slices_S2x800000_S1x800000_0_0) Facts₀.shapeCasts_S1x800000_S800000
/-- The destination words of the edges: row 1 of the edge list. -/
def dstOf (e : IVec S2x800000 32) : IVec S800000 32 :=
  shapeCast S800000 (extractStridedSlice S1x800000 ![1, 0] e Facts₀.slices_S2x800000_S1x800000_1_0) Facts₀.shapeCasts_S1x800000_S800000

variable (W : Valuation τ sig (Elt Ideal))

/-! ## Before the first launch -/

theorem h0_src : (StableHlo.after hostOps0 W (Proc.devRef .tc main_v1) : IVec S800000 32) = srcOf (W (Proc.devRef .tc main_arg1)) := by
  after_results; rfl

theorem h0_dst : (StableHlo.after hostOps0 W (Proc.devRef .tc main_v3) : IVec S800000 32) = dstOf (W (Proc.devRef .tc main_arg1)) := by
  after_results; rfl

theorem h0_bias : Spec.row (StableHlo.after hostOps0 W (Proc.devRef .tc main_v4) : S1x64.Idx → EReal)
    = Spec.vec (W (Proc.devRef .tc main_arg3) : S64.Idx → EReal) := by
  funext cc; unfold Spec.row Spec.vec
  after_results
  exact vecrow_apply (W (Proc.devRef .tc main_arg3) : S64.Idx → EReal) Facts₀.shapeCasts_S64_S1x64 cc

/-! ## Before normalisation launch 1 -/

theorem h1_mean : Spec.row (StableHlo.after hostOps1 W (Proc.devRef .tc main_v7) : S1x64.Idx → EReal)
    = fun cc => Ideal.div (Spec.row (W (Proc.devRef .tc main_v5_1) : S1x64.Idx → EReal) cc) Spec.Nw := by
  funext cc; unfold Spec.row
  after_results; rfl

theorem h1_var : Spec.row (StableHlo.after hostOps1 W (Proc.devRef .tc main_v11) : S1x64.Idx → EReal)
    = fun cc => Ideal.div (Spec.row (W (Proc.devRef .tc main_v5_2) : S1x64.Idx → EReal) cc) Spec.Nw
        - Ideal.div (Spec.row (W (Proc.devRef .tc main_v5_1) : S1x64.Idx → EReal) cc) Spec.Nw
          * Ideal.div (Spec.row (W (Proc.devRef .tc main_v5_1) : S1x64.Idx → EReal) cc) Spec.Nw := by
  funext cc; unfold Spec.row
  after_results; rfl

theorem h1_z : StableHlo.after hostOps1 W (Proc.devRef .tc main_v5_0) = W (Proc.devRef .tc main_v5_0) := by
  host_keep hostOps1

theorem h1_gamma : Spec.row (StableHlo.after hostOps1 W (Proc.devRef .tc main_v12) : S1x64.Idx → EReal)
    = Spec.vec (W (Proc.devRef .tc main_arg4) : S64.Idx → EReal) := by
  funext cc; unfold Spec.row Spec.vec
  after_results
  exact vecrow_apply (W (Proc.devRef .tc main_arg4) : S64.Idx → EReal) Facts₀.shapeCasts_S64_S1x64 cc

theorem h1_beta : Spec.row (StableHlo.after hostOps1 W (Proc.devRef .tc main_v13) : S1x64.Idx → EReal)
    = Spec.vec (W (Proc.devRef .tc main_arg5) : S64.Idx → EReal) := by
  funext cc; unfold Spec.row Spec.vec
  after_results
  exact vecrow_apply (W (Proc.devRef .tc main_arg5) : S64.Idx → EReal) Facts₀.shapeCasts_S64_S1x64 cc

/-! ## Before normalisation launch 3 -/

theorem h3_mean : Spec.row (StableHlo.after hostOps3 W (Proc.devRef .tc main_v32) : S1x64.Idx → EReal)
    = fun cc => Ideal.div (Spec.row (W (Proc.devRef .tc main_v30_1) : S1x64.Idx → EReal) cc) Spec.Nw := by
  funext cc; unfold Spec.row
  after_results; rfl

theorem h3_var : Spec.row (StableHlo.after hostOps3 W (Proc.devRef .tc main_v36) : S1x64.Idx → EReal)
    = fun cc => Ideal.div (Spec.row (W (Proc.devRef .tc main_v30_2) : S1x64.Idx → EReal) cc) Spec.Nw
        - Ideal.div (Spec.row (W (Proc.devRef .tc main_v30_1) : S1x64.Idx → EReal) cc) Spec.Nw
          * Ideal.div (Spec.row (W (Proc.devRef .tc main_v30_1) : S1x64.Idx → EReal) cc) Spec.Nw := by
  funext cc; unfold Spec.row
  after_results; rfl

theorem h3_z : StableHlo.after hostOps3 W (Proc.devRef .tc main_v30_0) = W (Proc.devRef .tc main_v30_0) := by
  host_keep hostOps3

theorem h3_gamma : Spec.row (StableHlo.after hostOps3 W (Proc.devRef .tc main_v41) : S1x64.Idx → EReal)
    = fun cc => (W (Proc.devRef .tc main_arg8) : S3x64.Idx → EReal) (ix2 (⟨0, by decide⟩ : Fin 3) cc) := by
  funext cc; unfold Spec.row
  after_results
  exact rowslice_apply 0 (by decide) (W (Proc.devRef .tc main_arg8) : S3x64.Idx → EReal) Facts₀.slices_S3x64_S1x64_0_0
    Facts₀.shapeCasts_S1x64_S64 Facts₀.shapeCasts_S64_S1x64 cc

theorem h3_beta : Spec.row (StableHlo.after hostOps3 W (Proc.devRef .tc main_v42) : S1x64.Idx → EReal)
    = fun cc => (W (Proc.devRef .tc main_arg9) : S3x64.Idx → EReal) (ix2 (⟨0, by decide⟩ : Fin 3) cc) := by
  funext cc; unfold Spec.row
  after_results
  exact rowslice_apply 0 (by decide) (W (Proc.devRef .tc main_arg9) : S3x64.Idx → EReal) Facts₀.slices_S3x64_S1x64_0_0
    Facts₀.shapeCasts_S1x64_S64 Facts₀.shapeCasts_S64_S1x64 cc

/-! ## Before normalisation launch 5 -/

theorem h5_mean : Spec.row (StableHlo.after hostOps5 W (Proc.devRef .tc main_v61) : S1x64.Idx → EReal)
    = fun cc => Ideal.div (Spec.row (W (Proc.devRef .tc main_v59_1) : S1x64.Idx → EReal) cc) Spec.Nw := by
  funext cc; unfold Spec.row
  after_results; rfl

theorem h5_var : Spec.row (StableHlo.after hostOps5 W (Proc.devRef .tc main_v65) : S1x64.Idx → EReal)
    = fun cc => Ideal.div (Spec.row (W (Proc.devRef .tc main_v59_2) : S1x64.Idx → EReal) cc) Spec.Nw
        - Ideal.div (Spec.row (W (Proc.devRef .tc main_v59_1) : S1x64.Idx → EReal) cc) Spec.Nw
          * Ideal.div (Spec.row (W (Proc.devRef .tc main_v59_1) : S1x64.Idx → EReal) cc) Spec.Nw := by
  funext cc; unfold Spec.row
  after_results; rfl

theorem h5_z : StableHlo.after hostOps5 W (Proc.devRef .tc main_v59_0) = W (Proc.devRef .tc main_v59_0) := by
  host_keep hostOps5

theorem h5_gamma : Spec.row (StableHlo.after hostOps5 W (Proc.devRef .tc main_v70) : S1x64.Idx → EReal)
    = fun cc => (W (Proc.devRef .tc main_arg8) : S3x64.Idx → EReal) (ix2 (⟨1, by decide⟩ : Fin 3) cc) := by
  funext cc; unfold Spec.row
  after_results
  exact rowslice_apply 1 (by decide) (W (Proc.devRef .tc main_arg8) : S3x64.Idx → EReal) Facts₀.slices_S3x64_S1x64_1_0
    Facts₀.shapeCasts_S1x64_S64 Facts₀.shapeCasts_S64_S1x64 cc

theorem h5_beta : Spec.row (StableHlo.after hostOps5 W (Proc.devRef .tc main_v71) : S1x64.Idx → EReal)
    = fun cc => (W (Proc.devRef .tc main_arg9) : S3x64.Idx → EReal) (ix2 (⟨1, by decide⟩ : Fin 3) cc) := by
  funext cc; unfold Spec.row
  after_results
  exact rowslice_apply 1 (by decide) (W (Proc.devRef .tc main_arg9) : S3x64.Idx → EReal) Facts₀.slices_S3x64_S1x64_1_0
    Facts₀.shapeCasts_S1x64_S64 Facts₀.shapeCasts_S64_S1x64 cc

/-! ## Before normalisation launch 7 -/

theorem h7_mean : Spec.row (StableHlo.after hostOps7 W (Proc.devRef .tc main_v90) : S1x64.Idx → EReal)
    = fun cc => Ideal.div (Spec.row (W (Proc.devRef .tc main_v88_1) : S1x64.Idx → EReal) cc) Spec.Nw := by
  funext cc; unfold Spec.row
  after_results; rfl

theorem h7_var : Spec.row (StableHlo.after hostOps7 W (Proc.devRef .tc main_v94) : S1x64.Idx → EReal)
    = fun cc => Ideal.div (Spec.row (W (Proc.devRef .tc main_v88_2) : S1x64.Idx → EReal) cc) Spec.Nw
        - Ideal.div (Spec.row (W (Proc.devRef .tc main_v88_1) : S1x64.Idx → EReal) cc) Spec.Nw
          * Ideal.div (Spec.row (W (Proc.devRef .tc main_v88_1) : S1x64.Idx → EReal) cc) Spec.Nw := by
  funext cc; unfold Spec.row
  after_results; rfl

theorem h7_z : StableHlo.after hostOps7 W (Proc.devRef .tc main_v88_0) = W (Proc.devRef .tc main_v88_0) := by
  host_keep hostOps7

theorem h7_gamma : Spec.row (StableHlo.after hostOps7 W (Proc.devRef .tc main_v99) : S1x64.Idx → EReal)
    = fun cc => (W (Proc.devRef .tc main_arg8) : S3x64.Idx → EReal) (ix2 (⟨2, by decide⟩ : Fin 3) cc) := by
  funext cc; unfold Spec.row
  after_results
  exact rowslice_apply 2 (by decide) (W (Proc.devRef .tc main_arg8) : S3x64.Idx → EReal) Facts₀.slices_S3x64_S1x64_2_0
    Facts₀.shapeCasts_S1x64_S64 Facts₀.shapeCasts_S64_S1x64 cc

theorem h7_beta : Spec.row (StableHlo.after hostOps7 W (Proc.devRef .tc main_v100) : S1x64.Idx → EReal)
    = fun cc => (W (Proc.devRef .tc main_arg9) : S3x64.Idx → EReal) (ix2 (⟨2, by decide⟩ : Fin 3) cc) := by
  funext cc; unfold Spec.row
  after_results
  exact rowslice_apply 2 (by decide) (W (Proc.devRef .tc main_arg9) : S3x64.Idx → EReal) Facts₀.slices_S3x64_S1x64_2_0
    Facts₀.shapeCasts_S1x64_S64 Facts₀.shapeCasts_S64_S1x64 cc

/-! ## Before perceptron launch 2 -/

set_option maxHeartbeats 4000000 in
theorem h2_agg : (StableHlo.after hostOps2 W (Proc.devRef .tc main_v25) : FVec Ideal S50000x64 .f32)
    = aggArr (W (Proc.devRef .tc main_v14)) (W (Proc.devRef .tc main_v1)) (W (Proc.devRef .tc main_v3)) := by
  after_results; rfl

set_option maxHeartbeats 4000000 in
theorem h2_w1 : Spec.cur (StableHlo.after hostOps2 W (Proc.devRef .tc main_v27) : S64x64.Idx → EReal)
    = fun j cc => (W (Proc.devRef .tc main_arg6) : S3x64x64.Idx → EReal) (ix3 (⟨0, by decide⟩ : Fin 3) j cc) := by
  funext j cc; unfold Spec.cur
  after_results
  exact slab_apply 0 (by decide) (W (Proc.devRef .tc main_arg6) : S3x64x64.Idx → EReal) Facts₀.slices_S3x64x64_S1x64x64_0_0_0
    Facts₀.shapeCasts_S1x64x64_S64x64 j cc

set_option maxHeartbeats 4000000 in
theorem h2_w2 : Spec.cur (StableHlo.after hostOps2 W (Proc.devRef .tc main_v29) : S64x64.Idx → EReal)
    = fun j cc => (W (Proc.devRef .tc main_arg7) : S3x64x64.Idx → EReal) (ix3 (⟨0, by decide⟩ : Fin 3) j cc) := by
  funext j cc; unfold Spec.cur
  after_results
  exact slab_apply 0 (by decide) (W (Proc.devRef .tc main_arg7) : S3x64x64.Idx → EReal) Facts₀.slices_S3x64x64_S1x64x64_0_0_0
    Facts₀.shapeCasts_S1x64x64_S64x64 j cc

/-! ## Before perceptron launch 4 -/

set_option maxHeartbeats 4000000 in
theorem h4_agg : (StableHlo.after hostOps4 W (Proc.devRef .tc main_v54) : FVec Ideal S50000x64 .f32)
    = aggArr (W (Proc.devRef .tc main_v43)) (W (Proc.devRef .tc main_v1)) (W (Proc.devRef .tc main_v3)) := by
  after_results; rfl

set_option maxHeartbeats 4000000 in
theorem h4_w1 : Spec.cur (StableHlo.after hostOps4 W (Proc.devRef .tc main_v56) : S64x64.Idx → EReal)
    = fun j cc => (W (Proc.devRef .tc main_arg6) : S3x64x64.Idx → EReal) (ix3 (⟨1, by decide⟩ : Fin 3) j cc) := by
  funext j cc; unfold Spec.cur
  after_results
  exact slab_apply 1 (by decide) (W (Proc.devRef .tc main_arg6) : S3x64x64.Idx → EReal) Facts₀.slices_S3x64x64_S1x64x64_1_0_0
    Facts₀.shapeCasts_S1x64x64_S64x64 j cc

set_option maxHeartbeats 4000000 in
theorem h4_w2 : Spec.cur (StableHlo.after hostOps4 W (Proc.devRef .tc main_v58) : S64x64.Idx → EReal)
    = fun j cc => (W (Proc.devRef .tc main_arg7) : S3x64x64.Idx → EReal) (ix3 (⟨1, by decide⟩ : Fin 3) j cc) := by
  funext j cc; unfold Spec.cur
  after_results
  exact slab_apply 1 (by decide) (W (Proc.devRef .tc main_arg7) : S3x64x64.Idx → EReal) Facts₀.slices_S3x64x64_S1x64x64_1_0_0
    Facts₀.shapeCasts_S1x64x64_S64x64 j cc

/-! ## Before perceptron launch 6 -/

set_option maxHeartbeats 4000000 in
theorem h6_agg : (StableHlo.after hostOps6 W (Proc.devRef .tc main_v83) : FVec Ideal S50000x64 .f32)
    = aggArr (W (Proc.devRef .tc main_v72)) (W (Proc.devRef .tc main_v1)) (W (Proc.devRef .tc main_v3)) := by
  after_results; rfl

set_option maxHeartbeats 4000000 in
theorem h6_w1 : Spec.cur (StableHlo.after hostOps6 W (Proc.devRef .tc main_v85) : S64x64.Idx → EReal)
    = fun j cc => (W (Proc.devRef .tc main_arg6) : S3x64x64.Idx → EReal) (ix3 (⟨2, by decide⟩ : Fin 3) j cc) := by
  funext j cc; unfold Spec.cur
  after_results
  exact slab_apply 2 (by decide) (W (Proc.devRef .tc main_arg6) : S3x64x64.Idx → EReal) Facts₀.slices_S3x64x64_S1x64x64_2_0_0
    Facts₀.shapeCasts_S1x64x64_S64x64 j cc

set_option maxHeartbeats 4000000 in
theorem h6_w2 : Spec.cur (StableHlo.after hostOps6 W (Proc.devRef .tc main_v87) : S64x64.Idx → EReal)
    = fun j cc => (W (Proc.devRef .tc main_arg7) : S3x64x64.Idx → EReal) (ix3 (⟨2, by decide⟩ : Fin 3) j cc) := by
  funext j cc; unfold Spec.cur
  after_results
  exact slab_apply 2 (by decide) (W (Proc.devRef .tc main_arg7) : S3x64x64.Idx → EReal) Facts₀.slices_S3x64x64_S1x64x64_2_0_0
    Facts₀.shapeCasts_S1x64x64_S64x64 j cc

end Cert.KernelIdeal.KV

end
-- ==== Proof.KKeep.lean ====
/-
  The buffers that outlive the whole run: the edges' source and destination words, and the stacked weights, scales and
  shifts.  No later host operation writes them and no launch owns them, so at every boundary between segments they hold
  what they held after the first stretch of host operations; and after that stretch the arguments hold what was launched.
-/
import proofs.«131751_j26465588478351_1_alg».proof.Proof.KHost

set_option maxRecDepth 16384

noncomputable section

namespace Cert.KernelIdeal.KV

open Idealize.ShloMosaic Idealize.ShloMosaic.TcCoe Idealize.ShloMosaic.Tactic Idealize.SL.Sem Idealize.ShloMosaic.StableHlo
open Idealize.ShloMosaic.ValueIdx Idealize.ShloMosaic.Pipeline
open Cert.KernelIdeal Cert.KernelIdeal.Gen Cert.Lib

variable (m : (ℓ : Loc nD τ sig) → Buf (Elt Ideal) ℓ) (ρ : Dev nD → PrngReg) (c : Dev nD)

/-! ## After the first stretch -/

theorem W1_main_arg0 : W1 m ρ c (Proc.devRef .tc main_arg0) = m ((c : Thread nD τ).loc main_arg0) :=
  (show StableHlo.after hostOps0 (W0 m ρ c) (Proc.devRef .tc main_arg0) = W0 m ρ c (Proc.devRef .tc main_arg0) by host_keep hostOps0).trans rfl

theorem W1_main_arg2 : W1 m ρ c (Proc.devRef .tc main_arg2) = m ((c : Thread nD τ).loc main_arg2) :=
  (show StableHlo.after hostOps0 (W0 m ρ c) (Proc.devRef .tc main_arg2) = W0 m ρ c (Proc.devRef .tc main_arg2) by host_keep hostOps0).trans rfl

theorem W1_main_arg4 : W1 m ρ c (Proc.devRef .tc main_arg4) = m ((c : Thread nD τ).loc main_arg4) :=
  (show StableHlo.after hostOps0 (W0 m ρ c) (Proc.devRef .tc main_arg4) = W0 m ρ c (Proc.devRef .tc main_arg4) by host_keep hostOps0).trans rfl

theorem W1_main_arg5 : W1 m ρ c (Proc.devRef .tc main_arg5) = m ((c : Thread nD τ).loc main_arg5) :=
  (show StableHlo.after hostOps0 (W0 m ρ c) (Proc.devRef .tc main_arg5) = W0 m ρ c (Proc.devRef .tc main_arg5) by host_keep hostOps0).trans rfl

theorem W1_main_arg6 : W1 m ρ c (Proc.devRef .tc main_arg6) = m ((c : Thread nD τ).loc main_arg6) :=
  (show StableHlo.after hostOps0 (W0 m ρ c) (Proc.devRef .tc main_arg6) = W0 m ρ c (Proc.devRef .tc main_arg6) by host_keep hostOps0).trans rfl

theorem W1_main_arg7 : W1 m ρ c (Proc.devRef .tc main_arg7) = m ((c : Thread nD τ).loc main_arg7) :=
  (show StableHlo.after hostOps0 (W0 m ρ c) (Proc.devRef .tc main_arg7) = W0 m ρ c (Proc.devRef .tc main_arg7) by host_keep hostOps0).trans rfl

theorem W1_main_arg8 : W1 m ρ c (Proc.devRef .tc main_arg8) = m ((c : Thread nD τ).loc main_arg8) :=
  (show StableHlo.after hostOps0 (W0 m ρ c) (Proc.devRef .tc main_arg8) = W0 m ρ c (Proc.devRef .tc main_arg8) by host_keep hostOps0).trans rfl

theorem W1_main_arg9 : W1 m ρ c (Proc.devRef .tc main_arg9) = m ((c : Thread nD τ).loc main_arg9) :=
  (show StableHlo.after hostOps0 (W0 m ρ c) (Proc.devRef .tc main_arg9) = W0 m ρ c (Proc.devRef .tc main_arg9) by host_keep hostOps0).trans rfl

theorem W1_src : (W1 m ρ c (Proc.devRef .tc main_v1) : IVec S800000 32) = srcOf (m ((c : Thread nD τ).loc main_arg1)) :=
  h0_src (W0 m ρ c)

theorem W1_dst : (W1 m ρ c (Proc.devRef .tc main_v3) : IVec S800000 32) = dstOf (m ((c : Thread nD τ).loc main_arg1)) :=
  h0_dst (W0 m ρ c)

theorem W1_bias : Spec.row (W1 m ρ c (Proc.devRef .tc main_v4) : S1x64.Idx → EReal)
    = Spec.vec (m ((c : Thread nD τ).loc main_arg3) : S64.Idx → EReal) :=
  h0_bias (W0 m ρ c)

/-! ## From boundary to boundary -/
theorem kp2_main_v1 : W2 m ρ c (Proc.devRef .tc main_v1) = W1 m ρ c (Proc.devRef .tc main_v1) :=
  W2_of_ne m ρ c main_v1 (by decide)
theorem kp2_main_v3 : W2 m ρ c (Proc.devRef .tc main_v3) = W1 m ρ c (Proc.devRef .tc main_v3) :=
  W2_of_ne m ρ c main_v3 (by decide)
theorem kp2_main_arg6 : W2 m ρ c (Proc.devRef .tc main_arg6) = W1 m ρ c (Proc.devRef .tc main_arg6) :=
  W2_of_ne m ρ c main_arg6 (by decide)
theorem kp2_main_arg7 : W2 m ρ c (Proc.devRef .tc main_arg7) = W1 m ρ c (Proc.devRef .tc main_arg7) :=
  W2_of_ne m ρ c main_arg7 (by decide)
theorem kp2_main_arg8 : W2 m ρ c (Proc.devRef .tc main_arg8) = W1 m ρ c (Proc.devRef .tc main_arg8) :=
  W2_of_ne m ρ c main_arg8 (by decide)
theorem kp2_main_arg9 : W2 m ρ c (Proc.devRef .tc main_arg9) = W1 m ρ c (Proc.devRef .tc main_arg9) :=
  W2_of_ne m ρ c main_arg9 (by decide)
theorem kp3_main_v1 : W3 m ρ c (Proc.devRef .tc main_v1) = W1 m ρ c (Proc.devRef .tc main_v1) :=
  ((show StableHlo.after hostOps1 (W2 m ρ c) (Proc.devRef .tc main_v1) = W2 m ρ c (Proc.devRef .tc main_v1) by host_keep hostOps1)).trans (kp2_main_v1 m ρ c)
theorem kp3_main_v3 : W3 m ρ c (Proc.devRef .tc main_v3) = W1 m ρ c (Proc.devRef .tc main_v3) :=
  ((show StableHlo.after hostOps1 (W2 m ρ c) (Proc.devRef .tc main_v3) = W2 m ρ c (Proc.devRef .tc main_v3) by host_keep hostOps1)).trans (kp2_main_v3 m ρ c)
theorem kp3_main_arg6 : W3 m ρ c (Proc.devRef .tc main_arg6) = W1 m ρ c (Proc.devRef .tc main_arg6) :=
  ((show StableHlo.after hostOps1 (W2 m ρ c) (Proc.devRef .tc main_arg6) = W2 m ρ c (Proc.devRef .tc main_arg6) by host_keep hostOps1)).trans (kp2_main_arg6 m ρ c)
theorem kp3_main_arg7 : W3 m ρ c (Proc.devRef .tc main_arg7) = W1 m ρ c (Proc.devRef .tc main_arg7) :=
  ((show StableHlo.after hostOps1 (W2 m ρ c) (Proc.devRef .tc main_arg7) = W2 m ρ c (Proc.devRef .tc main_arg7) by host_keep hostOps1)).trans (kp2_main_arg7 m ρ c)
theorem kp3_main_arg8 : W3 m ρ c (Proc.devRef .tc main_arg8) = W1 m ρ c (Proc.devRef .tc main_arg8) :=
  ((show StableHlo.after hostOps1 (W2 m ρ c) (Proc.devRef .tc main_arg8) = W2 m ρ c (Proc.devRef .tc main_arg8) by host_keep hostOps1)).trans (kp2_main_arg8 m ρ c)
theorem kp3_main_arg9 : W3 m ρ c (Proc.devRef .tc main_arg9) = W1 m ρ c (Proc.devRef .tc main_arg9) :=
  ((show StableHlo.after hostOps1 (W2 m ρ c) (Proc.devRef .tc main_arg9) = W2 m ρ c (Proc.devRef .tc main_arg9) by host_keep hostOps1)).trans (kp2_main_arg9 m ρ c)
theorem kp4_main_v1 : W4 m ρ c (Proc.devRef .tc main_v1) = W1 m ρ c (Proc.devRef .tc main_v1) :=
  (W4_of_ne m ρ c main_v1 (by decide)).trans (kp3_main_v1 m ρ c)
theorem kp4_main_v3 : W4 m ρ c (Proc.devRef .tc main_v3) = W1 m ρ c (Proc.devRef .tc main_v3) :=
  (W4_of_ne m ρ c main_v3 (by decide)).trans (kp3_main_v3 m ρ c)
theorem kp4_main_arg6 : W4 m ρ c (Proc.devRef .tc main_arg6) = W1 m ρ c (Proc.devRef .tc main_arg6) :=
  (W4_of_ne m ρ c main_arg6 (by decide)).trans (kp3_main_arg6 m ρ c)
theorem kp4_main_arg7 : W4 m ρ c (Proc.devRef .tc main_arg7) = W1 m ρ c (Proc.devRef .tc main_arg7) :=
  (W4_of_ne m ρ c main_arg7 (by decide)).trans (kp3_main_arg7 m ρ c)
theorem kp4_main_arg8 : W4 m ρ c (Proc.devRef .tc main_arg8) = W1 m ρ c (Proc.devRef .tc main_arg8) :=
  (W4_of_ne m ρ c main_arg8 (by decide)).trans (kp3_main_arg8 m ρ c)
theorem kp4_main_arg9 : W4 m ρ c (Proc.devRef .tc main_arg9) = W1 m ρ c (Proc.devRef .tc main_arg9) :=
  (W4_of_ne m ρ c main_arg9 (by decide)).trans (kp3_main_arg9 m ρ c)
theorem kp5_main_v1 : W5 m ρ c (Proc.devRef .tc main_v1) = W1 m ρ c (Proc.devRef .tc main_v1) :=
  ((show StableHlo.after hostOps2 (W4 m ρ c) (Proc.devRef .tc main_v1) = W4 m ρ c (Proc.devRef .tc main_v1) by host_keep hostOps2)).trans (kp4_main_v1 m ρ c)
theorem kp5_main_v3 : W5 m ρ c (Proc.devRef .tc main_v3) = W1 m ρ c (Proc.devRef .tc main_v3) :=
  ((show StableHlo.after hostOps2 (W4 m ρ c) (Proc.devRef .tc main_v3) = W4 m ρ c (Proc.devRef .tc main_v3) by host_keep hostOps2)).trans (kp4_main_v3 m ρ c)
theorem kp5_main_arg6 : W5 m ρ c (Proc.devRef .tc main_arg6) = W1 m ρ c (Proc.devRef .tc main_arg6) :=
  ((show StableHlo.after hostOps2 (W4 m ρ c) (Proc.devRef .tc main_arg6) = W4 m ρ c (Proc.devRef .tc main_arg6) by host_keep hostOps2)).trans (kp4_main_arg6 m ρ c)
theorem kp5_main_arg7 : W5 m ρ c (Proc.devRef .tc main_arg7) = W1 m ρ c (Proc.devRef .tc main_arg7) :=
  ((show StableHlo.after hostOps2 (W4 m ρ c) (Proc.devRef .tc main_arg7) = W4 m ρ c (Proc.devRef .tc main_arg7) by host_keep hostOps2)).trans (kp4_main_arg7 m ρ c)
theorem kp5_main_arg8 : W5 m ρ c (Proc.devRef .tc main_arg8) = W1 m ρ c (Proc.devRef .tc main_arg8) :=
  ((show StableHlo.after hostOps2 (W4 m ρ c) (Proc.devRef .tc main_arg8) = W4 m ρ c (Proc.devRef .tc main_arg8) by host_keep hostOps2)).trans (kp4_main_arg8 m ρ c)
theorem kp5_main_arg9 : W5 m ρ c (Proc.devRef .tc main_arg9) = W1 m ρ c (Proc.devRef .tc main_arg9) :=
  ((show StableHlo.after hostOps2 (W4 m ρ c) (Proc.devRef .tc main_arg9) = W4 m ρ c (Proc.devRef .tc main_arg9) by host_keep hostOps2)).trans (kp4_main_arg9 m ρ c)
theorem kp6_main_v1 : W6 m ρ c (Proc.devRef .tc main_v1) = W1 m ρ c (Proc.devRef .tc main_v1) :=
  (W6_of_ne m ρ c main_v1 (by decide)).trans (kp5_main_v1 m ρ c)
theorem kp6_main_v3 : W6 m ρ c (Proc.devRef .tc main_v3) = W1 m ρ c (Proc.devRef .tc main_v3) :=
  (W6_of_ne m ρ c main_v3 (by decide)).trans (kp5_main_v3 m ρ c)
theorem kp6_main_arg6 : W6 m ρ c (Proc.devRef .tc main_arg6) = W1 m ρ c (Proc.devRef .tc main_arg6) :=
  (W6_of_ne m ρ c main_arg6 (by decide)).trans (kp5_main_arg6 m ρ c)
theorem kp6_main_arg7 : W6 m ρ c (Proc.devRef .tc main_arg7) = W1 m ρ c (Proc.devRef .tc main_arg7) :=
  (W6_of_ne m ρ c main_arg7 (by decide)).trans (kp5_main_arg7 m ρ c)
theorem kp6_main_arg8 : W6 m ρ c (Proc.devRef .tc main_arg8) = W1 m ρ c (Proc.devRef .tc main_arg8) :=
  (W6_of_ne m ρ c main_arg8 (by decide)).trans (kp5_main_arg8 m ρ c)
theorem kp6_main_arg9 : W6 m ρ c (Proc.devRef .tc main_arg9) = W1 m ρ c (Proc.devRef .tc main_arg9) :=
  (W6_of_ne m ρ c main_arg9 (by decide)).trans (kp5_main_arg9 m ρ c)
theorem kp7_main_v1 : W7 m ρ c (Proc.devRef .tc main_v1) = W1 m ρ c (Proc.devRef .tc main_v1) :=
  ((show StableHlo.after hostOps3 (W6 m ρ c) (Proc.devRef .tc main_v1) = W6 m ρ c (Proc.devRef .tc main_v1) by host_keep hostOps3)).trans (kp6_main_v1 m ρ c)
theorem kp7_main_v3 : W7 m ρ c (Proc.devRef .tc main_v3) = W1 m ρ c (Proc.devRef .tc main_v3) :=
  ((show StableHlo.after hostOps3 (W6 m ρ c) (Proc.devRef .tc main_v3) = W6 m ρ c (Proc.devRef .tc main_v3) by host_keep hostOps3)).trans (kp6_main_v3 m ρ c)
theorem kp7_main_arg6 : W7 m ρ c (Proc.devRef .tc main_arg6) = W1 m ρ c (Proc.devRef .tc main_arg6) :=
  ((show StableHlo.after hostOps3 (W6 m ρ c) (Proc.devRef .tc main_arg6) = W6 m ρ c (Proc.devRef .tc main_arg6) by host_keep hostOps3)).trans (kp6_main_arg6 m ρ c)
theorem kp7_main_arg7 : W7 m ρ c (Proc.devRef .tc main_arg7) = W1 m ρ c (Proc.devRef .tc main_arg7) :=
  ((show StableHlo.after hostOps3 (W6 m ρ c) (Proc.devRef .tc main_arg7) = W6 m ρ c (Proc.devRef .tc main_arg7) by host_keep hostOps3)).trans (kp6_main_arg7 m ρ c)
theorem kp7_main_arg8 : W7 m ρ c (Proc.devRef .tc main_arg8) = W1 m ρ c (Proc.devRef .tc main_arg8) :=
  ((show StableHlo.after hostOps3 (W6 m ρ c) (Proc.devRef .tc main_arg8) = W6 m ρ c (Proc.devRef .tc main_arg8) by host_keep hostOps3)).trans (kp6_main_arg8 m ρ c)
theorem kp7_main_arg9 : W7 m ρ c (Proc.devRef .tc main_arg9) = W1 m ρ c (Proc.devRef .tc main_arg9) :=
  ((show StableHlo.after hostOps3 (W6 m ρ c) (Proc.devRef .tc main_arg9) = W6 m ρ c (Proc.devRef .tc main_arg9) by host_keep hostOps3)).trans (kp6_main_arg9 m ρ c)
theorem kp8_main_v1 : W8 m ρ c (Proc.devRef .tc main_v1) = W1 m ρ c (Proc.devRef .tc main_v1) :=
  (W8_of_ne m ρ c main_v1 (by decide)).trans (kp7_main_v1 m ρ c)
theorem kp8_main_v3 : W8 m ρ c (Proc.devRef .tc main_v3) = W1 m ρ c (Proc.devRef .tc main_v3) :=
  (W8_of_ne m ρ c main_v3 (by decide)).trans (kp7_main_v3 m ρ c)
theorem kp8_main_arg6 : W8 m ρ c (Proc.devRef .tc main_arg6) = W1 m ρ c (Proc.devRef .tc main_arg6) :=
  (W8_of_ne m ρ c main_arg6 (by decide)).trans (kp7_main_arg6 m ρ c)
theorem kp8_main_arg7 : W8 m ρ c (Proc.devRef .tc main_arg7) = W1 m ρ c (Proc.devRef .tc main_arg7) :=
  (W8_of_ne m ρ c main_arg7 (by decide)).trans (kp7_main_arg7 m ρ c)
theorem kp8_main_arg8 : W8 m ρ c (Proc.devRef .tc main_arg8) = W1 m ρ c (Proc.devRef .tc main_arg8) :=
  (W8_of_ne m ρ c main_arg8 (by decide)).trans (kp7_main_arg8 m ρ c)
theorem kp8_main_arg9 : W8 m ρ c (Proc.devRef .tc main_arg9) = W1 m ρ c (Proc.devRef .tc main_arg9) :=
  (W8_of_ne m ρ c main_arg9 (by decide)).trans (kp7_main_arg9 m ρ c)
theorem kp9_main_v1 : W9 m ρ c (Proc.devRef .tc main_v1) = W1 m ρ c (Proc.devRef .tc main_v1) :=
  ((show StableHlo.after hostOps4 (W8 m ρ c) (Proc.devRef .tc main_v1) = W8 m ρ c (Proc.devRef .tc main_v1) by host_keep hostOps4)).trans (kp8_main_v1 m ρ c)
theorem kp9_main_v3 : W9 m ρ c (Proc.devRef .tc main_v3) = W1 m ρ c (Proc.devRef .tc main_v3) :=
  ((show StableHlo.after hostOps4 (W8 m ρ c) (Proc.devRef .tc main_v3) = W8 m ρ c (Proc.devRef .tc main_v3) by host_keep hostOps4)).trans (kp8_main_v3 m ρ c)
theorem kp9_main_arg6 : W9 m ρ c (Proc.devRef .tc main_arg6) = W1 m ρ c (Proc.devRef .tc main_arg6) :=
  ((show StableHlo.after hostOps4 (W8 m ρ c) (Proc.devRef .tc main_arg6) = W8 m ρ c (Proc.devRef .tc main_arg6) by host_keep hostOps4)).trans (kp8_main_arg6 m ρ c)
theorem kp9_main_arg7 : W9 m ρ c (Proc.devRef .tc main_arg7) = W1 m ρ c (Proc.devRef .tc main_arg7) :=
  ((show StableHlo.after hostOps4 (W8 m ρ c) (Proc.devRef .tc main_arg7) = W8 m ρ c (Proc.devRef .tc main_arg7) by host_keep hostOps4)).trans (kp8_main_arg7 m ρ c)
theorem kp9_main_arg8 : W9 m ρ c (Proc.devRef .tc main_arg8) = W1 m ρ c (Proc.devRef .tc main_arg8) :=
  ((show StableHlo.after hostOps4 (W8 m ρ c) (Proc.devRef .tc main_arg8) = W8 m ρ c (Proc.devRef .tc main_arg8) by host_keep hostOps4)).trans (kp8_main_arg8 m ρ c)
theorem kp9_main_arg9 : W9 m ρ c (Proc.devRef .tc main_arg9) = W1 m ρ c (Proc.devRef .tc main_arg9) :=
  ((show StableHlo.after hostOps4 (W8 m ρ c) (Proc.devRef .tc main_arg9) = W8 m ρ c (Proc.devRef .tc main_arg9) by host_keep hostOps4)).trans (kp8_main_arg9 m ρ c)
theorem kp10_main_v1 : W10 m ρ c (Proc.devRef .tc main_v1) = W1 m ρ c (Proc.devRef .tc main_v1) :=
  (W10_of_ne m ρ c main_v1 (by decide)).trans (kp9_main_v1 m ρ c)
theorem kp10_main_v3 : W10 m ρ c (Proc.devRef .tc main_v3) = W1 m ρ c (Proc.devRef .tc main_v3) :=
  (W10_of_ne m ρ c main_v3 (by decide)).trans (kp9_main_v3 m ρ c)
theorem kp10_main_arg6 : W10 m ρ c (Proc.devRef .tc main_arg6) = W1 m ρ c (Proc.devRef .tc main_arg6) :=
  (W10_of_ne m ρ c main_arg6 (by decide)).trans (kp9_main_arg6 m ρ c)
theorem kp10_main_arg7 : W10 m ρ c (Proc.devRef .tc main_arg7) = W1 m ρ c (Proc.devRef .tc main_arg7) :=
  (W10_of_ne m ρ c main_arg7 (by decide)).trans (kp9_main_arg7 m ρ c)
theorem kp10_main_arg8 : W10 m ρ c (Proc.devRef .tc main_arg8) = W1 m ρ c (Proc.devRef .tc main_arg8) :=
  (W10_of_ne m ρ c main_arg8 (by decide)).trans (kp9_main_arg8 m ρ c)
theorem kp10_main_arg9 : W10 m ρ c (Proc.devRef .tc main_arg9) = W1 m ρ c (Proc.devRef .tc main_arg9) :=
  (W10_of_ne m ρ c main_arg9 (by decide)).trans (kp9_main_arg9 m ρ c)
theorem kp11_main_v1 : W11 m ρ c (Proc.devRef .tc main_v1) = W1 m ρ c (Proc.devRef .tc main_v1) :=
  ((show StableHlo.after hostOps5 (W10 m ρ c) (Proc.devRef .tc main_v1) = W10 m ρ c (Proc.devRef .tc main_v1) by host_keep hostOps5)).trans (kp10_main_v1 m ρ c)
theorem kp11_main_v3 : W11 m ρ c (Proc.devRef .tc main_v3) = W1 m ρ c (Proc.devRef .tc main_v3) :=
  ((show StableHlo.after hostOps5 (W10 m ρ c) (Proc.devRef .tc main_v3) = W10 m ρ c (Proc.devRef .tc main_v3) by host_keep hostOps5)).trans (kp10_main_v3 m ρ c)
theorem kp11_main_arg6 : W11 m ρ c (Proc.devRef .tc main_arg6) = W1 m ρ c (Proc.devRef .tc main_arg6) :=
  ((show StableHlo.after hostOps5 (W10 m ρ c) (Proc.devRef .tc main_arg6) = W10 m ρ c (Proc.devRef .tc main_arg6) by host_keep hostOps5)).trans (kp10_main_arg6 m ρ c)
theorem kp11_main_arg7 : W11 m ρ c (Proc.devRef .tc main_arg7) = W1 m ρ c (Proc.devRef .tc main_arg7) :=
  ((show StableHlo.after hostOps5 (W10 m ρ c) (Proc.devRef .tc main_arg7) = W10 m ρ c (Proc.devRef .tc main_arg7) by host_keep hostOps5)).trans (kp10_main_arg7 m ρ c)
theorem kp11_main_arg8 : W11 m ρ c (Proc.devRef .tc main_arg8) = W1 m ρ c (Proc.devRef .tc main_arg8) :=
  ((show StableHlo.after hostOps5 (W10 m ρ c) (Proc.devRef .tc main_arg8) = W10 m ρ c (Proc.devRef .tc main_arg8) by host_keep hostOps5)).trans (kp10_main_arg8 m ρ c)
theorem kp11_main_arg9 : W11 m ρ c (Proc.devRef .tc main_arg9) = W1 m ρ c (Proc.devRef .tc main_arg9) :=
  ((show StableHlo.after hostOps5 (W10 m ρ c) (Proc.devRef .tc main_arg9) = W10 m ρ c (Proc.devRef .tc main_arg9) by host_keep hostOps5)).trans (kp10_main_arg9 m ρ c)
theorem kp12_main_v1 : W12 m ρ c (Proc.devRef .tc main_v1) = W1 m ρ c (Proc.devRef .tc main_v1) :=
  (W12_of_ne m ρ c main_v1 (by decide)).trans (kp11_main_v1 m ρ c)
theorem kp12_main_v3 : W12 m ρ c (Proc.devRef .tc main_v3) = W1 m ρ c (Proc.devRef .tc main_v3) :=
  (W12_of_ne m ρ c main_v3 (by decide)).trans (kp11_main_v3 m ρ c)
theorem kp12_main_arg6 : W12 m ρ c (Proc.devRef .tc main_arg6) = W1 m ρ c (Proc.devRef .tc main_arg6) :=
  (W12_of_ne m ρ c main_arg6 (by decide)).trans (kp11_main_arg6 m ρ c)
theorem kp12_main_arg7 : W12 m ρ c (Proc.devRef .tc main_arg7) = W1 m ρ c (Proc.devRef .tc main_arg7) :=
  (W12_of_ne m ρ c main_arg7 (by decide)).trans (kp11_main_arg7 m ρ c)
theorem kp12_main_arg8 : W12 m ρ c (Proc.devRef .tc main_arg8) = W1 m ρ c (Proc.devRef .tc main_arg8) :=
  (W12_of_ne m ρ c main_arg8 (by decide)).trans (kp11_main_arg8 m ρ c)
theorem kp12_main_arg9 : W12 m ρ c (Proc.devRef .tc main_arg9) = W1 m ρ c (Proc.devRef .tc main_arg9) :=
  (W12_of_ne m ρ c main_arg9 (by decide)).trans (kp11_main_arg9 m ρ c)
theorem kp13_main_v1 : W13 m ρ c (Proc.devRef .tc main_v1) = W1 m ρ c (Proc.devRef .tc main_v1) :=
  ((show StableHlo.after hostOps6 (W12 m ρ c) (Proc.devRef .tc main_v1) = W12 m ρ c (Proc.devRef .tc main_v1) by host_keep hostOps6)).trans (kp12_main_v1 m ρ c)
theorem kp13_main_v3 : W13 m ρ c (Proc.devRef .tc main_v3) = W1 m ρ c (Proc.devRef .tc main_v3) :=
  ((show StableHlo.after hostOps6 (W12 m ρ c) (Proc.devRef .tc main_v3) = W12 m ρ c (Proc.devRef .tc main_v3) by host_keep hostOps6)).trans (kp12_main_v3 m ρ c)
theorem kp13_main_arg6 : W13 m ρ c (Proc.devRef .tc main_arg6) = W1 m ρ c (Proc.devRef .tc main_arg6) :=
  ((show StableHlo.after hostOps6 (W12 m ρ c) (Proc.devRef .tc main_arg6) = W12 m ρ c (Proc.devRef .tc main_arg6) by host_keep hostOps6)).trans (kp12_main_arg6 m ρ c)
theorem kp13_main_arg7 : W13 m ρ c (Proc.devRef .tc main_arg7) = W1 m ρ c (Proc.devRef .tc main_arg7) :=
  ((show StableHlo.after hostOps6 (W12 m ρ c) (Proc.devRef .tc main_arg7) = W12 m ρ c (Proc.devRef .tc main_arg7) by host_keep hostOps6)).trans (kp12_main_arg7 m ρ c)
theorem kp13_main_arg8 : W13 m ρ c (Proc.devRef .tc main_arg8) = W1 m ρ c (Proc.devRef .tc main_arg8) :=
  ((show StableHlo.after hostOps6 (W12 m ρ c) (Proc.devRef .tc main_arg8) = W12 m ρ c (Proc.devRef .tc main_arg8) by host_keep hostOps6)).trans (kp12_main_arg8 m ρ c)
theorem kp13_main_arg9 : W13 m ρ c (Proc.devRef .tc main_arg9) = W1 m ρ c (Proc.devRef .tc main_arg9) :=
  ((show StableHlo.after hostOps6 (W12 m ρ c) (Proc.devRef .tc main_arg9) = W12 m ρ c (Proc.devRef .tc main_arg9) by host_keep hostOps6)).trans (kp12_main_arg9 m ρ c)
theorem kp14_main_v1 : W14 m ρ c (Proc.devRef .tc main_v1) = W1 m ρ c (Proc.devRef .tc main_v1) :=
  (W14_of_ne m ρ c main_v1 (by decide)).trans (kp13_main_v1 m ρ c)
theorem kp14_main_v3 : W14 m ρ c (Proc.devRef .tc main_v3) = W1 m ρ c (Proc.devRef .tc main_v3) :=
  (W14_of_ne m ρ c main_v3 (by decide)).trans (kp13_main_v3 m ρ c)
theorem kp14_main_arg6 : W14 m ρ c (Proc.devRef .tc main_arg6) = W1 m ρ c (Proc.devRef .tc main_arg6) :=
  (W14_of_ne m ρ c main_arg6 (by decide)).trans (kp13_main_arg6 m ρ c)
theorem kp14_main_arg7 : W14 m ρ c (Proc.devRef .tc main_arg7) = W1 m ρ c (Proc.devRef .tc main_arg7) :=
  (W14_of_ne m ρ c main_arg7 (by decide)).trans (kp13_main_arg7 m ρ c)
theorem kp14_main_arg8 : W14 m ρ c (Proc.devRef .tc main_arg8) = W1 m ρ c (Proc.devRef .tc main_arg8) :=
  (W14_of_ne m ρ c main_arg8 (by decide)).trans (kp13_main_arg8 m ρ c)
theorem kp14_main_arg9 : W14 m ρ c (Proc.devRef .tc main_arg9) = W1 m ρ c (Proc.devRef .tc main_arg9) :=
  (W14_of_ne m ρ c main_arg9 (by decide)).trans (kp13_main_arg9 m ρ c)

end Cert.KernelIdeal.KV

end
-- ==== Proof.KChainDefs.lean ====
/-
  The launched arrays of the idealized kernel read by row and column, and the aggregation as a map of tables.
-/
import proofs.«131751_j26465588478351_1_alg».proof.Proof.KKeep

set_option maxRecDepth 16384

noncomputable section

namespace Cert.KernelIdeal.KV

open Idealize.ShloMosaic Idealize.ShloMosaic.TcCoe Idealize.ShloMosaic.Tactic Idealize.SL.Sem Idealize.ShloMosaic.StableHlo
open Idealize.ShloMosaic.ValueIdx Idealize.ShloMosaic.Pipeline
open Cert.KernelIdeal Cert.KernelIdeal.Gen Cert.Lib

variable (m : (ℓ : Loc nD τ sig) → Buf (Elt Ideal) ℓ) (ρ : Dev nD → PrngReg) (c : Dev nD)

/-- The launched arrays, read by row and column. -/
def Xt : Fin 50000 → Fin 128 → EReal := Spec.cur (m ((c : Thread nD τ).loc main_arg0) : S50000x128.Idx → EReal)
def Wtt : Fin 128 → Fin 64 → EReal := Spec.cur (m ((c : Thread nD τ).loc main_arg2) : S128x64.Idx → EReal)
def btv : Fin 64 → EReal := Spec.vec (m ((c : Thread nD τ).loc main_arg3) : S64.Idx → EReal)
def gtv : Fin 64 → EReal := Spec.vec (m ((c : Thread nD τ).loc main_arg4) : S64.Idx → EReal)
def bbtv : Fin 64 → EReal := Spec.vec (m ((c : Thread nD τ).loc main_arg5) : S64.Idx → EReal)
def W1s (i : Fin 3) : Fin 64 → Fin 64 → EReal := fun j cc => (m ((c : Thread nD τ).loc main_arg6) : S3x64x64.Idx → EReal) (ix3 i j cc)
def W2s (i : Fin 3) : Fin 64 → Fin 64 → EReal := fun j cc => (m ((c : Thread nD τ).loc main_arg7) : S3x64x64.Idx → EReal) (ix3 i j cc)
def gams (i : Fin 3) : Fin 64 → EReal := fun cc => (m ((c : Thread nD τ).loc main_arg8) : S3x64.Idx → EReal) (ix2 i cc)
def bets (i : Fin 3) : Fin 64 → EReal := fun cc => (m ((c : Thread nD τ).loc main_arg9) : S3x64.Idx → EReal) (ix2 i cc)

/-- The edges' source and destination words, from the launched edge list. -/
def srcW : IVec S800000 32 := srcOf (m ((c : Thread nD τ).loc main_arg1))
def dstW : IVec S800000 32 := dstOf (m ((c : Thread nD τ).loc main_arg1))

/-- A table as an array. -/
def unc (h : Spec.Tab) : S50000x64.Idx → EReal := fun i => h ⟨(i 0).val, idx2_lt0 i⟩ ⟨(i 1).val, idx2_lt1 i⟩

theorem cur_unc (h : Spec.Tab) : Spec.cur (unc h) = h := rfl

theorem unc_cur (x : S50000x64.Idx → EReal) : unc (Spec.cur x) = x :=
  funext fun i => congrArg x (eq_ix2 i).symm

/-- The aggregation along the launched edges, as a map of tables. -/
def aggK (h : Spec.Tab) : Spec.Tab := Spec.cur (aggArr (unc h) (srcW m c) (dstW m c))

/-- The aggregation of an array, read by row and column, is the aggregation of its table. -/
theorem aggK_cur (x : S50000x64.Idx → EReal) : Spec.cur (aggArr x (srcW m c) (dstW m c)) = aggK m c (Spec.cur x) := by
  unfold aggK; rw [unc_cur]

/-- The aggregation keeps tables real-valued. -/
theorem aggK_real (h : Spec.Tab) (hh : Spec.RealT h) : Spec.RealT (aggK m c h) :=
  fun r cc => aggArr_real (unc h) (srcW m c) (dstW m c) (fun r' c' => hh r' c') r cc

/-- The input transform's table. -/
def Z0 : Spec.Tab := Spec.lin (Xt m c) (Wtt m c) (btv m c)

end Cert.KernelIdeal.KV

end
-- ==== Proof.KLin0Pay.lean ====
/-
  The input transform's block arithmetic, element by element, at the ideal values.

  A block of the kernel holds 2000 rows of the feature table.  What the body stores into the block of z at row p and
  column q is the sum over the inner position k of x(p,k) * w(k,q), plus b(0,q): the product accumulates into the zero
  block, whose entries are the real number 0; the bias row is broadcast over the rows; and the changes of float format
  on the way into the product are the identity at the ideal values.  What it stores into each of the two running rows
  is the row it found plus the block's column sums: of the block of z, and of its squares.
-/
import proofs.«131751_j26465588478351_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.KV

open Idealize.ShloMosaic Idealize.ShloMosaic.ValueIdx Cert.KernelIdeal Cert.KernelIdeal.Gen

/-- The product's dimension numbers: rows of the left block against columns of the right, one inner axis of extent 128. -/
abbrev lin0_D : DotDims S2000x128 S128x64 S2000x64 := dot_S2000x128_S128x64_S2000x64_1_0_0_1_n_n

/-! ## The operand positions of the product -/

theorem lin0_lhs0 (i : S2000x64.Idx) (k : lin0_D.contr.Idx) : (lin0_D.lhsIdx i k 0).val = (i 0).val := by
  unfold DotDims.lhsIdx
  rw [dif_neg (show ¬(0 : Fin S2000x128.rank) ∈ lin0_D.lhsBatch by decide),
    dif_pos (show (0 : Fin S2000x128.rank) ∈ lin0_D.lhsNonContracting by decide)]
  rfl

theorem lin0_lhs1 (i : S2000x64.Idx) (k : lin0_D.contr.Idx) : (lin0_D.lhsIdx i k 1).val = (k ⟨0, by decide⟩).val :=
  lin0_D.lhsIdx_val_of_single rfl i k

theorem lin0_rhs0 (i : S2000x64.Idx) (k : lin0_D.contr.Idx) : (lin0_D.rhsIdx i k 0).val = (k ⟨0, by decide⟩).val :=
  lin0_D.rhsIdx_val_of_single rfl i k

theorem lin0_rhs1 (i : S2000x64.Idx) (k : lin0_D.contr.Idx) : (lin0_D.rhsIdx i k 1).val = (i 1).val := by
  unfold DotDims.rhsIdx
  rw [dif_neg (show ¬(1 : Fin S128x64.rank) ∈ lin0_D.rhsBatch by decide),
    dif_pos (show (1 : Fin S128x64.rank) ∈ lin0_D.rhsNonContracting by decide)]
  rfl

/-- The product into the zero block, at row p and column q: the sum over the inner position of the products. -/
theorem lin0_matmul_at (x : FVec Ideal S2000x128 .bf16) (w : FVec Ideal S128x64 .bf16) (p : Fin 2000) (q : Fin 64) :
    matmul lin0_D none x w (constant S2000x64 .f32 0x00000000#32) (ix2 p q) = ∑ k : Fin 128, x (ix2 p k) * w (ix2 k q) := by
  show FloatOps.matmul lin0_D none x w (constant S2000x64 .f32 0x00000000#32) (ix2 p q) = _
  rw [Ideal.matmul_constant_zero_apply, ← Equiv.sum_comp (contrEquiv1 lin0_D 128 rfl rfl).symm]
  refine Finset.sum_congr rfl fun k _ => ?_
  have hk := contrEquiv1_symm_val lin0_D 128 rfl rfl k
  have el : lin0_D.lhsIdx (ix2 p q) ((contrEquiv1 lin0_D 128 rfl rfl).symm k) = ix2 p k := funext fun a => Fin.ext (by
    match a with
    | ⟨0, _⟩ => exact lin0_lhs0 _ _
    | ⟨1, _⟩ => exact (lin0_lhs1 _ _).trans hk)
  have er : lin0_D.rhsIdx (ix2 p q) ((contrEquiv1 lin0_D 128 rfl rfl).symm k) = ix2 k q := funext fun a => Fin.ext (by
    match a with
    | ⟨0, _⟩ => exact (lin0_rhs0 _ _).trans hk
    | ⟨1, _⟩ => exact lin0_rhs1 _ _)
  rw [el, er]

/-! ## The stored blocks at an index -/

/-- The bias row broadcast over the rows of the block reads, at row p and column q, the bias of column q. -/
theorem lin0_bias_at (b : Vec Ideal S1x64 .f32) (p : Fin 2000) (q : Fin 64) :
    broadcastTo S2000x64 (shapeCast S1x64 b shapeCasts_S1x64_S1x64) broadcasts_S1x64_S2000x64 (ix2 p q) = b (ix2 0 q) := by
  rw [shapeCast_self]
  refine broadcastTo_apply b broadcasts_S1x64_S2000x64 (ix2 p q) (ix2 0 q) fun a => ?_
  match a with
  | ⟨0, _⟩ => rfl
  | ⟨1, _⟩ => rfl

/-- The block of z at row p and column q: the product's entry plus the bias of the column. -/
theorem lin0_pay3_apply (x : Vec Ideal S2000x128 .f32) (w : Vec Ideal S128x64 .f32) (b : Vec Ideal S1x64 .f32)
    (p : Fin 2000) (q : Fin 64) :
    k0_pay3 x w b (ix2 p q) = (∑ k : Fin 128, x (ix2 p k) * w (ix2 k q)) + b (ix2 0 q) := by
  unfold k0_pay3
  refine (addf_apply _ _ _).trans ?_
  refine congrArg₂ (· + ·) ?_ (lin0_bias_at b p q)
  exact lin0_matmul_at (truncf .bf16 x bitsLt_bf16_f32) (truncf .bf16 w bitsLt_bf16_f32) p q

/-- The sum down the rows of a block, recast as a one-row block, reads at column q the sum over the 2000 rows. -/
theorem lin0_colsum_at (v : FVec Ideal S2000x64 .f32) (q : Fin 64) :
    shapeCast S1x64 (multiReduction .add [0] S64 v 0x00000000#32 reduces_S2000x64_S64 (.inl rfl) rfl) shapeCasts_S64_S1x64 (ix2 0 q)
      = ∑ p : Fin 2000, v (ix2 p q) := by
  refine (shapeCast_apply _ shapeCasts_S64_S1x64 (ix2 0 q) (ix1 q) ?_).trans ?_
  · rw [Shape.rowMajor_val_one, Shape.rowMajor_val_two]
    show q.val = 0 * 64 + q.val
    omega
  · refine (Ideal.multiReduction_add_single v 0x00000000#32 reduces_S2000x64_S64 (.inl rfl) rfl (ix1 q)).trans ?_
    refine Finset.sum_congr rfl fun p _ => congrArg v (funext fun a => Fin.ext ?_)
    match a with
    | ⟨0, _⟩ => rfl
    | ⟨1, _⟩ => rfl

/-- The running row of column sums: what the body found there plus the column sums of the block of z. -/
theorem lin0_pay4_apply (x : Vec Ideal S2000x128 .f32) (w : Vec Ideal S128x64 .f32) (b : Vec Ideal S1x64 .f32)
    (acc : Vec Ideal S1x64 .f32) (q : Fin 64) :
    k0_pay4 x w b acc (ix2 0 q) = acc (ix2 0 q) + ∑ p : Fin 2000, k0_pay3 x w b (ix2 p q) := by
  unfold k0_pay4
  refine (addf_apply _ _ _).trans ?_
  refine congrArg₂ (· + ·) ?_ (lin0_colsum_at (k0_pay3 x w b) q)
  rw [shapeCast_self]

/-- The running row of sums of squares: what the body found there plus the column sums of the squares of the block. -/
theorem lin0_pay5_apply (x : Vec Ideal S2000x128 .f32) (w : Vec Ideal S128x64 .f32) (b : Vec Ideal S1x64 .f32)
    (acc : Vec Ideal S1x64 .f32) (q : Fin 64) :
    k0_pay5 x w b acc (ix2 0 q)
      = acc (ix2 0 q) + ∑ p : Fin 2000, k0_pay3 x w b (ix2 p q) * k0_pay3 x w b (ix2 p q) := by
  unfold k0_pay5
  refine (addf_apply _ _ _).trans ?_
  refine congrArg₂ (· + ·) ?_ (lin0_colsum_at (mulf (k0_pay3 x w b) (k0_pay3 x w b)) q)
  rw [shapeCast_self]

/-- The two running rows start from the zero row, whose entries are the real number 0. -/
theorem lin0_pay1_apply (j : S1x64.Idx) : k0_pay1 (F := Ideal) j = 0 := Ideal.ofBits_zero_f32
theorem lin0_pay2_apply (j : S1x64.Idx) : k0_pay2 (F := Ideal) j = 0 := Ideal.ofBits_zero_f32

end Cert.KernelIdeal.KV

end
-- ==== Proof.KLin0Pieces.lean ====
/-
  What the body of the input transform leaves in its three output blocks, in each of its two cases.

  At the first grid point the body first stores the zero row into both running rows and then reads them back; at every
  later point it reads what the point before left.  In both cases the last store into each output block covers the
  whole block, so the block ends holding that store's value: the block of z, the running row of column sums, and the
  running row of sums of squares, each as a function of the three input blocks and of the running row it found.
-/
import proofs.«131751_j26465588478351_1_alg».proof.Proof.Gen.KernelIdeal.Frame
import Idealize.ShloMosaic.Lib.Pipeline.Value
import Idealize.ShloMosaic.Lib.Tactic

noncomputable section

namespace Cert.KernelIdeal.KV

open Idealize.ShloMosaic Idealize.ShloMosaic.TcCoe Idealize.SL.Sem Idealize.ShloMosaic.Tactic
open Cert.KernelIdeal Cert.KernelIdeal.Gen

variable {F : FTy → Type} [FloatOps F]

theorem lin0_hz : (![0, 0] : Fin 2 → Nat) = fun _ => 0 := funext fun a => by fin_cases a <;> rfl

/-! ## The first point: the running rows start from the zero row -/

theorem lin0_out_A_3 (c : Dev nD) (i : grid0.Coords) (a1 : Memref sig .tc .vmem S2000x128 .f32) (h1 : a1.IsWhole)
    (a2 : Memref sig .tc .vmem S128x64 .f32) (h2 : a2.IsWhole) (a3 : Memref sig .tc .vmem S1x64 .f32) (h3 : a3.IsWhole)
    (a4 : Memref sig .tc .vmem S2000x64 .f32) (h4 : a4.IsWhole) (a5 : Memref sig .tc .vmem S1x64 .f32) (h5 : a5.IsWhole)
    (a6 : Memref sig .tc .vmem S1x64 .f32) (h6 : a6.IsWhole) (hc : cond0_0 i)
    (x0 : Vec F S2000x128 .f32) (x1 : Vec F S128x64 .f32) (x2 : Vec F S1x64 .f32) :
    out0_A_3 c i a1 h1 a2 h2 a3 h3 a4 h4 a5 h5 a6 h6 hc x0 x1 x2 = k0_pay3 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  rw [View.canon_unit_zero lin0_hz]
  simp only [View.readAt_eq_ld, h1.read_unread, h2.read_unread, h3.read_unread,
    View.ld_unit_zero (S := S2000x128) lin0_hz, View.ld_unit_zero (S := S128x64) lin0_hz, View.ld_unit_zero (S := S1x64) lin0_hz]

theorem lin0_out_A_4 (c : Dev nD) (i : grid0.Coords) (a1 : Memref sig .tc .vmem S2000x128 .f32) (h1 : a1.IsWhole)
    (a2 : Memref sig .tc .vmem S128x64 .f32) (h2 : a2.IsWhole) (a3 : Memref sig .tc .vmem S1x64 .f32) (h3 : a3.IsWhole)
    (a4 : Memref sig .tc .vmem S2000x64 .f32) (h4 : a4.IsWhole) (a5 : Memref sig .tc .vmem S1x64 .f32) (h5 : a5.IsWhole)
    (a6 : Memref sig .tc .vmem S1x64 .f32) (h6 : a6.IsWhole) (hc : cond0_0 i)
    (x0 : Vec F S2000x128 .f32) (x1 : Vec F S128x64 .f32) (x2 : Vec F S1x64 .f32) :
    out0_A_4 c i a1 h1 a2 h2 a3 h3 a4 h4 a5 h5 a6 h6 hc x0 x1 x2 = k0_pay4 x0 x1 x2 (k0_pay1 (F := F)) := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x64) lin0_hz, View.readCov_unit_zero (S := S1x64) _ lin0_hz]
  simp only [View.readAt_eq_ld, h1.read_unread, h2.read_unread, h3.read_unread,
    View.ld_unit_zero (S := S2000x128) lin0_hz, View.ld_unit_zero (S := S128x64) lin0_hz, View.ld_unit_zero (S := S1x64) lin0_hz]

theorem lin0_out_A_5 (c : Dev nD) (i : grid0.Coords) (a1 : Memref sig .tc .vmem S2000x128 .f32) (h1 : a1.IsWhole)
    (a2 : Memref sig .tc .vmem S128x64 .f32) (h2 : a2.IsWhole) (a3 : Memref sig .tc .vmem S1x64 .f32) (h3 : a3.IsWhole)
    (a4 : Memref sig .tc .vmem S2000x64 .f32) (h4 : a4.IsWhole) (a5 : Memref sig .tc .vmem S1x64 .f32) (h5 : a5.IsWhole)
    (a6 : Memref sig .tc .vmem S1x64 .f32) (h6 : a6.IsWhole) (hc : cond0_0 i)
    (x0 : Vec F S2000x128 .f32) (x1 : Vec F S128x64 .f32) (x2 : Vec F S1x64 .f32) :
    out0_A_5 c i a1 h1 a2 h2 a3 h3 a4 h4 a5 h5 a6 h6 hc x0 x1 x2 = k0_pay5 x0 x1 x2 (k0_pay2 (F := F)) := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x64) lin0_hz, View.readCov_unit_zero (S := S1x64) _ lin0_hz]
  simp only [View.readAt_eq_ld, h1.read_unread, h2.read_unread, h3.read_unread,
    View.ld_unit_zero (S := S2000x128) lin0_hz, View.ld_unit_zero (S := S128x64) lin0_hz, View.ld_unit_zero (S := S1x64) lin0_hz]

/-! ## The later points: the running rows continue from what the point before left -/

theorem lin0_out_B_3 (c : Dev nD) (i : grid0.Coords) (a1 : Memref sig .tc .vmem S2000x128 .f32) (h1 : a1.IsWhole)
    (a2 : Memref sig .tc .vmem S128x64 .f32) (h2 : a2.IsWhole) (a3 : Memref sig .tc .vmem S1x64 .f32) (h3 : a3.IsWhole)
    (a4 : Memref sig .tc .vmem S2000x64 .f32) (h4 : a4.IsWhole) (a5 : Memref sig .tc .vmem S1x64 .f32) (h5 : a5.IsWhole)
    (a6 : Memref sig .tc .vmem S1x64 .f32) (h6 : a6.IsWhole) (hc : ¬cond0_0 i)
    (x0 : Vec F S2000x128 .f32) (x1 : Vec F S128x64 .f32) (x2 : Vec F S1x64 .f32) (xo4 xo5 : Vec F S1x64 .f32) :
    out0_B_3 c i a1 h1 a2 h2 a3 h3 a4 h4 a5 h5 a6 h6 hc x0 x1 x2 xo4 xo5 = k0_pay3 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  rw [View.canon_unit_zero lin0_hz]
  simp only [View.readAt_eq_ld, h1.read_unread, h2.read_unread, h3.read_unread, h5.read_unread, h6.read_unread,
    View.ld_unit_zero (S := S2000x128) lin0_hz, View.ld_unit_zero (S := S128x64) lin0_hz, View.ld_unit_zero (S := S1x64) lin0_hz]

theorem lin0_out_B_4 (c : Dev nD) (i : grid0.Coords) (a1 : Memref sig .tc .vmem S2000x128 .f32) (h1 : a1.IsWhole)
    (a2 : Memref sig .tc .vmem S128x64 .f32) (h2 : a2.IsWhole) (a3 : Memref sig .tc .vmem S1x64 .f32) (h3 : a3.IsWhole)
    (a4 : Memref sig .tc .vmem S2000x64 .f32) (h4 : a4.IsWhole) (a5 : Memref sig .tc .vmem S1x64 .f32) (h5 : a5.IsWhole)
    (a6 : Memref sig .tc .vmem S1x64 .f32) (h6 : a6.IsWhole) (hc : ¬cond0_0 i)
    (x0 : Vec F S2000x128 .f32) (x1 : Vec F S128x64 .f32) (x2 : Vec F S1x64 .f32) (xo4 xo5 : Vec F S1x64 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  rw [View.canon_unit_zero lin0_hz]
  simp only [View.readAt_eq_ld, h1.read_unread, h2.read_unread, h3.read_unread, h5.read_unread, h6.read_unread,
    View.ld_unit_zero (S := S2000x128) lin0_hz, View.ld_unit_zero (S := S128x64) lin0_hz, View.ld_unit_zero (S := S1x64) lin0_hz]

theorem lin0_out_B_5 (c : Dev nD) (i : grid0.Coords) (a1 : Memref sig .tc .vmem S2000x128 .f32) (h1 : a1.IsWhole)
    (a2 : Memref sig .tc .vmem S128x64 .f32) (h2 : a2.IsWhole) (a3 : Memref sig .tc .vmem S1x64 .f32) (h3 : a3.IsWhole)
    (a4 : Memref sig .tc .vmem S2000x64 .f32) (h4 : a4.IsWhole) (a5 : Memref sig .tc .vmem S1x64 .f32) (h5 : a5.IsWhole)
    (a6 : Memref sig .tc .vmem S1x64 .f32) (h6 : a6.IsWhole) (hc : ¬cond0_0 i)
    (x0 : Vec F S2000x128 .f32) (x1 : Vec F S128x64 .f32) (x2 : Vec F S1x64 .f32) (xo4 xo5 : Vec F S1x64 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  rw [View.canon_unit_zero lin0_hz]
  simp only [View.readAt_eq_ld, h1.read_unread, h2.read_unread, h3.read_unread, h5.read_unread, h6.read_unread,
    View.ld_unit_zero (S := S2000x128) lin0_hz, View.ld_unit_zero (S := S128x64) lin0_hz, View.ld_unit_zero (S := S1x64) lin0_hz]

end Cert.KernelIdeal.KV

end
-- ==== Proof.KLin0Outs.lean ====
/-
  The three output blocks after each grid point, as the body's arithmetic of the input blocks at that point, and the
  input blocks as rows of the arrays.

  After the first point the outputs hold the block of z, and the two running rows started from the zero row; after a
  later point they hold that point's block of z, and the running rows continued from what the point before left.
  The block of x at point t is rows 2000 t to 2000 t + 1999 of x; the weights and the bias row are read whole at every
  point.
-/
import proofs.«131751_j26465588478351_1_alg».proof.Proof.KLin0Pieces
import Idealize.ShloMosaic.Lib.ValueIdx

noncomputable section

namespace Cert.KernelIdeal.KV

open Idealize.ShloMosaic Idealize.ShloMosaic.TcCoe Idealize.SL.Sem Idealize.ShloMosaic.ValueIdx
open Cert.KernelIdeal Cert.KernelIdeal.Gen

variable {F : FTy → Type} [FloatOps F]
variable (V : (c : Dev nD) → (b : Ref sig .tc) → Buf (Elt F) ((c : Thread nD τ).loc b))

/-! ## The outputs after a point -/

/-- After the first point: the block of z, and the running rows started from the zero row. -/
theorem outs_A (c : Dev nD) (t : Fin cfg0.N) (h0 : t.val % 25 = 0) :
    outsAt0 V c t.val t.isLt
      = (k0_pay3 (iblk0 V c 0 t) (iblk0 V c 1 t) (iblk0 V c 2 t),
         k0_pay4 (iblk0 V c 0 t) (iblk0 V c 1 t) (iblk0 V c 2 t) (k0_pay1 (F := F)),
         k0_pay5 (iblk0 V c 0 t) (iblk0 V c 1 t) (iblk0 V c 2 t) (k0_pay2 (F := F))) := by
  rw [outsAt0_A V c t h0]
  exact congrArg₂ Prod.mk
    (lin0_out_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t))
    (congrArg₂ Prod.mk
      (lin0_out_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t))
      (lin0_out_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)))

/-- After a later point: that point's block of z, and the running rows continued from the point before. -/
theorem outs_B (c : Dev nD) (t : Fin cfg0.N) (h0 : ¬t.val % 25 = 0) :
    outsAt0 V c t.val t.isLt
      = (k0_pay3 (iblk0 V c 0 t) (iblk0 V c 1 t) (iblk0 V c 2 t),
         k0_pay4 (iblk0 V c 0 t) (iblk0 V c 1 t) (iblk0 V c 2 t) (outsAt0 V c (t.val - 1) (Nat.lt_of_le_of_lt (Nat.sub_le _ _) t.isLt)).2.1,
         k0_pay5 (iblk0 V c 0 t) (iblk0 V c 1 t) (iblk0 V c 2 t) (outsAt0 V c (t.val - 1) (Nat.lt_of_le_of_lt (Nat.sub_le _ _) t.isLt)).2.2) := by
  rw [outsAt0_B V c t h0]
  exact congrArg₂ Prod.mk
    (lin0_out_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2)
    (congrArg₂ Prod.mk
      (lin0_out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2)
      (lin0_out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2))

/-- At every point the first output is that point's block of z. -/
theorem outs_z (c : Dev nD) (t : Fin cfg0.N) :
    (outsAt0 V c t.val t.isLt).1 = k0_pay3 (iblk0 V c 0 t) (iblk0 V c 1 t) (iblk0 V c 2 t) := by
  by_cases h0 : t.val % 25 = 0
  · rw [outs_A V c t h0]
  · rw [outs_B V c t h0]

/-! ## The blocks as parts of the arrays -/

/-- The block indices of the six windows at a point, decided over the grid: the table x and the result z move down
    one block per point; the weights, the bias row and the two running rows stay at block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row p of the block of x at point t is row 2000 t + p of x. -/
theorem iblk_x (c : Dev nD) (t : Fin cfg0.N) (p : Fin 2000) (k : Fin 128) (hr : 2000 * t.val + p.val < 50000) :
    (iblk0 V c 0 t : S2000x128.Idx → Elt F .f32) (ix2 p k)
      = (V c (Pipeline.arrRef spec0 0) : S50000x128.Idx → Elt F .f32) (ix2 ⟨2000 * t.val + p.val, hr⟩ k) := by
  unfold iblk0
  rw [View.read_apply]
  show (V c (Pipeline.arrRef spec0 0) : S50000x128.Idx → Elt F .f32) (((cfg0.win 0).blk t).view.emb (ix2 p k)) = _
  refine congrArg _ (funext fun a => Fin.ext ?_)
  obtain ⟨e0, e1, -⟩ := idx0 t
  match a with
  | ⟨0, _⟩ => show win0_0.index t (0 : Fin 2) * 2000 + 1 * p.val = 2000 * t.val + p.val; rw [e0]; omega
  | ⟨1, _⟩ => show win0_0.index t (1 : Fin 2) * 128 + 1 * k.val = k.val; rw [e1]; omega

/-- The block of the weights at every point is the weights. -/
theorem iblk_w (c : Dev nD) (t : Fin cfg0.N) (k : Fin 128) (q : Fin 64) :
    (iblk0 V c 1 t : S128x64.Idx → Elt F .f32) (ix2 k q)
      = (V c (Pipeline.arrRef spec0 1) : S128x64.Idx → Elt F .f32) (ix2 k q) := by
  unfold iblk0
  rw [View.read_apply]
  show (V c (Pipeline.arrRef spec0 1) : S128x64.Idx → Elt F .f32) (((cfg0.win 1).blk t).view.emb (ix2 k q)) = _
  refine congrArg _ (funext fun a => Fin.ext ?_)
  obtain ⟨-, -, e0, e1, -⟩ := idx0 t
  match a with
  | ⟨0, _⟩ => show win0_1.index t (0 : Fin 2) * 128 + 1 * k.val = k.val; rw [e0]; omega
  | ⟨1, _⟩ => show win0_1.index t (1 : Fin 2) * 64 + 1 * q.val = q.val; rw [e1]; omega

/-- The block of the bias row at every point is the bias row. -/
theorem iblk_b (c : Dev nD) (t : Fin cfg0.N) (q : Fin 64) :
    (iblk0 V c 2 t : S1x64.Idx → Elt F .f32) (ix2 0 q)
      = (V c (Pipeline.arrRef spec0 2) : S1x64.Idx → Elt F .f32) (ix2 0 q) := by
  unfold iblk0
  rw [View.read_apply]
  show (V c (Pipeline.arrRef spec0 2) : S1x64.Idx → Elt F .f32) (((cfg0.win 2).blk t).view.emb (ix2 0 q)) = _
  refine congrArg _ (funext fun a => Fin.ext ?_)
  obtain ⟨-, -, -, -, e0, e1, -⟩ := idx0 t
  match a with
  | ⟨0, _⟩ => show win0_2.index t (0 : Fin 2) * 1 + 1 * 0 = 0; rw [e0]
  | ⟨1, _⟩ => show win0_2.index t (1 : Fin 2) * 64 + 1 * q.val = q.val; rw [e1]; omega

end Cert.KernelIdeal.KV

end
-- ==== Proof.KLin0Z.lean ====
/-
  The result z of the input transform, as the array the kernel's first launch leaves.

  Every grid point writes its block of z back, and the blocks tile the array: row r lies in the block of point
  r / 2000.  The block of point t at row p and column q is the product's entry of row 2000 t + p of x with column q of
  the weights, plus the bias of column q — the input transform of the specification at that row and column.  So the
  array ends holding the input transform everywhere.
-/
import proofs.«131751_j26465588478351_1_alg».proof.Proof.Spec
import proofs.«131751_j26465588478351_1_alg».proof.Proof.KLin0Pay
import proofs.«131751_j26465588478351_1_alg».proof.Proof.KLin0Outs
import Idealize.ShloMosaic.Lib.Pipeline.Value

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The arrays the launch finds, by row and column, and the input transform of them -/

/-- The feature table x, the weights and the bias row as the launch finds them. -/
abbrev Xa (c : Dev nD) : Fin 50000 → Fin 128 → EReal := Cert.Spec.cur (V c (Pipeline.arrRef spec0 0) : S50000x128.Idx → EReal)
abbrev Wa (c : Dev nD) : Fin 128 → Fin 64 → EReal := Cert.Spec.cur (V c (Pipeline.arrRef spec0 1) : S128x64.Idx → EReal)
abbrev ba (c : Dev nD) : Fin 64 → EReal := Cert.Spec.row (V c (Pipeline.arrRef spec0 2) : S1x64.Idx → EReal)
/-- The input transform of them. -/
abbrev Za (c : Dev nD) : Fin 50000 → Fin 64 → EReal := Cert.Spec.lin (Xa V c) (Wa V c) (ba V c)

/-- The block of z at point t, at row p and column q, is the input transform at row 2000 t + p and column q. -/
theorem zblock (c : Dev nD) (t : Fin cfg0.N) (p : Fin 2000) (q : Fin 64) (hr : 2000 * t.val + p.val < 50000) :
    k0_pay3 (iblk0 V c 0 t) (iblk0 V c 1 t) (iblk0 V c 2 t) (ix2 p q) = Za V c ⟨2000 * t.val + p.val, hr⟩ q := by
  refine (lin0_pay3_apply (iblk0 V c 0 t) (iblk0 V c 1 t) (iblk0 V c 2 t) p q).trans ?_
  show _ = (∑ j, Xa V c ⟨2000 * t.val + p.val, hr⟩ j * Wa V c j q) + ba V c q
  exact congrArg₂ (· + ·)
    (Finset.sum_congr rfl fun k _ => congrArg₂ (· * ·) (iblk_x V c t p k hr) (iblk_w V c t k q))
    (iblk_b V c t q)

/-- The input transform as contents of the result array. -/
def Zarr (c : Dev nD) : S50000x64.Idx → EReal := fun i => Za V c ⟨(i 0).val, idx2_lt0 i⟩ ⟨(i 1).val, idx2_lt1 i⟩

theorem Zarr_apply (c : Dev nD) (r : Fin 50000) (q : Fin 64) : Zarr V c (ix2 r q) = Za V c r q := rfl

/-- What point t writes back is block t of the input transform. -/
theorem flushed_z (c : Dev nD) (t : Fin cfg0.N) :
    (dat0 V c).flushed 3 t = ((cfg0.win 3).blk t).view.read (Elt Ideal) (Zarr V c) := by
  show (cfg0.win 3).cut (grid0.coords t) ((dat0 V c).after 3 t) = _
  rw [after0_3, outs_z V c t]
  funext j
  obtain ⟨p, q, rfl⟩ : ∃ (p : Fin 2000) (q : Fin 64), j = ix2 p q := ⟨j 0, j 1, eq_ix2 (n0 := 2000) (n1 := 64) j⟩
  have hN : t.val < 25 := lt_of_lt_of_eq t.isLt (show cfg0.N = 25 from N_0)
  have hr : 2000 * t.val + p.val < 50000 := by have := p.isLt; omega
  show k0_pay3 (iblk0 V c 0 t) (iblk0 V c 1 t) (iblk0 V c 2 t) (ix2 p q) = Zarr V c (((cfg0.win 3).blk t).view.emb (ix2 p q))
  refine (zblock V c t p q hr).trans ?_
  obtain ⟨-, -, -, -, -, -, e0, e1, -⟩ := idx0 t
  refine congrArg₂ (Za V c) (Fin.ext ?_) (Fin.ext ?_)
  · show 2000 * t.val + p.val = win0_3.index t (0 : Fin 2) * 2000 + 1 * p.val
    rw [e0]; omega
  · show q.val = win0_3.index t (1 : Fin 2) * 64 + 1 * q.val
    rw [e1]; omega

/-- So the result array ends holding the input transform. -/
theorem final_z (c : Dev nD) : (dat0 V c).arrAt 3 cfg0.N = Zarr V c :=
  (dat0 V c).arrAt_eq_of_cover 3 (Zarr V c) (fun t _ => flushed_z V c t) fun i => by
    have hN : cfg0.N = 25 := N_0
    have hi0 : (i 0).val < 50000 := (i 0).isLt
    have hi1 : (i 1).val < 64 := (i 1).isLt
    have ht : (i 0).val / 2000 < cfg0.N := by rw [hN]; omega
    refine ⟨⟨(i 0).val / 2000, ht⟩, flush0_3 _, ?_⟩
    show i ∈ ((View.whole main_v5_0).slice (win0_3.rect ⟨(i 0).val / 2000, ht⟩)).set
    rw [View.set_slice_whole, Rect.mem_set_unit]
    intro a
    obtain ⟨-, -, -, -, -, -, e0, e1, -⟩ := idx0 ⟨(i 0).val / 2000, ht⟩
    match a with
    | ⟨0, _⟩ =>
      show win0_3.index ⟨(i 0).val / 2000, ht⟩ (0 : Fin 2) * 2000 ≤ (i 0).val
        ∧ (i 0).val < win0_3.index ⟨(i 0).val / 2000, ht⟩ (0 : Fin 2) * 2000 + 2000
      rw [e0]; dsimp only; omega
    | ⟨1, _⟩ =>
      show win0_3.index ⟨(i 0).val / 2000, ht⟩ (1 : Fin 2) * 64 ≤ (i 1).val
        ∧ (i 1).val < win0_3.index ⟨(i 0).val / 2000, ht⟩ (1 : Fin 2) * 64 + 64
      rw [e1]; omega

/-- The result z, row by row and column by column: the input transform of the arrays the launch finds. -/
theorem z_value (c : Dev nD) (r : Fin 50000) (cc : Fin 64) :
    ((dat0 V c).arrAt 3 cfg0.N : S50000x64.Idx → EReal) (ix2 r cc)
      = Cert.Spec.lin (Cert.Spec.cur (V c (Pipeline.arrRef spec0 0) : S50000x128.Idx → EReal))
          (Cert.Spec.cur (V c (Pipeline.arrRef spec0 1) : S128x64.Idx → EReal))
          (Cert.Spec.row (V c (Pipeline.arrRef spec0 2) : S1x64.Idx → EReal)) r cc :=
  congrFun (final_z V c) (ix2 r cc)

end Cert.KernelIdeal.KV

end
-- ==== Proof.KLin0Sums.lean ====
/-
  The two running rows of the input transform's launch: after point n they hold the column sums, of z and of its
  squares, over the rows of blocks 0 to n; and the arrays they are written back to end holding the sums over all rows.

  The rows of blocks 0 to n are rows 0 to 2000 (n + 1) - 1.  A sum over them is written as a sum over the naturals
  below 2000 (n + 1) of the summand extended by zero past the last row, so that one more block is one more stretch of
  2000 naturals.  The first point adds its block's sums to the zero row; every later point adds its block's sums to
  what the point before left.  Only the last point writes the running rows back: by then the naturals below
  2000 * 25 = 50000 are all the rows.  Addition of extended reals is commutative and associative, so the order and the
  grouping of the sums do not matter.
-/
import proofs.«131751_j26465588478351_1_alg».proof.Proof.KLin0Z

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen

/-! ## Sums over the first rows -/

/-- A function of the rows, extended by zero past the last row. -/
def lin0_ext0 (f : Fin 50000 → EReal) (i : ℕ) : EReal := if h : i < 50000 then f ⟨i, h⟩ else 0

theorem lin0_ext0_of_lt (f : Fin 50000 → EReal) (i : ℕ) (h : i < 50000) : lin0_ext0 f i = f ⟨i, h⟩ := dif_pos h

/-- Over all 50000 naturals it sums to the sum over the rows. -/
theorem lin0_sum_ext0 (f : Fin 50000 → EReal) : ∑ i ∈ Finset.range 50000, lin0_ext0 f i = ∑ r, f r := by
  rw [Finset.sum_range]
  exact Finset.sum_congr rfl fun r _ => lin0_ext0_of_lt f r.val r.isLt

/-- One more block is one more stretch of 2000 naturals. -/
theorem lin0_range_step (g : ℕ → EReal) (n : ℕ) :
    ∑ i ∈ Finset.range (2000 * (n + 1)), g i
      = ∑ i ∈ Finset.range (2000 * n), g i + ∑ x ∈ Finset.range 2000, g (2000 * n + x) := by
  rw [show 2000 * (n + 1) = 2000 * n + 2000 from Nat.mul_succ 2000 n, Finset.sum_range_add]

/-- A sum over the 2000 rows of block n, of a summand that is f at row 2000 n + p. -/
theorem lin0_block_sum (f : Fin 50000 → EReal) (n : ℕ) (g : Fin 2000 → EReal)
    (hg : ∀ (p : Fin 2000) (hr : 2000 * n + p.val < 50000), g p = f ⟨2000 * n + p.val, hr⟩) (hn : n < 25) :
    ∑ p, g p = ∑ x ∈ Finset.range 2000, lin0_ext0 f (2000 * n + x) := by
  rw [Finset.sum_range]
  refine Finset.sum_congr rfl fun p _ => ?_
  have hr : 2000 * n + p.val < 50000 := by have := p.isLt; omega
  exact (hg p hr).trans (lin0_ext0_of_lt f _ hr).symm

variable (V : (c : Dev nD) → (b : Ref sig .tc) → Buf (Elt Ideal) ((c : Thread nD τ).loc b))

/-! ## The running rows after a point -/

/-- The running row of column sums after point n: the sums over the rows of blocks 0 to n. -/
theorem acc_s (c : Dev nD) (q : Fin 64) : ∀ (n : ℕ) (h : n < cfg0.N),
    (outsAt0 V c n h).2.1 (ix2 0 q) = ∑ i ∈ Finset.range (2000 * (n + 1)), lin0_ext0 (fun r => Za V c r q) i
  | 0, h => by
    have e : outsAt0 V c 0 h = _ := outs_A V c ⟨0, h⟩ rfl
    rw [e]
    refine (lin0_pay4_apply (iblk0 V c 0 ⟨0, h⟩) (iblk0 V c 1 ⟨0, h⟩) (iblk0 V c 2 ⟨0, h⟩) (k0_pay1 (F := Ideal)) q).trans ?_
    rw [lin0_pay1_apply, lin0_range_step, Nat.mul_zero, Finset.sum_range_zero]
    refine congrArg (0 + ·) ?_
    refine (lin0_block_sum (fun r => Za V c r q) 0 _ (fun p hr => zblock V c ⟨0, h⟩ p q hr) (by decide)).trans ?_
    rw [Nat.mul_zero]
  | n + 1, h => by
    have hN : cfg0.N = 25 := N_0
    have hB : ¬(⟨n + 1, h⟩ : Fin cfg0.N).val % 25 = 0 := by dsimp only; omega
    have e : outsAt0 V c (n + 1) h = _ := outs_B V c ⟨n + 1, h⟩ hB
    rw [e]
    refine (lin0_pay4_apply (iblk0 V c 0 ⟨n + 1, h⟩) (iblk0 V c 1 ⟨n + 1, h⟩) (iblk0 V c 2 ⟨n + 1, h⟩) _ q).trans ?_
    rw [lin0_range_step _ (n + 1)]
    refine congrArg₂ (· + ·) (acc_s c q n (Nat.lt_of_succ_lt h)) ?_
    exact lin0_block_sum (fun r => Za V c r q) (n + 1) _ (fun p hr => zblock V c ⟨n + 1, h⟩ p q hr) (by omega)

/-- The block of squares at point t, at row p and column q: the square of the input transform at row 2000 t + p. -/
theorem sqblock (c : Dev nD) (t : Fin cfg0.N) (p : Fin 2000) (q : Fin 64) (hr : 2000 * t.val + p.val < 50000) :
    k0_pay3 (iblk0 V c 0 t) (iblk0 V c 1 t) (iblk0 V c 2 t) (ix2 p q) * k0_pay3 (iblk0 V c 0 t) (iblk0 V c 1 t) (iblk0 V c 2 t) (ix2 p q)
      = Cert.Spec.sq (Za V c) ⟨2000 * t.val + p.val, hr⟩ q := by
  rw [zblock V c t p q hr]
  rfl

/-- The running row of sums of squares after point n: the sums over the rows of blocks 0 to n. -/
theorem acc_ss (c : Dev nD) (q : Fin 64) : ∀ (n : ℕ) (h : n < cfg0.N),
    (outsAt0 V c n h).2.2 (ix2 0 q) = ∑ i ∈ Finset.range (2000 * (n + 1)), lin0_ext0 (fun r => Cert.Spec.sq (Za V c) r q) i
  | 0, h => by
    have e : outsAt0 V c 0 h = _ := outs_A V c ⟨0, h⟩ rfl
    rw [e]
    refine (lin0_pay5_apply (iblk0 V c 0 ⟨0, h⟩) (iblk0 V c 1 ⟨0, h⟩) (iblk0 V c 2 ⟨0, h⟩) (k0_pay2 (F := Ideal)) q).trans ?_
    rw [lin0_pay2_apply, lin0_range_step, Nat.mul_zero, Finset.sum_range_zero]
    refine congrArg (0 + ·) ?_
    refine (lin0_block_sum (fun r => Cert.Spec.sq (Za V c) r q) 0 _ (fun p hr => sqblock V c ⟨0, h⟩ p q hr) (by decide)).trans ?_
    rw [Nat.mul_zero]
  | n + 1, h => by
    have hN : cfg0.N = 25 := N_0
    have hB : ¬(⟨n + 1, h⟩ : Fin cfg0.N).val % 25 = 0 := by dsimp only; omega
    have e : outsAt0 V c (n + 1) h = _ := outs_B V c ⟨n + 1, h⟩ hB
    rw [e]
    refine (lin0_pay5_apply (iblk0 V c 0 ⟨n + 1, h⟩) (iblk0 V c 1 ⟨n + 1, h⟩) (iblk0 V c 2 ⟨n + 1, h⟩) _ q).trans ?_
    rw [lin0_range_step _ (n + 1)]
    refine congrArg₂ (· + ·) (acc_ss c q n (Nat.lt_of_succ_lt h)) ?_
    exact lin0_block_sum (fun r => Cert.Spec.sq (Za V c) r q) (n + 1) _ (fun p hr => sqblock V c ⟨n + 1, h⟩ p q hr) (by omega)

/-! ## The arrays of the running rows after the run -/

/-- The column sums of the input transform, and of its squares, as contents of a one-row array. -/
def Sarr (c : Dev nD) : S1x64.Idx → EReal := fun i => Cert.Spec.colSum (Za V c) ⟨(i 1).val, idx2_lt1 i⟩
def SSarr (c : Dev nD) : S1x64.Idx → EReal := fun i => Cert.Spec.colSum (Cert.Spec.sq (Za V c)) ⟨(i 1).val, idx2_lt1 i⟩

theorem Sarr_apply (c : Dev nD) (q : Fin 64) : Sarr V c (ix2 0 q) = Cert.Spec.colSum (Za V c) q := rfl
theorem SSarr_apply (c : Dev nD) (q : Fin 64) : SSarr V c (ix2 0 q) = Cert.Spec.colSum (Cert.Spec.sq (Za V c)) q := rfl

/-- A one-row block read through window 4's rectangle at a point: the window stays at block 0, so it is the row. -/
theorem lin0_cut4_apply (X : S1x64.Idx → EReal) (t : Fin cfg0.N) (q : Fin 64) :
    (cfg0.win 4).cut (grid0.coords t) X (ix2 0 q) = X (ix2 0 q) := rfl

theorem lin0_read4_apply (Y : S1x64.Idx → EReal) (t : Fin cfg0.N) (q : Fin 64) :
    ((cfg0.win 4).blk t).view.read (Elt Ideal) Y (ix2 0 q) = Y (ix2 0 q) := by
  obtain ⟨-, -, -, -, -, -, -, -, e0, e1, -⟩ := idx0 t
  show Y (((cfg0.win 4).blk t).view.emb (ix2 0 q)) = _
  refine congrArg Y (funext fun a => Fin.ext ?_)
  match a with
  | ⟨0, _⟩ => show win0_4.index t (0 : Fin 2) * 1 + 1 * 0 = 0; rw [e0]
  | ⟨1, _⟩ => show win0_4.index t (1 : Fin 2) * 64 + 1 * q.val = q.val; rw [e1]; omega

/-- The last point writes back the column sums over all rows. -/
theorem flushed_s (c : Dev nD) (t : Fin cfg0.N) (hf : (cfg0.win 4).flush t = true) :
    (dat0 V c).flushed 4 t = ((cfg0.win 4).blk t).view.read (Elt Ideal) (Sarr V c) := by
  have hN : cfg0.N = 25 := N_0
  have h24 : t.val = 24 := by have := (flush0_4 t).mp hf; have := t.isLt; omega
  show (cfg0.win 4).cut (grid0.coords t) ((dat0 V c).after 4 t) = _
  rw [after0_4]
  funext j
  obtain ⟨z, q, rfl⟩ : ∃ (z : Fin 1) (q : Fin 64), j = ix2 z q := ⟨j 0, j 1, eq_ix2 (n0 := 1) (n1 := 64) j⟩
  obtain rfl : z = 0 := Subsingleton.elim _ _
  refine (lin0_cut4_apply _ t q).trans ?_
  refine Eq.trans ?_ (lin0_read4_apply (Sarr V c) t q).symm
  rw [Sarr_apply]
  refine (acc_s V c q t.val t.isLt).trans ?_
  rw [h24, show 2000 * (24 + 1) = 50000 from rfl]
  unfold Cert.Spec.colSum
  exact lin0_sum_ext0 _

/-- A one-row block read through window 5's rectangle at a point: the window stays at block 0, so it is the row. -/
theorem lin0_cut5_apply (X : S1x64.Idx → EReal) (t : Fin cfg0.N) (q : Fin 64) :
    (cfg0.win 5).cut (grid0.coords t) X (ix2 0 q) = X (ix2 0 q) := rfl

theorem lin0_read5_apply (Y : S1x64.Idx → EReal) (t : Fin cfg0.N) (q : Fin 64) :
    ((cfg0.win 5).blk t).view.read (Elt Ideal) Y (ix2 0 q) = Y (ix2 0 q) := by
  obtain ⟨-, -, -, -, -, -, -, -, -, -, e0, e1⟩ := idx0 t
  show Y (((cfg0.win 5).blk t).view.emb (ix2 0 q)) = _
  refine congrArg Y (funext fun a => Fin.ext ?_)
  match a with
  | ⟨0, _⟩ => show win0_5.index t (0 : Fin 2) * 1 + 1 * 0 = 0; rw [e0]
  | ⟨1, _⟩ => show win0_5.index t (1 : Fin 2) * 64 + 1 * q.val = q.val; rw [e1]; omega

/-- The last point writes back the column sums of squares over all rows. -/
theorem flushed_ss (c : Dev nD) (t : Fin cfg0.N) (hf : (cfg0.win 5).flush t = true) :
    (dat0 V c).flushed 5 t = ((cfg0.win 5).blk t).view.read (Elt Ideal) (SSarr V c) := by
  have hN : cfg0.N = 25 := N_0
  have h24 : t.val = 24 := by have := (flush0_5 t).mp hf; have := t.isLt; omega
  show (cfg0.win 5).cut (grid0.coords t) ((dat0 V c).after 5 t) = _
  rw [after0_5]
  funext j
  obtain ⟨z, q, rfl⟩ : ∃ (z : Fin 1) (q : Fin 64), j = ix2 z q := ⟨j 0, j 1, eq_ix2 (n0 := 1) (n1 := 64) j⟩
  obtain rfl : z = 0 := Subsingleton.elim _ _
  refine (lin0_cut5_apply _ t q).trans ?_
  refine Eq.trans ?_ (lin0_read5_apply (SSarr V c) t q).symm
  rw [SSarr_apply]
  refine (acc_ss V c q t.val t.isLt).trans ?_
  rw [h24, show 2000 * (24 + 1) = 50000 from rfl]
  unfold Cert.Spec.colSum
  exact lin0_sum_ext0 _

/-- The one block of a one-row array covers it: the last point's write-back is the whole array. -/
theorem final_s (c : Dev nD) : (dat0 V c).arrAt 4 cfg0.N = Sarr V c :=
  (dat0 V c).arrAt_eq_of_cover 4 (Sarr V c) (flushed_s V c) fun i => by
    have hN : cfg0.N = 25 := N_0
    have hi0 : (i 0).val < 1 := (i 0).isLt
    have hi1 : (i 1).val < 64 := (i 1).isLt
    have ht : 24 < cfg0.N := by rw [hN]; decide
    refine ⟨⟨24, ht⟩, (flush0_4 ⟨24, ht⟩).mpr rfl, ?_⟩
    show i ∈ ((View.whole main_v5_1).slice (win0_4.rect ⟨24, ht⟩)).set
    rw [View.set_slice_whole, Rect.mem_set_unit]
    intro a
    obtain ⟨-, -, -, -, -, -, -, -, e0, e1, -⟩ := idx0 ⟨24, ht⟩
    match a with
    | ⟨0, _⟩ =>
      show win0_4.index ⟨24, ht⟩ (0 : Fin 2) * 1 ≤ (i 0).val ∧ (i 0).val < win0_4.index ⟨24, ht⟩ (0 : Fin 2) * 1 + 1
      rw [e0]; omega
    | ⟨1, _⟩ =>
      show win0_4.index ⟨24, ht⟩ (1 : Fin 2) * 64 ≤ (i 1).val ∧ (i 1).val < win0_4.index ⟨24, ht⟩ (1 : Fin 2) * 64 + 64
      rw [e1]; omega

theorem final_ss (c : Dev nD) : (dat0 V c).arrAt 5 cfg0.N = SSarr V c :=
  (dat0 V c).arrAt_eq_of_cover 5 (SSarr V c) (flushed_ss V c) fun i => by
    have hN : cfg0.N = 25 := N_0
    have hi0 : (i 0).val < 1 := (i 0).isLt
    have hi1 : (i 1).val < 64 := (i 1).isLt
    have ht : 24 < cfg0.N := by rw [hN]; decide
    refine ⟨⟨24, ht⟩, (flush0_5 ⟨24, ht⟩).mpr rfl, ?_⟩
    show i ∈ ((View.whole main_v5_2).slice (win0_5.rect ⟨24, ht⟩)).set
    rw [View.set_slice_whole, Rect.mem_set_unit]
    intro a
    obtain ⟨-, -, -, -, -, -, -, -, -, -, e0, e1⟩ := idx0 ⟨24, ht⟩
    match a with
    | ⟨0, _⟩ =>
      show win0_5.index ⟨24, ht⟩ (0 : Fin 2) * 1 ≤ (i 0).val ∧ (i 0).val < win0_5.index ⟨24, ht⟩ (0 : Fin 2) * 1 + 1
      rw [e0]; omega
    | ⟨1, _⟩ =>
      show win0_5.index ⟨24, ht⟩ (1 : Fin 2) * 64 ≤ (i 1).val ∧ (i 1).val < win0_5.index ⟨24, ht⟩ (1 : Fin 2) * 64 + 64
      rw [e1]; omega

/-- The array of column sums, column by column: the column sums of the input transform of the arrays the launch finds. -/
theorem s_value (c : Dev nD) (cc : Fin 64) :
    ((dat0 V c).arrAt 4 cfg0.N : S1x64.Idx → EReal) (ix2 0 cc)
      = Cert.Spec.colSum (Cert.Spec.lin (Cert.Spec.cur (V c (Pipeline.arrRef spec0 0) : S50000x128.Idx → EReal))
          (Cert.Spec.cur (V c (Pipeline.arrRef spec0 1) : S128x64.Idx → EReal))
          (Cert.Spec.row (V c (Pipeline.arrRef spec0 2) : S1x64.Idx → EReal))) cc :=
  congrFun (final_s V c) (ix2 0 cc)

/-- The array of sums of squares, column by column: the column sums of the squares of that input transform. -/
theorem ss_value (c : Dev nD) (cc : Fin 64) :
    ((dat0 V c).arrAt 5 cfg0.N : S1x64.Idx → EReal) (ix2 0 cc)
      = Cert.Spec.colSum (Cert.Spec.sq (Cert.Spec.lin (Cert.Spec.cur (V c (Pipeline.arrRef spec0 0) : S50000x128.Idx → EReal))
          (Cert.Spec.cur (V c (Pipeline.arrRef spec0 1) : S128x64.Idx → EReal))
          (Cert.Spec.row (V c (Pipeline.arrRef spec0 2) : S1x64.Idx → EReal)))) cc :=
  congrFun (final_ss V c) (ix2 0 cc)

end Cert.KernelIdeal.KV

end
-- ==== Proof.KNormPay.lean ====
/-
  The batch-norm-apply body at one entry.

  The body reads a block of the table z (2000 rows, 64 columns) and four one-row arrays: the variance, gamma,
  the mean and beta, in that order.  Every operation is entry by entry, and a one-row array is spread down the
  rows, so at row p and column q only its entry at column q is read.  The stored value at (p, q) is therefore
  gamma q * (z p q - mean q) * (var q + epsilon)^(-1/2) + beta q.
  The four normalisation bodies of the program are one and the same term, so one lemma serves all four.
-/
import proofs.«131751_j26465588478351_1_alg».proof.Proof.Gen.KernelIdeal.Skeleton
import proofs.«131751_j26465588478351_1_alg».proof.Proof.Spec
import Idealize.ShloMosaic.Lib.Pipeline.Value
import Idealize.ShloMosaic.Lib.ValueIdx

noncomputable section

namespace Cert.KernelIdeal.KV

open Cert.KernelIdeal Cert.KernelIdeal.Gen Idealize.ShloMosaic Idealize.ShloMosaic.ValueIdx

/-- A one-row array spread down 2000 rows, read at row p and column q, is the row's entry at column q. -/
theorem spread_apply (x : S1x64.Idx → EReal) (p : Fin 2000) (q : Fin 64) :
    broadcastTo S2000x64 x broadcasts_S1x64_S2000x64 (ix2 p q) = x (ix2 0 q) :=
  broadcastTo_apply x broadcasts_S1x64_S2000x64 (ix2 p q) (ix2 0 q) (fun a => by
    match a with
    | ⟨0, _⟩ => rfl
    | ⟨1, _⟩ => rfl)

/-- The stored value of the first normalisation body at row p, column q of its block. -/
theorem norm_pay1_apply (z : Vec Ideal S2000x64 .f32) (var g mu b : Vec Ideal S1x64 .f32) (p : Fin 2000) (q : Fin 64) :
    k1_pay1 (F := Ideal) z var g mu b (ix2 p q)
      = ((g (ix2 0 q) * (z (ix2 p q) - mu (ix2 0 q))) * FloatOps.rsqrt (F := Ideal) (φ := .f32) (var (ix2 0 q) + Cert.Spec.εw))
        + b (ix2 0 q) := by
  unfold k1_pay1
  simp only [shapeCast_self]
  rw [addf_apply, mulf_apply, mulf_apply, subf_apply, spread_apply, spread_apply, spread_apply, spread_apply]
  rfl

/-- The other three normalisation bodies are the same term, so they store the same value. -/
theorem norm_pay3_apply (z : Vec Ideal S2000x64 .f32) (var g mu b : Vec Ideal S1x64 .f32) (p : Fin 2000) (q : Fin 64) :
    k3_pay1 (F := Ideal) z var g mu b (ix2 p q)
      = ((g (ix2 0 q) * (z (ix2 p q) - mu (ix2 0 q))) * FloatOps.rsqrt (F := Ideal) (φ := .f32) (var (ix2 0 q) + Cert.Spec.εw))
        + b (ix2 0 q) := norm_pay1_apply z var g mu b p q
theorem norm_pay5_apply (z : Vec Ideal S2000x64 .f32) (var g mu b : Vec Ideal S1x64 .f32) (p : Fin 2000) (q : Fin 64) :
    k5_pay1 (F := Ideal) z var g mu b (ix2 p q)
      = ((g (ix2 0 q) * (z (ix2 p q) - mu (ix2 0 q))) * FloatOps.rsqrt (F := Ideal) (φ := .f32) (var (ix2 0 q) + Cert.Spec.εw))
        + b (ix2 0 q) := norm_pay1_apply z var g mu b p q
theorem norm_pay7_apply (z : Vec Ideal S2000x64 .f32) (var g mu b : Vec Ideal S1x64 .f32) (p : Fin 2000) (q : Fin 64) :
    k7_pay1 (F := Ideal) z var g mu b (ix2 p q)
      = ((g (ix2 0 q) * (z (ix2 p q) - mu (ix2 0 q))) * FloatOps.rsqrt (F := Ideal) (φ := .f32) (var (ix2 0 q) + Cert.Spec.εw))
        + b (ix2 0 q) := norm_pay1_apply z var g mu b p q

/-- The zero offsets of a load or a store of a whole two-axis block, as a constant function. -/
theorem zero_off : (![0, 0] : Fin 2 → Nat) = fun _ => 0 := funext fun a => by fin_cases a <;> rfl

end Cert.KernelIdeal.KV

end
-- ==== Proof.KNorm1.lean ====
/-
  The normalisation region number 1 of the program, read as a whole array.

  The region runs over 25 grid points.  At point t it reads rows 2000 t .. 2000 t + 1999 of the table z (all 64
  columns) and the whole of four one-row arrays (mean, variance, gamma, beta), and writes back rows
  2000 t .. 2000 t + 1999 of the output.  The value stored at row p, column q of the block is
  gamma q * (z (2000 t + p) q - mean q) * (var q + epsilon)^(-1/2) + beta q: the block of ONE whole-array function,
  the normalisation of the input arrays.  The 25 blocks tile the 50000 rows (row r lies in block r / 2000), so after
  the region the output array is that function at every row and column.
-/
import proofs.«131751_j26465588478351_1_alg».proof.Proof.Gen.KernelIdeal.Frame
import proofs.«131751_j26465588478351_1_alg».proof.Proof.Spec
import proofs.«131751_j26465588478351_1_alg».proof.Proof.KNormPay
import Idealize.ShloMosaic.Lib.Pipeline.Value
import Idealize.ShloMosaic.Lib.ValueIdx

noncomputable section

namespace Cert.KernelIdeal.KV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The five input arrays as the region finds them: the table, the mean, the variance, gamma, beta. -/
abbrev zArr1 (c : Dev nD) : S50000x64.Idx → EReal := V c (Pipeline.arrRef spec1 0)
abbrev muArr1 (c : Dev nD) : S1x64.Idx → EReal := V c (Pipeline.arrRef spec1 1)
abbrev varArr1 (c : Dev nD) : S1x64.Idx → EReal := V c (Pipeline.arrRef spec1 2)
abbrev gArr1 (c : Dev nD) : S1x64.Idx → EReal := V c (Pipeline.arrRef spec1 3)
abbrev bArr1 (c : Dev nD) : S1x64.Idx → EReal := V c (Pipeline.arrRef spec1 4)

/-- The normalised table as one function of the whole-array index. -/
abbrev normArr1 (c : Dev nD) : S50000x64.Idx → EReal := fun i =>
  Cert.Spec.norm (Cert.Spec.cur (zArr1 V c)) (Cert.Spec.row (muArr1 V c)) (Cert.Spec.row (varArr1 V c))
    (Cert.Spec.row (gArr1 V c)) (Cert.Spec.row (bArr1 V c)) (i 0) (i 1)

/-- The block indices of the six windows at every grid point: the table and the output move down with the point,
    the one-row arrays stay. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p, column q of the output's block at point t is row 2000 t + p, column q of the array. -/
theorem out_emb1 (t : Fin cfg1.N) (p : Fin 2000) (q : Fin 64) (h : 2000 * t.val + p.val < 50000) :
    ((cfg1.win 5).blk t).view.emb (ix2 p q) = (ix2 (⟨2000 * t.val + p.val, h⟩ : Fin 50000) q : S50000x64.Idx) := by
  obtain ⟨-, -, -, -, -, -, -, -, -, -, e0, e1⟩ := idx_facts1 t
  funext a; apply Fin.ext
  match a with
  | ⟨0, _⟩ => show win1_5.index t (0 : Fin 2) * 2000 + 1 * p.val = 2000 * t.val + p.val; omega
  | ⟨1, _⟩ => show win1_5.index t (1 : Fin 2) * 64 + 1 * q.val = q.val; omega

/-- The table's block at point t, at row p and column q, is the table at row 2000 t + p, column q. -/
theorem z_blk1 (c : Dev nD) (t : Fin cfg1.N) (p : Fin 2000) (q : Fin 64) (h : 2000 * t.val + p.val < 50000) :
    (iblk1 V c 0 t : Vec Ideal S2000x64 .f32) (ix2 p q) = zArr1 V c (ix2 (⟨2000 * t.val + p.val, h⟩ : Fin 50000) q) := by
  obtain ⟨e0, e1, -⟩ := idx_facts1 t
  unfold iblk1
  rw [View.read_apply]
  show V c (Pipeline.arrRef spec1 0) (((cfg1.win 0).blk t).view.emb (ix2 p q)) = V c (Pipeline.arrRef spec1 0) _
  refine congrArg _ ?_
  funext a; apply Fin.ext
  match a with
  | ⟨0, _⟩ => show win1_0.index t (0 : Fin 2) * 2000 + 1 * p.val = 2000 * t.val + p.val; omega
  | ⟨1, _⟩ => show win1_0.index t (1 : Fin 2) * 64 + 1 * q.val = q.val; omega

/-- Each one-row array's block at any point is the array: its entry at column q is the array's. -/
theorem mu_blk1 (c : Dev nD) (t : Fin cfg1.N) (q : Fin 64) :
    (iblk1 V c 1 t : Vec Ideal S1x64 .f32) (ix2 0 q) = muArr1 V c (ix2 0 q) := by
  obtain ⟨-, -, e0, e1, -⟩ := idx_facts1 t
  unfold iblk1
  rw [View.read_apply]
  show V c (Pipeline.arrRef spec1 1) (((cfg1.win 1).blk t).view.emb (ix2 0 q)) = V c (Pipeline.arrRef spec1 1) _
  refine congrArg _ ?_
  funext a; apply Fin.ext
  match a with
  | ⟨0, _⟩ => show win1_1.index t (0 : Fin 2) * 1 + 1 * 0 = 0; omega
  | ⟨1, _⟩ => show win1_1.index t (1 : Fin 2) * 64 + 1 * q.val = q.val; omega

theorem var_blk1 (c : Dev nD) (t : Fin cfg1.N) (q : Fin 64) :
    (iblk1 V c 2 t : Vec Ideal S1x64 .f32) (ix2 0 q) = varArr1 V c (ix2 0 q) := by
  obtain ⟨-, -, -, -, e0, e1, -⟩ := idx_facts1 t
  unfold iblk1
  rw [View.read_apply]
  show V c (Pipeline.arrRef spec1 2) (((cfg1.win 2).blk t).view.emb (ix2 0 q)) = V c (Pipeline.arrRef spec1 2) _
  refine congrArg _ ?_
  funext a; apply Fin.ext
  match a with
  | ⟨0, _⟩ => show win1_2.index t (0 : Fin 2) * 1 + 1 * 0 = 0; omega
  | ⟨1, _⟩ => show win1_2.index t (1 : Fin 2) * 64 + 1 * q.val = q.val; omega

theorem g_blk1 (c : Dev nD) (t : Fin cfg1.N) (q : Fin 64) :
    (iblk1 V c 3 t : Vec Ideal S1x64 .f32) (ix2 0 q) = gArr1 V c (ix2 0 q) := by
  obtain ⟨-, -, -, -, -, -, e0, e1, -⟩ := idx_facts1 t
  unfold iblk1
  rw [View.read_apply]
  show V c (Pipeline.arrRef spec1 3) (((cfg1.win 3).blk t).view.emb (ix2 0 q)) = V c (Pipeline.arrRef spec1 3) _
  refine congrArg _ ?_
  funext a; apply Fin.ext
  match a with
  | ⟨0, _⟩ => show win1_3.index t (0 : Fin 2) * 1 + 1 * 0 = 0; omega
  | ⟨1, _⟩ => show win1_3.index t (1 : Fin 2) * 64 + 1 * q.val = q.val; omega

theorem b_blk1 (c : Dev nD) (t : Fin cfg1.N) (q : Fin 64) :
    (iblk1 V c 4 t : Vec Ideal S1x64 .f32) (ix2 0 q) = bArr1 V c (ix2 0 q) := by
  obtain ⟨-, -, -, -, -, -, -, -, e0, e1, -⟩ := idx_facts1 t
  unfold iblk1
  rw [View.read_apply]
  show V c (Pipeline.arrRef spec1 4) (((cfg1.win 4).blk t).view.emb (ix2 0 q)) = V c (Pipeline.arrRef spec1 4) _
  refine congrArg _ ?_
  funext a; apply Fin.ext
  match a with
  | ⟨0, _⟩ => show win1_4.index t (0 : Fin 2) * 1 + 1 * 0 = 0; omega
  | ⟨1, _⟩ => show win1_4.index t (1 : Fin 2) * 64 + 1 * q.val = q.val; omega

/-- What point t writes back is block t of the normalised table. -/
theorem flushed1_eq (c : Dev nD) (t : Fin cfg1.N) :
    (dat1 V c).flushed 5 t = ((cfg1.win 5).blk t).view.read (Elt Ideal) (normArr1 V c) := by
  show (cfg1.win 5).cut (grid1.coords t) ((dat1 V c).after 5 t) = _
  rw [after1_5]
  unfold out1_5
  rw [View.canon_unit_zero zero_off]
  simp only [View.ld_unit_zero (S := S2000x64) zero_off, View.ld_unit_zero (S := S1x64) zero_off]
  funext j
  obtain ⟨p, q, rfl⟩ : ∃ (p : Fin 2000) (q : Fin 64), j = ix2 p q := ⟨j 0, j 1, eq_ix2 j⟩
  have ht : t.val < 25 := by have ht' := t.isLt; have hN : cfg1.N = 25 := N_1; omega
  have h : 2000 * t.val + p.val < 50000 := by have := p.isLt; omega
  show k1_pay1 (F := Ideal) (iblk1 V c 0 t) (iblk1 V c 2 t) (iblk1 V c 3 t) (iblk1 V c 1 t) (iblk1 V c 4 t) (ix2 p q)
      = normArr1 V c (((cfg1.win 5).blk t).view.emb (ix2 p q))
  rw [out_emb1 t p q h]
  refine (norm_pay1_apply (iblk1 V c 0 t) (iblk1 V c 2 t) (iblk1 V c 3 t) (iblk1 V c 1 t) (iblk1 V c 4 t) p q).trans ?_
  rw [z_blk1 V c t p q h, mu_blk1 V c t q, var_blk1 V c t q, g_blk1 V c t q, b_blk1 V c t q]
  rfl

/-- An index of the output array is in point t's block iff each coordinate is in the block's range on its axis. -/
theorem mem_blk1 (t : Fin cfg1.N) (i : S50000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole (cfg1.win 5).arr.view.ref).slice (win1_5.rect t)).set ↔ _
  rw [View.set_slice_whole, Rect.mem_set_unit]
  exact Iff.rfl

/-- Every index of the output array lies in the block of the point its row selects: row r is in block r / 2000. -/
theorem cover1 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 25 := N_1
  let t : Fin cfg1.N := ⟨(i 0).val / 2000, by rw [hN]; omega⟩
  have htv : t.val = (i 0).val / 2000 := rfl
  obtain ⟨-, -, -, -, -, -, -, -, -, -, e0, e1⟩ := idx_facts1 t
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 64 ≤ (i 1).val ∧ (i 1).val < win1_5.index t (1 : Fin 2) * 64 + 64; omega

/-- The output array after the region is the normalised table. -/
theorem norm_1_arr (c : Dev nD) : (dat1 V c).arrAt 5 cfg1.N = normArr1 V c :=
  (dat1 V c).arrAt_eq_of_cover 5 (normArr1 V c) (fun t _ => flushed1_eq V c t) (cover1)

/-- Entry by entry: after the region the output at row r, column cc is the normalisation of the input arrays there. -/
theorem norm_1_final (c : Dev nD) (r : Fin 50000) (cc : Fin 64) :
    ((dat1 V c).arrAt 5 cfg1.N : S50000x64.Idx → EReal) (ValueIdx.ix2 r cc)
      = Cert.Spec.norm (Cert.Spec.cur (V c (Pipeline.arrRef spec1 0) : S50000x64.Idx → EReal))
          (Cert.Spec.row (V c (Pipeline.arrRef spec1 1) : S1x64.Idx → EReal))
          (Cert.Spec.row (V c (Pipeline.arrRef spec1 2) : S1x64.Idx → EReal))
          (Cert.Spec.row (V c (Pipeline.arrRef spec1 3) : S1x64.Idx → EReal))
          (Cert.Spec.row (V c (Pipeline.arrRef spec1 4) : S1x64.Idx → EReal)) r cc := by
  rw [norm_1_arr V c]

end Cert.KernelIdeal.KV

end
-- ==== Proof.KChain0.lean ====
/-
  The first two launches.  The transform launch leaves the product of the input with the weights plus the bias, and that
  table's column sums and column sums of squares; the host then forms the mean and the first spelling of the variance,
  and the normalisation launch leaves the normalised table.
-/
import proofs.«131751_j26465588478351_1_alg».proof.Proof.KChainDefs
import proofs.«131751_j26465588478351_1_alg».proof.Proof.KLin0Z
import proofs.«131751_j26465588478351_1_alg».proof.Proof.KLin0Sums
import proofs.«131751_j26465588478351_1_alg».proof.Proof.KNorm1

set_option maxRecDepth 16384

noncomputable section

namespace Cert.KernelIdeal.KV

open Idealize.ShloMosaic Idealize.ShloMosaic.TcCoe Idealize.ShloMosaic.Tactic Idealize.SL.Sem Idealize.ShloMosaic.StableHlo
open Idealize.ShloMosaic.ValueIdx Idealize.ShloMosaic.Pipeline
open Cert.KernelIdeal Cert.KernelIdeal.Gen Cert.Lib

variable (m : (ℓ : Loc nD τ sig) → Buf (Elt Ideal) ℓ) (ρ : Dev nD → PrngReg) (c : Dev nD)

theorem in0_x : Spec.cur (V1 m ρ c (Pipeline.arrRef spec0 0) : S50000x128.Idx → EReal) = Xt m c := congrArg Spec.cur (W1_main_arg0 m ρ c)
theorem in0_w : Spec.cur (V1 m ρ c (Pipeline.arrRef spec0 1) : S128x64.Idx → EReal) = Wtt m c := congrArg Spec.cur (W1_main_arg2 m ρ c)
theorem in0_b : Spec.row (V1 m ρ c (Pipeline.arrRef spec0 2) : S1x64.Idx → EReal) = btv m c := W1_bias m ρ c

theorem c2_z : Spec.cur (W2 m ρ c (Proc.devRef .tc main_v5_0) : S50000x64.Idx → EReal) = Z0 m c := by
  funext r cc
  have e : (W2 m ρ c (Proc.devRef .tc main_v5_0) : S50000x64.Idx → EReal) = (dat0 (V1 m ρ) c).arrAt 3 cfg0.N := W2_arr m ρ c 3
  unfold Spec.cur Z0
  rw [e, z_value (V1 m ρ) c r cc, in0_x, in0_w, in0_b]

theorem c2_s : Spec.row (W2 m ρ c (Proc.devRef .tc main_v5_1) : S1x64.Idx → EReal) = Spec.colSum (Z0 m c) := by
  funext cc
  have e : (W2 m ρ c (Proc.devRef .tc main_v5_1) : S1x64.Idx → EReal) = (dat0 (V1 m ρ) c).arrAt 4 cfg0.N := W2_arr m ρ c 4
  unfold Spec.row Z0
  rw [e, s_value (V1 m ρ) c cc, in0_x, in0_w, in0_b]

theorem c2_ss : Spec.row (W2 m ρ c (Proc.devRef .tc main_v5_2) : S1x64.Idx → EReal) = Spec.colSum (Spec.sq (Z0 m c)) := by
  funext cc
  have e : (W2 m ρ c (Proc.devRef .tc main_v5_2) : S1x64.Idx → EReal) = (dat0 (V1 m ρ) c).arrAt 5 cfg0.N := W2_arr m ρ c 5
  unfold Spec.row Z0
  rw [e, ss_value (V1 m ρ) c cc, in0_x, in0_w, in0_b]

/-- After the first normalisation launch: the transform's table normalised, the variance in its first spelling. -/
theorem c4_h : Spec.cur (W4 m ρ c (Proc.devRef .tc main_v14) : S50000x64.Idx → EReal) = Spec.bnK (Z0 m c) (gtv m c) (bbtv m c) := by
  funext r cc
  have e : (W4 m ρ c (Proc.devRef .tc main_v14) : S50000x64.Idx → EReal) = (dat1 (V3 m ρ) c).arrAt 5 cfg1.N := W4_arr m ρ c 5
  have ez : Spec.cur (V3 m ρ c (Pipeline.arrRef spec1 0) : S50000x64.Idx → EReal) = Z0 m c :=
    (congrArg Spec.cur (h1_z (W2 m ρ c))).trans (c2_z m ρ c)
  have emu : Spec.row (V3 m ρ c (Pipeline.arrRef spec1 1) : S1x64.Idx → EReal) = Spec.mean (Z0 m c) := by
    rw [show (V3 m ρ c (Pipeline.arrRef spec1 1) : S1x64.Idx → EReal) = StableHlo.after hostOps1 (W2 m ρ c) (Proc.devRef .tc main_v7) from rfl,
      h1_mean (W2 m ρ c), c2_s m ρ c]
    rfl
  have evar : Spec.row (V3 m ρ c (Pipeline.arrRef spec1 2) : S1x64.Idx → EReal) = Spec.varK (Z0 m c) := by
    rw [show (V3 m ρ c (Pipeline.arrRef spec1 2) : S1x64.Idx → EReal) = StableHlo.after hostOps1 (W2 m ρ c) (Proc.devRef .tc main_v11) from rfl,
      h1_var (W2 m ρ c), c2_s m ρ c, c2_ss m ρ c]
    rfl
  have eg : Spec.row (V3 m ρ c (Pipeline.arrRef spec1 3) : S1x64.Idx → EReal) = gtv m c := by
    rw [show (V3 m ρ c (Pipeline.arrRef spec1 3) : S1x64.Idx → EReal) = StableHlo.after hostOps1 (W2 m ρ c) (Proc.devRef .tc main_v12) from rfl,
      h1_gamma (W2 m ρ c)]
    exact congrArg Spec.vec ((W2_of_ne m ρ c main_arg4 (by decide)).trans (W1_main_arg4 m ρ c))
  have eb : Spec.row (V3 m ρ c (Pipeline.arrRef spec1 4) : S1x64.Idx → EReal) = bbtv m c := by
    rw [show (V3 m ρ c (Pipeline.arrRef spec1 4) : S1x64.Idx → EReal) = StableHlo.after hostOps1 (W2 m ρ c) (Proc.devRef .tc main_v13) from rfl,
      h1_beta (W2 m ρ c)]
    exact congrArg Spec.vec ((W2_of_ne m ρ c main_arg5 (by decide)).trans (W1_main_arg5 m ρ c))
  unfold Spec.cur Spec.bnK
  rw [e, norm_1_final (V3 m ρ) c r cc, ez, emu, evar, eg, eb]

end Cert.KernelIdeal.KV

end
-- ==== Proof.KMlp2Out.lean ====
/-
  What one run of the perceptron body leaves in its three output blocks, as values of the blocks it loaded.

  The body has two cases.  At the first point of the grid it first stores a zero row into each of the two one-row
  accumulators and then runs the common part on them; at every later point it runs the common part on what the point
  before left.  The common part stores the perceptron of the loaded row block and the two weight matrices into the
  output block, and into each accumulator the accumulator plus the block's column sums (of the entries, and of their
  squares).  Every store covers its whole block, so each block ends at its last store's value, and every load reads a
  whole block.
-/
import proofs.«131751_j26465588478351_1_alg».proof.Proof.Gen.KernelIdeal.Frame
import Idealize.ShloMosaic.Lib.Pipeline.Value
import Idealize.ShloMosaic.Lib.Tactic

set_option maxRecDepth 16384

noncomputable section

namespace Cert.KernelIdeal.KV

open Idealize.ShloMosaic Idealize.ShloMosaic.TcCoe Idealize.ShloMosaic.Tactic Idealize.SL.Sem
open Cert.KernelIdeal Cert.KernelIdeal.Gen

variable {F : FTy → Type} [FloatOps F]

/-- The offsets of a whole two-axis block are zero on both axes. -/
theorem mlp_hz2 : (![0, 0] : Fin 2 → Nat) = fun _ => 0 := funext fun a => by fin_cases a <;> rfl

/-! ## A later point: the common part on what the point before left -/

theorem mlp_out2_B_3_eq (c : Dev nD) (i : grid2.Coords) (a1 : Memref sig .tc .vmem S2000x64 .f32) (h1 : a1.IsWhole) (a2 : Memref sig .tc .vmem S64x64 .f32) (h2 : a2.IsWhole) (a3 : Memref sig .tc .vmem S64x64 .f32) (h3 : a3.IsWhole) (a4 : Memref sig .tc .vmem S2000x64 .f32) (h4 : a4.IsWhole) (a5 : Memref sig .tc .vmem S1x64 .f32) (h5 : a5.IsWhole) (a6 : Memref sig .tc .vmem S1x64 .f32) (h6 : a6.IsWhole) (hc : ¬cond2_0 i)
    (x0 : Vec F S2000x64 .f32) (x1 x2 : Vec F S64x64 .f32) (xo4 xo5 : Vec F S1x64 .f32) :
    out2_B_3 c i a1 h1 a2 h2 a3 h3 a4 h4 a5 h5 a6 h6 hc x0 x1 x2 xo4 xo5 = k2_pay3 x0 x1 x2 := by
  unfold out2_B_3
  rw [View.read_writes_eq_canon _ _ _ (cover2_B_3 c i a1 h1 a2 h2 a3 h3 a4 h4 a5 h5 a6 h6 hc x0 x1 x2 xo4 xo5)]
  unfold kernelRun2_B
  dsimp only
  sl_unfold_words
  rw [View.canon_unit_zero mlp_hz2]
  simp only [View.readAt_eq_ld, h1.read_unread, h2.read_unread, h3.read_unread, View.ld_unit_zero (S := S2000x64) mlp_hz2, View.ld_unit_zero (S := S64x64) mlp_hz2, View.ld_unit_zero (S := S1x64) mlp_hz2]

theorem mlp_out2_B_4_eq (c : Dev nD) (i : grid2.Coords) (a1 : Memref sig .tc .vmem S2000x64 .f32) (h1 : a1.IsWhole) (a2 : Memref sig .tc .vmem S64x64 .f32) (h2 : a2.IsWhole) (a3 : Memref sig .tc .vmem S64x64 .f32) (h3 : a3.IsWhole) (a4 : Memref sig .tc .vmem S2000x64 .f32) (h4 : a4.IsWhole) (a5 : Memref sig .tc .vmem S1x64 .f32) (h5 : a5.IsWhole) (a6 : Memref sig .tc .vmem S1x64 .f32) (h6 : a6.IsWhole) (hc : ¬cond2_0 i)
    (x0 : Vec F S2000x64 .f32) (x1 x2 : Vec F S64x64 .f32) (xo4 xo5 : Vec F S1x64 .f32) :
    out2_B_4 c i a1 h1 a2 h2 a3 h3 a4 h4 a5 h5 a6 h6 hc x0 x1 x2 xo4 xo5 = k2_pay4 x0 x1 x2 xo4 := by
  unfold out2_B_4
  rw [View.read_writes_eq_canon _ _ _ (cover2_B_4 c i a1 h1 a2 h2 a3 h3 a4 h4 a5 h5 a6 h6 hc x0 x1 x2 xo4 xo5)]
  unfold kernelRun2_B
  dsimp only
  sl_unfold_words
  rw [View.canon_unit_zero mlp_hz2]
  simp only [View.readAt_eq_ld, h1.read_unread, h2.read_unread, h3.read_unread, h5.read_unread, View.ld_unit_zero (S := S2000x64) mlp_hz2, View.ld_unit_zero (S := S64x64) mlp_hz2, View.ld_unit_zero (S := S1x64) mlp_hz2]

theorem mlp_out2_B_5_eq (c : Dev nD) (i : grid2.Coords) (a1 : Memref sig .tc .vmem S2000x64 .f32) (h1 : a1.IsWhole) (a2 : Memref sig .tc .vmem S64x64 .f32) (h2 : a2.IsWhole) (a3 : Memref sig .tc .vmem S64x64 .f32) (h3 : a3.IsWhole) (a4 : Memref sig .tc .vmem S2000x64 .f32) (h4 : a4.IsWhole) (a5 : Memref sig .tc .vmem S1x64 .f32) (h5 : a5.IsWhole) (a6 : Memref sig .tc .vmem S1x64 .f32) (h6 : a6.IsWhole) (hc : ¬cond2_0 i)
    (x0 : Vec F S2000x64 .f32) (x1 x2 : Vec F S64x64 .f32) (xo4 xo5 : Vec F S1x64 .f32) :
    out2_B_5 c i a1 h1 a2 h2 a3 h3 a4 h4 a5 h5 a6 h6 hc x0 x1 x2 xo4 xo5 = k2_pay5 x0 x1 x2 xo5 := by
  unfold out2_B_5
  rw [View.read_writes_eq_canon _ _ _ (cover2_B_5 c i a1 h1 a2 h2 a3 h3 a4 h4 a5 h5 a6 h6 hc x0 x1 x2 xo4 xo5)]
  unfold kernelRun2_B
  dsimp only
  sl_unfold_words
  rw [View.canon_unit_zero mlp_hz2]
  simp only [View.readAt_eq_ld, h1.read_unread, h2.read_unread, h3.read_unread, h6.read_unread, View.ld_unit_zero (S := S2000x64) mlp_hz2, View.ld_unit_zero (S := S64x64) mlp_hz2, View.ld_unit_zero (S := S1x64) mlp_hz2]

/-! ## The first point: the accumulators are zeroed first -/

theorem mlp_out2_A_3_eq (c : Dev nD) (i : grid2.Coords) (a1 : Memref sig .tc .vmem S2000x64 .f32) (h1 : a1.IsWhole) (a2 : Memref sig .tc .vmem S64x64 .f32) (h2 : a2.IsWhole) (a3 : Memref sig .tc .vmem S64x64 .f32) (h3 : a3.IsWhole) (a4 : Memref sig .tc .vmem S2000x64 .f32) (h4 : a4.IsWhole) (a5 : Memref sig .tc .vmem S1x64 .f32) (h5 : a5.IsWhole) (a6 : Memref sig .tc .vmem S1x64 .f32) (h6 : a6.IsWhole) (hc : cond2_0 i)
    (x0 : Vec F S2000x64 .f32) (x1 x2 : Vec F S64x64 .f32) :
    out2_A_3 c i a1 h1 a2 h2 a3 h3 a4 h4 a5 h5 a6 h6 hc x0 x1 x2 = k2_pay3 x0 x1 x2 := by
  unfold out2_A_3
  rw [View.read_writes_eq_canon _ _ _ (cover2_A_3 c i a1 h1 a2 h2 a3 h3 a4 h4 a5 h5 a6 h6 hc x0 x1 x2)]
  unfold kernelRun2_A
  dsimp only
  sl_unfold_words
  rw [View.canon_unit_zero mlp_hz2]
  simp only [View.readAt_eq_ld, h1.read_unread, h2.read_unread, h3.read_unread, View.ld_unit_zero (S := S2000x64) mlp_hz2, View.ld_unit_zero (S := S64x64) mlp_hz2, View.ld_unit_zero (S := S1x64) mlp_hz2]

theorem mlp_out2_A_4_eq (c : Dev nD) (i : grid2.Coords) (a1 : Memref sig .tc .vmem S2000x64 .f32) (h1 : a1.IsWhole) (a2 : Memref sig .tc .vmem S64x64 .f32) (h2 : a2.IsWhole) (a3 : Memref sig .tc .vmem S64x64 .f32) (h3 : a3.IsWhole) (a4 : Memref sig .tc .vmem S2000x64 .f32) (h4 : a4.IsWhole) (a5 : Memref sig .tc .vmem S1x64 .f32) (h5 : a5.IsWhole) (a6 : Memref sig .tc .vmem S1x64 .f32) (h6 : a6.IsWhole) (hc : cond2_0 i)
    (x0 : Vec F S2000x64 .f32) (x1 x2 : Vec F S64x64 .f32) :
    out2_A_4 c i a1 h1 a2 h2 a3 h3 a4 h4 a5 h5 a6 h6 hc x0 x1 x2 = k2_pay4 x0 x1 x2 k2_pay1 := by
  unfold out2_A_4
  rw [View.read_writes_eq_canon _ _ _ (cover2_A_4 c i a1 h1 a2 h2 a3 h3 a4 h4 a5 h5 a6 h6 hc x0 x1 x2)]
  unfold kernelRun2_A
  dsimp only
  sl_unfold_words
  rw [View.canon_cons_unit_zero (S := S1x64) mlp_hz2, View.readCov_unit_zero (S := S1x64) _ mlp_hz2]
  simp only [View.readAt_eq_ld, h1.read_unread, h2.read_unread, h3.read_unread, View.ld_unit_zero (S := S2000x64) mlp_hz2, View.ld_unit_zero (S := S64x64) mlp_hz2, View.ld_unit_zero (S := S1x64) mlp_hz2]

theorem mlp_out2_A_5_eq (c : Dev nD) (i : grid2.Coords) (a1 : Memref sig .tc .vmem S2000x64 .f32) (h1 : a1.IsWhole) (a2 : Memref sig .tc .vmem S64x64 .f32) (h2 : a2.IsWhole) (a3 : Memref sig .tc .vmem S64x64 .f32) (h3 : a3.IsWhole) (a4 : Memref sig .tc .vmem S2000x64 .f32) (h4 : a4.IsWhole) (a5 : Memref sig .tc .vmem S1x64 .f32) (h5 : a5.IsWhole) (a6 : Memref sig .tc .vmem S1x64 .f32) (h6 : a6.IsWhole) (hc : cond2_0 i)
    (x0 : Vec F S2000x64 .f32) (x1 x2 : Vec F S64x64 .f32) :
    out2_A_5 c i a1 h1 a2 h2 a3 h3 a4 h4 a5 h5 a6 h6 hc x0 x1 x2 = k2_pay5 x0 x1 x2 k2_pay2 := by
  unfold out2_A_5
  rw [View.read_writes_eq_canon _ _ _ (cover2_A_5 c i a1 h1 a2 h2 a3 h3 a4 h4 a5 h5 a6 h6 hc x0 x1 x2)]
  unfold kernelRun2_A
  dsimp only
  sl_unfold_words
  rw [View.canon_cons_unit_zero (S := S1x64) mlp_hz2, View.readCov_unit_zero (S := S1x64) _ mlp_hz2]
  simp only [View.readAt_eq_ld, h1.read_unread, h2.read_unread, h3.read_unread, View.ld_unit_zero (S := S2000x64) mlp_hz2, View.ld_unit_zero (S := S64x64) mlp_hz2, View.ld_unit_zero (S := S1x64) mlp_hz2]

end Cert.KernelIdeal.KV

end
-- ==== Proof.KMlp2Step.lean ====
/-
  What the three output blocks hold after each point of the grid, as values of the blocks the point loads.

  At a point whose number is a multiple of 25 (the first one) the accumulators start from the zero row; at every other
  point they start from what the point before left.  In both cases the output block is the perceptron of the point's
  row block and the weights, and each accumulator is its start plus the block's column sums.
-/
import proofs.«131751_j26465588478351_1_alg».proof.Proof.KMlp2Out

set_option maxRecDepth 16384

noncomputable section

namespace Cert.KernelIdeal.KV

open Idealize.ShloMosaic Idealize.ShloMosaic.TcCoe Idealize.SL.Sem
open Cert.KernelIdeal Cert.KernelIdeal.Gen

variable {F : FTy → Type} [FloatOps F]
variable (V : (c : Dev nD) → (b : Ref sig .tc) → Buf (Elt F) ((c : Thread nD τ).loc b))

/-- After a point that starts the accumulation. -/
theorem mlp_outs2_first (c : Dev nD) (t : Fin cfg2.N) (h0 : t.val % 25 = 0) :
    outsAt2 V c t.val t.isLt
      = (k2_pay3 (iblk2 V c 0 t) (iblk2 V c 1 t) (iblk2 V c 2 t), k2_pay4 (iblk2 V c 0 t) (iblk2 V c 1 t) (iblk2 V c 2 t) k2_pay1, k2_pay5 (iblk2 V c 0 t) (iblk2 V c 1 t) (iblk2 V c 2 t) k2_pay2) := by
  rw [outsAt2_A V c t h0]
  exact congrArg₂ Prod.mk
    (mlp_out2_A_3_eq c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t))
    (congrArg₂ Prod.mk
      (mlp_out2_A_4_eq c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t))
      (mlp_out2_A_5_eq c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t)))

/-- After a point that continues it. -/
theorem mlp_outs2_next (c : Dev nD) (t : Fin cfg2.N) (h0 : ¬t.val % 25 = 0) :
    outsAt2 V c t.val t.isLt
      = (k2_pay3 (iblk2 V c 0 t) (iblk2 V c 1 t) (iblk2 V c 2 t),
         k2_pay4 (iblk2 V c 0 t) (iblk2 V c 1 t) (iblk2 V c 2 t) (outsAt2 V c (t.val - 1) (Nat.lt_of_le_of_lt (Nat.sub_le _ _) t.isLt)).2.1,
         k2_pay5 (iblk2 V c 0 t) (iblk2 V c 1 t) (iblk2 V c 2 t) (outsAt2 V c (t.val - 1) (Nat.lt_of_le_of_lt (Nat.sub_le _ _) t.isLt)).2.2) := by
  rw [outsAt2_B V c t h0]
  exact congrArg₂ Prod.mk
    (mlp_out2_B_3_eq c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2)
    (congrArg₂ Prod.mk
      (mlp_out2_B_4_eq c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2)
      (mlp_out2_B_5_eq c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2))

/-- The output block after any point: the perceptron of the point's row block and the weights. -/
theorem mlp_outs2_block (c : Dev nD) (t : Fin cfg2.N) :
    (outsAt2 V c t.val t.isLt).1 = k2_pay3 (iblk2 V c 0 t) (iblk2 V c 1 t) (iblk2 V c 2 t) := by
  by_cases h0 : t.val % 25 = 0
  · rw [mlp_outs2_first V c t h0]
  · rw [mlp_outs2_next V c t h0]

end Cert.KernelIdeal.KV

end
-- ==== Proof.KMlp2Pay.lean ====
/-
  The graph layer's perceptron on one block of rows, read entry by entry over the extended reals.

  A block is 2000 rows of 64 features; the two weight matrices are 64 by 64.  The stored block is
  max(max(a w1, 0) w2, 0): each product sums, over the inner position, a row entry times a weight entry, into a zero
  accumulator (so the product is just that sum), and the rounding to the short format between the two products is
  the identity on extended reals.  The two one-row accumulators add, column by column, the sum over the block's 2000
  rows of the stored block and of its squares to what they held before.
-/
import proofs.«131751_j26465588478351_1_alg».proof.Proof.Gen.KernelIdeal.Skeleton
import proofs.«131751_j26465588478351_1_alg».proof.Proof.Spec
import Idealize.ShloMosaic.Lib.Pipeline.Value
import Idealize.ShloMosaic.Lib.ValueIdx
import Idealize.ShloMosaic.PureOps.Ideal.Laws

noncomputable section

namespace Cert.KernelIdeal.KV

open Idealize.ShloMosaic Idealize.ShloMosaic.ValueIdx
open Cert.KernelIdeal Cert.KernelIdeal.Gen

/-! ## The product of a block with a weight matrix, at an entry -/

/-- The dimension numbers of the block-by-weights product (contract the block's columns with the weights' rows). -/
abbrev mlpDD : DotDims S2000x64 S64x64 S2000x64 := dot_S2000x64_S64x64_S2000x64_1_0_0_1_n_n

theorem mlp_dd_lhs0 (i : S2000x64.Idx) (q : mlpDD.contr.Idx) : (mlpDD.lhsIdx i q 0).val = (i 0).val := by
  unfold DotDims.lhsIdx
  rw [dif_neg (show ¬(0 : Fin S2000x64.rank) ∈ mlpDD.lhsBatch by decide), dif_pos (show (0 : Fin S2000x64.rank) ∈ mlpDD.lhsNonContracting by decide)]
  rfl
theorem mlp_dd_lhs1 (i : S2000x64.Idx) (q : mlpDD.contr.Idx) : (mlpDD.lhsIdx i q 1).val = (q ⟨0, by decide⟩).val :=
  mlpDD.lhsIdx_val_of_single rfl i q
theorem mlp_dd_rhs0 (i : S2000x64.Idx) (q : mlpDD.contr.Idx) : (mlpDD.rhsIdx i q 0).val = (q ⟨0, by decide⟩).val :=
  mlpDD.rhsIdx_val_of_single rfl i q
theorem mlp_dd_rhs1 (i : S2000x64.Idx) (q : mlpDD.contr.Idx) : (mlpDD.rhsIdx i q 1).val = (i 1).val := by
  unfold DotDims.rhsIdx
  rw [dif_neg (show ¬(1 : Fin S64x64.rank) ∈ mlpDD.rhsBatch by decide), dif_pos (show (1 : Fin S64x64.rank) ∈ mlpDD.rhsNonContracting by decide)]
  rfl

/-- Entry (p, q) of the product into a zero accumulator: the sum over the inner position k of the block's (p, k)
    times the weights' (k, q). -/
theorem mlp_mm0_apply {φ₁ φ₂ : FTy} (lhs : FVec Ideal S2000x64 φ₁) (rhs : FVec Ideal S64x64 φ₂) (p : Fin 2000) (q : Fin 64) :
    matmul mlpDD none lhs rhs (constant S2000x64 .f32 0x00000000#32) (ix2 p q) = ∑ k : Fin 64, lhs (ix2 p k) * rhs (ix2 k q) := by
  refine (Ideal.matmul_constant_zero_apply mlpDD none lhs rhs (ix2 p q)).trans ?_
  rw [← Equiv.sum_comp (contrEquiv1 mlpDD 64 rfl rfl).symm]
  refine Finset.sum_congr rfl fun k _ => ?_
  have hk := contrEquiv1_symm_val mlpDD 64 rfl rfl k
  have el : mlpDD.lhsIdx (ix2 p q) ((contrEquiv1 mlpDD 64 rfl rfl).symm k) = ix2 p k := funext fun a => Fin.ext (by
    match a with
    | ⟨0, _⟩ => exact mlp_dd_lhs0 _ _
    | ⟨1, _⟩ => exact (mlp_dd_lhs1 _ _).trans hk)
  have er : mlpDD.rhsIdx (ix2 p q) ((contrEquiv1 mlpDD 64 rfl rfl).symm k) = ix2 k q := funext fun a => Fin.ext (by
    match a with
    | ⟨0, _⟩ => exact (mlp_dd_rhs0 _ _).trans hk
    | ⟨1, _⟩ => exact mlp_dd_rhs1 _ _)
  rw [el, er]

/-! ## The stored block -/

/-- Entry (p, q) of the block the body stores is the perceptron of the loaded block and weights at (p, q). -/
theorem pay3_apply (a : Vec Ideal S2000x64 .f32) (w1 w2 : Vec Ideal S64x64 .f32) (p : Fin 2000) (q : Fin 64) :
    k2_pay3 (F := Ideal) a w1 w2 (ix2 p q) = Cert.Spec.mlp (Cert.Spec.cur a) (Cert.Spec.cur w1) (Cert.Spec.cur w2) p q := by
  unfold k2_pay3
  (try dsimp only)
  simp only [shapeCast_self]
  show max (matmul (F := Ideal) mlpDD none _ _ (constant (F := Ideal) S2000x64 .f32 0x00000000#32) (ix2 p q)) Cert.Spec.Zw
    = max (∑ k : Fin 64, max (∑ j : Fin 64, a (ix2 p j) * w1 (ix2 j k)) Cert.Spec.Zw * w2 (ix2 k q)) Cert.Spec.Zw
  refine congrArg (fun x => max x Cert.Spec.Zw) ((mlp_mm0_apply _ _ p q).trans (Finset.sum_congr rfl fun k _ => ?_))
  refine congrArg (fun x => x * w2 (ix2 k q)) ?_
  show max (matmul (F := Ideal) mlpDD none _ _ (constant (F := Ideal) S2000x64 .f32 0x00000000#32) (ix2 p k)) Cert.Spec.Zw = _
  exact congrArg (fun x => max x Cert.Spec.Zw) (mlp_mm0_apply _ _ p k)

/-! ## The two accumulators -/

/-- The sum of a block's column q over its 2000 rows, as the lane reduction computes it. -/
theorem mlp_colred_apply (src : FVec Ideal S2000x64 .f32) (hφ : FKind.Formats .f32)
    (hacc : (0x00000000#32 : BitVec 32) = FKind.add.neutral .f32 hφ) (q : Fin 64) :
    multiReduction .add [0] S64 src 0x00000000#32 reduces_S2000x64_S64 hφ hacc (ix1 q) = ∑ p : Fin 2000, src (ix2 p q) := by
  refine (Ideal.multiReduction_add_single src 0x00000000#32 reduces_S2000x64_S64 hφ hacc (ix1 q)).trans ?_
  show ∑ p : Fin 2000, src (reduces_S2000x64_S64.lift (ix1 q) p) = _
  refine Finset.sum_congr rfl fun p _ => congrArg src ?_
  funext d
  match d with
  | ⟨0, _⟩ => rfl
  | ⟨1, _⟩ => rfl

/-- A one-axis vector of 64 viewed as one row of 64 reads its position at the column. -/
theorem mlp_row_of_vec {α : Type} (v : S64.Idx → α) (q : Fin 64) : shapeCast S1x64 v shapeCasts_S64_S1x64 (ix2 0 q) = v (ix1 q) := by
  refine (shapeCast_addUnit_apply ![64] v shapeCasts_S64_S1x64 (ix2 0 q)).trans (congrArg v ?_)
  funext d
  match d with
  | ⟨0, _⟩ => rfl

/-- Column q of the first accumulator after the body: what it held plus the sum over the block's rows of the stored
    block's column q. -/
theorem pay4_apply (a : Vec Ideal S2000x64 .f32) (w1 w2 : Vec Ideal S64x64 .f32) (s : Vec Ideal S1x64 .f32) (q : Fin 64) :
    k2_pay4 (F := Ideal) a w1 w2 s (ix2 0 q) = s (ix2 0 q) + ∑ p : Fin 2000, k2_pay3 (F := Ideal) a w1 w2 (ix2 p q) := by
  unfold k2_pay4
  (try dsimp only)
  simp only [shapeCast_self]
  show s (ix2 0 q) + shapeCast S1x64 _ shapeCasts_S64_S1x64 (ix2 0 q) = _
  refine congrArg (fun x => s (ix2 0 q) + x) ((mlp_row_of_vec _ q).trans ?_)
  exact mlp_colred_apply _ _ _ q

/-- Column q of the second accumulator after the body: what it held plus the sum over the block's rows of the squares
    of the stored block's column q. -/
theorem pay5_apply (a : Vec Ideal S2000x64 .f32) (w1 w2 : Vec Ideal S64x64 .f32) (s : Vec Ideal S1x64 .f32) (q : Fin 64) :
    k2_pay5 (F := Ideal) a w1 w2 s (ix2 0 q)
      = s (ix2 0 q) + ∑ p : Fin 2000, k2_pay3 (F := Ideal) a w1 w2 (ix2 p q) * k2_pay3 (F := Ideal) a w1 w2 (ix2 p q) := by
  unfold k2_pay5
  (try dsimp only)
  simp only [shapeCast_self]
  show s (ix2 0 q) + shapeCast S1x64 _ shapeCasts_S64_S1x64 (ix2 0 q) = _
  refine congrArg (fun x => s (ix2 0 q) + x) ((mlp_row_of_vec _ q).trans ?_)
  exact mlp_colred_apply _ _ _ q

/-- The zero row the first point stores into each accumulator. -/
theorem pay1_apply (q : Fin 64) : k2_pay1 (F := Ideal) (ix2 0 q) = Cert.Spec.Zw := rfl
theorem pay2_apply (q : Fin 64) : k2_pay2 (F := Ideal) (ix2 0 q) = Cert.Spec.Zw := rfl

end Cert.KernelIdeal.KV

end
-- ==== Proof.KMlp2Blk.lean ====
/-
  The blocks a point of the grid loads, as entries of the arrays the layer starts from, and the block it stores as
  rows of the layer's perceptron output.

  Point t loads rows 2000 t … 2000 t + 1999 of the feature table (all 64 columns) and the two weight matrices whole.
  An entry of the perceptron depends only on its own row of the table, so row p of the stored block is row
  2000 t + p of the perceptron of the whole table.
-/
import proofs.«131751_j26465588478351_1_alg».proof.Proof.KMlp2Pay
import proofs.«131751_j26465588478351_1_alg».proof.Proof.Gen.KernelIdeal.Frame

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- Row p of block s of a table of 50000 rows cut into blocks of 2000 (for s below 25: row 2000 s + p). -/
def mlp_rowAt2 (s : ℕ) (p : Fin 2000) : Fin 50000 := ⟨(2000 * s + p.val) % 50000, Nat.mod_lt _ (by decide)⟩

theorem mlp_rowAt2_val (s : ℕ) (hs : s < 25) (p : Fin 2000) : (mlp_rowAt2 s p).val = 2000 * s + p.val := by
  have := p.isLt
  show (2000 * s + p.val) % 50000 = _
  omega

/-- Where each window's block sits at point t: the table's and the output's at block row t, the weights' and the
    accumulators' at the origin. -/
theorem mlp_idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Entry (p, q) of the table's block at point t is the table's entry (2000 t + p, q). -/
theorem mlp_blk2_0_apply (c : Dev nD) (t : Fin cfg2.N) (p : Fin 2000) (q : Fin 64) :
    (iblk2 V c 0 t : S2000x64.Idx → EReal) (ix2 p q)
      = (V c (Pipeline.arrRef spec2 0) : S50000x64.Idx → EReal) (ix2 (mlp_rowAt2 t.val p) q) := by
  have hN : t.val < 25 := lt_of_lt_of_eq t.isLt (show cfg2.N = 25 from N_2)
  have hp := p.isLt
  obtain ⟨e0, e1, -⟩ := mlp_idx2 t
  unfold iblk2
  rw [View.read_apply]
  show V c (Pipeline.arrRef spec2 0) _ = V c (Pipeline.arrRef spec2 0) _
  refine congrArg (V c (Pipeline.arrRef spec2 0)) ?_
  funext a
  apply Fin.ext
  match a with
  | ⟨0, _⟩ =>
    show win2_0.index t (0 : Fin 2) * 2000 + 1 * p.val = (2000 * t.val + p.val) % 50000
    rw [e0]; omega
  | ⟨1, _⟩ =>
    show win2_0.index t (1 : Fin 2) * 64 + 1 * q.val = q.val
    rw [e1]; omega

/-- The first weight matrix's block at any point is the matrix. -/
theorem mlp_blk2_1_eq (c : Dev nD) (t : Fin cfg2.N) :
    (iblk2 V c 1 t : S64x64.Idx → EReal) = (V c (Pipeline.arrRef spec2 1) : S64x64.Idx → EReal) := by
  obtain ⟨-, -, e0, e1, -⟩ := mlp_idx2 t
  funext y
  unfold iblk2
  rw [View.read_apply]
  show V c (Pipeline.arrRef spec2 1) _ = V c (Pipeline.arrRef spec2 1) _
  refine congrArg (V c (Pipeline.arrRef spec2 1)) ?_
  funext a
  apply Fin.ext
  match a with
  | ⟨0, _⟩ =>
    show win2_1.index t (0 : Fin 2) * 64 + 1 * (y 0).val = (y 0).val
    rw [e0]; omega
  | ⟨1, _⟩ =>
    show win2_1.index t (1 : Fin 2) * 64 + 1 * (y 1).val = (y 1).val
    rw [e1]; omega

/-- The second weight matrix's block at any point is the matrix. -/
theorem mlp_blk2_2_eq (c : Dev nD) (t : Fin cfg2.N) :
    (iblk2 V c 2 t : S64x64.Idx → EReal) = (V c (Pipeline.arrRef spec2 2) : S64x64.Idx → EReal) := by
  obtain ⟨-, -, -, -, e0, e1, -⟩ := mlp_idx2 t
  funext y
  unfold iblk2
  rw [View.read_apply]
  show V c (Pipeline.arrRef spec2 2) _ = V c (Pipeline.arrRef spec2 2) _
  refine congrArg (V c (Pipeline.arrRef spec2 2)) ?_
  funext a
  apply Fin.ext
  match a with
  | ⟨0, _⟩ =>
    show win2_2.index t (0 : Fin 2) * 64 + 1 * (y 0).val = (y 0).val
    rw [e0]; omega
  | ⟨1, _⟩ =>
    show win2_2.index t (1 : Fin 2) * 64 + 1 * (y 1).val = (y 1).val
    rw [e1]; omega

/-- An entry of the perceptron depends on the table through its own row only. -/
theorem mlp_row_congr2 {n n' : ℕ} (a : Fin n → Fin 64 → EReal) (a' : Fin n' → Fin 64 → EReal)
    (w1 w1' w2 w2' : Fin 64 → Fin 64 → EReal) (r : Fin n) (r' : Fin n') (h : ∀ j, a r j = a' r' j)
    (h1 : w1 = w1') (h2 : w2 = w2') (q : Fin 64) :
    Cert.Spec.mlp a w1 w2 r q = Cert.Spec.mlp a' w1' w2' r' q := by
  subst h1 h2
  simp only [Cert.Spec.mlp, Cert.Spec.relu, Cert.Spec.mm, h]

/-- The layer's perceptron output: of the table and the two weight matrices as the layer finds them. -/
abbrev mlp_Zof2 (c : Dev nD) : Fin 50000 → Fin 64 → EReal :=
  Cert.Spec.mlp (Cert.Spec.cur (V c (Pipeline.arrRef spec2 0) : S50000x64.Idx → EReal))
    (Cert.Spec.cur (V c (Pipeline.arrRef spec2 1) : S64x64.Idx → EReal))
    (Cert.Spec.cur (V c (Pipeline.arrRef spec2 2) : S64x64.Idx → EReal))

/-- Entry (p, q) of the block point t stores is entry (2000 t + p, q) of the layer's perceptron output. -/
theorem mlp_block2_apply (c : Dev nD) (t : Fin cfg2.N) (p : Fin 2000) (q : Fin 64) :
    (k2_pay3 (F := Ideal) (iblk2 V c 0 t) (iblk2 V c 1 t) (iblk2 V c 2 t) : S2000x64.Idx → EReal) (ix2 p q)
      = mlp_Zof2 V c (mlp_rowAt2 t.val p) q := by
  refine (pay3_apply (iblk2 V c 0 t) (iblk2 V c 1 t) (iblk2 V c 2 t) p q).trans ?_
  exact mlp_row_congr2 _ _ _ _ _ _ p (mlp_rowAt2 t.val p) (fun j => mlp_blk2_0_apply V c t p j)
    (congrArg Cert.Spec.cur (mlp_blk2_1_eq V c t)) (congrArg Cert.Spec.cur (mlp_blk2_2_eq V c t)) q

end Cert.KernelIdeal.KV

end
-- ==== Proof.KMlp2Z.lean ====
/-
  The layer's output array after the grid: entry (r, q) is the perceptron of the table's row r at column q.

  Every point writes its block back, block t to rows 2000 t … 2000 t + 1999, and the 25 blocks cover the 50000 rows;
  what point t writes is those rows of one function of the row and the column, so the array ends at that function.
-/
import proofs.«131751_j26465588478351_1_alg».proof.Proof.KMlp2Step
import proofs.«131751_j26465588478351_1_alg».proof.Proof.KMlp2Blk

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The output array as one function of its index: the layer's perceptron output at the index's row and column. -/
def mlp_outArr2 (c : Dev nD) : S50000x64.Idx → EReal :=
  fun i => mlp_Zof2 V c ⟨(i 0).val, idx2_lt0 i⟩ ⟨(i 1).val, idx2_lt1 i⟩

/-- An entry of the block point t stores is the output function at the entry's place in the array. -/
theorem mlp_stored2_apply (c : Dev nD) (t : Fin cfg2.N) (y : S2000x64.Idx) :
    (k2_pay3 (F := Ideal) (iblk2 V c 0 t) (iblk2 V c 1 t) (iblk2 V c 2 t) : S2000x64.Idx → EReal) y
      = mlp_outArr2 V c (((cfg2.win 3).blk t).view.emb y) := by
  have hN : t.val < 25 := lt_of_lt_of_eq t.isLt (show cfg2.N = 25 from N_2)
  obtain ⟨-, -, -, -, -, -, e0, e1, -⟩ := mlp_idx2 t
  obtain ⟨p, q, rfl⟩ : ∃ (p : Fin 2000) (q : Fin 64), y = ix2 p q := ⟨y 0, y 1, eq_ix2 y⟩
  have hp := p.isLt
  refine (mlp_block2_apply V c t p q).trans ?_
  refine congrArg₂ (mlp_Zof2 V c) (Fin.ext ?_) (Fin.ext ?_)
  · show (2000 * t.val + p.val) % 50000 = win2_3.index t (0 : Fin 2) * 2000 + 1 * p.val
    rw [e0]; omega
  · show q.val = win2_3.index t (1 : Fin 2) * 64 + 1 * q.val
    rw [e1]; omega

/-- What point t writes back is block t of the output function. -/
theorem mlp_flushed2_3_eq (c : Dev nD) (t : Fin cfg2.N) :
    (dat2 V c).flushed 3 t = ((cfg2.win 3).blk t).view.read (Elt Ideal) (mlp_outArr2 V c) := by
  show (cfg2.win 3).cut (grid2.coords t) ((dat2 V c).after 3 t) = _
  rw [after2_3, mlp_outs2_block V c t]
  funext y
  exact mlp_stored2_apply V c t y

/-- An index of the array is in point t's block iff each coordinate is in the block's range on its axis. -/
theorem mlp_mem_blk2_3 (t : Fin cfg2.N) (i : S50000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v30_0).slice (win2_3.rect t)).set ↔ _
  rw [View.set_slice_whole, Rect.mem_set_unit]
  exact Iff.rfl

/-- Row r lies in block r / 2000. -/
theorem mlp_covered2_3 (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, -, -, e0, e1, -⟩ := mlp_idx2 t
  refine ⟨t, flush2_3 t, ?_⟩
  rw [mlp_mem_blk2_3]
  intro a
  match a with
  | ⟨0, _⟩ =>
    show win2_3.index t (0 : Fin 2) * 2000 ≤ (i 0).val ∧ (i 0).val < win2_3.index t (0 : Fin 2) * 2000 + 2000
    rw [e0, ht]; omega
  | ⟨1, _⟩ =>
    show win2_3.index t (1 : Fin 2) * 64 ≤ (i 1).val ∧ (i 1).val < win2_3.index t (1 : Fin 2) * 64 + 64
    rw [e1]; omega

/-- The output array after the grid is the output function. -/
theorem mlp_final2_3 (c : Dev nD) : (dat2 V c).arrAt 3 cfg2.N = mlp_outArr2 V c :=
  (dat2 V c).arrAt_eq_of_cover 3 (mlp_outArr2 V c) (fun t _ => mlp_flushed2_3_eq V c t) (mlp_covered2_3)

/-- Entry (r, q) of the output array after the grid: the perceptron, of the table and the weights the layer started
    from, at row r and column q. -/
theorem mlp2_out (c : Dev nD) (r : Fin 50000) (cc : Fin 64) :
    ((dat2 V c).arrAt 3 cfg2.N : S50000x64.Idx → EReal) (ix2 r cc)
      = Cert.Spec.mlp (Cert.Spec.cur (V c (Pipeline.arrRef spec2 0) : S50000x64.Idx → EReal))
          (Cert.Spec.cur (V c (Pipeline.arrRef spec2 1) : S64x64.Idx → EReal))
          (Cert.Spec.cur (V c (Pipeline.arrRef spec2 2) : S64x64.Idx → EReal)) r cc :=
  congrFun (mlp_final2_3 V c) (ix2 r cc)

end Cert.KernelIdeal.KV

end
-- ==== Proof.KMlp2Acc.lean ====
/-
  The two one-row accumulators after the grid: the column sums of the layer's perceptron output, and of its squares.

  After point n an accumulator holds the zero word plus the sum, over the blocks 0 … n, of the block's column sums: at the
  first point it starts from the zero row, at every later point from what the point before left.  Only the last point
  writes the accumulators back, and by then the blocks are all 25: regrouping the 25 blocks of 2000 rows as the 50000
  rows (addition of extended reals is commutative and associative, so no finiteness is needed) gives the column sums.
-/
import proofs.«131751_j26465588478351_1_alg».proof.Proof.KMlp2Step
import proofs.«131751_j26465588478351_1_alg».proof.Proof.KMlp2Blk

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Adding the zero word changes nothing. -/
theorem mlp_Zw_add (x : EReal) : Cert.Spec.Zw + x = x := by
  show Ideal.ofBits .f32 0x00000000#32 + x = x
  rw [Ideal.ofBits_zero_f32, zero_add]

/-- A sum over the 50000 rows, taken block by block: 25 blocks of 2000 rows. -/
theorem mlp_sum_rows_blocks (f : Fin 50000 → EReal) :
    ∑ s ∈ Finset.range 25, ∑ p : Fin 2000, f (mlp_rowAt2 s p) = ∑ r : Fin 50000, f r :=
  calc ∑ s ∈ Finset.range 25, ∑ p : Fin 2000, f (mlp_rowAt2 s p)
      = ∑ s : Fin 25, ∑ p : Fin 2000, f (mlp_rowAt2 s.val p) := Finset.sum_range (fun s => ∑ p : Fin 2000, f (mlp_rowAt2 s p))
    _ = ∑ x : Fin 25 × Fin 2000, f (mlp_rowAt2 x.1.val x.2) :=
        (Fintype.sum_prod_type (fun x : Fin 25 × Fin 2000 => f (mlp_rowAt2 x.1.val x.2))).symm
    _ = ∑ r : Fin 50000, f r :=
        Fintype.sum_equiv (finProdFinEquiv.trans (finCongr (by norm_num : 25 * 2000 = 50000))) _ _ fun x =>
          congrArg f (Fin.ext (by
            have h1 := x.1.isLt
            have h2 := x.2.isLt
            show (2000 * x.1.val + x.2.val) % 50000 = x.2.val + 2000 * x.1.val
            omega))

/-- Column q's sum over the rows of block s of the layer's perceptron output, and of its squares. -/
def mlp_blockSum2 (c : Dev nD) (s : ℕ) (q : Fin 64) : EReal := ∑ p : Fin 2000, mlp_Zof2 V c (mlp_rowAt2 s p) q
def mlp_blockSq2 (c : Dev nD) (s : ℕ) (q : Fin 64) : EReal :=
  ∑ p : Fin 2000, mlp_Zof2 V c (mlp_rowAt2 s p) q * mlp_Zof2 V c (mlp_rowAt2 s p) q

/-- After point n the accumulators hold the zero word plus the blocks' column sums up to block n. -/
theorem mlp_acc2_eq (c : Dev nD) : ∀ (n : ℕ) (h : n < cfg2.N) (q : Fin 64),
    ((outsAt2 V c n h).2.1 : S1x64.Idx → EReal) (ix2 0 q)
        = Cert.Spec.Zw + ∑ s ∈ Finset.range (n + 1), mlp_blockSum2 V c s q
      ∧ ((outsAt2 V c n h).2.2 : S1x64.Idx → EReal) (ix2 0 q)
        = Cert.Spec.Zw + ∑ s ∈ Finset.range (n + 1), mlp_blockSq2 V c s q
  | 0, h, q => by
    have e := mlp_outs2_first V c ⟨0, h⟩ rfl
    refine ⟨(congrFun (congrArg (fun x => x.2.1) e) (ix2 0 q)).trans ?_,
      (congrFun (congrArg (fun x => x.2.2) e) (ix2 0 q)).trans ?_⟩
    · refine (pay4_apply (iblk2 V c 0 ⟨0, h⟩) (iblk2 V c 1 ⟨0, h⟩) (iblk2 V c 2 ⟨0, h⟩) (k2_pay1 (F := Ideal)) q).trans ?_
      rw [Finset.sum_range_one]
      exact congrArg₂ (· + ·) (pay1_apply q) (Finset.sum_congr rfl fun p _ => mlp_block2_apply V c ⟨0, h⟩ p q)
    · refine (pay5_apply (iblk2 V c 0 ⟨0, h⟩) (iblk2 V c 1 ⟨0, h⟩) (iblk2 V c 2 ⟨0, h⟩) (k2_pay2 (F := Ideal)) q).trans ?_
      rw [Finset.sum_range_one]
      exact congrArg₂ (· + ·) (pay2_apply q) (Finset.sum_congr rfl fun p _ =>
        congrArg₂ (· * ·) (mlp_block2_apply V c ⟨0, h⟩ p q) (mlp_block2_apply V c ⟨0, h⟩ p q))
  | n + 1, h, q => by
    have hN : cfg2.N = 25 := N_2
    have hB : ¬(⟨n + 1, h⟩ : Fin cfg2.N).val % 25 = 0 := by dsimp only; omega
    have e := mlp_outs2_next V c ⟨n + 1, h⟩ hB
    have ih := mlp_acc2_eq c n (Nat.lt_of_succ_lt h) q
    refine ⟨(congrFun (congrArg (fun x => x.2.1) e) (ix2 0 q)).trans ?_,
      (congrFun (congrArg (fun x => x.2.2) e) (ix2 0 q)).trans ?_⟩
    · refine (pay4_apply (iblk2 V c 0 ⟨n + 1, h⟩) (iblk2 V c 1 ⟨n + 1, h⟩) (iblk2 V c 2 ⟨n + 1, h⟩) _ q).trans ?_
      rw [Finset.sum_range_succ _ (n + 1), ← add_assoc]
      exact congrArg₂ (· + ·) ih.1 (Finset.sum_congr rfl fun p _ => mlp_block2_apply V c ⟨n + 1, h⟩ p q)
    · refine (pay5_apply (iblk2 V c 0 ⟨n + 1, h⟩) (iblk2 V c 1 ⟨n + 1, h⟩) (iblk2 V c 2 ⟨n + 1, h⟩) _ q).trans ?_
      rw [Finset.sum_range_succ _ (n + 1), ← add_assoc]
      exact congrArg₂ (· + ·) ih.2 (Finset.sum_congr rfl fun p _ =>
        congrArg₂ (· * ·) (mlp_block2_apply V c ⟨n + 1, h⟩ p q) (mlp_block2_apply V c ⟨n + 1, h⟩ p q))

/-- The two accumulator arrays as functions of their index: the column sums at the index's column. -/
def mlp_sumArr2 (c : Dev nD) : S1x64.Idx → EReal := fun i => Cert.Spec.colSum (mlp_Zof2 V c) ⟨(i 1).val, idx2_lt1 i⟩
def mlp_sqArr2 (c : Dev nD) : S1x64.Idx → EReal :=
  fun i => Cert.Spec.colSum (Cert.Spec.sq (mlp_Zof2 V c)) ⟨(i 1).val, idx2_lt1 i⟩
theorem mlp_sumArr2_apply (c : Dev nD) (i : S1x64.Idx) :
    mlp_sumArr2 V c i = Cert.Spec.colSum (mlp_Zof2 V c) ⟨(i 1).val, idx2_lt1 i⟩ := rfl
theorem mlp_sqArr2_apply (c : Dev nD) (i : S1x64.Idx) :
    mlp_sqArr2 V c i = Cert.Spec.colSum (Cert.Spec.sq (mlp_Zof2 V c)) ⟨(i 1).val, idx2_lt1 i⟩ := rfl
attribute [irreducible] mlp_sumArr2 mlp_sqArr2

/-- After the last point the first accumulator's entry is the column sum at the entry's place in its array. -/
theorem mlp_sum2_apply (c : Dev nD) (t : Fin cfg2.N) (h24 : t.val = 24) (y : S1x64.Idx) :
    ((outsAt2 V c t.val t.isLt).2.1 : S1x64.Idx → EReal) y = mlp_sumArr2 V c (((cfg2.win 4).blk t).view.emb y) := by
  obtain ⟨-, -, -, -, -, -, -, -, e0, e1, -⟩ := mlp_idx2 t
  obtain ⟨z, q, rfl⟩ : ∃ (z : Fin 1) (q : Fin 64), y = ix2 z q := ⟨y 0, y 1, eq_ix2 y⟩
  obtain rfl : z = 0 := Subsingleton.elim _ _
  refine ((mlp_acc2_eq V c t.val t.isLt q).1).trans ?_
  rw [h24, mlp_Zw_add, mlp_sumArr2_apply]
  refine Eq.trans ?_ (congrArg (Cert.Spec.colSum (mlp_Zof2 V c)) (Fin.ext ?_ : q = _))
  · exact mlp_sum_rows_blocks (fun r => mlp_Zof2 V c r q)
  · show q.val = win2_4.index t (1 : Fin 2) * 64 + 1 * q.val
    rw [e1]; omega

/-- After the last point the second accumulator's entry is the column sum of the squares at the entry's place. -/
theorem mlp_sq2_apply (c : Dev nD) (t : Fin cfg2.N) (h24 : t.val = 24) (y : S1x64.Idx) :
    ((outsAt2 V c t.val t.isLt).2.2 : S1x64.Idx → EReal) y = mlp_sqArr2 V c (((cfg2.win 5).blk t).view.emb y) := by
  obtain ⟨-, -, -, -, -, -, -, -, -, -, e0, e1⟩ := mlp_idx2 t
  obtain ⟨z, q, rfl⟩ : ∃ (z : Fin 1) (q : Fin 64), y = ix2 z q := ⟨y 0, y 1, eq_ix2 y⟩
  obtain rfl : z = 0 := Subsingleton.elim _ _
  refine ((mlp_acc2_eq V c t.val t.isLt q).2).trans ?_
  rw [h24, mlp_Zw_add, mlp_sqArr2_apply]
  refine Eq.trans ?_ (congrArg (Cert.Spec.colSum (Cert.Spec.sq (mlp_Zof2 V c))) (Fin.ext ?_ : q = _))
  · exact mlp_sum_rows_blocks (fun r => Cert.Spec.sq (mlp_Zof2 V c) r q)
  · show q.val = win2_5.index t (1 : Fin 2) * 64 + 1 * q.val
    rw [e1]; omega

/-- What the one writing point writes back into each accumulator's array. -/
theorem mlp_flushed2_4_eq (c : Dev nD) (t : Fin cfg2.N) (hf : (cfg2.win 4).flush t = true) :
    (dat2 V c).flushed 4 t = ((cfg2.win 4).blk t).view.read (Elt Ideal) (mlp_sumArr2 V c) := by
  have hN : t.val < 25 := lt_of_lt_of_eq t.isLt (show cfg2.N = 25 from N_2)
  have h24 : t.val = 24 := by have := (flush2_4 t).mp hf; omega
  show (cfg2.win 4).cut (grid2.coords t) ((dat2 V c).after 4 t) = _
  rw [after2_4]
  funext y
  exact mlp_sum2_apply V c t h24 y
theorem mlp_flushed2_5_eq (c : Dev nD) (t : Fin cfg2.N) (hf : (cfg2.win 5).flush t = true) :
    (dat2 V c).flushed 5 t = ((cfg2.win 5).blk t).view.read (Elt Ideal) (mlp_sqArr2 V c) := by
  have hN : t.val < 25 := lt_of_lt_of_eq t.isLt (show cfg2.N = 25 from N_2)
  have h24 : t.val = 24 := by have := (flush2_5 t).mp hf; omega
  show (cfg2.win 5).cut (grid2.coords t) ((dat2 V c).after 5 t) = _
  rw [after2_5]
  funext y
  exact mlp_sq2_apply V c t h24 y

/-- The last point's block is the whole one-row array. -/
theorem mlp_covered2_4 (i : S1x64.Idx) :
    ∃ t : Fin cfg2.N, (cfg2.win 4).flush t = true ∧ i ∈ ((cfg2.win 4).blk t).view.set := by
  have hi0 : (i 0).val < 1 := (i 0).isLt
  have hi1 : (i 1).val < 64 := (i 1).isLt
  have hN : cfg2.N = 25 := N_2
  obtain ⟨t, ht⟩ : ∃ t : Fin cfg2.N, t.val = 24 := ⟨⟨24, by rw [hN]; omega⟩, rfl⟩
  obtain ⟨-, -, -, -, -, -, -, -, e0, e1, -⟩ := mlp_idx2 t
  refine ⟨t, (flush2_4 t).mpr (by rw [ht]), ?_⟩
  show i ∈ ((View.whole main_v30_1).slice (win2_4.rect t)).set
  rw [View.set_slice_whole, Rect.mem_set_unit]
  intro a
  match a with
  | ⟨0, _⟩ =>
    show win2_4.index t (0 : Fin 2) * 1 ≤ (i 0).val ∧ (i 0).val < win2_4.index t (0 : Fin 2) * 1 + 1
    rw [e0]; omega
  | ⟨1, _⟩ =>
    show win2_4.index t (1 : Fin 2) * 64 ≤ (i 1).val ∧ (i 1).val < win2_4.index t (1 : Fin 2) * 64 + 64
    rw [e1]; omega
theorem mlp_covered2_5 (i : S1x64.Idx) :
    ∃ t : Fin cfg2.N, (cfg2.win 5).flush t = true ∧ i ∈ ((cfg2.win 5).blk t).view.set := by
  have hi0 : (i 0).val < 1 := (i 0).isLt
  have hi1 : (i 1).val < 64 := (i 1).isLt
  have hN : cfg2.N = 25 := N_2
  obtain ⟨t, ht⟩ : ∃ t : Fin cfg2.N, t.val = 24 := ⟨⟨24, by rw [hN]; omega⟩, rfl⟩
  obtain ⟨-, -, -, -, -, -, -, -, -, -, e0, e1⟩ := mlp_idx2 t
  refine ⟨t, (flush2_5 t).mpr (by rw [ht]), ?_⟩
  show i ∈ ((View.whole main_v30_2).slice (win2_5.rect t)).set
  rw [View.set_slice_whole, Rect.mem_set_unit]
  intro a
  match a with
  | ⟨0, _⟩ =>
    show win2_5.index t (0 : Fin 2) * 1 ≤ (i 0).val ∧ (i 0).val < win2_5.index t (0 : Fin 2) * 1 + 1
    rw [e0]; omega
  | ⟨1, _⟩ =>
    show win2_5.index t (1 : Fin 2) * 64 ≤ (i 1).val ∧ (i 1).val < win2_5.index t (1 : Fin 2) * 64 + 64
    rw [e1]; omega

/-- The accumulators' arrays after the grid. -/
theorem mlp_final2_4 (c : Dev nD) : (dat2 V c).arrAt 4 cfg2.N = mlp_sumArr2 V c :=
  (dat2 V c).arrAt_eq_of_cover 4 (mlp_sumArr2 V c) (mlp_flushed2_4_eq V c) (mlp_covered2_4)
theorem mlp_final2_5 (c : Dev nD) : (dat2 V c).arrAt 5 cfg2.N = mlp_sqArr2 V c :=
  (dat2 V c).arrAt_eq_of_cover 5 (mlp_sqArr2 V c) (mlp_flushed2_5_eq V c) (mlp_covered2_5)

/-- Column q of the first accumulator's array after the grid: the sum of column q of the layer's perceptron output. -/
theorem mlp2_sum (c : Dev nD) (cc : Fin 64) :
    ((dat2 V c).arrAt 4 cfg2.N : S1x64.Idx → EReal) (ix2 0 cc)
      = Cert.Spec.colSum (Cert.Spec.mlp (Cert.Spec.cur (V c (Pipeline.arrRef spec2 0) : S50000x64.Idx → EReal))
          (Cert.Spec.cur (V c (Pipeline.arrRef spec2 1) : S64x64.Idx → EReal))
          (Cert.Spec.cur (V c (Pipeline.arrRef spec2 2) : S64x64.Idx → EReal))) cc :=
  (congrFun (mlp_final2_4 V c) (ix2 0 cc)).trans (mlp_sumArr2_apply V c (ix2 0 cc))

/-- Column q of the second accumulator's array after the grid: the sum of the squares of that column. -/
theorem mlp2_sumsq (c : Dev nD) (cc : Fin 64) :
    ((dat2 V c).arrAt 5 cfg2.N : S1x64.Idx → EReal) (ix2 0 cc)
      = Cert.Spec.colSum (Cert.Spec.sq (Cert.Spec.mlp (Cert.Spec.cur (V c (Pipeline.arrRef spec2 0) : S50000x64.Idx → EReal))
          (Cert.Spec.cur (V c (Pipeline.arrRef spec2 1) : S64x64.Idx → EReal))
          (Cert.Spec.cur (V c (Pipeline.arrRef spec2 2) : S64x64.Idx → EReal)))) cc :=
  (congrFun (mlp_final2_5 V c) (ix2 0 cc)).trans (mlp_sqArr2_apply V c (ix2 0 cc))

end Cert.KernelIdeal.KV

end
-- ==== Proof.KNorm3.lean ====
/-
  The normalisation region number 3 of the program, read as a whole array.

  The region runs over 25 grid points.  At point t it reads rows 2000 t .. 2000 t + 1999 of the table z (all 64
  columns) and the whole of four one-row arrays (mean, variance, gamma, beta), and writes back rows
  2000 t .. 2000 t + 1999 of the output.  The value stored at row p, column q of the block is
  gamma q * (z (2000 t + p) q - mean q) * (var q + epsilon)^(-1/2) + beta q: the block of ONE whole-array function,
  the normalisation of the input arrays.  The 25 blocks tile the 50000 rows (row r lies in block r / 2000), so after
  the region the output array is that function at every row and column.
-/
import proofs.«131751_j26465588478351_1_alg».proof.Proof.Gen.KernelIdeal.Frame
import proofs.«131751_j26465588478351_1_alg».proof.Proof.Spec
import proofs.«131751_j26465588478351_1_alg».proof.Proof.KNormPay
import Idealize.ShloMosaic.Lib.Pipeline.Value
import Idealize.ShloMosaic.Lib.ValueIdx

noncomputable section

namespace Cert.KernelIdeal.KV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The five input arrays as the region finds them: the table, the mean, the variance, gamma, beta. -/
abbrev zArr3 (c : Dev nD) : S50000x64.Idx → EReal := V c (Pipeline.arrRef spec3 0)
abbrev muArr3 (c : Dev nD) : S1x64.Idx → EReal := V c (Pipeline.arrRef spec3 1)
abbrev varArr3 (c : Dev nD) : S1x64.Idx → EReal := V c (Pipeline.arrRef spec3 2)
abbrev gArr3 (c : Dev nD) : S1x64.Idx → EReal := V c (Pipeline.arrRef spec3 3)
abbrev bArr3 (c : Dev nD) : S1x64.Idx → EReal := V c (Pipeline.arrRef spec3 4)

/-- The normalised table as one function of the whole-array index. -/
abbrev normArr3 (c : Dev nD) : S50000x64.Idx → EReal := fun i =>
  Cert.Spec.norm (Cert.Spec.cur (zArr3 V c)) (Cert.Spec.row (muArr3 V c)) (Cert.Spec.row (varArr3 V c))
    (Cert.Spec.row (gArr3 V c)) (Cert.Spec.row (bArr3 V c)) (i 0) (i 1)

/-- The block indices of the six windows at every grid point: the table and the output move down with the point,
    the one-row arrays stay. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row p, column q of the output's block at point t is row 2000 t + p, column q of the array. -/
theorem out_emb3 (t : Fin cfg3.N) (p : Fin 2000) (q : Fin 64) (h : 2000 * t.val + p.val < 50000) :
    ((cfg3.win 5).blk t).view.emb (ix2 p q) = (ix2 (⟨2000 * t.val + p.val, h⟩ : Fin 50000) q : S50000x64.Idx) := by
  obtain ⟨-, -, -, -, -, -, -, -, -, -, e0, e1⟩ := idx_facts3 t
  funext a; apply Fin.ext
  match a with
  | ⟨0, _⟩ => show win3_5.index t (0 : Fin 2) * 2000 + 1 * p.val = 2000 * t.val + p.val; omega
  | ⟨1, _⟩ => show win3_5.index t (1 : Fin 2) * 64 + 1 * q.val = q.val; omega

/-- The table's block at point t, at row p and column q, is the table at row 2000 t + p, column q. -/
theorem z_blk3 (c : Dev nD) (t : Fin cfg3.N) (p : Fin 2000) (q : Fin 64) (h : 2000 * t.val + p.val < 50000) :
    (iblk3 V c 0 t : Vec Ideal S2000x64 .f32) (ix2 p q) = zArr3 V c (ix2 (⟨2000 * t.val + p.val, h⟩ : Fin 50000) q) := by
  obtain ⟨e0, e1, -⟩ := idx_facts3 t
  unfold iblk3
  rw [View.read_apply]
  show V c (Pipeline.arrRef spec3 0) (((cfg3.win 0).blk t).view.emb (ix2 p q)) = V c (Pipeline.arrRef spec3 0) _
  refine congrArg _ ?_
  funext a; apply Fin.ext
  match a with
  | ⟨0, _⟩ => show win3_0.index t (0 : Fin 2) * 2000 + 1 * p.val = 2000 * t.val + p.val; omega
  | ⟨1, _⟩ => show win3_0.index t (1 : Fin 2) * 64 + 1 * q.val = q.val; omega

/-- Each one-row array's block at any point is the array: its entry at column q is the array's. -/
theorem mu_blk3 (c : Dev nD) (t : Fin cfg3.N) (q : Fin 64) :
    (iblk3 V c 1 t : Vec Ideal S1x64 .f32) (ix2 0 q) = muArr3 V c (ix2 0 q) := by
  obtain ⟨-, -, e0, e1, -⟩ := idx_facts3 t
  unfold iblk3
  rw [View.read_apply]
  show V c (Pipeline.arrRef spec3 1) (((cfg3.win 1).blk t).view.emb (ix2 0 q)) = V c (Pipeline.arrRef spec3 1) _
  refine congrArg _ ?_
  funext a; apply Fin.ext
  match a with
  | ⟨0, _⟩ => show win3_1.index t (0 : Fin 2) * 1 + 1 * 0 = 0; omega
  | ⟨1, _⟩ => show win3_1.index t (1 : Fin 2) * 64 + 1 * q.val = q.val; omega

theorem var_blk3 (c : Dev nD) (t : Fin cfg3.N) (q : Fin 64) :
    (iblk3 V c 2 t : Vec Ideal S1x64 .f32) (ix2 0 q) = varArr3 V c (ix2 0 q) := by
  obtain ⟨-, -, -, -, e0, e1, -⟩ := idx_facts3 t
  unfold iblk3
  rw [View.read_apply]
  show V c (Pipeline.arrRef spec3 2) (((cfg3.win 2).blk t).view.emb (ix2 0 q)) = V c (Pipeline.arrRef spec3 2) _
  refine congrArg _ ?_
  funext a; apply Fin.ext
  match a with
  | ⟨0, _⟩ => show win3_2.index t (0 : Fin 2) * 1 + 1 * 0 = 0; omega
  | ⟨1, _⟩ => show win3_2.index t (1 : Fin 2) * 64 + 1 * q.val = q.val; omega

theorem g_blk3 (c : Dev nD) (t : Fin cfg3.N) (q : Fin 64) :
    (iblk3 V c 3 t : Vec Ideal S1x64 .f32) (ix2 0 q) = gArr3 V c (ix2 0 q) := by
  obtain ⟨-, -, -, -, -, -, e0, e1, -⟩ := idx_facts3 t
  unfold iblk3
  rw [View.read_apply]
  show V c (Pipeline.arrRef spec3 3) (((cfg3.win 3).blk t).view.emb (ix2 0 q)) = V c (Pipeline.arrRef spec3 3) _
  refine congrArg _ ?_
  funext a; apply Fin.ext
  match a with
  | ⟨0, _⟩ => show win3_3.index t (0 : Fin 2) * 1 + 1 * 0 = 0; omega
  | ⟨1, _⟩ => show win3_3.index t (1 : Fin 2) * 64 + 1 * q.val = q.val; omega

theorem b_blk3 (c : Dev nD) (t : Fin cfg3.N) (q : Fin 64) :
    (iblk3 V c 4 t : Vec Ideal S1x64 .f32) (ix2 0 q) = bArr3 V c (ix2 0 q) := by
  obtain ⟨-, -, -, -, -, -, -, -, e0, e1, -⟩ := idx_facts3 t
  unfold iblk3
  rw [View.read_apply]
  show V c (Pipeline.arrRef spec3 4) (((cfg3.win 4).blk t).view.emb (ix2 0 q)) = V c (Pipeline.arrRef spec3 4) _
  refine congrArg _ ?_
  funext a; apply Fin.ext
  match a with
  | ⟨0, _⟩ => show win3_4.index t (0 : Fin 2) * 1 + 1 * 0 = 0; omega
  | ⟨1, _⟩ => show win3_4.index t (1 : Fin 2) * 64 + 1 * q.val = q.val; omega

/-- What point t writes back is block t of the normalised table. -/
theorem flushed3_eq (c : Dev nD) (t : Fin cfg3.N) :
    (dat3 V c).flushed 5 t = ((cfg3.win 5).blk t).view.read (Elt Ideal) (normArr3 V c) := by
  show (cfg3.win 5).cut (grid3.coords t) ((dat3 V c).after 5 t) = _
  rw [after3_5]
  unfold out3_5
  rw [View.canon_unit_zero zero_off]
  simp only [View.ld_unit_zero (S := S2000x64) zero_off, View.ld_unit_zero (S := S1x64) zero_off]
  funext j
  obtain ⟨p, q, rfl⟩ : ∃ (p : Fin 2000) (q : Fin 64), j = ix2 p q := ⟨j 0, j 1, eq_ix2 j⟩
  have ht : t.val < 25 := by have ht' := t.isLt; have hN : cfg3.N = 25 := N_3; omega
  have h : 2000 * t.val + p.val < 50000 := by have := p.isLt; omega
  show k3_pay1 (F := Ideal) (iblk3 V c 0 t) (iblk3 V c 2 t) (iblk3 V c 3 t) (iblk3 V c 1 t) (iblk3 V c 4 t) (ix2 p q)
      = normArr3 V c (((cfg3.win 5).blk t).view.emb (ix2 p q))
  rw [out_emb3 t p q h]
  refine (norm_pay3_apply (iblk3 V c 0 t) (iblk3 V c 2 t) (iblk3 V c 3 t) (iblk3 V c 1 t) (iblk3 V c 4 t) p q).trans ?_
  rw [z_blk3 V c t p q h, mu_blk3 V c t q, var_blk3 V c t q, g_blk3 V c t q, b_blk3 V c t q]
  rfl

/-- An index of the output array is in point t's block iff each coordinate is in the block's range on its axis. -/
theorem mem_blk3 (t : Fin cfg3.N) (i : S50000x64.Idx) :
    i ∈ ((cfg3.win 5).blk t).view.set ↔ ∀ a : Fin 2, win3_5.index t a * S2000x64.size a ≤ (i a).val ∧ (i a).val < win3_5.index t a * S2000x64.size a + S2000x64.size a := by
  show i ∈ ((View.whole (cfg3.win 5).arr.view.ref).slice (win3_5.rect t)).set ↔ _
  rw [View.set_slice_whole, Rect.mem_set_unit]
  exact Iff.rfl

/-- Every index of the output array lies in the block of the point its row selects: row r is in block r / 2000. -/
theorem cover3 (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  have hN : cfg3.N = 25 := N_3
  let t : Fin cfg3.N := ⟨(i 0).val / 2000, by rw [hN]; omega⟩
  have htv : t.val = (i 0).val / 2000 := rfl
  obtain ⟨-, -, -, -, -, -, -, -, -, -, e0, e1⟩ := idx_facts3 t
  refine ⟨t, flush3_5 t, ?_⟩
  rw [mem_blk3]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 64 ≤ (i 1).val ∧ (i 1).val < win3_5.index t (1 : Fin 2) * 64 + 64; omega

/-- The output array after the region is the normalised table. -/
theorem norm_3_arr (c : Dev nD) : (dat3 V c).arrAt 5 cfg3.N = normArr3 V c :=
  (dat3 V c).arrAt_eq_of_cover 5 (normArr3 V c) (fun t _ => flushed3_eq V c t) (cover3)

/-- Entry by entry: after the region the output at row r, column cc is the normalisation of the input arrays there. -/
theorem norm_3_final (c : Dev nD) (r : Fin 50000) (cc : Fin 64) :
    ((dat3 V c).arrAt 5 cfg3.N : S50000x64.Idx → EReal) (ValueIdx.ix2 r cc)
      = Cert.Spec.norm (Cert.Spec.cur (V c (Pipeline.arrRef spec3 0) : S50000x64.Idx → EReal))
          (Cert.Spec.row (V c (Pipeline.arrRef spec3 1) : S1x64.Idx → EReal))
          (Cert.Spec.row (V c (Pipeline.arrRef spec3 2) : S1x64.Idx → EReal))
          (Cert.Spec.row (V c (Pipeline.arrRef spec3 3) : S1x64.Idx → EReal))
          (Cert.Spec.row (V c (Pipeline.arrRef spec3 4) : S1x64.Idx → EReal)) r cc := by
  rw [norm_3_arr V c]

end Cert.KernelIdeal.KV

end
-- ==== Proof.KChainL1.lean ====
/-
  Graph layer 1 of the idealized kernel: from the table entering it to the table its normalisation launch leaves.
  The host aggregates the table along the edges and cuts the layer's two weight matrices out of the stacked arguments;
  the perceptron launch leaves the clipped double product and its column sums and column sums of squares; the host forms
  the mean and the first spelling of the variance and cuts the layer's scale and shift; the normalisation launch
  normalises.
-/
import proofs.«131751_j26465588478351_1_alg».proof.Proof.KChain0
import proofs.«131751_j26465588478351_1_alg».proof.Proof.KMlp2Z
import proofs.«131751_j26465588478351_1_alg».proof.Proof.KMlp2Acc
import proofs.«131751_j26465588478351_1_alg».proof.Proof.KNorm3

set_option maxRecDepth 16384

noncomputable section

namespace Cert.KernelIdeal.KV

open Idealize.ShloMosaic Idealize.ShloMosaic.TcCoe Idealize.ShloMosaic.Tactic Idealize.SL.Sem Idealize.ShloMosaic.StableHlo
open Idealize.ShloMosaic.ValueIdx Idealize.ShloMosaic.Pipeline
open Cert.KernelIdeal Cert.KernelIdeal.Gen Cert.Lib

variable (m : (ℓ : Loc nD τ sig) → Buf (Elt Ideal) ℓ) (ρ : Dev nD → PrngReg) (c : Dev nD)

/-! ## The perceptron launch's inputs -/

set_option maxHeartbeats 1000000 in
theorem L0_in_w1 : Spec.cur (V5 m ρ c (Pipeline.arrRef spec2 1) : S64x64.Idx → EReal) = W1s m c (⟨0, by decide⟩ : Fin 3) := by
  rw [show (V5 m ρ c (Pipeline.arrRef spec2 1) : S64x64.Idx → EReal) = StableHlo.after hostOps2 (W4 m ρ c) (Proc.devRef .tc main_v27) from rfl,
    h2_w1 (W4 m ρ c)]
  exact congrArg (fun (A : S3x64x64.Idx → EReal) => fun j cc => A (ix3 (⟨0, by decide⟩ : Fin 3) j cc))
    ((kp4_main_arg6 m ρ c).trans (W1_main_arg6 m ρ c))

set_option maxHeartbeats 1000000 in
theorem L0_in_w2 : Spec.cur (V5 m ρ c (Pipeline.arrRef spec2 2) : S64x64.Idx → EReal) = W2s m c (⟨0, by decide⟩ : Fin 3) := by
  rw [show (V5 m ρ c (Pipeline.arrRef spec2 2) : S64x64.Idx → EReal) = StableHlo.after hostOps2 (W4 m ρ c) (Proc.devRef .tc main_v29) from rfl,
    h2_w2 (W4 m ρ c)]
  exact congrArg (fun (A : S3x64x64.Idx → EReal) => fun j cc => A (ix3 (⟨0, by decide⟩ : Fin 3) j cc))
    ((kp4_main_arg7 m ρ c).trans (W1_main_arg7 m ρ c))

section
variable (H : Spec.Tab) (hH : Spec.cur (W4 m ρ c (Proc.devRef .tc main_v14) : S50000x64.Idx → EReal) = H)
include hH

set_option maxHeartbeats 1000000 in
/-- The first input: the entering table aggregated along the edges. -/
theorem L0_in_a : Spec.cur (V5 m ρ c (Pipeline.arrRef spec2 0) : S50000x64.Idx → EReal) = aggK m c H := by
  rw [show (V5 m ρ c (Pipeline.arrRef spec2 0) : S50000x64.Idx → EReal) = StableHlo.after hostOps2 (W4 m ρ c) (Proc.devRef .tc main_v25) from rfl,
    h2_agg (W4 m ρ c),
    show (W4 m ρ c (Proc.devRef .tc main_v1) : IVec S800000 32) = srcW m c from (kp4_main_v1 m ρ c).trans (W1_src m ρ c),
    show (W4 m ρ c (Proc.devRef .tc main_v3) : IVec S800000 32) = dstW m c from (kp4_main_v3 m ρ c).trans (W1_dst m ρ c),
    aggK_cur, hH]

/-! ## The perceptron launch's three outputs -/

set_option maxHeartbeats 1000000 in
theorem L0_z : Spec.cur (W6 m ρ c (Proc.devRef .tc main_v30_0) : S50000x64.Idx → EReal) = (Spec.mlp (aggK m c H) (W1s m c (⟨0, by decide⟩ : Fin 3)) (W2s m c (⟨0, by decide⟩ : Fin 3))) := by
  funext r cc
  have e : (W6 m ρ c (Proc.devRef .tc main_v30_0) : S50000x64.Idx → EReal) = (dat2 (V5 m ρ) c).arrAt 3 cfg2.N := W6_arr m ρ c 3
  have hz := congr (congr (congrArg (Spec.mlp (n := 50000) (q := 64) (k := 64)) (L0_in_a m ρ c H hH)) (L0_in_w1 m ρ c)) (L0_in_w2 m ρ c)
  exact ((congrFun e (ix2 r cc)).trans (mlp2_out (V5 m ρ) c r cc)).trans (congrFun (congrFun hz r) cc)

set_option maxHeartbeats 1000000 in
theorem L0_s : Spec.row (W6 m ρ c (Proc.devRef .tc main_v30_1) : S1x64.Idx → EReal) = Spec.colSum (Spec.mlp (aggK m c H) (W1s m c (⟨0, by decide⟩ : Fin 3)) (W2s m c (⟨0, by decide⟩ : Fin 3))) := by
  funext cc
  have e : (W6 m ρ c (Proc.devRef .tc main_v30_1) : S1x64.Idx → EReal) = (dat2 (V5 m ρ) c).arrAt 4 cfg2.N := W6_arr m ρ c 4
  have hz := congr (congr (congrArg (Spec.mlp (n := 50000) (q := 64) (k := 64)) (L0_in_a m ρ c H hH)) (L0_in_w1 m ρ c)) (L0_in_w2 m ρ c)
  exact ((congrFun e (ix2 0 cc)).trans (mlp2_sum (V5 m ρ) c cc)).trans (congrFun (congrArg Spec.colSum hz) cc)

set_option maxHeartbeats 1000000 in
theorem L0_ss : Spec.row (W6 m ρ c (Proc.devRef .tc main_v30_2) : S1x64.Idx → EReal) = Spec.colSum (Spec.sq (Spec.mlp (aggK m c H) (W1s m c (⟨0, by decide⟩ : Fin 3)) (W2s m c (⟨0, by decide⟩ : Fin 3)))) := by
  funext cc
  have e : (W6 m ρ c (Proc.devRef .tc main_v30_2) : S1x64.Idx → EReal) = (dat2 (V5 m ρ) c).arrAt 5 cfg2.N := W6_arr m ρ c 5
  have hz := congr (congr (congrArg (Spec.mlp (n := 50000) (q := 64) (k := 64)) (L0_in_a m ρ c H hH)) (L0_in_w1 m ρ c)) (L0_in_w2 m ρ c)
  exact ((congrFun e (ix2 0 cc)).trans (mlp2_sumsq (V5 m ρ) c cc)).trans (congrFun (congrArg (fun z => Spec.colSum (Spec.sq z)) hz) cc)

/-! ## The normalisation launch's inputs -/

set_option maxHeartbeats 1000000 in
theorem L0_n_z : Spec.cur (V7 m ρ c (Pipeline.arrRef spec3 0) : S50000x64.Idx → EReal) = (Spec.mlp (aggK m c H) (W1s m c (⟨0, by decide⟩ : Fin 3)) (W2s m c (⟨0, by decide⟩ : Fin 3))) :=
  (congrArg Spec.cur (h3_z (W6 m ρ c))).trans (L0_z m ρ c H hH)

set_option maxHeartbeats 1000000 in
theorem L0_n_mu : Spec.row (V7 m ρ c (Pipeline.arrRef spec3 1) : S1x64.Idx → EReal) = Spec.mean (Spec.mlp (aggK m c H) (W1s m c (⟨0, by decide⟩ : Fin 3)) (W2s m c (⟨0, by decide⟩ : Fin 3))) := by
  rw [show (V7 m ρ c (Pipeline.arrRef spec3 1) : S1x64.Idx → EReal) = StableHlo.after hostOps3 (W6 m ρ c) (Proc.devRef .tc main_v32) from rfl,
    h3_mean (W6 m ρ c), L0_s m ρ c H hH]
  rfl

set_option maxHeartbeats 1000000 in
theorem L0_n_var : Spec.row (V7 m ρ c (Pipeline.arrRef spec3 2) : S1x64.Idx → EReal) = Spec.varK (Spec.mlp (aggK m c H) (W1s m c (⟨0, by decide⟩ : Fin 3)) (W2s m c (⟨0, by decide⟩ : Fin 3))) := by
  rw [show (V7 m ρ c (Pipeline.arrRef spec3 2) : S1x64.Idx → EReal) = StableHlo.after hostOps3 (W6 m ρ c) (Proc.devRef .tc main_v36) from rfl,
    h3_var (W6 m ρ c), L0_s m ρ c H hH, L0_ss m ρ c H hH]
  rfl
omit hH
end

set_option maxHeartbeats 1000000 in
theorem L0_n_g : Spec.row (V7 m ρ c (Pipeline.arrRef spec3 3) : S1x64.Idx → EReal) = gams m c (⟨0, by decide⟩ : Fin 3) := by
  rw [show (V7 m ρ c (Pipeline.arrRef spec3 3) : S1x64.Idx → EReal) = StableHlo.after hostOps3 (W6 m ρ c) (Proc.devRef .tc main_v41) from rfl,
    h3_gamma (W6 m ρ c)]
  exact congrArg (fun (A : S3x64.Idx → EReal) => fun cc => A (ix2 (⟨0, by decide⟩ : Fin 3) cc))
    ((kp6_main_arg8 m ρ c).trans (W1_main_arg8 m ρ c))

set_option maxHeartbeats 1000000 in
theorem L0_n_b : Spec.row (V7 m ρ c (Pipeline.arrRef spec3 4) : S1x64.Idx → EReal) = bets m c (⟨0, by decide⟩ : Fin 3) := by
  rw [show (V7 m ρ c (Pipeline.arrRef spec3 4) : S1x64.Idx → EReal) = StableHlo.after hostOps3 (W6 m ρ c) (Proc.devRef .tc main_v42) from rfl,
    h3_beta (W6 m ρ c)]
  exact congrArg (fun (A : S3x64.Idx → EReal) => fun cc => A (ix2 (⟨0, by decide⟩ : Fin 3) cc))
    ((kp6_main_arg9 m ρ c).trans (W1_main_arg9 m ρ c))

set_option maxHeartbeats 1000000 in
/-- After the layer's normalisation launch: the layer over the first spelling of the variance. -/
theorem L0_out (H : Spec.Tab) (hH : Spec.cur (W4 m ρ c (Proc.devRef .tc main_v14) : S50000x64.Idx → EReal) = H) :
    Spec.cur (W8 m ρ c (Proc.devRef .tc main_v43) : S50000x64.Idx → EReal)
      = Spec.layer Spec.bnK (aggK m c) H (W1s m c (⟨0, by decide⟩ : Fin 3)) (W2s m c (⟨0, by decide⟩ : Fin 3)) (gams m c (⟨0, by decide⟩ : Fin 3)) (bets m c (⟨0, by decide⟩ : Fin 3)) := by
  funext r cc
  have e : (W8 m ρ c (Proc.devRef .tc main_v43) : S50000x64.Idx → EReal) = (dat3 (V7 m ρ) c).arrAt 5 cfg3.N := W8_arr m ρ c 5
  have hn := congr (congr (congr (congr (congrArg (Spec.norm (n := 50000) (k := 64)) (L0_n_z m ρ c H hH)) (L0_n_mu m ρ c H hH))
    (L0_n_var m ρ c H hH)) (L0_n_g m ρ c)) (L0_n_b m ρ c)
  exact ((congrFun e (ix2 r cc)).trans (norm_3_final (V7 m ρ) c r cc)).trans (congrFun (congrFun hn r) cc)

end Cert.KernelIdeal.KV

end
-- ==== Proof.KMlp4Out.lean ====
/-
  What one run of the perceptron body leaves in its three output blocks, as values of the blocks it loaded.

  The body has two cases.  At the first point of the grid it first stores a zero row into each of the two one-row
  accumulators and then runs the common part on them; at every later point it runs the common part on what the point
  before left.  The common part stores the perceptron of the loaded row block and the two weight matrices into the
  output block, and into each accumulator the accumulator plus the block's column sums (of the entries, and of their
  squares).  Every store covers its whole block, so each block ends at its last store's value, and every load reads a
  whole block.
-/
import proofs.«131751_j26465588478351_1_alg».proof.Proof.KMlp2Out
import Idealize.ShloMosaic.Lib.Pipeline.Value
import Idealize.ShloMosaic.Lib.Tactic

set_option maxRecDepth 16384

noncomputable section

namespace Cert.KernelIdeal.KV

open Idealize.ShloMosaic Idealize.ShloMosaic.TcCoe Idealize.ShloMosaic.Tactic Idealize.SL.Sem
open Cert.KernelIdeal Cert.KernelIdeal.Gen

variable {F : FTy → Type} [FloatOps F]

/-! ## A later point: the common part on what the point before left -/

theorem mlp_out4_B_3_eq (c : Dev nD) (i : grid4.Coords) (a1 : Memref sig .tc .vmem S2000x64 .f32) (h1 : a1.IsWhole) (a2 : Memref sig .tc .vmem S64x64 .f32) (h2 : a2.IsWhole) (a3 : Memref sig .tc .vmem S64x64 .f32) (h3 : a3.IsWhole) (a4 : Memref sig .tc .vmem S2000x64 .f32) (h4 : a4.IsWhole) (a5 : Memref sig .tc .vmem S1x64 .f32) (h5 : a5.IsWhole) (a6 : Memref sig .tc .vmem S1x64 .f32) (h6 : a6.IsWhole) (hc : ¬cond4_0 i)
    (x0 : Vec F S2000x64 .f32) (x1 x2 : Vec F S64x64 .f32) (xo4 xo5 : Vec F S1x64 .f32) :
    out4_B_3 c i a1 h1 a2 h2 a3 h3 a4 h4 a5 h5 a6 h6 hc x0 x1 x2 xo4 xo5 = k4_pay3 x0 x1 x2 := by
  unfold out4_B_3
  rw [View.read_writes_eq_canon _ _ _ (cover4_B_3 c i a1 h1 a2 h2 a3 h3 a4 h4 a5 h5 a6 h6 hc x0 x1 x2 xo4 xo5)]
  unfold kernelRun4_B
  dsimp only
  sl_unfold_words
  rw [View.canon_unit_zero mlp_hz2]
  simp only [View.readAt_eq_ld, h1.read_unread, h2.read_unread, h3.read_unread, View.ld_unit_zero (S := S2000x64) mlp_hz2, View.ld_unit_zero (S := S64x64) mlp_hz2, View.ld_unit_zero (S := S1x64) mlp_hz2]

theorem mlp_out4_B_4_eq (c : Dev nD) (i : grid4.Coords) (a1 : Memref sig .tc .vmem S2000x64 .f32) (h1 : a1.IsWhole) (a2 : Memref sig .tc .vmem S64x64 .f32) (h2 : a2.IsWhole) (a3 : Memref sig .tc .vmem S64x64 .f32) (h3 : a3.IsWhole) (a4 : Memref sig .tc .vmem S2000x64 .f32) (h4 : a4.IsWhole) (a5 : Memref sig .tc .vmem S1x64 .f32) (h5 : a5.IsWhole) (a6 : Memref sig .tc .vmem S1x64 .f32) (h6 : a6.IsWhole) (hc : ¬cond4_0 i)
    (x0 : Vec F S2000x64 .f32) (x1 x2 : Vec F S64x64 .f32) (xo4 xo5 : Vec F S1x64 .f32) :
    out4_B_4 c i a1 h1 a2 h2 a3 h3 a4 h4 a5 h5 a6 h6 hc x0 x1 x2 xo4 xo5 = k4_pay4 x0 x1 x2 xo4 := by
  unfold out4_B_4
  rw [View.read_writes_eq_canon _ _ _ (cover4_B_4 c i a1 h1 a2 h2 a3 h3 a4 h4 a5 h5 a6 h6 hc x0 x1 x2 xo4 xo5)]
  unfold kernelRun4_B
  dsimp only
  sl_unfold_words
  rw [View.canon_unit_zero mlp_hz2]
  simp only [View.readAt_eq_ld, h1.read_unread, h2.read_unread, h3.read_unread, h5.read_unread, View.ld_unit_zero (S := S2000x64) mlp_hz2, View.ld_unit_zero (S := S64x64) mlp_hz2, View.ld_unit_zero (S := S1x64) mlp_hz2]

theorem mlp_out4_B_5_eq (c : Dev nD) (i : grid4.Coords) (a1 : Memref sig .tc .vmem S2000x64 .f32) (h1 : a1.IsWhole) (a2 : Memref sig .tc .vmem S64x64 .f32) (h2 : a2.IsWhole) (a3 : Memref sig .tc .vmem S64x64 .f32) (h3 : a3.IsWhole) (a4 : Memref sig .tc .vmem S2000x64 .f32) (h4 : a4.IsWhole) (a5 : Memref sig .tc .vmem S1x64 .f32) (h5 : a5.IsWhole) (a6 : Memref sig .tc .vmem S1x64 .f32) (h6 : a6.IsWhole) (hc : ¬cond4_0 i)
    (x0 : Vec F S2000x64 .f32) (x1 x2 : Vec F S64x64 .f32) (xo4 xo5 : Vec F S1x64 .f32) :
    out4_B_5 c i a1 h1 a2 h2 a3 h3 a4 h4 a5 h5 a6 h6 hc x0 x1 x2 xo4 xo5 = k4_pay5 x0 x1 x2 xo5 := by
  unfold out4_B_5
  rw [View.read_writes_eq_canon _ _ _ (cover4_B_5 c i a1 h1 a2 h2 a3 h3 a4 h4 a5 h5 a6 h6 hc x0 x1 x2 xo4 xo5)]
  unfold kernelRun4_B
  dsimp only
  sl_unfold_words
  rw [View.canon_unit_zero mlp_hz2]
  simp only [View.readAt_eq_ld, h1.read_unread, h2.read_unread, h3.read_unread, h6.read_unread, View.ld_unit_zero (S := S2000x64) mlp_hz2, View.ld_unit_zero (S := S64x64) mlp_hz2, View.ld_unit_zero (S := S1x64) mlp_hz2]

/-! ## The first point: the accumulators are zeroed first -/

theorem mlp_out4_A_3_eq (c : Dev nD) (i : grid4.Coords) (a1 : Memref sig .tc .vmem S2000x64 .f32) (h1 : a1.IsWhole) (a2 : Memref sig .tc .vmem S64x64 .f32) (h2 : a2.IsWhole) (a3 : Memref sig .tc .vmem S64x64 .f32) (h3 : a3.IsWhole) (a4 : Memref sig .tc .vmem S2000x64 .f32) (h4 : a4.IsWhole) (a5 : Memref sig .tc .vmem S1x64 .f32) (h5 : a5.IsWhole) (a6 : Memref sig .tc .vmem S1x64 .f32) (h6 : a6.IsWhole) (hc : cond4_0 i)
    (x0 : Vec F S2000x64 .f32) (x1 x2 : Vec F S64x64 .f32) :
    out4_A_3 c i a1 h1 a2 h2 a3 h3 a4 h4 a5 h5 a6 h6 hc x0 x1 x2 = k4_pay3 x0 x1 x2 := by
  unfold out4_A_3
  rw [View.read_writes_eq_canon _ _ _ (cover4_A_3 c i a1 h1 a2 h2 a3 h3 a4 h4 a5 h5 a6 h6 hc x0 x1 x2)]
  unfold kernelRun4_A
  dsimp only
  sl_unfold_words
  rw [View.canon_unit_zero mlp_hz2]
  simp only [View.readAt_eq_ld, h1.read_unread, h2.read_unread, h3.read_unread, View.ld_unit_zero (S := S2000x64) mlp_hz2, View.ld_unit_zero (S := S64x64) mlp_hz2, View.ld_unit_zero (S := S1x64) mlp_hz2]

theorem mlp_out4_A_4_eq (c : Dev nD) (i : grid4.Coords) (a1 : Memref sig .tc .vmem S2000x64 .f32) (h1 : a1.IsWhole) (a2 : Memref sig .tc .vmem S64x64 .f32) (h2 : a2.IsWhole) (a3 : Memref sig .tc .vmem S64x64 .f32) (h3 : a3.IsWhole) (a4 : Memref sig .tc .vmem S2000x64 .f32) (h4 : a4.IsWhole) (a5 : Memref sig .tc .vmem S1x64 .f32) (h5 : a5.IsWhole) (a6 : Memref sig .tc .vmem S1x64 .f32) (h6 : a6.IsWhole) (hc : cond4_0 i)
    (x0 : Vec F S2000x64 .f32) (x1 x2 : Vec F S64x64 .f32) :
    out4_A_4 c i a1 h1 a2 h2 a3 h3 a4 h4 a5 h5 a6 h6 hc x0 x1 x2 = k4_pay4 x0 x1 x2 k4_pay1 := by
  unfold out4_A_4
  rw [View.read_writes_eq_canon _ _ _ (cover4_A_4 c i a1 h1 a2 h2 a3 h3 a4 h4 a5 h5 a6 h6 hc x0 x1 x2)]
  unfold kernelRun4_A
  dsimp only
  sl_unfold_words
  rw [View.canon_cons_unit_zero (S := S1x64) mlp_hz2, View.readCov_unit_zero (S := S1x64) _ mlp_hz2]
  simp only [View.readAt_eq_ld, h1.read_unread, h2.read_unread, h3.read_unread, View.ld_unit_zero (S := S2000x64) mlp_hz2, View.ld_unit_zero (S := S64x64) mlp_hz2, View.ld_unit_zero (S := S1x64) mlp_hz2]

theorem mlp_out4_A_5_eq (c : Dev nD) (i : grid4.Coords) (a1 : Memref sig .tc .vmem S2000x64 .f32) (h1 : a1.IsWhole) (a2 : Memref sig .tc .vmem S64x64 .f32) (h2 : a2.IsWhole) (a3 : Memref sig .tc .vmem S64x64 .f32) (h3 : a3.IsWhole) (a4 : Memref sig .tc .vmem S2000x64 .f32) (h4 : a4.IsWhole) (a5 : Memref sig .tc .vmem S1x64 .f32) (h5 : a5.IsWhole) (a6 : Memref sig .tc .vmem S1x64 .f32) (h6 : a6.IsWhole) (hc : cond4_0 i)
    (x0 : Vec F S2000x64 .f32) (x1 x2 : Vec F S64x64 .f32) :
    out4_A_5 c i a1 h1 a2 h2 a3 h3 a4 h4 a5 h5 a6 h6 hc x0 x1 x2 = k4_pay5 x0 x1 x2 k4_pay2 := by
  unfold out4_A_5
  rw [View.read_writes_eq_canon _ _ _ (cover4_A_5 c i a1 h1 a2 h2 a3 h3 a4 h4 a5 h5 a6 h6 hc x0 x1 x2)]
  unfold kernelRun4_A
  dsimp only
  sl_unfold_words
  rw [View.canon_cons_unit_zero (S := S1x64) mlp_hz2, View.readCov_unit_zero (S := S1x64) _ mlp_hz2]
  simp only [View.readAt_eq_ld, h1.read_unread, h2.read_unread, h3.read_unread, View.ld_unit_zero (S := S2000x64) mlp_hz2, View.ld_unit_zero (S := S64x64) mlp_hz2, View.ld_unit_zero (S := S1x64) mlp_hz2]

end Cert.KernelIdeal.KV

end
-- ==== Proof.KMlp4Step.lean ====
/-
  What the three output blocks hold after each point of the grid, as values of the blocks the point loads.

  At a point whose number is a multiple of 25 (the first one) the accumulators start from the zero row; at every other
  point they start from what the point before left.  In both cases the output block is the perceptron of the point's
  row block and the weights, and each accumulator is its start plus the block's column sums.
-/
import proofs.«131751_j26465588478351_1_alg».proof.Proof.KMlp4Out

set_option maxRecDepth 16384

noncomputable section

namespace Cert.KernelIdeal.KV

open Idealize.ShloMosaic Idealize.ShloMosaic.TcCoe Idealize.SL.Sem
open Cert.KernelIdeal Cert.KernelIdeal.Gen

variable {F : FTy → Type} [FloatOps F]
variable (V : (c : Dev nD) → (b : Ref sig .tc) → Buf (Elt F) ((c : Thread nD τ).loc b))

/-- After a point that starts the accumulation. -/
theorem mlp_outs4_first (c : Dev nD) (t : Fin cfg4.N) (h0 : t.val % 25 = 0) :
    outsAt4 V c t.val t.isLt
      = (k4_pay3 (iblk4 V c 0 t) (iblk4 V c 1 t) (iblk4 V c 2 t), k4_pay4 (iblk4 V c 0 t) (iblk4 V c 1 t) (iblk4 V c 2 t) k4_pay1, k4_pay5 (iblk4 V c 0 t) (iblk4 V c 1 t) (iblk4 V c 2 t) k4_pay2) := by
  rw [outsAt4_A V c t h0]
  exact congrArg₂ Prod.mk
    (mlp_out4_A_3_eq c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t))
    (congrArg₂ Prod.mk
      (mlp_out4_A_4_eq c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t))
      (mlp_out4_A_5_eq c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t)))

/-- After a point that continues it. -/
theorem mlp_outs4_next (c : Dev nD) (t : Fin cfg4.N) (h0 : ¬t.val % 25 = 0) :
    outsAt4 V c t.val t.isLt
      = (k4_pay3 (iblk4 V c 0 t) (iblk4 V c 1 t) (iblk4 V c 2 t),
         k4_pay4 (iblk4 V c 0 t) (iblk4 V c 1 t) (iblk4 V c 2 t) (outsAt4 V c (t.val - 1) (Nat.lt_of_le_of_lt (Nat.sub_le _ _) t.isLt)).2.1,
         k4_pay5 (iblk4 V c 0 t) (iblk4 V c 1 t) (iblk4 V c 2 t) (outsAt4 V c (t.val - 1) (Nat.lt_of_le_of_lt (Nat.sub_le _ _) t.isLt)).2.2) := by
  rw [outsAt4_B V c t h0]
  exact congrArg₂ Prod.mk
    (mlp_out4_B_3_eq c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2)
    (congrArg₂ Prod.mk
      (mlp_out4_B_4_eq c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2)
      (mlp_out4_B_5_eq c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2))

/-- The output block after any point: the perceptron of the point's row block and the weights. -/
theorem mlp_outs4_block (c : Dev nD) (t : Fin cfg4.N) :
    (outsAt4 V c t.val t.isLt).1 = k4_pay3 (iblk4 V c 0 t) (iblk4 V c 1 t) (iblk4 V c 2 t) := by
  by_cases h0 : t.val % 25 = 0
  · rw [mlp_outs4_first V c t h0]
  · rw [mlp_outs4_next V c t h0]

end Cert.KernelIdeal.KV

end
-- ==== Proof.KMlp4Pay.lean ====
/-
  The perceptron body of this layer is the same text as the first graph layer's, so its stored block and its two
  accumulators read entry by entry in the same way.
-/
import proofs.«131751_j26465588478351_1_alg».proof.Proof.KMlp2Pay

noncomputable section

namespace Cert.KernelIdeal.KV

open Idealize.ShloMosaic Idealize.ShloMosaic.ValueIdx
open Cert.KernelIdeal Cert.KernelIdeal.Gen

theorem pay3_apply_4 (a : Vec Ideal S2000x64 .f32) (w1 w2 : Vec Ideal S64x64 .f32) (p : Fin 2000) (q : Fin 64) :
    k4_pay3 (F := Ideal) a w1 w2 (ix2 p q) = Cert.Spec.mlp (Cert.Spec.cur a) (Cert.Spec.cur w1) (Cert.Spec.cur w2) p q :=
  pay3_apply a w1 w2 p q

theorem pay4_apply_4 (a : Vec Ideal S2000x64 .f32) (w1 w2 : Vec Ideal S64x64 .f32) (s : Vec Ideal S1x64 .f32) (q : Fin 64) :
    k4_pay4 (F := Ideal) a w1 w2 s (ix2 0 q) = s (ix2 0 q) + ∑ p : Fin 2000, k4_pay3 (F := Ideal) a w1 w2 (ix2 p q) :=
  pay4_apply a w1 w2 s q

theorem pay5_apply_4 (a : Vec Ideal S2000x64 .f32) (w1 w2 : Vec Ideal S64x64 .f32) (s : Vec Ideal S1x64 .f32) (q : Fin 64) :
    k4_pay5 (F := Ideal) a w1 w2 s (ix2 0 q)
      = s (ix2 0 q) + ∑ p : Fin 2000, k4_pay3 (F := Ideal) a w1 w2 (ix2 p q) * k4_pay3 (F := Ideal) a w1 w2 (ix2 p q) :=
  pay5_apply a w1 w2 s q

theorem pay1_apply_4 (q : Fin 64) : k4_pay1 (F := Ideal) (ix2 0 q) = Cert.Spec.Zw := rfl
theorem pay2_apply_4 (q : Fin 64) : k4_pay2 (F := Ideal) (ix2 0 q) = Cert.Spec.Zw := rfl

end Cert.KernelIdeal.KV

end
-- ==== Proof.KMlp4Blk.lean ====
/-
  The blocks a point of the grid loads, as entries of the arrays the layer starts from, and the block it stores as
  rows of the layer's perceptron output.

  Point t loads rows 2000 t … 2000 t + 1999 of the feature table (all 64 columns) and the two weight matrices whole.
  An entry of the perceptron depends only on its own row of the table, so row p of the stored block is row
  2000 t + p of the perceptron of the whole table.
-/
import proofs.«131751_j26465588478351_1_alg».proof.Proof.KMlp4Pay
import proofs.«131751_j26465588478351_1_alg».proof.Proof.KMlp2Blk

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- Where each window's block sits at point t: the table's and the output's at block row t, the weights' and the
    accumulators' at the origin. -/
theorem mlp_idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- Entry (p, q) of the table's block at point t is the table's entry (2000 t + p, q). -/
theorem mlp_blk4_0_apply (c : Dev nD) (t : Fin cfg4.N) (p : Fin 2000) (q : Fin 64) :
    (iblk4 V c 0 t : S2000x64.Idx → EReal) (ix2 p q)
      = (V c (Pipeline.arrRef spec4 0) : S50000x64.Idx → EReal) (ix2 (mlp_rowAt2 t.val p) q) := by
  have hN : t.val < 25 := lt_of_lt_of_eq t.isLt (show cfg4.N = 25 from N_4)
  have hp := p.isLt
  obtain ⟨e0, e1, -⟩ := mlp_idx4 t
  unfold iblk4
  rw [View.read_apply]
  show V c (Pipeline.arrRef spec4 0) _ = V c (Pipeline.arrRef spec4 0) _
  refine congrArg (V c (Pipeline.arrRef spec4 0)) ?_
  funext a
  apply Fin.ext
  match a with
  | ⟨0, _⟩ =>
    show win4_0.index t (0 : Fin 2) * 2000 + 1 * p.val = (2000 * t.val + p.val) % 50000
    rw [e0]; omega
  | ⟨1, _⟩ =>
    show win4_0.index t (1 : Fin 2) * 64 + 1 * q.val = q.val
    rw [e1]; omega

/-- The first weight matrix's block at any point is the matrix. -/
theorem mlp_blk4_1_eq (c : Dev nD) (t : Fin cfg4.N) :
    (iblk4 V c 1 t : S64x64.Idx → EReal) = (V c (Pipeline.arrRef spec4 1) : S64x64.Idx → EReal) := by
  obtain ⟨-, -, e0, e1, -⟩ := mlp_idx4 t
  funext y
  unfold iblk4
  rw [View.read_apply]
  show V c (Pipeline.arrRef spec4 1) _ = V c (Pipeline.arrRef spec4 1) _
  refine congrArg (V c (Pipeline.arrRef spec4 1)) ?_
  funext a
  apply Fin.ext
  match a with
  | ⟨0, _⟩ =>
    show win4_1.index t (0 : Fin 2) * 64 + 1 * (y 0).val = (y 0).val
    rw [e0]; omega
  | ⟨1, _⟩ =>
    show win4_1.index t (1 : Fin 2) * 64 + 1 * (y 1).val = (y 1).val
    rw [e1]; omega

/-- The second weight matrix's block at any point is the matrix. -/
theorem mlp_blk4_2_eq (c : Dev nD) (t : Fin cfg4.N) :
    (iblk4 V c 2 t : S64x64.Idx → EReal) = (V c (Pipeline.arrRef spec4 2) : S64x64.Idx → EReal) := by
  obtain ⟨-, -, -, -, e0, e1, -⟩ := mlp_idx4 t
  funext y
  unfold iblk4
  rw [View.read_apply]
  show V c (Pipeline.arrRef spec4 2) _ = V c (Pipeline.arrRef spec4 2) _
  refine congrArg (V c (Pipeline.arrRef spec4 2)) ?_
  funext a
  apply Fin.ext
  match a with
  | ⟨0, _⟩ =>
    show win4_2.index t (0 : Fin 2) * 64 + 1 * (y 0).val = (y 0).val
    rw [e0]; omega
  | ⟨1, _⟩ =>
    show win4_2.index t (1 : Fin 2) * 64 + 1 * (y 1).val = (y 1).val
    rw [e1]; omega

/-- The layer's perceptron output: of the table and the two weight matrices as the layer finds them. -/
abbrev mlp_Zof4 (c : Dev nD) : Fin 50000 → Fin 64 → EReal :=
  Cert.Spec.mlp (Cert.Spec.cur (V c (Pipeline.arrRef spec4 0) : S50000x64.Idx → EReal))
    (Cert.Spec.cur (V c (Pipeline.arrRef spec4 1) : S64x64.Idx → EReal))
    (Cert.Spec.cur (V c (Pipeline.arrRef spec4 2) : S64x64.Idx → EReal))

/-- Entry (p, q) of the block point t stores is entry (2000 t + p, q) of the layer's perceptron output. -/
theorem mlp_block4_apply (c : Dev nD) (t : Fin cfg4.N) (p : Fin 2000) (q : Fin 64) :
    (k4_pay3 (F := Ideal) (iblk4 V c 0 t) (iblk4 V c 1 t) (iblk4 V c 2 t) : S2000x64.Idx → EReal) (ix2 p q)
      = mlp_Zof4 V c (mlp_rowAt2 t.val p) q := by
  refine (pay3_apply_4 (iblk4 V c 0 t) (iblk4 V c 1 t) (iblk4 V c 2 t) p q).trans ?_
  exact mlp_row_congr2 _ _ _ _ _ _ p (mlp_rowAt2 t.val p) (fun j => mlp_blk4_0_apply V c t p j)
    (congrArg Cert.Spec.cur (mlp_blk4_1_eq V c t)) (congrArg Cert.Spec.cur (mlp_blk4_2_eq V c t)) q

end Cert.KernelIdeal.KV

end
-- ==== Proof.KMlp4Z.lean ====
/-
  The layer's output array after the grid: entry (r, q) is the perceptron of the table's row r at column q.

  Every point writes its block back, block t to rows 2000 t … 2000 t + 1999, and the 25 blocks cover the 50000 rows;
  what point t writes is those rows of one function of the row and the column, so the array ends at that function.
-/
import proofs.«131751_j26465588478351_1_alg».proof.Proof.KMlp4Step
import proofs.«131751_j26465588478351_1_alg».proof.Proof.KMlp4Blk

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The output array as one function of its index: the layer's perceptron output at the index's row and column. -/
def mlp_outArr4 (c : Dev nD) : S50000x64.Idx → EReal :=
  fun i => mlp_Zof4 V c ⟨(i 0).val, idx2_lt0 i⟩ ⟨(i 1).val, idx2_lt1 i⟩

/-- An entry of the block point t stores is the output function at the entry's place in the array. -/
theorem mlp_stored4_apply (c : Dev nD) (t : Fin cfg4.N) (y : S2000x64.Idx) :
    (k4_pay3 (F := Ideal) (iblk4 V c 0 t) (iblk4 V c 1 t) (iblk4 V c 2 t) : S2000x64.Idx → EReal) y
      = mlp_outArr4 V c (((cfg4.win 3).blk t).view.emb y) := by
  have hN : t.val < 25 := lt_of_lt_of_eq t.isLt (show cfg4.N = 25 from N_4)
  obtain ⟨-, -, -, -, -, -, e0, e1, -⟩ := mlp_idx4 t
  obtain ⟨p, q, rfl⟩ : ∃ (p : Fin 2000) (q : Fin 64), y = ix2 p q := ⟨y 0, y 1, eq_ix2 y⟩
  have hp := p.isLt
  refine (mlp_block4_apply V c t p q).trans ?_
  refine congrArg₂ (mlp_Zof4 V c) (Fin.ext ?_) (Fin.ext ?_)
  · show (2000 * t.val + p.val) % 50000 = win4_3.index t (0 : Fin 2) * 2000 + 1 * p.val
    rw [e0]; omega
  · show q.val = win4_3.index t (1 : Fin 2) * 64 + 1 * q.val
    rw [e1]; omega

/-- What point t writes back is block t of the output function. -/
theorem mlp_flushed4_3_eq (c : Dev nD) (t : Fin cfg4.N) :
    (dat4 V c).flushed 3 t = ((cfg4.win 3).blk t).view.read (Elt Ideal) (mlp_outArr4 V c) := by
  show (cfg4.win 3).cut (grid4.coords t) ((dat4 V c).after 3 t) = _
  rw [after4_3, mlp_outs4_block V c t]
  funext y
  exact mlp_stored4_apply V c t y

/-- An index of the array is in point t's block iff each coordinate is in the block's range on its axis. -/
theorem mlp_mem_blk4_3 (t : Fin cfg4.N) (i : S50000x64.Idx) :
    i ∈ ((cfg4.win 3).blk t).view.set ↔ ∀ a : Fin 2, win4_3.index t a * S2000x64.size a ≤ (i a).val ∧ (i a).val < win4_3.index t a * S2000x64.size a + S2000x64.size a := by
  show i ∈ ((View.whole main_v59_0).slice (win4_3.rect t)).set ↔ _
  rw [View.set_slice_whole, Rect.mem_set_unit]
  exact Iff.rfl

/-- Row r lies in block r / 2000. -/
theorem mlp_covered4_3 (i : S50000x64.Idx) :
    ∃ t : Fin cfg4.N, (cfg4.win 3).flush t = true ∧ i ∈ ((cfg4.win 3).blk t).view.set := by
  have hi0 : (i 0).val < 50000 := (i 0).isLt
  have hi1 : (i 1).val < 64 := (i 1).isLt
  have hN : cfg4.N = 25 := N_4
  obtain ⟨t, ht⟩ : ∃ t : Fin cfg4.N, t.val = (i 0).val / 2000 := ⟨⟨(i 0).val / 2000, by rw [hN]; omega⟩, rfl⟩
  obtain ⟨-, -, -, -, -, -, e0, e1, -⟩ := mlp_idx4 t
  refine ⟨t, flush4_3 t, ?_⟩
  rw [mlp_mem_blk4_3]
  intro a
  match a with
  | ⟨0, _⟩ =>
    show win4_3.index t (0 : Fin 2) * 2000 ≤ (i 0).val ∧ (i 0).val < win4_3.index t (0 : Fin 2) * 2000 + 2000
    rw [e0, ht]; omega
  | ⟨1, _⟩ =>
    show win4_3.index t (1 : Fin 2) * 64 ≤ (i 1).val ∧ (i 1).val < win4_3.index t (1 : Fin 2) * 64 + 64
    rw [e1]; omega

/-- The output array after the grid is the output function. -/
theorem mlp_final4_3 (c : Dev nD) : (dat4 V c).arrAt 3 cfg4.N = mlp_outArr4 V c :=
  (dat4 V c).arrAt_eq_of_cover 3 (mlp_outArr4 V c) (fun t _ => mlp_flushed4_3_eq V c t) (mlp_covered4_3)

/-- Entry (r, q) of the output array after the grid: the perceptron, of the table and the weights the layer started
    from, at row r and column q. -/
theorem mlp4_out (c : Dev nD) (r : Fin 50000) (cc : Fin 64) :
    ((dat4 V c).arrAt 3 cfg4.N : S50000x64.Idx → EReal) (ix2 r cc)
      = Cert.Spec.mlp (Cert.Spec.cur (V c (Pipeline.arrRef spec4 0) : S50000x64.Idx → EReal))
          (Cert.Spec.cur (V c (Pipeline.arrRef spec4 1) : S64x64.Idx → EReal))
          (Cert.Spec.cur (V c (Pipeline.arrRef spec4 2) : S64x64.Idx → EReal)) r cc :=
  congrFun (mlp_final4_3 V c) (ix2 r cc)

end Cert.KernelIdeal.KV

end
-- ==== Proof.KMlp4Acc.lean ====
/-
  The two one-row accumulators after the grid: the column sums of the layer's perceptron output, and of its squares.

  After point n an accumulator holds the zero word plus the sum, over the blocks 0 … n, of the block's column sums: at the
  first point it starts from the zero row, at every later point from what the point before left.  Only the last point
  writes the accumulators back, and by then the blocks are all 25: regrouping the 25 blocks of 2000 rows as the 50000
  rows (addition of extended reals is commutative and associative, so no finiteness is needed) gives the column sums.
-/
import proofs.«131751_j26465588478351_1_alg».proof.Proof.KMlp4Step
import proofs.«131751_j26465588478351_1_alg».proof.Proof.KMlp4Blk
import proofs.«131751_j26465588478351_1_alg».proof.Proof.KMlp2Acc

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Column q's sum over the rows of block s of the layer's perceptron output, and of its squares. -/
def mlp_blockSum4 (c : Dev nD) (s : ℕ) (q : Fin 64) : EReal := ∑ p : Fin 2000, mlp_Zof4 V c (mlp_rowAt2 s p) q
def mlp_blockSq4 (c : Dev nD) (s : ℕ) (q : Fin 64) : EReal :=
  ∑ p : Fin 2000, mlp_Zof4 V c (mlp_rowAt2 s p) q * mlp_Zof4 V c (mlp_rowAt2 s p) q

/-- After point n the accumulators hold the zero word plus the blocks' column sums up to block n. -/
theorem mlp_acc4_eq (c : Dev nD) : ∀ (n : ℕ) (h : n < cfg4.N) (q : Fin 64),
    ((outsAt4 V c n h).2.1 : S1x64.Idx → EReal) (ix2 0 q)
        = Cert.Spec.Zw + ∑ s ∈ Finset.range (n + 1), mlp_blockSum4 V c s q
      ∧ ((outsAt4 V c n h).2.2 : S1x64.Idx → EReal) (ix2 0 q)
        = Cert.Spec.Zw + ∑ s ∈ Finset.range (n + 1), mlp_blockSq4 V c s q
  | 0, h, q => by
    have e := mlp_outs4_first V c ⟨0, h⟩ rfl
    refine ⟨(congrFun (congrArg (fun x => x.2.1) e) (ix2 0 q)).trans ?_,
      (congrFun (congrArg (fun x => x.2.2) e) (ix2 0 q)).trans ?_⟩
    · refine (pay4_apply_4 (iblk4 V c 0 ⟨0, h⟩) (iblk4 V c 1 ⟨0, h⟩) (iblk4 V c 2 ⟨0, h⟩) (k4_pay1 (F := Ideal)) q).trans ?_
      rw [Finset.sum_range_one]
      exact congrArg₂ (· + ·) (pay1_apply_4 q) (Finset.sum_congr rfl fun p _ => mlp_block4_apply V c ⟨0, h⟩ p q)
    · refine (pay5_apply_4 (iblk4 V c 0 ⟨0, h⟩) (iblk4 V c 1 ⟨0, h⟩) (iblk4 V c 2 ⟨0, h⟩) (k4_pay2 (F := Ideal)) q).trans ?_
      rw [Finset.sum_range_one]
      exact congrArg₂ (· + ·) (pay2_apply_4 q) (Finset.sum_congr rfl fun p _ =>
        congrArg₂ (· * ·) (mlp_block4_apply V c ⟨0, h⟩ p q) (mlp_block4_apply V c ⟨0, h⟩ p q))
  | n + 1, h, q => by
    have hN : cfg4.N = 25 := N_4
    have hB : ¬(⟨n + 1, h⟩ : Fin cfg4.N).val % 25 = 0 := by dsimp only; omega
    have e := mlp_outs4_next V c ⟨n + 1, h⟩ hB
    have ih := mlp_acc4_eq c n (Nat.lt_of_succ_lt h) q
    refine ⟨(congrFun (congrArg (fun x => x.2.1) e) (ix2 0 q)).trans ?_,
      (congrFun (congrArg (fun x => x.2.2) e) (ix2 0 q)).trans ?_⟩
    · refine (pay4_apply_4 (iblk4 V c 0 ⟨n + 1, h⟩) (iblk4 V c 1 ⟨n + 1, h⟩) (iblk4 V c 2 ⟨n + 1, h⟩) _ q).trans ?_
      rw [Finset.sum_range_succ _ (n + 1), ← add_assoc]
      exact congrArg₂ (· + ·) ih.1 (Finset.sum_congr rfl fun p _ => mlp_block4_apply V c ⟨n + 1, h⟩ p q)
    · refine (pay5_apply_4 (iblk4 V c 0 ⟨n + 1, h⟩) (iblk4 V c 1 ⟨n + 1, h⟩) (iblk4 V c 2 ⟨n + 1, h⟩) _ q).trans ?_
      rw [Finset.sum_range_succ _ (n + 1), ← add_assoc]
      exact congrArg₂ (· + ·) ih.2 (Finset.sum_congr rfl fun p _ =>
        congrArg₂ (· * ·) (mlp_block4_apply V c ⟨n + 1, h⟩ p q) (mlp_block4_apply V c ⟨n + 1, h⟩ p q))

/-- The two accumulator arrays as functions of their index: the column sums at the index's column. -/
def mlp_sumArr4 (c : Dev nD) : S1x64.Idx → EReal := fun i => Cert.Spec.colSum (mlp_Zof4 V c) ⟨(i 1).val, idx2_lt1 i⟩
def mlp_sqArr4 (c : Dev nD) : S1x64.Idx → EReal :=
  fun i => Cert.Spec.colSum (Cert.Spec.sq (mlp_Zof4 V c)) ⟨(i 1).val, idx2_lt1 i⟩
theorem mlp_sumArr4_apply (c : Dev nD) (i : S1x64.Idx) :
    mlp_sumArr4 V c i = Cert.Spec.colSum (mlp_Zof4 V c) ⟨(i 1).val, idx2_lt1 i⟩ := rfl
theorem mlp_sqArr4_apply (c : Dev nD) (i : S1x64.Idx) :
    mlp_sqArr4 V c i = Cert.Spec.colSum (Cert.Spec.sq (mlp_Zof4 V c)) ⟨(i 1).val, idx2_lt1 i⟩ := rfl
attribute [irreducible] mlp_sumArr4 mlp_sqArr4

/-- After the last point the first accumulator's entry is the column sum at the entry's place in its array. -/
theorem mlp_sum4_apply (c : Dev nD) (t : Fin cfg4.N) (h24 : t.val = 24) (y : S1x64.Idx) :
    ((outsAt4 V c t.val t.isLt).2.1 : S1x64.Idx → EReal) y = mlp_sumArr4 V c (((cfg4.win 4).blk t).view.emb y) := by
  obtain ⟨-, -, -, -, -, -, -, -, e0, e1, -⟩ := mlp_idx4 t
  obtain ⟨z, q, rfl⟩ : ∃ (z : Fin 1) (q : Fin 64), y = ix2 z q := ⟨y 0, y 1, eq_ix2 y⟩
  obtain rfl : z = 0 := Subsingleton.elim _ _
  refine ((mlp_acc4_eq V c t.val t.isLt q).1).trans ?_
  rw [h24, mlp_Zw_add, mlp_sumArr4_apply]
  refine Eq.trans ?_ (congrArg (Cert.Spec.colSum (mlp_Zof4 V c)) (Fin.ext ?_ : q = _))
  · exact mlp_sum_rows_blocks (fun r => mlp_Zof4 V c r q)
  · show q.val = win4_4.index t (1 : Fin 2) * 64 + 1 * q.val
    rw [e1]; omega

/-- After the last point the second accumulator's entry is the column sum of the squares at the entry's place. -/
theorem mlp_sq4_apply (c : Dev nD) (t : Fin cfg4.N) (h24 : t.val = 24) (y : S1x64.Idx) :
    ((outsAt4 V c t.val t.isLt).2.2 : S1x64.Idx → EReal) y = mlp_sqArr4 V c (((cfg4.win 5).blk t).view.emb y) := by
  obtain ⟨-, -, -, -, -, -, -, -, -, -, e0, e1⟩ := mlp_idx4 t
  obtain ⟨z, q, rfl⟩ : ∃ (z : Fin 1) (q : Fin 64), y = ix2 z q := ⟨y 0, y 1, eq_ix2 y⟩
  obtain rfl : z = 0 := Subsingleton.elim _ _
  refine ((mlp_acc4_eq V c t.val t.isLt q).2).trans ?_
  rw [h24, mlp_Zw_add, mlp_sqArr4_apply]
  refine Eq.trans ?_ (congrArg (Cert.Spec.colSum (Cert.Spec.sq (mlp_Zof4 V c))) (Fin.ext ?_ : q = _))
  · exact mlp_sum_rows_blocks (fun r => Cert.Spec.sq (mlp_Zof4 V c) r q)
  · show q.val = win4_5.index t (1 : Fin 2) * 64 + 1 * q.val
    rw [e1]; omega

/-- What the one writing point writes back into each accumulator's array. -/
theorem mlp_flushed4_4_eq (c : Dev nD) (t : Fin cfg4.N) (hf : (cfg4.win 4).flush t = true) :
    (dat4 V c).flushed 4 t = ((cfg4.win 4).blk t).view.read (Elt Ideal) (mlp_sumArr4 V c) := by
  have hN : t.val < 25 := lt_of_lt_of_eq t.isLt (show cfg4.N = 25 from N_4)
  have h24 : t.val = 24 := by have := (flush4_4 t).mp hf; omega
  show (cfg4.win 4).cut (grid4.coords t) ((dat4 V c).after 4 t) = _
  rw [after4_4]
  funext y
  exact mlp_sum4_apply V c t h24 y
theorem mlp_flushed4_5_eq (c : Dev nD) (t : Fin cfg4.N) (hf : (cfg4.win 5).flush t = true) :
    (dat4 V c).flushed 5 t = ((cfg4.win 5).blk t).view.read (Elt Ideal) (mlp_sqArr4 V c) := by
  have hN : t.val < 25 := lt_of_lt_of_eq t.isLt (show cfg4.N = 25 from N_4)
  have h24 : t.val = 24 := by have := (flush4_5 t).mp hf; omega
  show (cfg4.win 5).cut (grid4.coords t) ((dat4 V c).after 5 t) = _
  rw [after4_5]
  funext y
  exact mlp_sq4_apply V c t h24 y

/-- The last point's block is the whole one-row array. -/
theorem mlp_covered4_4 (i : S1x64.Idx) :
    ∃ t : Fin cfg4.N, (cfg4.win 4).flush t = true ∧ i ∈ ((cfg4.win 4).blk t).view.set := by
  have hi0 : (i 0).val < 1 := (i 0).isLt
  have hi1 : (i 1).val < 64 := (i 1).isLt
  have hN : cfg4.N = 25 := N_4
  obtain ⟨t, ht⟩ : ∃ t : Fin cfg4.N, t.val = 24 := ⟨⟨24, by rw [hN]; omega⟩, rfl⟩
  obtain ⟨-, -, -, -, -, -, -, -, e0, e1, -⟩ := mlp_idx4 t
  refine ⟨t, (flush4_4 t).mpr (by rw [ht]), ?_⟩
  show i ∈ ((View.whole main_v59_1).slice (win4_4.rect t)).set
  rw [View.set_slice_whole, Rect.mem_set_unit]
  intro a
  match a with
  | ⟨0, _⟩ =>
    show win4_4.index t (0 : Fin 2) * 1 ≤ (i 0).val ∧ (i 0).val < win4_4.index t (0 : Fin 2) * 1 + 1
    rw [e0]; omega
  | ⟨1, _⟩ =>
    show win4_4.index t (1 : Fin 2) * 64 ≤ (i 1).val ∧ (i 1).val < win4_4.index t (1 : Fin 2) * 64 + 64
    rw [e1]; omega
theorem mlp_covered4_5 (i : S1x64.Idx) :
    ∃ t : Fin cfg4.N, (cfg4.win 5).flush t = true ∧ i ∈ ((cfg4.win 5).blk t).view.set := by
  have hi0 : (i 0).val < 1 := (i 0).isLt
  have hi1 : (i 1).val < 64 := (i 1).isLt
  have hN : cfg4.N = 25 := N_4
  obtain ⟨t, ht⟩ : ∃ t : Fin cfg4.N, t.val = 24 := ⟨⟨24, by rw [hN]; omega⟩, rfl⟩
  obtain ⟨-, -, -, -, -, -, -, -, -, -, e0, e1⟩ := mlp_idx4 t
  refine ⟨t, (flush4_5 t).mpr (by rw [ht]), ?_⟩
  show i ∈ ((View.whole main_v59_2).slice (win4_5.rect t)).set
  rw [View.set_slice_whole, Rect.mem_set_unit]
  intro a
  match a with
  | ⟨0, _⟩ =>
    show win4_5.index t (0 : Fin 2) * 1 ≤ (i 0).val ∧ (i 0).val < win4_5.index t (0 : Fin 2) * 1 + 1
    rw [e0]; omega
  | ⟨1, _⟩ =>
    show win4_5.index t (1 : Fin 2) * 64 ≤ (i 1).val ∧ (i 1).val < win4_5.index t (1 : Fin 2) * 64 + 64
    rw [e1]; omega

/-- The accumulators' arrays after the grid. -/
theorem mlp_final4_4 (c : Dev nD) : (dat4 V c).arrAt 4 cfg4.N = mlp_sumArr4 V c :=
  (dat4 V c).arrAt_eq_of_cover 4 (mlp_sumArr4 V c) (mlp_flushed4_4_eq V c) (mlp_covered4_4)
theorem mlp_final4_5 (c : Dev nD) : (dat4 V c).arrAt 5 cfg4.N = mlp_sqArr4 V c :=
  (dat4 V c).arrAt_eq_of_cover 5 (mlp_sqArr4 V c) (mlp_flushed4_5_eq V c) (mlp_covered4_5)

/-- Column q of the first accumulator's array after the grid: the sum of column q of the layer's perceptron output. -/
theorem mlp4_sum (c : Dev nD) (cc : Fin 64) :
    ((dat4 V c).arrAt 4 cfg4.N : S1x64.Idx → EReal) (ix2 0 cc)
      = Cert.Spec.colSum (Cert.Spec.mlp (Cert.Spec.cur (V c (Pipeline.arrRef spec4 0) : S50000x64.Idx → EReal))
          (Cert.Spec.cur (V c (Pipeline.arrRef spec4 1) : S64x64.Idx → EReal))
          (Cert.Spec.cur (V c (Pipeline.arrRef spec4 2) : S64x64.Idx → EReal))) cc :=
  (congrFun (mlp_final4_4 V c) (ix2 0 cc)).trans (mlp_sumArr4_apply V c (ix2 0 cc))

/-- Column q of the second accumulator's array after the grid: the sum of the squares of that column. -/
theorem mlp4_sumsq (c : Dev nD) (cc : Fin 64) :
    ((dat4 V c).arrAt 5 cfg4.N : S1x64.Idx → EReal) (ix2 0 cc)
      = Cert.Spec.colSum (Cert.Spec.sq (Cert.Spec.mlp (Cert.Spec.cur (V c (Pipeline.arrRef spec4 0) : S50000x64.Idx → EReal))
          (Cert.Spec.cur (V c (Pipeline.arrRef spec4 1) : S64x64.Idx → EReal))
          (Cert.Spec.cur (V c (Pipeline.arrRef spec4 2) : S64x64.Idx → EReal)))) cc :=
  (congrFun (mlp_final4_5 V c) (ix2 0 cc)).trans (mlp_sqArr4_apply V c (ix2 0 cc))

end Cert.KernelIdeal.KV

end
-- ==== Proof.KNorm5.lean ====
/-
  The normalisation region number 5 of the program, read as a whole array.

  The region runs over 25 grid points.  At point t it reads rows 2000 t .. 2000 t + 1999 of the table z (all 64
  columns) and the whole of four one-row arrays (mean, variance, gamma, beta), and writes back rows
  2000 t .. 2000 t + 1999 of the output.  The value stored at row p, column q of the block is
  gamma q * (z (2000 t + p) q - mean q) * (var q + epsilon)^(-1/2) + beta q: the block of ONE whole-array function,
  the normalisation of the input arrays.  The 25 blocks tile the 50000 rows (row r lies in block r / 2000), so after
  the region the output array is that function at every row and column.
-/
import proofs.«131751_j26465588478351_1_alg».proof.Proof.Gen.KernelIdeal.Frame
import proofs.«131751_j26465588478351_1_alg».proof.Proof.Spec
import proofs.«131751_j26465588478351_1_alg».proof.Proof.KNormPay
import Idealize.ShloMosaic.Lib.Pipeline.Value
import Idealize.ShloMosaic.Lib.ValueIdx

noncomputable section

namespace Cert.KernelIdeal.KV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The five input arrays as the region finds them: the table, the mean, the variance, gamma, beta. -/
abbrev zArr5 (c : Dev nD) : S50000x64.Idx → EReal := V c (Pipeline.arrRef spec5 0)
abbrev muArr5 (c : Dev nD) : S1x64.Idx → EReal := V c (Pipeline.arrRef spec5 1)
abbrev varArr5 (c : Dev nD) : S1x64.Idx → EReal := V c (Pipeline.arrRef spec5 2)
abbrev gArr5 (c : Dev nD) : S1x64.Idx → EReal := V c (Pipeline.arrRef spec5 3)
abbrev bArr5 (c : Dev nD) : S1x64.Idx → EReal := V c (Pipeline.arrRef spec5 4)

/-- The normalised table as one function of the whole-array index. -/
abbrev normArr5 (c : Dev nD) : S50000x64.Idx → EReal := fun i =>
  Cert.Spec.norm (Cert.Spec.cur (zArr5 V c)) (Cert.Spec.row (muArr5 V c)) (Cert.Spec.row (varArr5 V c))
    (Cert.Spec.row (gArr5 V c)) (Cert.Spec.row (bArr5 V c)) (i 0) (i 1)

/-- The block indices of the six windows at every grid point: the table and the output move down with the point,
    the one-row arrays stay. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Row p, column q of the output's block at point t is row 2000 t + p, column q of the array. -/
theorem out_emb5 (t : Fin cfg5.N) (p : Fin 2000) (q : Fin 64) (h : 2000 * t.val + p.val < 50000) :
    ((cfg5.win 5).blk t).view.emb (ix2 p q) = (ix2 (⟨2000 * t.val + p.val, h⟩ : Fin 50000) q : S50000x64.Idx) := by
  obtain ⟨-, -, -, -, -, -, -, -, -, -, e0, e1⟩ := idx_facts5 t
  funext a; apply Fin.ext
  match a with
  | ⟨0, _⟩ => show win5_5.index t (0 : Fin 2) * 2000 + 1 * p.val = 2000 * t.val + p.val; omega
  | ⟨1, _⟩ => show win5_5.index t (1 : Fin 2) * 64 + 1 * q.val = q.val; omega

/-- The table's block at point t, at row p and column q, is the table at row 2000 t + p, column q. -/
theorem z_blk5 (c : Dev nD) (t : Fin cfg5.N) (p : Fin 2000) (q : Fin 64) (h : 2000 * t.val + p.val < 50000) :
    (iblk5 V c 0 t : Vec Ideal S2000x64 .f32) (ix2 p q) = zArr5 V c (ix2 (⟨2000 * t.val + p.val, h⟩ : Fin 50000) q) := by
  obtain ⟨e0, e1, -⟩ := idx_facts5 t
  unfold iblk5
  rw [View.read_apply]
  show V c (Pipeline.arrRef spec5 0) (((cfg5.win 0).blk t).view.emb (ix2 p q)) = V c (Pipeline.arrRef spec5 0) _
  refine congrArg _ ?_
  funext a; apply Fin.ext
  match a with
  | ⟨0, _⟩ => show win5_0.index t (0 : Fin 2) * 2000 + 1 * p.val = 2000 * t.val + p.val; omega
  | ⟨1, _⟩ => show win5_0.index t (1 : Fin 2) * 64 + 1 * q.val = q.val; omega

/-- Each one-row array's block at any point is the array: its entry at column q is the array's. -/
theorem mu_blk5 (c : Dev nD) (t : Fin cfg5.N) (q : Fin 64) :
    (iblk5 V c 1 t : Vec Ideal S1x64 .f32) (ix2 0 q) = muArr5 V c (ix2 0 q) := by
  obtain ⟨-, -, e0, e1, -⟩ := idx_facts5 t
  unfold iblk5
  rw [View.read_apply]
  show V c (Pipeline.arrRef spec5 1) (((cfg5.win 1).blk t).view.emb (ix2 0 q)) = V c (Pipeline.arrRef spec5 1) _
  refine congrArg _ ?_
  funext a; apply Fin.ext
  match a with
  | ⟨0, _⟩ => show win5_1.index t (0 : Fin 2) * 1 + 1 * 0 = 0; omega
  | ⟨1, _⟩ => show win5_1.index t (1 : Fin 2) * 64 + 1 * q.val = q.val; omega

theorem var_blk5 (c : Dev nD) (t : Fin cfg5.N) (q : Fin 64) :
    (iblk5 V c 2 t : Vec Ideal S1x64 .f32) (ix2 0 q) = varArr5 V c (ix2 0 q) := by
  obtain ⟨-, -, -, -, e0, e1, -⟩ := idx_facts5 t
  unfold iblk5
  rw [View.read_apply]
  show V c (Pipeline.arrRef spec5 2) (((cfg5.win 2).blk t).view.emb (ix2 0 q)) = V c (Pipeline.arrRef spec5 2) _
  refine congrArg _ ?_
  funext a; apply Fin.ext
  match a with
  | ⟨0, _⟩ => show win5_2.index t (0 : Fin 2) * 1 + 1 * 0 = 0; omega
  | ⟨1, _⟩ => show win5_2.index t (1 : Fin 2) * 64 + 1 * q.val = q.val; omega

theorem g_blk5 (c : Dev nD) (t : Fin cfg5.N) (q : Fin 64) :
    (iblk5 V c 3 t : Vec Ideal S1x64 .f32) (ix2 0 q) = gArr5 V c (ix2 0 q) := by
  obtain ⟨-, -, -, -, -, -, e0, e1, -⟩ := idx_facts5 t
  unfold iblk5
  rw [View.read_apply]
  show V c (Pipeline.arrRef spec5 3) (((cfg5.win 3).blk t).view.emb (ix2 0 q)) = V c (Pipeline.arrRef spec5 3) _
  refine congrArg _ ?_
  funext a; apply Fin.ext
  match a with
  | ⟨0, _⟩ => show win5_3.index t (0 : Fin 2) * 1 + 1 * 0 = 0; omega
  | ⟨1, _⟩ => show win5_3.index t (1 : Fin 2) * 64 + 1 * q.val = q.val; omega

theorem b_blk5 (c : Dev nD) (t : Fin cfg5.N) (q : Fin 64) :
    (iblk5 V c 4 t : Vec Ideal S1x64 .f32) (ix2 0 q) = bArr5 V c (ix2 0 q) := by
  obtain ⟨-, -, -, -, -, -, -, -, e0, e1, -⟩ := idx_facts5 t
  unfold iblk5
  rw [View.read_apply]
  show V c (Pipeline.arrRef spec5 4) (((cfg5.win 4).blk t).view.emb (ix2 0 q)) = V c (Pipeline.arrRef spec5 4) _
  refine congrArg _ ?_
  funext a; apply Fin.ext
  match a with
  | ⟨0, _⟩ => show win5_4.index t (0 : Fin 2) * 1 + 1 * 0 = 0; omega
  | ⟨1, _⟩ => show win5_4.index t (1 : Fin 2) * 64 + 1 * q.val = q.val; omega

/-- What point t writes back is block t of the normalised table. -/
theorem flushed5_eq (c : Dev nD) (t : Fin cfg5.N) :
    (dat5 V c).flushed 5 t = ((cfg5.win 5).blk t).view.read (Elt Ideal) (normArr5 V c) := by
  show (cfg5.win 5).cut (grid5.coords t) ((dat5 V c).after 5 t) = _
  rw [after5_5]
  unfold out5_5
  rw [View.canon_unit_zero zero_off]
  simp only [View.ld_unit_zero (S := S2000x64) zero_off, View.ld_unit_zero (S := S1x64) zero_off]
  funext j
  obtain ⟨p, q, rfl⟩ : ∃ (p : Fin 2000) (q : Fin 64), j = ix2 p q := ⟨j 0, j 1, eq_ix2 j⟩
  have ht : t.val < 25 := by have ht' := t.isLt; have hN : cfg5.N = 25 := N_5; omega
  have h : 2000 * t.val + p.val < 50000 := by have := p.isLt; omega
  show k5_pay1 (F := Ideal) (iblk5 V c 0 t) (iblk5 V c 2 t) (iblk5 V c 3 t) (iblk5 V c 1 t) (iblk5 V c 4 t) (ix2 p q)
      = normArr5 V c (((cfg5.win 5).blk t).view.emb (ix2 p q))
  rw [out_emb5 t p q h]
  refine (norm_pay5_apply (iblk5 V c 0 t) (iblk5 V c 2 t) (iblk5 V c 3 t) (iblk5 V c 1 t) (iblk5 V c 4 t) p q).trans ?_
  rw [z_blk5 V c t p q h, mu_blk5 V c t q, var_blk5 V c t q, g_blk5 V c t q, b_blk5 V c t q]
  rfl

/-- An index of the output array is in point t's block iff each coordinate is in the block's range on its axis. -/
theorem mem_blk5 (t : Fin cfg5.N) (i : S50000x64.Idx) :
    i ∈ ((cfg5.win 5).blk t).view.set ↔ ∀ a : Fin 2, win5_5.index t a * S2000x64.size a ≤ (i a).val ∧ (i a).val < win5_5.index t a * S2000x64.size a + S2000x64.size a := by
  show i ∈ ((View.whole (cfg5.win 5).arr.view.ref).slice (win5_5.rect t)).set ↔ _
  rw [View.set_slice_whole, Rect.mem_set_unit]
  exact Iff.rfl

/-- Every index of the output array lies in the block of the point its row selects: row r is in block r / 2000. -/
theorem cover5 (i : S50000x64.Idx) :
    ∃ t : Fin cfg5.N, (cfg5.win 5).flush t = true ∧ i ∈ ((cfg5.win 5).blk t).view.set := by
  have hi0 : (i 0).val < 50000 := (i 0).isLt
  have hi1 : (i 1).val < 64 := (i 1).isLt
  have hN : cfg5.N = 25 := N_5
  let t : Fin cfg5.N := ⟨(i 0).val / 2000, by rw [hN]; omega⟩
  have htv : t.val = (i 0).val / 2000 := rfl
  obtain ⟨-, -, -, -, -, -, -, -, -, -, e0, e1⟩ := idx_facts5 t
  refine ⟨t, flush5_5 t, ?_⟩
  rw [mem_blk5]
  intro a
  match a with
  | ⟨0, _⟩ => show win5_5.index t (0 : Fin 2) * 2000 ≤ (i 0).val ∧ (i 0).val < win5_5.index t (0 : Fin 2) * 2000 + 2000; omega
  | ⟨1, _⟩ => show win5_5.index t (1 : Fin 2) * 64 ≤ (i 1).val ∧ (i 1).val < win5_5.index t (1 : Fin 2) * 64 + 64; omega

/-- The output array after the region is the normalised table. -/
theorem norm_5_arr (c : Dev nD) : (dat5 V c).arrAt 5 cfg5.N = normArr5 V c :=
  (dat5 V c).arrAt_eq_of_cover 5 (normArr5 V c) (fun t _ => flushed5_eq V c t) (cover5)

/-- Entry by entry: after the region the output at row r, column cc is the normalisation of the input arrays there. -/
theorem norm_5_final (c : Dev nD) (r : Fin 50000) (cc : Fin 64) :
    ((dat5 V c).arrAt 5 cfg5.N : S50000x64.Idx → EReal) (ValueIdx.ix2 r cc)
      = Cert.Spec.norm (Cert.Spec.cur (V c (Pipeline.arrRef spec5 0) : S50000x64.Idx → EReal))
          (Cert.Spec.row (V c (Pipeline.arrRef spec5 1) : S1x64.Idx → EReal))
          (Cert.Spec.row (V c (Pipeline.arrRef spec5 2) : S1x64.Idx → EReal))
          (Cert.Spec.row (V c (Pipeline.arrRef spec5 3) : S1x64.Idx → EReal))
          (Cert.Spec.row (V c (Pipeline.arrRef spec5 4) : S1x64.Idx → EReal)) r cc := by
  rw [norm_5_arr V c]

end Cert.KernelIdeal.KV

end
-- ==== Proof.KChainL2.lean ====
/-
  Graph layer 2 of the idealized kernel: from the table entering it to the table its normalisation launch leaves.
  The host aggregates the table along the edges and cuts the layer's two weight matrices out of the stacked arguments;
  the perceptron launch leaves the clipped double product and its column sums and column sums of squares; the host forms
  the mean and the first spelling of the variance and cuts the layer's scale and shift; the normalisation launch
  normalises.
-/
import proofs.«131751_j26465588478351_1_alg».proof.Proof.KChainL1
import proofs.«131751_j26465588478351_1_alg».proof.Proof.KMlp4Z
import proofs.«131751_j26465588478351_1_alg».proof.Proof.KMlp4Acc
import proofs.«131751_j26465588478351_1_alg».proof.Proof.KNorm5

set_option maxRecDepth 16384

noncomputable section

namespace Cert.KernelIdeal.KV

open Idealize.ShloMosaic Idealize.ShloMosaic.TcCoe Idealize.ShloMosaic.Tactic Idealize.SL.Sem Idealize.ShloMosaic.StableHlo
open Idealize.ShloMosaic.ValueIdx Idealize.ShloMosaic.Pipeline
open Cert.KernelIdeal Cert.KernelIdeal.Gen Cert.Lib

variable (m : (ℓ : Loc nD τ sig) → Buf (Elt Ideal) ℓ) (ρ : Dev nD → PrngReg) (c : Dev nD)

/-! ## The perceptron launch's inputs -/

set_option maxHeartbeats 1000000 in
theorem L1_in_w1 : Spec.cur (V9 m ρ c (Pipeline.arrRef spec4 1) : S64x64.Idx → EReal) = W1s m c (⟨1, by decide⟩ : Fin 3) := by
  rw [show (V9 m ρ c (Pipeline.arrRef spec4 1) : S64x64.Idx → EReal) = StableHlo.after hostOps4 (W8 m ρ c) (Proc.devRef .tc main_v56) from rfl,
    h4_w1 (W8 m ρ c)]
  exact congrArg (fun (A : S3x64x64.Idx → EReal) => fun j cc => A (ix3 (⟨1, by decide⟩ : Fin 3) j cc))
    ((kp8_main_arg6 m ρ c).trans (W1_main_arg6 m ρ c))

set_option maxHeartbeats 1000000 in
theorem L1_in_w2 : Spec.cur (V9 m ρ c (Pipeline.arrRef spec4 2) : S64x64.Idx → EReal) = W2s m c (⟨1, by decide⟩ : Fin 3) := by
  rw [show (V9 m ρ c (Pipeline.arrRef spec4 2) : S64x64.Idx → EReal) = StableHlo.after hostOps4 (W8 m ρ c) (Proc.devRef .tc main_v58) from rfl,
    h4_w2 (W8 m ρ c)]
  exact congrArg (fun (A : S3x64x64.Idx → EReal) => fun j cc => A (ix3 (⟨1, by decide⟩ : Fin 3) j cc))
    ((kp8_main_arg7 m ρ c).trans (W1_main_arg7 m ρ c))

section
variable (H : Spec.Tab) (hH : Spec.cur (W8 m ρ c (Proc.devRef .tc main_v43) : S50000x64.Idx → EReal) = H)
include hH

set_option maxHeartbeats 1000000 in
/-- The first input: the entering table aggregated along the edges. -/
theorem L1_in_a : Spec.cur (V9 m ρ c (Pipeline.arrRef spec4 0) : S50000x64.Idx → EReal) = aggK m c H := by
  rw [show (V9 m ρ c (Pipeline.arrRef spec4 0) : S50000x64.Idx → EReal) = StableHlo.after hostOps4 (W8 m ρ c) (Proc.devRef .tc main_v54) from rfl,
    h4_agg (W8 m ρ c),
    show (W8 m ρ c (Proc.devRef .tc main_v1) : IVec S800000 32) = srcW m c from (kp8_main_v1 m ρ c).trans (W1_src m ρ c),
    show (W8 m ρ c (Proc.devRef .tc main_v3) : IVec S800000 32) = dstW m c from (kp8_main_v3 m ρ c).trans (W1_dst m ρ c),
    aggK_cur, hH]

/-! ## The perceptron launch's three outputs -/

set_option maxHeartbeats 1000000 in
theorem L1_z : Spec.cur (W10 m ρ c (Proc.devRef .tc main_v59_0) : S50000x64.Idx → EReal) = (Spec.mlp (aggK m c H) (W1s m c (⟨1, by decide⟩ : Fin 3)) (W2s m c (⟨1, by decide⟩ : Fin 3))) := by
  funext r cc
  have e : (W10 m ρ c (Proc.devRef .tc main_v59_0) : S50000x64.Idx → EReal) = (dat4 (V9 m ρ) c).arrAt 3 cfg4.N := W10_arr m ρ c 3
  have hz := congr (congr (congrArg (Spec.mlp (n := 50000) (q := 64) (k := 64)) (L1_in_a m ρ c H hH)) (L1_in_w1 m ρ c)) (L1_in_w2 m ρ c)
  exact ((congrFun e (ix2 r cc)).trans (mlp4_out (V9 m ρ) c r cc)).trans (congrFun (congrFun hz r) cc)

set_option maxHeartbeats 1000000 in
theorem L1_s : Spec.row (W10 m ρ c (Proc.devRef .tc main_v59_1) : S1x64.Idx → EReal) = Spec.colSum (Spec.mlp (aggK m c H) (W1s m c (⟨1, by decide⟩ : Fin 3)) (W2s m c (⟨1, by decide⟩ : Fin 3))) := by
  funext cc
  have e : (W10 m ρ c (Proc.devRef .tc main_v59_1) : S1x64.Idx → EReal) = (dat4 (V9 m ρ) c).arrAt 4 cfg4.N := W10_arr m ρ c 4
  have hz := congr (congr (congrArg (Spec.mlp (n := 50000) (q := 64) (k := 64)) (L1_in_a m ρ c H hH)) (L1_in_w1 m ρ c)) (L1_in_w2 m ρ c)
  exact ((congrFun e (ix2 0 cc)).trans (mlp4_sum (V9 m ρ) c cc)).trans (congrFun (congrArg Spec.colSum hz) cc)

set_option maxHeartbeats 1000000 in
theorem L1_ss : Spec.row (W10 m ρ c (Proc.devRef .tc main_v59_2) : S1x64.Idx → EReal) = Spec.colSum (Spec.sq (Spec.mlp (aggK m c H) (W1s m c (⟨1, by decide⟩ : Fin 3)) (W2s m c (⟨1, by decide⟩ : Fin 3)))) := by
  funext cc
  have e : (W10 m ρ c (Proc.devRef .tc main_v59_2) : S1x64.Idx → EReal) = (dat4 (V9 m ρ) c).arrAt 5 cfg4.N := W10_arr m ρ c 5
  have hz := congr (congr (congrArg (Spec.mlp (n := 50000) (q := 64) (k := 64)) (L1_in_a m ρ c H hH)) (L1_in_w1 m ρ c)) (L1_in_w2 m ρ c)
  exact ((congrFun e (ix2 0 cc)).trans (mlp4_sumsq (V9 m ρ) c cc)).trans (congrFun (congrArg (fun z => Spec.colSum (Spec.sq z)) hz) cc)

/-! ## The normalisation launch's inputs -/

set_option maxHeartbeats 1000000 in
theorem L1_n_z : Spec.cur (V11 m ρ c (Pipeline.arrRef spec5 0) : S50000x64.Idx → EReal) = (Spec.mlp (aggK m c H) (W1s m c (⟨1, by decide⟩ : Fin 3)) (W2s m c (⟨1, by decide⟩ : Fin 3))) :=
  (congrArg Spec.cur (h5_z (W10 m ρ c))).trans (L1_z m ρ c H hH)

set_option maxHeartbeats 1000000 in
theorem L1_n_mu : Spec.row (V11 m ρ c (Pipeline.arrRef spec5 1) : S1x64.Idx → EReal) = Spec.mean (Spec.mlp (aggK m c H) (W1s m c (⟨1, by decide⟩ : Fin 3)) (W2s m c (⟨1, by decide⟩ : Fin 3))) := by
  rw [show (V11 m ρ c (Pipeline.arrRef spec5 1) : S1x64.Idx → EReal) = StableHlo.after hostOps5 (W10 m ρ c) (Proc.devRef .tc main_v61) from rfl,
    h5_mean (W10 m ρ c), L1_s m ρ c H hH]
  rfl

set_option maxHeartbeats 1000000 in
theorem L1_n_var : Spec.row (V11 m ρ c (Pipeline.arrRef spec5 2) : S1x64.Idx → EReal) = Spec.varK (Spec.mlp (aggK m c H) (W1s m c (⟨1, by decide⟩ : Fin 3)) (W2s m c (⟨1, by decide⟩ : Fin 3))) := by
  rw [show (V11 m ρ c (Pipeline.arrRef spec5 2) : S1x64.Idx → EReal) = StableHlo.after hostOps5 (W10 m ρ c) (Proc.devRef .tc main_v65) from rfl,
    h5_var (W10 m ρ c), L1_s m ρ c H hH, L1_ss m ρ c H hH]
  rfl
omit hH
end

set_option maxHeartbeats 1000000 in
theorem L1_n_g : Spec.row (V11 m ρ c (Pipeline.arrRef spec5 3) : S1x64.Idx → EReal) = gams m c (⟨1, by decide⟩ : Fin 3) := by
  rw [show (V11 m ρ c (Pipeline.arrRef spec5 3) : S1x64.Idx → EReal) = StableHlo.after hostOps5 (W10 m ρ c) (Proc.devRef .tc main_v70) from rfl,
    h5_gamma (W10 m ρ c)]
  exact congrArg (fun (A : S3x64.Idx → EReal) => fun cc => A (ix2 (⟨1, by decide⟩ : Fin 3) cc))
    ((kp10_main_arg8 m ρ c).trans (W1_main_arg8 m ρ c))

set_option maxHeartbeats 1000000 in
theorem L1_n_b : Spec.row (V11 m ρ c (Pipeline.arrRef spec5 4) : S1x64.Idx → EReal) = bets m c (⟨1, by decide⟩ : Fin 3) := by
  rw [show (V11 m ρ c (Pipeline.arrRef spec5 4) : S1x64.Idx → EReal) = StableHlo.after hostOps5 (W10 m ρ c) (Proc.devRef .tc main_v71) from rfl,
    h5_beta (W10 m ρ c)]
  exact congrArg (fun (A : S3x64.Idx → EReal) => fun cc => A (ix2 (⟨1, by decide⟩ : Fin 3) cc))
    ((kp10_main_arg9 m ρ c).trans (W1_main_arg9 m ρ c))

set_option maxHeartbeats 1000000 in
/-- After the layer's normalisation launch: the layer over the first spelling of the variance. -/
theorem L1_out (H : Spec.Tab) (hH : Spec.cur (W8 m ρ c (Proc.devRef .tc main_v43) : S50000x64.Idx → EReal) = H) :
    Spec.cur (W12 m ρ c (Proc.devRef .tc main_v72) : S50000x64.Idx → EReal)
      = Spec.layer Spec.bnK (aggK m c) H (W1s m c (⟨1, by decide⟩ : Fin 3)) (W2s m c (⟨1, by decide⟩ : Fin 3)) (gams m c (⟨1, by decide⟩ : Fin 3)) (bets m c (⟨1, by decide⟩ : Fin 3)) := by
  funext r cc
  have e : (W12 m ρ c (Proc.devRef .tc main_v72) : S50000x64.Idx → EReal) = (dat5 (V11 m ρ) c).arrAt 5 cfg5.N := W12_arr m ρ c 5
  have hn := congr (congr (congr (congr (congrArg (Spec.norm (n := 50000) (k := 64)) (L1_n_z m ρ c H hH)) (L1_n_mu m ρ c H hH))
    (L1_n_var m ρ c H hH)) (L1_n_g m ρ c)) (L1_n_b m ρ c)
  exact ((congrFun e (ix2 r cc)).trans (norm_5_final (V11 m ρ) c r cc)).trans (congrFun (congrFun hn r) cc)

end Cert.KernelIdeal.KV

end
-- ==== Proof.KMlp6Out.lean ====
/-
  What one run of the perceptron body leaves in its three output blocks, as values of the blocks it loaded.

  The body has two cases.  At the first point of the grid it first stores a zero row into each of the two one-row
  accumulators and then runs the common part on them; at every later point it runs the common part on what the point
  before left.  The common part stores the perceptron of the loaded row block and the two weight matrices into the
  output block, and into each accumulator the accumulator plus the block's column sums (of the entries, and of their
  squares).  Every store covers its whole block, so each block ends at its last store's value, and every load reads a
  whole block.
-/
import proofs.«131751_j26465588478351_1_alg».proof.Proof.KMlp2Out
import Idealize.ShloMosaic.Lib.Pipeline.Value
import Idealize.ShloMosaic.Lib.Tactic

set_option maxRecDepth 16384

noncomputable section

namespace Cert.KernelIdeal.KV

open Idealize.ShloMosaic Idealize.ShloMosaic.TcCoe Idealize.ShloMosaic.Tactic Idealize.SL.Sem
open Cert.KernelIdeal Cert.KernelIdeal.Gen

variable {F : FTy → Type} [FloatOps F]

/-! ## A later point: the common part on what the point before left -/

theorem mlp_out6_B_3_eq (c : Dev nD) (i : grid6.Coords) (a1 : Memref sig .tc .vmem S2000x64 .f32) (h1 : a1.IsWhole) (a2 : Memref sig .tc .vmem S64x64 .f32) (h2 : a2.IsWhole) (a3 : Memref sig .tc .vmem S64x64 .f32) (h3 : a3.IsWhole) (a4 : Memref sig .tc .vmem S2000x64 .f32) (h4 : a4.IsWhole) (a5 : Memref sig .tc .vmem S1x64 .f32) (h5 : a5.IsWhole) (a6 : Memref sig .tc .vmem S1x64 .f32) (h6 : a6.IsWhole) (hc : ¬cond6_0 i)
    (x0 : Vec F S2000x64 .f32) (x1 x2 : Vec F S64x64 .f32) (xo4 xo5 : Vec F S1x64 .f32) :
    out6_B_3 c i a1 h1 a2 h2 a3 h3 a4 h4 a5 h5 a6 h6 hc x0 x1 x2 xo4 xo5 = k6_pay3 x0 x1 x2 := by
  unfold out6_B_3
  rw [View.read_writes_eq_canon _ _ _ (cover6_B_3 c i a1 h1 a2 h2 a3 h3 a4 h4 a5 h5 a6 h6 hc x0 x1 x2 xo4 xo5)]
  unfold kernelRun6_B
  dsimp only
  sl_unfold_words
  rw [View.canon_unit_zero mlp_hz2]
  simp only [View.readAt_eq_ld, h1.read_unread, h2.read_unread, h3.read_unread, View.ld_unit_zero (S := S2000x64) mlp_hz2, View.ld_unit_zero (S := S64x64) mlp_hz2, View.ld_unit_zero (S := S1x64) mlp_hz2]

theorem mlp_out6_B_4_eq (c : Dev nD) (i : grid6.Coords) (a1 : Memref sig .tc .vmem S2000x64 .f32) (h1 : a1.IsWhole) (a2 : Memref sig .tc .vmem S64x64 .f32) (h2 : a2.IsWhole) (a3 : Memref sig .tc .vmem S64x64 .f32) (h3 : a3.IsWhole) (a4 : Memref sig .tc .vmem S2000x64 .f32) (h4 : a4.IsWhole) (a5 : Memref sig .tc .vmem S1x64 .f32) (h5 : a5.IsWhole) (a6 : Memref sig .tc .vmem S1x64 .f32) (h6 : a6.IsWhole) (hc : ¬cond6_0 i)
    (x0 : Vec F S2000x64 .f32) (x1 x2 : Vec F S64x64 .f32) (xo4 xo5 : Vec F S1x64 .f32) :
    out6_B_4 c i a1 h1 a2 h2 a3 h3 a4 h4 a5 h5 a6 h6 hc x0 x1 x2 xo4 xo5 = k6_pay4 x0 x1 x2 xo4 := by
  unfold out6_B_4
  rw [View.read_writes_eq_canon _ _ _ (cover6_B_4 c i a1 h1 a2 h2 a3 h3 a4 h4 a5 h5 a6 h6 hc x0 x1 x2 xo4 xo5)]
  unfold kernelRun6_B
  dsimp only
  sl_unfold_words
  rw [View.canon_unit_zero mlp_hz2]
  simp only [View.readAt_eq_ld, h1.read_unread, h2.read_unread, h3.read_unread, h5.read_unread, View.ld_unit_zero (S := S2000x64) mlp_hz2, View.ld_unit_zero (S := S64x64) mlp_hz2, View.ld_unit_zero (S := S1x64) mlp_hz2]

theorem mlp_out6_B_5_eq (c : Dev nD) (i : grid6.Coords) (a1 : Memref sig .tc .vmem S2000x64 .f32) (h1 : a1.IsWhole) (a2 : Memref sig .tc .vmem S64x64 .f32) (h2 : a2.IsWhole) (a3 : Memref sig .tc .vmem S64x64 .f32) (h3 : a3.IsWhole) (a4 : Memref sig .tc .vmem S2000x64 .f32) (h4 : a4.IsWhole) (a5 : Memref sig .tc .vmem S1x64 .f32) (h5 : a5.IsWhole) (a6 : Memref sig .tc .vmem S1x64 .f32) (h6 : a6.IsWhole) (hc : ¬cond6_0 i)
    (x0 : Vec F S2000x64 .f32) (x1 x2 : Vec F S64x64 .f32) (xo4 xo5 : Vec F S1x64 .f32) :
    out6_B_5 c i a1 h1 a2 h2 a3 h3 a4 h4 a5 h5 a6 h6 hc x0 x1 x2 xo4 xo5 = k6_pay5 x0 x1 x2 xo5 := by
  unfold out6_B_5
  rw [View.read_writes_eq_canon _ _ _ (cover6_B_5 c i a1 h1 a2 h2 a3 h3 a4 h4 a5 h5 a6 h6 hc x0 x1 x2 xo4 xo5)]
  unfold kernelRun6_B
  dsimp only
  sl_unfold_words
  rw [View.canon_unit_zero mlp_hz2]
  simp only [View.readAt_eq_ld, h1.read_unread, h2.read_unread, h3.read_unread, h6.read_unread, View.ld_unit_zero (S := S2000x64) mlp_hz2, View.ld_unit_zero (S := S64x64) mlp_hz2, View.ld_unit_zero (S := S1x64) mlp_hz2]

/-! ## The first point: the accumulators are zeroed first -/

theorem mlp_out6_A_3_eq (c : Dev nD) (i : grid6.Coords) (a1 : Memref sig .tc .vmem S2000x64 .f32) (h1 : a1.IsWhole) (a2 : Memref sig .tc .vmem S64x64 .f32) (h2 : a2.IsWhole) (a3 : Memref sig .tc .vmem S64x64 .f32) (h3 : a3.IsWhole) (a4 : Memref sig .tc .vmem S2000x64 .f32) (h4 : a4.IsWhole) (a5 : Memref sig .tc .vmem S1x64 .f32) (h5 : a5.IsWhole) (a6 : Memref sig .tc .vmem S1x64 .f32) (h6 : a6.IsWhole) (hc : cond6_0 i)
    (x0 : Vec F S2000x64 .f32) (x1 x2 : Vec F S64x64 .f32) :
    out6_A_3 c i a1 h1 a2 h2 a3 h3 a4 h4 a5 h5 a6 h6 hc x0 x1 x2 = k6_pay3 x0 x1 x2 := by
  unfold out6_A_3
  rw [View.read_writes_eq_canon _ _ _ (cover6_A_3 c i a1 h1 a2 h2 a3 h3 a4 h4 a5 h5 a6 h6 hc x0 x1 x2)]
  unfold kernelRun6_A
  dsimp only
  sl_unfold_words
  rw [View.canon_unit_zero mlp_hz2]
  simp only [View.readAt_eq_ld, h1.read_unread, h2.read_unread, h3.read_unread, View.ld_unit_zero (S := S2000x64) mlp_hz2, View.ld_unit_zero (S := S64x64) mlp_hz2, View.ld_unit_zero (S := S1x64) mlp_hz2]

theorem mlp_out6_A_4_eq (c : Dev nD) (i : grid6.Coords) (a1 : Memref sig .tc .vmem S2000x64 .f32) (h1 : a1.IsWhole) (a2 : Memref sig .tc .vmem S64x64 .f32) (h2 : a2.IsWhole) (a3 : Memref sig .tc .vmem S64x64 .f32) (h3 : a3.IsWhole) (a4 : Memref sig .tc .vmem S2000x64 .f32) (h4 : a4.IsWhole) (a5 : Memref sig .tc .vmem S1x64 .f32) (h5 : a5.IsWhole) (a6 : Memref sig .tc .vmem S1x64 .f32) (h6 : a6.IsWhole) (hc : cond6_0 i)
    (x0 : Vec F S2000x64 .f32) (x1 x2 : Vec F S64x64 .f32) :
    out6_A_4 c i a1 h1 a2 h2 a3 h3 a4 h4 a5 h5 a6 h6 hc x0 x1 x2 = k6_pay4 x0 x1 x2 k6_pay1 := by
  unfold out6_A_4
  rw [View.read_writes_eq_canon _ _ _ (cover6_A_4 c i a1 h1 a2 h2 a3 h3 a4 h4 a5 h5 a6 h6 hc x0 x1 x2)]
  unfold kernelRun6_A
  dsimp only
  sl_unfold_words
  rw [View.canon_cons_unit_zero (S := S1x64) mlp_hz2, View.readCov_unit_zero (S := S1x64) _ mlp_hz2]
  simp only [View.readAt_eq_ld, h1.read_unread, h2.read_unread, h3.read_unread, View.ld_unit_zero (S := S2000x64) mlp_hz2, View.ld_unit_zero (S := S64x64) mlp_hz2, View.ld_unit_zero (S := S1x64) mlp_hz2]

theorem mlp_out6_A_5_eq (c : Dev nD) (i : grid6.Coords) (a1 : Memref sig .tc .vmem S2000x64 .f32) (h1 : a1.IsWhole) (a2 : Memref sig .tc .vmem S64x64 .f32) (h2 : a2.IsWhole) (a3 : Memref sig .tc .vmem S64x64 .f32) (h3 : a3.IsWhole) (a4 : Memref sig .tc .vmem S2000x64 .f32) (h4 : a4.IsWhole) (a5 : Memref sig .tc .vmem S1x64 .f32) (h5 : a5.IsWhole) (a6 : Memref sig .tc .vmem S1x64 .f32) (h6 : a6.IsWhole) (hc : cond6_0 i)
    (x0 : Vec F S2000x64 .f32) (x1 x2 : Vec F S64x64 .f32) :
    out6_A_5 c i a1 h1 a2 h2 a3 h3 a4 h4 a5 h5 a6 h6 hc x0 x1 x2 = k6_pay5 x0 x1 x2 k6_pay2 := by
  unfold out6_A_5
  rw [View.read_writes_eq_canon _ _ _ (cover6_A_5 c i a1 h1 a2 h2 a3 h3 a4 h4 a5 h5 a6 h6 hc x0 x1 x2)]
  unfold kernelRun6_A
  dsimp only
  sl_unfold_words
  rw [View.canon_cons_unit_zero (S := S1x64) mlp_hz2, View.readCov_unit_zero (S := S1x64) _ mlp_hz2]
  simp only [View.readAt_eq_ld, h1.read_unread, h2.read_unread, h3.read_unread, View.ld_unit_zero (S := S2000x64) mlp_hz2, View.ld_unit_zero (S := S64x64) mlp_hz2, View.ld_unit_zero (S := S1x64) mlp_hz2]

end Cert.KernelIdeal.KV

end
-- ==== Proof.KMlp6Step.lean ====
/-
  What the three output blocks hold after each point of the grid, as values of the blocks the point loads.

  At a point whose number is a multiple of 25 (the first one) the accumulators start from the zero row; at every other
  point they start from what the point before left.  In both cases the output block is the perceptron of the point's
  row block and the weights, and each accumulator is its start plus the block's column sums.
-/
import proofs.«131751_j26465588478351_1_alg».proof.Proof.KMlp6Out

set_option maxRecDepth 16384

noncomputable section

namespace Cert.KernelIdeal.KV

open Idealize.ShloMosaic Idealize.ShloMosaic.TcCoe Idealize.SL.Sem
open Cert.KernelIdeal Cert.KernelIdeal.Gen

variable {F : FTy → Type} [FloatOps F]
variable (V : (c : Dev nD) → (b : Ref sig .tc) → Buf (Elt F) ((c : Thread nD τ).loc b))

/-- After a point that starts the accumulation. -/
theorem mlp_outs6_first (c : Dev nD) (t : Fin cfg6.N) (h0 : t.val % 25 = 0) :
    outsAt6 V c t.val t.isLt
      = (k6_pay3 (iblk6 V c 0 t) (iblk6 V c 1 t) (iblk6 V c 2 t), k6_pay4 (iblk6 V c 0 t) (iblk6 V c 1 t) (iblk6 V c 2 t) k6_pay1, k6_pay5 (iblk6 V c 0 t) (iblk6 V c 1 t) (iblk6 V c 2 t) k6_pay2) := by
  rw [outsAt6_A V c t h0]
  exact congrArg₂ Prod.mk
    (mlp_out6_A_3_eq c (grid6.coords t) (ms6_0 t) (hs6_0 t) (ms6_1 t) (hs6_1 t) (ms6_2 t) (hs6_2 t) (ms6_3 t) (hs6_3 t) (ms6_4 t) (hs6_4 t) (ms6_5 t) (hs6_5 t) ((hcond6_0 t).mpr h0) (iblk6 V c 0 t) (iblk6 V c 1 t) (iblk6 V c 2 t))
    (congrArg₂ Prod.mk
      (mlp_out6_A_4_eq c (grid6.coords t) (ms6_0 t) (hs6_0 t) (ms6_1 t) (hs6_1 t) (ms6_2 t) (hs6_2 t) (ms6_3 t) (hs6_3 t) (ms6_4 t) (hs6_4 t) (ms6_5 t) (hs6_5 t) ((hcond6_0 t).mpr h0) (iblk6 V c 0 t) (iblk6 V c 1 t) (iblk6 V c 2 t))
      (mlp_out6_A_5_eq c (grid6.coords t) (ms6_0 t) (hs6_0 t) (ms6_1 t) (hs6_1 t) (ms6_2 t) (hs6_2 t) (ms6_3 t) (hs6_3 t) (ms6_4 t) (hs6_4 t) (ms6_5 t) (hs6_5 t) ((hcond6_0 t).mpr h0) (iblk6 V c 0 t) (iblk6 V c 1 t) (iblk6 V c 2 t)))

/-- After a point that continues it. -/
theorem mlp_outs6_next (c : Dev nD) (t : Fin cfg6.N) (h0 : ¬t.val % 25 = 0) :
    outsAt6 V c t.val t.isLt
      = (k6_pay3 (iblk6 V c 0 t) (iblk6 V c 1 t) (iblk6 V c 2 t),
         k6_pay4 (iblk6 V c 0 t) (iblk6 V c 1 t) (iblk6 V c 2 t) (outsAt6 V c (t.val - 1) (Nat.lt_of_le_of_lt (Nat.sub_le _ _) t.isLt)).2.1,
         k6_pay5 (iblk6 V c 0 t) (iblk6 V c 1 t) (iblk6 V c 2 t) (outsAt6 V c (t.val - 1) (Nat.lt_of_le_of_lt (Nat.sub_le _ _) t.isLt)).2.2) := by
  rw [outsAt6_B V c t h0]
  exact congrArg₂ Prod.mk
    (mlp_out6_B_3_eq c (grid6.coords t) (ms6_0 t) (hs6_0 t) (ms6_1 t) (hs6_1 t) (ms6_2 t) (hs6_2 t) (ms6_3 t) (hs6_3 t) (ms6_4 t) (hs6_4 t) (ms6_5 t) (hs6_5 t) (fun h => h0 ((hcond6_0 t).mp h)) (iblk6 V c 0 t) (iblk6 V c 1 t) (iblk6 V c 2 t) (outsAt6 V c (t.val - 1) (Nat.lt_of_le_of_lt (Nat.sub_le _ _) t.isLt)).2.1 (outsAt6 V c (t.val - 1) (Nat.lt_of_le_of_lt (Nat.sub_le _ _) t.isLt)).2.2)
    (congrArg₂ Prod.mk
      (mlp_out6_B_4_eq c (grid6.coords t) (ms6_0 t) (hs6_0 t) (ms6_1 t) (hs6_1 t) (ms6_2 t) (hs6_2 t) (ms6_3 t) (hs6_3 t) (ms6_4 t) (hs6_4 t) (ms6_5 t) (hs6_5 t) (fun h => h0 ((hcond6_0 t).mp h)) (iblk6 V c 0 t) (iblk6 V c 1 t) (iblk6 V c 2 t) (outsAt6 V c (t.val - 1) (Nat.lt_of_le_of_lt (Nat.sub_le _ _) t.isLt)).2.1 (outsAt6 V c (t.val - 1) (Nat.lt_of_le_of_lt (Nat.sub_le _ _) t.isLt)).2.2)
      (mlp_out6_B_5_eq c (grid6.coords t) (ms6_0 t) (hs6_0 t) (ms6_1 t) (hs6_1 t) (ms6_2 t) (hs6_2 t) (ms6_3 t) (hs6_3 t) (ms6_4 t) (hs6_4 t) (ms6_5 t) (hs6_5 t) (fun h => h0 ((hcond6_0 t).mp h)) (iblk6 V c 0 t) (iblk6 V c 1 t) (iblk6 V c 2 t) (outsAt6 V c (t.val - 1) (Nat.lt_of_le_of_lt (Nat.sub_le _ _) t.isLt)).2.1 (outsAt6 V c (t.val - 1) (Nat.lt_of_le_of_lt (Nat.sub_le _ _) t.isLt)).2.2))

/-- The output block after any point: the perceptron of the point's row block and the weights. -/
theorem mlp_outs6_block (c : Dev nD) (t : Fin cfg6.N) :
    (outsAt6 V c t.val t.isLt).1 = k6_pay3 (iblk6 V c 0 t) (iblk6 V c 1 t) (iblk6 V c 2 t) := by
  by_cases h0 : t.val % 25 = 0
  · rw [mlp_outs6_first V c t h0]
  · rw [mlp_outs6_next V c t h0]

end Cert.KernelIdeal.KV

end
-- ==== Proof.KMlp6Pay.lean ====
/-
  The perceptron body of this layer is the same text as the first graph layer's, so its stored block and its two
  accumulators read entry by entry in the same way.
-/
import proofs.«131751_j26465588478351_1_alg».proof.Proof.KMlp2Pay

noncomputable section

namespace Cert.KernelIdeal.KV

open Idealize.ShloMosaic Idealize.ShloMosaic.ValueIdx
open Cert.KernelIdeal Cert.KernelIdeal.Gen

theorem pay3_apply_6 (a : Vec Ideal S2000x64 .f32) (w1 w2 : Vec Ideal S64x64 .f32) (p : Fin 2000) (q : Fin 64) :
    k6_pay3 (F := Ideal) a w1 w2 (ix2 p q) = Cert.Spec.mlp (Cert.Spec.cur a) (Cert.Spec.cur w1) (Cert.Spec.cur w2) p q :=
  pay3_apply a w1 w2 p q

theorem pay4_apply_6 (a : Vec Ideal S2000x64 .f32) (w1 w2 : Vec Ideal S64x64 .f32) (s : Vec Ideal S1x64 .f32) (q : Fin 64) :
    k6_pay4 (F := Ideal) a w1 w2 s (ix2 0 q) = s (ix2 0 q) + ∑ p : Fin 2000, k6_pay3 (F := Ideal) a w1 w2 (ix2 p q) :=
  pay4_apply a w1 w2 s q

theorem pay5_apply_6 (a : Vec Ideal S2000x64 .f32) (w1 w2 : Vec Ideal S64x64 .f32) (s : Vec Ideal S1x64 .f32) (q : Fin 64) :
    k6_pay5 (F := Ideal) a w1 w2 s (ix2 0 q)
      = s (ix2 0 q) + ∑ p : Fin 2000, k6_pay3 (F := Ideal) a w1 w2 (ix2 p q) * k6_pay3 (F := Ideal) a w1 w2 (ix2 p q) :=
  pay5_apply a w1 w2 s q

theorem pay1_apply_6 (q : Fin 64) : k6_pay1 (F := Ideal) (ix2 0 q) = Cert.Spec.Zw := rfl
theorem pay2_apply_6 (q : Fin 64) : k6_pay2 (F := Ideal) (ix2 0 q) = Cert.Spec.Zw := rfl

end Cert.KernelIdeal.KV

end
-- ==== Proof.KMlp6Blk.lean ====
/-
  The blocks a point of the grid loads, as entries of the arrays the layer starts from, and the block it stores as
  rows of the layer's perceptron output.

  Point t loads rows 2000 t … 2000 t + 1999 of the feature table (all 64 columns) and the two weight matrices whole.
  An entry of the perceptron depends only on its own row of the table, so row p of the stored block is row
  2000 t + p of the perceptron of the whole table.
-/
import proofs.«131751_j26465588478351_1_alg».proof.Proof.KMlp6Pay
import proofs.«131751_j26465588478351_1_alg».proof.Proof.KMlp2Blk

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- Where each window's block sits at point t: the table's and the output's at block row t, the weights' and the
    accumulators' at the origin. -/
theorem mlp_idx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- Entry (p, q) of the table's block at point t is the table's entry (2000 t + p, q). -/
theorem mlp_blk6_0_apply (c : Dev nD) (t : Fin cfg6.N) (p : Fin 2000) (q : Fin 64) :
    (iblk6 V c 0 t : S2000x64.Idx → EReal) (ix2 p q)
      = (V c (Pipeline.arrRef spec6 0) : S50000x64.Idx → EReal) (ix2 (mlp_rowAt2 t.val p) q) := by
  have hN : t.val < 25 := lt_of_lt_of_eq t.isLt (show cfg6.N = 25 from N_6)
  have hp := p.isLt
  obtain ⟨e0, e1, -⟩ := mlp_idx6 t
  unfold iblk6
  rw [View.read_apply]
  show V c (Pipeline.arrRef spec6 0) _ = V c (Pipeline.arrRef spec6 0) _
  refine congrArg (V c (Pipeline.arrRef spec6 0)) ?_
  funext a
  apply Fin.ext
  match a with
  | ⟨0, _⟩ =>
    show win6_0.index t (0 : Fin 2) * 2000 + 1 * p.val = (2000 * t.val + p.val) % 50000
    rw [e0]; omega
  | ⟨1, _⟩ =>
    show win6_0.index t (1 : Fin 2) * 64 + 1 * q.val = q.val
    rw [e1]; omega

/-- The first weight matrix's block at any point is the matrix. -/
theorem mlp_blk6_1_eq (c : Dev nD) (t : Fin cfg6.N) :
    (iblk6 V c 1 t : S64x64.Idx → EReal) = (V c (Pipeline.arrRef spec6 1) : S64x64.Idx → EReal) := by
  obtain ⟨-, -, e0, e1, -⟩ := mlp_idx6 t
  funext y
  unfold iblk6
  rw [View.read_apply]
  show V c (Pipeline.arrRef spec6 1) _ = V c (Pipeline.arrRef spec6 1) _
  refine congrArg (V c (Pipeline.arrRef spec6 1)) ?_
  funext a
  apply Fin.ext
  match a with
  | ⟨0, _⟩ =>
    show win6_1.index t (0 : Fin 2) * 64 + 1 * (y 0).val = (y 0).val
    rw [e0]; omega
  | ⟨1, _⟩ =>
    show win6_1.index t (1 : Fin 2) * 64 + 1 * (y 1).val = (y 1).val
    rw [e1]; omega

/-- The second weight matrix's block at any point is the matrix. -/
theorem mlp_blk6_2_eq (c : Dev nD) (t : Fin cfg6.N) :
    (iblk6 V c 2 t : S64x64.Idx → EReal) = (V c (Pipeline.arrRef spec6 2) : S64x64.Idx → EReal) := by
  obtain ⟨-, -, -, -, e0, e1, -⟩ := mlp_idx6 t
  funext y
  unfold iblk6
  rw [View.read_apply]
  show V c (Pipeline.arrRef spec6 2) _ = V c (Pipeline.arrRef spec6 2) _
  refine congrArg (V c (Pipeline.arrRef spec6 2)) ?_
  funext a
  apply Fin.ext
  match a with
  | ⟨0, _⟩ =>
    show win6_2.index t (0 : Fin 2) * 64 + 1 * (y 0).val = (y 0).val
    rw [e0]; omega
  | ⟨1, _⟩ =>
    show win6_2.index t (1 : Fin 2) * 64 + 1 * (y 1).val = (y 1).val
    rw [e1]; omega

/-- The layer's perceptron output: of the table and the two weight matrices as the layer finds them. -/
abbrev mlp_Zof6 (c : Dev nD) : Fin 50000 → Fin 64 → EReal :=
  Cert.Spec.mlp (Cert.Spec.cur (V c (Pipeline.arrRef spec6 0) : S50000x64.Idx → EReal))
    (Cert.Spec.cur (V c (Pipeline.arrRef spec6 1) : S64x64.Idx → EReal))
    (Cert.Spec.cur (V c (Pipeline.arrRef spec6 2) : S64x64.Idx → EReal))

/-- Entry (p, q) of the block point t stores is entry (2000 t + p, q) of the layer's perceptron output. -/
theorem mlp_block6_apply (c : Dev nD) (t : Fin cfg6.N) (p : Fin 2000) (q : Fin 64) :
    (k6_pay3 (F := Ideal) (iblk6 V c 0 t) (iblk6 V c 1 t) (iblk6 V c 2 t) : S2000x64.Idx → EReal) (ix2 p q)
      = mlp_Zof6 V c (mlp_rowAt2 t.val p) q := by
  refine (pay3_apply_6 (iblk6 V c 0 t) (iblk6 V c 1 t) (iblk6 V c 2 t) p q).trans ?_
  exact mlp_row_congr2 _ _ _ _ _ _ p (mlp_rowAt2 t.val p) (fun j => mlp_blk6_0_apply V c t p j)
    (congrArg Cert.Spec.cur (mlp_blk6_1_eq V c t)) (congrArg Cert.Spec.cur (mlp_blk6_2_eq V c t)) q

end Cert.KernelIdeal.KV

end
-- ==== Proof.KMlp6Z.lean ====
/-
  The layer's output array after the grid: entry (r, q) is the perceptron of the table's row r at column q.

  Every point writes its block back, block t to rows 2000 t … 2000 t + 1999, and the 25 blocks cover the 50000 rows;
  what point t writes is those rows of one function of the row and the column, so the array ends at that function.
-/
import proofs.«131751_j26465588478351_1_alg».proof.Proof.KMlp6Step
import proofs.«131751_j26465588478351_1_alg».proof.Proof.KMlp6Blk

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The output array as one function of its index: the layer's perceptron output at the index's row and column. -/
def mlp_outArr6 (c : Dev nD) : S50000x64.Idx → EReal :=
  fun i => mlp_Zof6 V c ⟨(i 0).val, idx2_lt0 i⟩ ⟨(i 1).val, idx2_lt1 i⟩

/-- An entry of the block point t stores is the output function at the entry's place in the array. -/
theorem mlp_stored6_apply (c : Dev nD) (t : Fin cfg6.N) (y : S2000x64.Idx) :
    (k6_pay3 (F := Ideal) (iblk6 V c 0 t) (iblk6 V c 1 t) (iblk6 V c 2 t) : S2000x64.Idx → EReal) y
      = mlp_outArr6 V c (((cfg6.win 3).blk t).view.emb y) := by
  have hN : t.val < 25 := lt_of_lt_of_eq t.isLt (show cfg6.N = 25 from N_6)
  obtain ⟨-, -, -, -, -, -, e0, e1, -⟩ := mlp_idx6 t
  obtain ⟨p, q, rfl⟩ : ∃ (p : Fin 2000) (q : Fin 64), y = ix2 p q := ⟨y 0, y 1, eq_ix2 y⟩
  have hp := p.isLt
  refine (mlp_block6_apply V c t p q).trans ?_
  refine congrArg₂ (mlp_Zof6 V c) (Fin.ext ?_) (Fin.ext ?_)
  · show (2000 * t.val + p.val) % 50000 = win6_3.index t (0 : Fin 2) * 2000 + 1 * p.val
    rw [e0]; omega
  · show q.val = win6_3.index t (1 : Fin 2) * 64 + 1 * q.val
    rw [e1]; omega

/-- What point t writes back is block t of the output function. -/
theorem mlp_flushed6_3_eq (c : Dev nD) (t : Fin cfg6.N) :
    (dat6 V c).flushed 3 t = ((cfg6.win 3).blk t).view.read (Elt Ideal) (mlp_outArr6 V c) := by
  show (cfg6.win 3).cut (grid6.coords t) ((dat6 V c).after 3 t) = _
  rw [after6_3, mlp_outs6_block V c t]
  funext y
  exact mlp_stored6_apply V c t y

/-- An index of the array is in point t's block iff each coordinate is in the block's range on its axis. -/
theorem mlp_mem_blk6_3 (t : Fin cfg6.N) (i : S50000x64.Idx) :
    i ∈ ((cfg6.win 3).blk t).view.set ↔ ∀ a : Fin 2, win6_3.index t a * S2000x64.size a ≤ (i a).val ∧ (i a).val < win6_3.index t a * S2000x64.size a + S2000x64.size a := by
  show i ∈ ((View.whole main_v88_0).slice (win6_3.rect t)).set ↔ _
  rw [View.set_slice_whole, Rect.mem_set_unit]
  exact Iff.rfl

/-- Row r lies in block r / 2000. -/
theorem mlp_covered6_3 (i : S50000x64.Idx) :
    ∃ t : Fin cfg6.N, (cfg6.win 3).flush t = true ∧ i ∈ ((cfg6.win 3).blk t).view.set := by
  have hi0 : (i 0).val < 50000 := (i 0).isLt
  have hi1 : (i 1).val < 64 := (i 1).isLt
  have hN : cfg6.N = 25 := N_6
  obtain ⟨t, ht⟩ : ∃ t : Fin cfg6.N, t.val = (i 0).val / 2000 := ⟨⟨(i 0).val / 2000, by rw [hN]; omega⟩, rfl⟩
  obtain ⟨-, -, -, -, -, -, e0, e1, -⟩ := mlp_idx6 t
  refine ⟨t, flush6_3 t, ?_⟩
  rw [mlp_mem_blk6_3]
  intro a
  match a with
  | ⟨0, _⟩ =>
    show win6_3.index t (0 : Fin 2) * 2000 ≤ (i 0).val ∧ (i 0).val < win6_3.index t (0 : Fin 2) * 2000 + 2000
    rw [e0, ht]; omega
  | ⟨1, _⟩ =>
    show win6_3.index t (1 : Fin 2) * 64 ≤ (i 1).val ∧ (i 1).val < win6_3.index t (1 : Fin 2) * 64 + 64
    rw [e1]; omega

/-- The output array after the grid is the output function. -/
theorem mlp_final6_3 (c : Dev nD) : (dat6 V c).arrAt 3 cfg6.N = mlp_outArr6 V c :=
  (dat6 V c).arrAt_eq_of_cover 3 (mlp_outArr6 V c) (fun t _ => mlp_flushed6_3_eq V c t) (mlp_covered6_3)

/-- Entry (r, q) of the output array after the grid: the perceptron, of the table and the weights the layer started
    from, at row r and column q. -/
theorem mlp6_out (c : Dev nD) (r : Fin 50000) (cc : Fin 64) :
    ((dat6 V c).arrAt 3 cfg6.N : S50000x64.Idx → EReal) (ix2 r cc)
      = Cert.Spec.mlp (Cert.Spec.cur (V c (Pipeline.arrRef spec6 0) : S50000x64.Idx → EReal))
          (Cert.Spec.cur (V c (Pipeline.arrRef spec6 1) : S64x64.Idx → EReal))
          (Cert.Spec.cur (V c (Pipeline.arrRef spec6 2) : S64x64.Idx → EReal)) r cc :=
  congrFun (mlp_final6_3 V c) (ix2 r cc)

end Cert.KernelIdeal.KV

end
-- ==== Proof.KMlp6Acc.lean ====
/-
  The two one-row accumulators after the grid: the column sums of the layer's perceptron output, and of its squares.

  After point n an accumulator holds the zero word plus the sum, over the blocks 0 … n, of the block's column sums: at the
  first point it starts from the zero row, at every later point from what the point before left.  Only the last point
  writes the accumulators back, and by then the blocks are all 25: regrouping the 25 blocks of 2000 rows as the 50000
  rows (addition of extended reals is commutative and associative, so no finiteness is needed) gives the column sums.
-/
import proofs.«131751_j26465588478351_1_alg».proof.Proof.KMlp6Step
import proofs.«131751_j26465588478351_1_alg».proof.Proof.KMlp6Blk
import proofs.«131751_j26465588478351_1_alg».proof.Proof.KMlp2Acc

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Column q's sum over the rows of block s of the layer's perceptron output, and of its squares. -/
def mlp_blockSum6 (c : Dev nD) (s : ℕ) (q : Fin 64) : EReal := ∑ p : Fin 2000, mlp_Zof6 V c (mlp_rowAt2 s p) q
def mlp_blockSq6 (c : Dev nD) (s : ℕ) (q : Fin 64) : EReal :=
  ∑ p : Fin 2000, mlp_Zof6 V c (mlp_rowAt2 s p) q * mlp_Zof6 V c (mlp_rowAt2 s p) q

/-- After point n the accumulators hold the zero word plus the blocks' column sums up to block n. -/
theorem mlp_acc6_eq (c : Dev nD) : ∀ (n : ℕ) (h : n < cfg6.N) (q : Fin 64),
    ((outsAt6 V c n h).2.1 : S1x64.Idx → EReal) (ix2 0 q)
        = Cert.Spec.Zw + ∑ s ∈ Finset.range (n + 1), mlp_blockSum6 V c s q
      ∧ ((outsAt6 V c n h).2.2 : S1x64.Idx → EReal) (ix2 0 q)
        = Cert.Spec.Zw + ∑ s ∈ Finset.range (n + 1), mlp_blockSq6 V c s q
  | 0, h, q => by
    have e := mlp_outs6_first V c ⟨0, h⟩ rfl
    refine ⟨(congrFun (congrArg (fun x => x.2.1) e) (ix2 0 q)).trans ?_,
      (congrFun (congrArg (fun x => x.2.2) e) (ix2 0 q)).trans ?_⟩
    · refine (pay4_apply_6 (iblk6 V c 0 ⟨0, h⟩) (iblk6 V c 1 ⟨0, h⟩) (iblk6 V c 2 ⟨0, h⟩) (k6_pay1 (F := Ideal)) q).trans ?_
      rw [Finset.sum_range_one]
      exact congrArg₂ (· + ·) (pay1_apply_6 q) (Finset.sum_congr rfl fun p _ => mlp_block6_apply V c ⟨0, h⟩ p q)
    · refine (pay5_apply_6 (iblk6 V c 0 ⟨0, h⟩) (iblk6 V c 1 ⟨0, h⟩) (iblk6 V c 2 ⟨0, h⟩) (k6_pay2 (F := Ideal)) q).trans ?_
      rw [Finset.sum_range_one]
      exact congrArg₂ (· + ·) (pay2_apply_6 q) (Finset.sum_congr rfl fun p _ =>
        congrArg₂ (· * ·) (mlp_block6_apply V c ⟨0, h⟩ p q) (mlp_block6_apply V c ⟨0, h⟩ p q))
  | n + 1, h, q => by
    have hN : cfg6.N = 25 := N_6
    have hB : ¬(⟨n + 1, h⟩ : Fin cfg6.N).val % 25 = 0 := by dsimp only; omega
    have e := mlp_outs6_next V c ⟨n + 1, h⟩ hB
    have ih := mlp_acc6_eq c n (Nat.lt_of_succ_lt h) q
    refine ⟨(congrFun (congrArg (fun x => x.2.1) e) (ix2 0 q)).trans ?_,
      (congrFun (congrArg (fun x => x.2.2) e) (ix2 0 q)).trans ?_⟩
    · refine (pay4_apply_6 (iblk6 V c 0 ⟨n + 1, h⟩) (iblk6 V c 1 ⟨n + 1, h⟩) (iblk6 V c 2 ⟨n + 1, h⟩) _ q).trans ?_
      rw [Finset.sum_range_succ _ (n + 1), ← add_assoc]
      exact congrArg₂ (· + ·) ih.1 (Finset.sum_congr rfl fun p _ => mlp_block6_apply V c ⟨n + 1, h⟩ p q)
    · refine (pay5_apply_6 (iblk6 V c 0 ⟨n + 1, h⟩) (iblk6 V c 1 ⟨n + 1, h⟩) (iblk6 V c 2 ⟨n + 1, h⟩) _ q).trans ?_
      rw [Finset.sum_range_succ _ (n + 1), ← add_assoc]
      exact congrArg₂ (· + ·) ih.2 (Finset.sum_congr rfl fun p _ =>
        congrArg₂ (· * ·) (mlp_block6_apply V c ⟨n + 1, h⟩ p q) (mlp_block6_apply V c ⟨n + 1, h⟩ p q))

/-- The two accumulator arrays as functions of their index: the column sums at the index's column. -/
def mlp_sumArr6 (c : Dev nD) : S1x64.Idx → EReal := fun i => Cert.Spec.colSum (mlp_Zof6 V c) ⟨(i 1).val, idx2_lt1 i⟩
def mlp_sqArr6 (c : Dev nD) : S1x64.Idx → EReal :=
  fun i => Cert.Spec.colSum (Cert.Spec.sq (mlp_Zof6 V c)) ⟨(i 1).val, idx2_lt1 i⟩
theorem mlp_sumArr6_apply (c : Dev nD) (i : S1x64.Idx) :
    mlp_sumArr6 V c i = Cert.Spec.colSum (mlp_Zof6 V c) ⟨(i 1).val, idx2_lt1 i⟩ := rfl
theorem mlp_sqArr6_apply (c : Dev nD) (i : S1x64.Idx) :
    mlp_sqArr6 V c i = Cert.Spec.colSum (Cert.Spec.sq (mlp_Zof6 V c)) ⟨(i 1).val, idx2_lt1 i⟩ := rfl
attribute [irreducible] mlp_sumArr6 mlp_sqArr6

/-- After the last point the first accumulator's entry is the column sum at the entry's place in its array. -/
theorem mlp_sum6_apply (c : Dev nD) (t : Fin cfg6.N) (h24 : t.val = 24) (y : S1x64.Idx) :
    ((outsAt6 V c t.val t.isLt).2.1 : S1x64.Idx → EReal) y = mlp_sumArr6 V c (((cfg6.win 4).blk t).view.emb y) := by
  obtain ⟨-, -, -, -, -, -, -, -, e0, e1, -⟩ := mlp_idx6 t
  obtain ⟨z, q, rfl⟩ : ∃ (z : Fin 1) (q : Fin 64), y = ix2 z q := ⟨y 0, y 1, eq_ix2 y⟩
  obtain rfl : z = 0 := Subsingleton.elim _ _
  refine ((mlp_acc6_eq V c t.val t.isLt q).1).trans ?_
  rw [h24, mlp_Zw_add, mlp_sumArr6_apply]
  refine Eq.trans ?_ (congrArg (Cert.Spec.colSum (mlp_Zof6 V c)) (Fin.ext ?_ : q = _))
  · exact mlp_sum_rows_blocks (fun r => mlp_Zof6 V c r q)
  · show q.val = win6_4.index t (1 : Fin 2) * 64 + 1 * q.val
    rw [e1]; omega

/-- After the last point the second accumulator's entry is the column sum of the squares at the entry's place. -/
theorem mlp_sq6_apply (c : Dev nD) (t : Fin cfg6.N) (h24 : t.val = 24) (y : S1x64.Idx) :
    ((outsAt6 V c t.val t.isLt).2.2 : S1x64.Idx → EReal) y = mlp_sqArr6 V c (((cfg6.win 5).blk t).view.emb y) := by
  obtain ⟨-, -, -, -, -, -, -, -, -, -, e0, e1⟩ := mlp_idx6 t
  obtain ⟨z, q, rfl⟩ : ∃ (z : Fin 1) (q : Fin 64), y = ix2 z q := ⟨y 0, y 1, eq_ix2 y⟩
  obtain rfl : z = 0 := Subsingleton.elim _ _
  refine ((mlp_acc6_eq V c t.val t.isLt q).2).trans ?_
  rw [h24, mlp_Zw_add, mlp_sqArr6_apply]
  refine Eq.trans ?_ (congrArg (Cert.Spec.colSum (Cert.Spec.sq (mlp_Zof6 V c))) (Fin.ext ?_ : q = _))
  · exact mlp_sum_rows_blocks (fun r => Cert.Spec.sq (mlp_Zof6 V c) r q)
  · show q.val = win6_5.index t (1 : Fin 2) * 64 + 1 * q.val
    rw [e1]; omega

/-- What the one writing point writes back into each accumulator's array. -/
theorem mlp_flushed6_4_eq (c : Dev nD) (t : Fin cfg6.N) (hf : (cfg6.win 4).flush t = true) :
    (dat6 V c).flushed 4 t = ((cfg6.win 4).blk t).view.read (Elt Ideal) (mlp_sumArr6 V c) := by
  have hN : t.val < 25 := lt_of_lt_of_eq t.isLt (show cfg6.N = 25 from N_6)
  have h24 : t.val = 24 := by have := (flush6_4 t).mp hf; omega
  show (cfg6.win 4).cut (grid6.coords t) ((dat6 V c).after 4 t) = _
  rw [after6_4]
  funext y
  exact mlp_sum6_apply V c t h24 y
theorem mlp_flushed6_5_eq (c : Dev nD) (t : Fin cfg6.N) (hf : (cfg6.win 5).flush t = true) :
    (dat6 V c).flushed 5 t = ((cfg6.win 5).blk t).view.read (Elt Ideal) (mlp_sqArr6 V c) := by
  have hN : t.val < 25 := lt_of_lt_of_eq t.isLt (show cfg6.N = 25 from N_6)
  have h24 : t.val = 24 := by have := (flush6_5 t).mp hf; omega
  show (cfg6.win 5).cut (grid6.coords t) ((dat6 V c).after 5 t) = _
  rw [after6_5]
  funext y
  exact mlp_sq6_apply V c t h24 y

/-- The last point's block is the whole one-row array. -/
theorem mlp_covered6_4 (i : S1x64.Idx) :
    ∃ t : Fin cfg6.N, (cfg6.win 4).flush t = true ∧ i ∈ ((cfg6.win 4).blk t).view.set := by
  have hi0 : (i 0).val < 1 := (i 0).isLt
  have hi1 : (i 1).val < 64 := (i 1).isLt
  have hN : cfg6.N = 25 := N_6
  obtain ⟨t, ht⟩ : ∃ t : Fin cfg6.N, t.val = 24 := ⟨⟨24, by rw [hN]; omega⟩, rfl⟩
  obtain ⟨-, -, -, -, -, -, -, -, e0, e1, -⟩ := mlp_idx6 t
  refine ⟨t, (flush6_4 t).mpr (by rw [ht]), ?_⟩
  show i ∈ ((View.whole main_v88_1).slice (win6_4.rect t)).set
  rw [View.set_slice_whole, Rect.mem_set_unit]
  intro a
  match a with
  | ⟨0, _⟩ =>
    show win6_4.index t (0 : Fin 2) * 1 ≤ (i 0).val ∧ (i 0).val < win6_4.index t (0 : Fin 2) * 1 + 1
    rw [e0]; omega
  | ⟨1, _⟩ =>
    show win6_4.index t (1 : Fin 2) * 64 ≤ (i 1).val ∧ (i 1).val < win6_4.index t (1 : Fin 2) * 64 + 64
    rw [e1]; omega
theorem mlp_covered6_5 (i : S1x64.Idx) :
    ∃ t : Fin cfg6.N, (cfg6.win 5).flush t = true ∧ i ∈ ((cfg6.win 5).blk t).view.set := by
  have hi0 : (i 0).val < 1 := (i 0).isLt
  have hi1 : (i 1).val < 64 := (i 1).isLt
  have hN : cfg6.N = 25 := N_6
  obtain ⟨t, ht⟩ : ∃ t : Fin cfg6.N, t.val = 24 := ⟨⟨24, by rw [hN]; omega⟩, rfl⟩
  obtain ⟨-, -, -, -, -, -, -, -, -, -, e0, e1⟩ := mlp_idx6 t
  refine ⟨t, (flush6_5 t).mpr (by rw [ht]), ?_⟩
  show i ∈ ((View.whole main_v88_2).slice (win6_5.rect t)).set
  rw [View.set_slice_whole, Rect.mem_set_unit]
  intro a
  match a with
  | ⟨0, _⟩ =>
    show win6_5.index t (0 : Fin 2) * 1 ≤ (i 0).val ∧ (i 0).val < win6_5.index t (0 : Fin 2) * 1 + 1
    rw [e0]; omega
  | ⟨1, _⟩ =>
    show win6_5.index t (1 : Fin 2) * 64 ≤ (i 1).val ∧ (i 1).val < win6_5.index t (1 : Fin 2) * 64 + 64
    rw [e1]; omega

/-- The accumulators' arrays after the grid. -/
theorem mlp_final6_4 (c : Dev nD) : (dat6 V c).arrAt 4 cfg6.N = mlp_sumArr6 V c :=
  (dat6 V c).arrAt_eq_of_cover 4 (mlp_sumArr6 V c) (mlp_flushed6_4_eq V c) (mlp_covered6_4)
theorem mlp_final6_5 (c : Dev nD) : (dat6 V c).arrAt 5 cfg6.N = mlp_sqArr6 V c :=
  (dat6 V c).arrAt_eq_of_cover 5 (mlp_sqArr6 V c) (mlp_flushed6_5_eq V c) (mlp_covered6_5)

/-- Column q of the first accumulator's array after the grid: the sum of column q of the layer's perceptron output. -/
theorem mlp6_sum (c : Dev nD) (cc : Fin 64) :
    ((dat6 V c).arrAt 4 cfg6.N : S1x64.Idx → EReal) (ix2 0 cc)
      = Cert.Spec.colSum (Cert.Spec.mlp (Cert.Spec.cur (V c (Pipeline.arrRef spec6 0) : S50000x64.Idx → EReal))
          (Cert.Spec.cur (V c (Pipeline.arrRef spec6 1) : S64x64.Idx → EReal))
          (Cert.Spec.cur (V c (Pipeline.arrRef spec6 2) : S64x64.Idx → EReal))) cc :=
  (congrFun (mlp_final6_4 V c) (ix2 0 cc)).trans (mlp_sumArr6_apply V c (ix2 0 cc))

/-- Column q of the second accumulator's array after the grid: the sum of the squares of that column. -/
theorem mlp6_sumsq (c : Dev nD) (cc : Fin 64) :
    ((dat6 V c).arrAt 5 cfg6.N : S1x64.Idx → EReal) (ix2 0 cc)
      = Cert.Spec.colSum (Cert.Spec.sq (Cert.Spec.mlp (Cert.Spec.cur (V c (Pipeline.arrRef spec6 0) : S50000x64.Idx → EReal))
          (Cert.Spec.cur (V c (Pipeline.arrRef spec6 1) : S64x64.Idx → EReal))
          (Cert.Spec.cur (V c (Pipeline.arrRef spec6 2) : S64x64.Idx → EReal)))) cc :=
  (congrFun (mlp_final6_5 V c) (ix2 0 cc)).trans (mlp_sqArr6_apply V c (ix2 0 cc))

end Cert.KernelIdeal.KV

end
-- ==== Proof.KNorm7.lean ====
/-
  The normalisation region number 7 of the program, read as a whole array.

  The region runs over 25 grid points.  At point t it reads rows 2000 t .. 2000 t + 1999 of the table z (all 64
  columns) and the whole of four one-row arrays (mean, variance, gamma, beta), and writes back rows
  2000 t .. 2000 t + 1999 of the output.  The value stored at row p, column q of the block is
  gamma q * (z (2000 t + p) q - mean q) * (var q + epsilon)^(-1/2) + beta q: the block of ONE whole-array function,
  the normalisation of the input arrays.  The 25 blocks tile the 50000 rows (row r lies in block r / 2000), so after
  the region the output array is that function at every row and column.
-/
import proofs.«131751_j26465588478351_1_alg».proof.Proof.Gen.KernelIdeal.Frame
import proofs.«131751_j26465588478351_1_alg».proof.Proof.Spec
import proofs.«131751_j26465588478351_1_alg».proof.Proof.KNormPay
import Idealize.ShloMosaic.Lib.Pipeline.Value
import Idealize.ShloMosaic.Lib.ValueIdx

noncomputable section

namespace Cert.KernelIdeal.KV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The five input arrays as the region finds them: the table, the mean, the variance, gamma, beta. -/
abbrev zArr7 (c : Dev nD) : S50000x64.Idx → EReal := V c (Pipeline.arrRef spec7 0)
abbrev muArr7 (c : Dev nD) : S1x64.Idx → EReal := V c (Pipeline.arrRef spec7 1)
abbrev varArr7 (c : Dev nD) : S1x64.Idx → EReal := V c (Pipeline.arrRef spec7 2)
abbrev gArr7 (c : Dev nD) : S1x64.Idx → EReal := V c (Pipeline.arrRef spec7 3)
abbrev bArr7 (c : Dev nD) : S1x64.Idx → EReal := V c (Pipeline.arrRef spec7 4)

/-- The normalised table as one function of the whole-array index. -/
abbrev normArr7 (c : Dev nD) : S50000x64.Idx → EReal := fun i =>
  Cert.Spec.norm (Cert.Spec.cur (zArr7 V c)) (Cert.Spec.row (muArr7 V c)) (Cert.Spec.row (varArr7 V c))
    (Cert.Spec.row (gArr7 V c)) (Cert.Spec.row (bArr7 V c)) (i 0) (i 1)

/-- The block indices of the six windows at every grid point: the table and the output move down with the point,
    the one-row arrays stay. -/
theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- Row p, column q of the output's block at point t is row 2000 t + p, column q of the array. -/
theorem out_emb7 (t : Fin cfg7.N) (p : Fin 2000) (q : Fin 64) (h : 2000 * t.val + p.val < 50000) :
    ((cfg7.win 5).blk t).view.emb (ix2 p q) = (ix2 (⟨2000 * t.val + p.val, h⟩ : Fin 50000) q : S50000x64.Idx) := by
  obtain ⟨-, -, -, -, -, -, -, -, -, -, e0, e1⟩ := idx_facts7 t
  funext a; apply Fin.ext
  match a with
  | ⟨0, _⟩ => show win7_5.index t (0 : Fin 2) * 2000 + 1 * p.val = 2000 * t.val + p.val; omega
  | ⟨1, _⟩ => show win7_5.index t (1 : Fin 2) * 64 + 1 * q.val = q.val; omega

/-- The table's block at point t, at row p and column q, is the table at row 2000 t + p, column q. -/
theorem z_blk7 (c : Dev nD) (t : Fin cfg7.N) (p : Fin 2000) (q : Fin 64) (h : 2000 * t.val + p.val < 50000) :
    (iblk7 V c 0 t : Vec Ideal S2000x64 .f32) (ix2 p q) = zArr7 V c (ix2 (⟨2000 * t.val + p.val, h⟩ : Fin 50000) q) := by
  obtain ⟨e0, e1, -⟩ := idx_facts7 t
  unfold iblk7
  rw [View.read_apply]
  show V c (Pipeline.arrRef spec7 0) (((cfg7.win 0).blk t).view.emb (ix2 p q)) = V c (Pipeline.arrRef spec7 0) _
  refine congrArg _ ?_
  funext a; apply Fin.ext
  match a with
  | ⟨0, _⟩ => show win7_0.index t (0 : Fin 2) * 2000 + 1 * p.val = 2000 * t.val + p.val; omega
  | ⟨1, _⟩ => show win7_0.index t (1 : Fin 2) * 64 + 1 * q.val = q.val; omega

/-- Each one-row array's block at any point is the array: its entry at column q is the array's. -/
theorem mu_blk7 (c : Dev nD) (t : Fin cfg7.N) (q : Fin 64) :
    (iblk7 V c 1 t : Vec Ideal S1x64 .f32) (ix2 0 q) = muArr7 V c (ix2 0 q) := by
  obtain ⟨-, -, e0, e1, -⟩ := idx_facts7 t
  unfold iblk7
  rw [View.read_apply]
  show V c (Pipeline.arrRef spec7 1) (((cfg7.win 1).blk t).view.emb (ix2 0 q)) = V c (Pipeline.arrRef spec7 1) _
  refine congrArg _ ?_
  funext a; apply Fin.ext
  match a with
  | ⟨0, _⟩ => show win7_1.index t (0 : Fin 2) * 1 + 1 * 0 = 0; omega
  | ⟨1, _⟩ => show win7_1.index t (1 : Fin 2) * 64 + 1 * q.val = q.val; omega

theorem var_blk7 (c : Dev nD) (t : Fin cfg7.N) (q : Fin 64) :
    (iblk7 V c 2 t : Vec Ideal S1x64 .f32) (ix2 0 q) = varArr7 V c (ix2 0 q) := by
  obtain ⟨-, -, -, -, e0, e1, -⟩ := idx_facts7 t
  unfold iblk7
  rw [View.read_apply]
  show V c (Pipeline.arrRef spec7 2) (((cfg7.win 2).blk t).view.emb (ix2 0 q)) = V c (Pipeline.arrRef spec7 2) _
  refine congrArg _ ?_
  funext a; apply Fin.ext
  match a with
  | ⟨0, _⟩ => show win7_2.index t (0 : Fin 2) * 1 + 1 * 0 = 0; omega
  | ⟨1, _⟩ => show win7_2.index t (1 : Fin 2) * 64 + 1 * q.val = q.val; omega

theorem g_blk7 (c : Dev nD) (t : Fin cfg7.N) (q : Fin 64) :
    (iblk7 V c 3 t : Vec Ideal S1x64 .f32) (ix2 0 q) = gArr7 V c (ix2 0 q) := by
  obtain ⟨-, -, -, -, -, -, e0, e1, -⟩ := idx_facts7 t
  unfold iblk7
  rw [View.read_apply]
  show V c (Pipeline.arrRef spec7 3) (((cfg7.win 3).blk t).view.emb (ix2 0 q)) = V c (Pipeline.arrRef spec7 3) _
  refine congrArg _ ?_
  funext a; apply Fin.ext
  match a with
  | ⟨0, _⟩ => show win7_3.index t (0 : Fin 2) * 1 + 1 * 0 = 0; omega
  | ⟨1, _⟩ => show win7_3.index t (1 : Fin 2) * 64 + 1 * q.val = q.val; omega

theorem b_blk7 (c : Dev nD) (t : Fin cfg7.N) (q : Fin 64) :
    (iblk7 V c 4 t : Vec Ideal S1x64 .f32) (ix2 0 q) = bArr7 V c (ix2 0 q) := by
  obtain ⟨-, -, -, -, -, -, -, -, e0, e1, -⟩ := idx_facts7 t
  unfold iblk7
  rw [View.read_apply]
  show V c (Pipeline.arrRef spec7 4) (((cfg7.win 4).blk t).view.emb (ix2 0 q)) = V c (Pipeline.arrRef spec7 4) _
  refine congrArg _ ?_
  funext a; apply Fin.ext
  match a with
  | ⟨0, _⟩ => show win7_4.index t (0 : Fin 2) * 1 + 1 * 0 = 0; omega
  | ⟨1, _⟩ => show win7_4.index t (1 : Fin 2) * 64 + 1 * q.val = q.val; omega

/-- What point t writes back is block t of the normalised table. -/
theorem flushed7_eq (c : Dev nD) (t : Fin cfg7.N) :
    (dat7 V c).flushed 5 t = ((cfg7.win 5).blk t).view.read (Elt Ideal) (normArr7 V c) := by
  show (cfg7.win 5).cut (grid7.coords t) ((dat7 V c).after 5 t) = _
  rw [after7_5]
  unfold out7_5
  rw [View.canon_unit_zero zero_off]
  simp only [View.ld_unit_zero (S := S2000x64) zero_off, View.ld_unit_zero (S := S1x64) zero_off]
  funext j
  obtain ⟨p, q, rfl⟩ : ∃ (p : Fin 2000) (q : Fin 64), j = ix2 p q := ⟨j 0, j 1, eq_ix2 j⟩
  have ht : t.val < 25 := by have ht' := t.isLt; have hN : cfg7.N = 25 := N_7; omega
  have h : 2000 * t.val + p.val < 50000 := by have := p.isLt; omega
  show k7_pay1 (F := Ideal) (iblk7 V c 0 t) (iblk7 V c 2 t) (iblk7 V c 3 t) (iblk7 V c 1 t) (iblk7 V c 4 t) (ix2 p q)
      = normArr7 V c (((cfg7.win 5).blk t).view.emb (ix2 p q))
  rw [out_emb7 t p q h]
  refine (norm_pay7_apply (iblk7 V c 0 t) (iblk7 V c 2 t) (iblk7 V c 3 t) (iblk7 V c 1 t) (iblk7 V c 4 t) p q).trans ?_
  rw [z_blk7 V c t p q h, mu_blk7 V c t q, var_blk7 V c t q, g_blk7 V c t q, b_blk7 V c t q]
  rfl

/-- An index of the output array is in point t's block iff each coordinate is in the block's range on its axis. -/
theorem mem_blk7 (t : Fin cfg7.N) (i : S50000x64.Idx) :
    i ∈ ((cfg7.win 5).blk t).view.set ↔ ∀ a : Fin 2, win7_5.index t a * S2000x64.size a ≤ (i a).val ∧ (i a).val < win7_5.index t a * S2000x64.size a + S2000x64.size a := by
  show i ∈ ((View.whole (cfg7.win 5).arr.view.ref).slice (win7_5.rect t)).set ↔ _
  rw [View.set_slice_whole, Rect.mem_set_unit]
  exact Iff.rfl

/-- Every index of the output array lies in the block of the point its row selects: row r is in block r / 2000. -/
theorem cover7 (i : S50000x64.Idx) :
    ∃ t : Fin cfg7.N, (cfg7.win 5).flush t = true ∧ i ∈ ((cfg7.win 5).blk t).view.set := by
  have hi0 : (i 0).val < 50000 := (i 0).isLt
  have hi1 : (i 1).val < 64 := (i 1).isLt
  have hN : cfg7.N = 25 := N_7
  let t : Fin cfg7.N := ⟨(i 0).val / 2000, by rw [hN]; omega⟩
  have htv : t.val = (i 0).val / 2000 := rfl
  obtain ⟨-, -, -, -, -, -, -, -, -, -, e0, e1⟩ := idx_facts7 t
  refine ⟨t, flush7_5 t, ?_⟩
  rw [mem_blk7]
  intro a
  match a with
  | ⟨0, _⟩ => show win7_5.index t (0 : Fin 2) * 2000 ≤ (i 0).val ∧ (i 0).val < win7_5.index t (0 : Fin 2) * 2000 + 2000; omega
  | ⟨1, _⟩ => show win7_5.index t (1 : Fin 2) * 64 ≤ (i 1).val ∧ (i 1).val < win7_5.index t (1 : Fin 2) * 64 + 64; omega

/-- The output array after the region is the normalised table. -/
theorem norm_7_arr (c : Dev nD) : (dat7 V c).arrAt 5 cfg7.N = normArr7 V c :=
  (dat7 V c).arrAt_eq_of_cover 5 (normArr7 V c) (fun t _ => flushed7_eq V c t) (cover7)

/-- Entry by entry: after the region the output at row r, column cc is the normalisation of the input arrays there. -/
theorem norm_7_final (c : Dev nD) (r : Fin 50000) (cc : Fin 64) :
    ((dat7 V c).arrAt 5 cfg7.N : S50000x64.Idx → EReal) (ValueIdx.ix2 r cc)
      = Cert.Spec.norm (Cert.Spec.cur (V c (Pipeline.arrRef spec7 0) : S50000x64.Idx → EReal))
          (Cert.Spec.row (V c (Pipeline.arrRef spec7 1) : S1x64.Idx → EReal))
          (Cert.Spec.row (V c (Pipeline.arrRef spec7 2) : S1x64.Idx → EReal))
          (Cert.Spec.row (V c (Pipeline.arrRef spec7 3) : S1x64.Idx → EReal))
          (Cert.Spec.row (V c (Pipeline.arrRef spec7 4) : S1x64.Idx → EReal)) r cc := by
  rw [norm_7_arr V c]

end Cert.KernelIdeal.KV

end
-- ==== Proof.KChainL3.lean ====
/-
  Graph layer 3 of the idealized kernel: from the table entering it to the table its normalisation launch leaves.
  The host aggregates the table along the edges and cuts the layer's two weight matrices out of the stacked arguments;
  the perceptron launch leaves the clipped double product and its column sums and column sums of squares; the host forms
  the mean and the first spelling of the variance and cuts the layer's scale and shift; the normalisation launch
  normalises.
-/
import proofs.«131751_j26465588478351_1_alg».proof.Proof.KChainL2
import proofs.«131751_j26465588478351_1_alg».proof.Proof.KMlp6Z
import proofs.«131751_j26465588478351_1_alg».proof.Proof.KMlp6Acc
import proofs.«131751_j26465588478351_1_alg».proof.Proof.KNorm7

set_option maxRecDepth 16384

noncomputable section

namespace Cert.KernelIdeal.KV

open Idealize.ShloMosaic Idealize.ShloMosaic.TcCoe Idealize.ShloMosaic.Tactic Idealize.SL.Sem Idealize.ShloMosaic.StableHlo
open Idealize.ShloMosaic.ValueIdx Idealize.ShloMosaic.Pipeline
open Cert.KernelIdeal Cert.KernelIdeal.Gen Cert.Lib

variable (m : (ℓ : Loc nD τ sig) → Buf (Elt Ideal) ℓ) (ρ : Dev nD → PrngReg) (c : Dev nD)

/-! ## The perceptron launch's inputs -/

set_option maxHeartbeats 1000000 in
theorem L2_in_w1 : Spec.cur (V13 m ρ c (Pipeline.arrRef spec6 1) : S64x64.Idx → EReal) = W1s m c (⟨2, by decide⟩ : Fin 3) := by
  rw [show (V13 m ρ c (Pipeline.arrRef spec6 1) : S64x64.Idx → EReal) = StableHlo.after hostOps6 (W12 m ρ c) (Proc.devRef .tc main_v85) from rfl,
    h6_w1 (W12 m ρ c)]
  exact congrArg (fun (A : S3x64x64.Idx → EReal) => fun j cc => A (ix3 (⟨2, by decide⟩ : Fin 3) j cc))
    ((kp12_main_arg6 m ρ c).trans (W1_main_arg6 m ρ c))

set_option maxHeartbeats 1000000 in
theorem L2_in_w2 : Spec.cur (V13 m ρ c (Pipeline.arrRef spec6 2) : S64x64.Idx → EReal) = W2s m c (⟨2, by decide⟩ : Fin 3) := by
  rw [show (V13 m ρ c (Pipeline.arrRef spec6 2) : S64x64.Idx → EReal) = StableHlo.after hostOps6 (W12 m ρ c) (Proc.devRef .tc main_v87) from rfl,
    h6_w2 (W12 m ρ c)]
  exact congrArg (fun (A : S3x64x64.Idx → EReal) => fun j cc => A (ix3 (⟨2, by decide⟩ : Fin 3) j cc))
    ((kp12_main_arg7 m ρ c).trans (W1_main_arg7 m ρ c))

section
variable (H : Spec.Tab) (hH : Spec.cur (W12 m ρ c (Proc.devRef .tc main_v72) : S50000x64.Idx → EReal) = H)
include hH

set_option maxHeartbeats 1000000 in
/-- The first input: the entering table aggregated along the edges. -/
theorem L2_in_a : Spec.cur (V13 m ρ c (Pipeline.arrRef spec6 0) : S50000x64.Idx → EReal) = aggK m c H := by
  rw [show (V13 m ρ c (Pipeline.arrRef spec6 0) : S50000x64.Idx → EReal) = StableHlo.after hostOps6 (W12 m ρ c) (Proc.devRef .tc main_v83) from rfl,
    h6_agg (W12 m ρ c),
    show (W12 m ρ c (Proc.devRef .tc main_v1) : IVec S800000 32) = srcW m c from (kp12_main_v1 m ρ c).trans (W1_src m ρ c),
    show (W12 m ρ c (Proc.devRef .tc main_v3) : IVec S800000 32) = dstW m c from (kp12_main_v3 m ρ c).trans (W1_dst m ρ c),
    aggK_cur, hH]

/-! ## The perceptron launch's three outputs -/

set_option maxHeartbeats 1000000 in
theorem L2_z : Spec.cur (W14 m ρ c (Proc.devRef .tc main_v88_0) : S50000x64.Idx → EReal) = (Spec.mlp (aggK m c H) (W1s m c (⟨2, by decide⟩ : Fin 3)) (W2s m c (⟨2, by decide⟩ : Fin 3))) := by
  funext r cc
  have e : (W14 m ρ c (Proc.devRef .tc main_v88_0) : S50000x64.Idx → EReal) = (dat6 (V13 m ρ) c).arrAt 3 cfg6.N := W14_arr m ρ c 3
  have hz := congr (congr (congrArg (Spec.mlp (n := 50000) (q := 64) (k := 64)) (L2_in_a m ρ c H hH)) (L2_in_w1 m ρ c)) (L2_in_w2 m ρ c)
  exact ((congrFun e (ix2 r cc)).trans (mlp6_out (V13 m ρ) c r cc)).trans (congrFun (congrFun hz r) cc)

set_option maxHeartbeats 1000000 in
theorem L2_s : Spec.row (W14 m ρ c (Proc.devRef .tc main_v88_1) : S1x64.Idx → EReal) = Spec.colSum (Spec.mlp (aggK m c H) (W1s m c (⟨2, by decide⟩ : Fin 3)) (W2s m c (⟨2, by decide⟩ : Fin 3))) := by
  funext cc
  have e : (W14 m ρ c (Proc.devRef .tc main_v88_1) : S1x64.Idx → EReal) = (dat6 (V13 m ρ) c).arrAt 4 cfg6.N := W14_arr m ρ c 4
  have hz := congr (congr (congrArg (Spec.mlp (n := 50000) (q := 64) (k := 64)) (L2_in_a m ρ c H hH)) (L2_in_w1 m ρ c)) (L2_in_w2 m ρ c)
  exact ((congrFun e (ix2 0 cc)).trans (mlp6_sum (V13 m ρ) c cc)).trans (congrFun (congrArg Spec.colSum hz) cc)

set_option maxHeartbeats 1000000 in
theorem L2_ss : Spec.row (W14 m ρ c (Proc.devRef .tc main_v88_2) : S1x64.Idx → EReal) = Spec.colSum (Spec.sq (Spec.mlp (aggK m c H) (W1s m c (⟨2, by decide⟩ : Fin 3)) (W2s m c (⟨2, by decide⟩ : Fin 3)))) := by
  funext cc
  have e : (W14 m ρ c (Proc.devRef .tc main_v88_2) : S1x64.Idx → EReal) = (dat6 (V13 m ρ) c).arrAt 5 cfg6.N := W14_arr m ρ c 5
  have hz := congr (congr (congrArg (Spec.mlp (n := 50000) (q := 64) (k := 64)) (L2_in_a m ρ c H hH)) (L2_in_w1 m ρ c)) (L2_in_w2 m ρ c)
  exact ((congrFun e (ix2 0 cc)).trans (mlp6_sumsq (V13 m ρ) c cc)).trans (congrFun (congrArg (fun z => Spec.colSum (Spec.sq z)) hz) cc)

/-! ## The normalisation launch's inputs -/

set_option maxHeartbeats 1000000 in
theorem L2_n_z : Spec.cur (V15 m ρ c (Pipeline.arrRef spec7 0) : S50000x64.Idx → EReal) = (Spec.mlp (aggK m c H) (W1s m c (⟨2, by decide⟩ : Fin 3)) (W2s m c (⟨2, by decide⟩ : Fin 3))) :=
  (congrArg Spec.cur (h7_z (W14 m ρ c))).trans (L2_z m ρ c H hH)

set_option maxHeartbeats 1000000 in
theorem L2_n_mu : Spec.row (V15 m ρ c (Pipeline.arrRef spec7 1) : S1x64.Idx → EReal) = Spec.mean (Spec.mlp (aggK m c H) (W1s m c (⟨2, by decide⟩ : Fin 3)) (W2s m c (⟨2, by decide⟩ : Fin 3))) := by
  rw [show (V15 m ρ c (Pipeline.arrRef spec7 1) : S1x64.Idx → EReal) = StableHlo.after hostOps7 (W14 m ρ c) (Proc.devRef .tc main_v90) from rfl,
    h7_mean (W14 m ρ c), L2_s m ρ c H hH]
  rfl

set_option maxHeartbeats 1000000 in
theorem L2_n_var : Spec.row (V15 m ρ c (Pipeline.arrRef spec7 2) : S1x64.Idx → EReal) = Spec.varK (Spec.mlp (aggK m c H) (W1s m c (⟨2, by decide⟩ : Fin 3)) (W2s m c (⟨2, by decide⟩ : Fin 3))) := by
  rw [show (V15 m ρ c (Pipeline.arrRef spec7 2) : S1x64.Idx → EReal) = StableHlo.after hostOps7 (W14 m ρ c) (Proc.devRef .tc main_v94) from rfl,
    h7_var (W14 m ρ c), L2_s m ρ c H hH, L2_ss m ρ c H hH]
  rfl
omit hH
end

set_option maxHeartbeats 1000000 in
theorem L2_n_g : Spec.row (V15 m ρ c (Pipeline.arrRef spec7 3) : S1x64.Idx → EReal) = gams m c (⟨2, by decide⟩ : Fin 3) := by
  rw [show (V15 m ρ c (Pipeline.arrRef spec7 3) : S1x64.Idx → EReal) = StableHlo.after hostOps7 (W14 m ρ c) (Proc.devRef .tc main_v99) from rfl,
    h7_gamma (W14 m ρ c)]
  exact congrArg (fun (A : S3x64.Idx → EReal) => fun cc => A (ix2 (⟨2, by decide⟩ : Fin 3) cc))
    ((kp14_main_arg8 m ρ c).trans (W1_main_arg8 m ρ c))

set_option maxHeartbeats 1000000 in
theorem L2_n_b : Spec.row (V15 m ρ c (Pipeline.arrRef spec7 4) : S1x64.Idx → EReal) = bets m c (⟨2, by decide⟩ : Fin 3) := by
  rw [show (V15 m ρ c (Pipeline.arrRef spec7 4) : S1x64.Idx → EReal) = StableHlo.after hostOps7 (W14 m ρ c) (Proc.devRef .tc main_v100) from rfl,
    h7_beta (W14 m ρ c)]
  exact congrArg (fun (A : S3x64.Idx → EReal) => fun cc => A (ix2 (⟨2, by decide⟩ : Fin 3) cc))
    ((kp14_main_arg9 m ρ c).trans (W1_main_arg9 m ρ c))

set_option maxHeartbeats 1000000 in
/-- After the layer's normalisation launch: the layer over the first spelling of the variance. -/
theorem L2_out (H : Spec.Tab) (hH : Spec.cur (W12 m ρ c (Proc.devRef .tc main_v72) : S50000x64.Idx → EReal) = H) :
    Spec.cur (W16 m ρ c (Proc.devRef .tc main_v101) : S50000x64.Idx → EReal)
      = Spec.layer Spec.bnK (aggK m c) H (W1s m c (⟨2, by decide⟩ : Fin 3)) (W2s m c (⟨2, by decide⟩ : Fin 3)) (gams m c (⟨2, by decide⟩ : Fin 3)) (bets m c (⟨2, by decide⟩ : Fin 3)) := by
  funext r cc
  have e : (W16 m ρ c (Proc.devRef .tc main_v101) : S50000x64.Idx → EReal) = (dat7 (V15 m ρ) c).arrAt 5 cfg7.N := W16_arr m ρ c 5
  have hn := congr (congr (congr (congr (congrArg (Spec.norm (n := 50000) (k := 64)) (L2_n_z m ρ c H hH)) (L2_n_mu m ρ c H hH))
    (L2_n_var m ρ c H hH)) (L2_n_g m ρ c)) (L2_n_b m ρ c)
  exact ((congrFun e (ix2 r cc)).trans (norm_7_final (V15 m ρ) c r cc)).trans (congrFun (congrFun hn r) cc)

end Cert.KernelIdeal.KV

end
-- ==== Proof.KValue.lean ====
/-
  The idealized kernel's result, read by row and column, is the network over the first spelling of the variance: the
  table the first normalisation launch leaves, passed through the three graph layers one after the other.
-/
import proofs.«131751_j26465588478351_1_alg».proof.Proof.KChainL3

set_option maxRecDepth 16384

noncomputable section

namespace Cert.KernelIdeal.KV

open Idealize.ShloMosaic Idealize.ShloMosaic.TcCoe Idealize.ShloMosaic.Tactic Idealize.SL.Sem Idealize.ShloMosaic.StableHlo
open Idealize.ShloMosaic.ValueIdx Idealize.ShloMosaic.Pipeline
open Cert.KernelIdeal Cert.KernelIdeal.Gen Cert.Lib

variable (m : (ℓ : Loc nD τ sig) → Buf (Elt Ideal) ℓ) (ρ : Dev nD → PrngReg) (c : Dev nD)

/-- The last boundary's contents at the result buffer: the network of the launched arrays. -/
theorem kernel_value : Spec.cur (W16 m ρ c (Proc.devRef .tc main_v101) : S50000x64.Idx → EReal)
    = Spec.net Spec.bnK (aggK m c) (Xt m c) (Wtt m c) (btv m c) (gtv m c) (bbtv m c)
        (W1s m c) (W2s m c) (gams m c) (bets m c) := by
  have h1 := L0_out m ρ c _ (c4_h m ρ c)
  have h2 := L1_out m ρ c _ h1
  have h3 := L2_out m ρ c _ h2
  unfold Spec.net
  exact h3

end Cert.KernelIdeal.KV

end
-- ==== Proof.PreReal.lean ====
/-
  Every float input is real-valued under the precondition.

  The precondition says, array by array, that every entry's absolute value is strictly below +infinity, and joins the
  nine answers by "and".  The absolute value of an extended real x is the larger of x and -x; it is below +infinity
  exactly when x is neither +infinity nor -infinity, that is, when x is the coercion of a real.  A reduction by "and"
  over all axes that comes out 1 met a 1 at every index, so each of the nine arrays is real-valued entry by entry.
-/
import proofs.«131751_j26465588478351_1_alg».proof.Defs
import proofs.«131751_j26465588478351_1_alg».proof.Proof.Gen.KernelIdeal
import proofs.«131751_j26465588478351_1_alg».proof.Proof.Gen.Pre_finite_inputs
import proofs.«131751_j26465588478351_1_alg».proof.Proof.Bridge
import Idealize.ShloMosaic.Lib.ReduceAll
import Idealize.ShloMosaic.Lib.Pipeline.Value
import Idealize.ShloMosaic.Lib.ValueIdx

noncomputable section

namespace Cert.KernelIdeal.KV

open Cert.KernelIdeal Idealize.ShloMosaic Idealize.ShloMosaic.TcCoe Idealize.SL.Sem
open Idealize.ShloMosaic.ValueIdx
open Cert.Lib

/-- The result of a reduction over all axes has one index. -/
instance preReal_scalarIdx_subsingleton : Subsingleton Cert.Pre_finite_inputs.S_.Idx := ⟨fun a b => funext fun d => d.elim0⟩

/-- An extended real whose absolute value compares strictly below the word of +infinity is a real. -/
theorem isReal_of_abs_lt_inf (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

/-- An array whose "all entries are below +infinity in absolute value" comes out 1 is real-valued at every index. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hu ix0 = 1#1)
    (i : s.Idx) : IsReal (x i) := by
  have hi := Host.reduce_andi_all _ _ hr hu ix0 e i
  refine isReal_of_abs_lt_inf (x i) ?_
  have hbc : broadcastInDim s ![] hb (constant (F := Ideal) Cert.Pre_finite_inputs.S_ .f32 0x7F800000#32) i
      = Ideal.ofBits .f32 0x7F800000#32 :=
    broadcastInDim_apply ![] hb _ i ix0 (fun a => a.elim0)
  rw [← hbc]
  exact hi

/-- Under the precondition every entry of every float input is a real, on every device. -/
theorem pre_real (m : (ℓ : Loc nD τ sig) → Buf (Elt Ideal) ℓ) (h : Cert.Pre_KernelIdeal m) (c : Dev nD) :
    (∀ (r : Fin 50000) (k : Fin 128), IsReal ((m ((c.tc : Thread nD τ).loc main_arg0) : S50000x128.Idx → EReal) (ix2 r k)))
    ∧ (∀ (k : Fin 128) (cc : Fin 64), IsReal ((m ((c.tc : Thread nD τ).loc main_arg2) : S128x64.Idx → EReal) (ix2 k cc)))
    ∧ (∀ cc : Fin 64, IsReal ((m ((c.tc : Thread nD τ).loc main_arg3) : S64.Idx → EReal) (ix1 cc)))
    ∧ (∀ cc : Fin 64, IsReal ((m ((c.tc : Thread nD τ).loc main_arg4) : S64.Idx → EReal) (ix1 cc)))
    ∧ (∀ cc : Fin 64, IsReal ((m ((c.tc : Thread nD τ).loc main_arg5) : S64.Idx → EReal) (ix1 cc)))
    ∧ (∀ (i : Fin 3) (j cc : Fin 64), IsReal ((m ((c.tc : Thread nD τ).loc main_arg6) : S3x64x64.Idx → EReal) (ix3 i j cc)))
    ∧ (∀ (i : Fin 3) (j cc : Fin 64), IsReal ((m ((c.tc : Thread nD τ).loc main_arg7) : S3x64x64.Idx → EReal) (ix3 i j cc)))
    ∧ (∀ (i : Fin 3) (cc : Fin 64), IsReal ((m ((c.tc : Thread nD τ).loc main_arg8) : S3x64.Idx → EReal) (ix2 i cc)))
    ∧ (∀ (i : Fin 3) (cc : Fin 64), IsReal ((m ((c.tc : Thread nD τ).loc main_arg9) : S3x64.Idx → EReal) (ix2 i cc))) := by
  have h0 := congrFun (h c) ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨⟨e0, e2⟩, e3⟩, e4⟩, e5⟩, e6⟩, e7⟩, e8⟩, e9⟩ := h0
  exact ⟨fun r k => all_real _ _ _ _ e0 (ix2 r k), fun k cc => all_real _ _ _ _ e2 (ix2 k cc),
    fun cc => all_real _ _ _ _ e3 (ix1 cc), fun cc => all_real _ _ _ _ e4 (ix1 cc), fun cc => all_real _ _ _ _ e5 (ix1 cc),
    fun i j cc => all_real _ _ _ _ e6 (ix3 i j cc), fun i j cc => all_real _ _ _ _ e7 (ix3 i j cc),
    fun i cc => all_real _ _ _ _ e8 (ix2 i cc), fun i cc => all_real _ _ _ _ e9 (ix2 i cc)⟩

end Cert.KernelIdeal.KV

end
-- ==== Proof.LibAfter.lean ====
/-
  The contents after a line of host operations, read in stretches.

  The contents after a list of operations is a left fold of the operations' results, so the contents after two lists
  in a row are the contents after the second from the contents after the first; and the first j operations of a list
  are its first i followed by the next j - i.
-/
import Idealize.ShloMosaic.Lib.StableHlo.Run

noncomputable section

namespace Cert.Lib

open Idealize.ShloMosaic Idealize.ShloMosaic.StableHlo

variable {τ : Topo} {sig : RefSig} {Val : EltTy → Type}

/-- After two lists in a row: after the second, from the contents after the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- After the first i + k operations: after the next k, from the contents after the first i. -/
theorem after_take_add (l : List (HloOp τ sig Val)) (i k : ℕ) (V : Valuation τ sig Val) :
    after (l.take (i + k)) V = after ((l.drop i).take k) (after (l.take i) V) := by
  rw [List.take_add, after_append]

end Cert.Lib

end
-- ==== Proof.RefBn.lean ====
/-
  Batch normalisation as the reference program spells it, on whole arrays, read at a row and a column.

  A per-column vector (a mean, a scale, a shift) reaches the table through two re-layings, [64] to [1,64] to
  [50000,64]; at (r, c) both read entry c.  A column's sum is the host's one-axis sum started from the zero word,
  which is the real zero, so it is the plain sum over the rows.  The mean divides that sum by the word of the row
  count; the variance is the mean of the squared deviations from the mean; the normalised entry is
  gamma * (h - mean) * (variance + epsilon)^(-1/2) + beta, the inverse square root being the same function of an
  extended real whether the host or a kernel names it.
-/
import proofs.«131751_j26465588478351_1_alg».proof.Proof.Gen.ReferenceIdeal
import proofs.«131751_j26465588478351_1_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Gen Idealize.ShloMosaic Idealize.ShloMosaic.ValueIdx

/-- A table of 50000 rows (nodes) and 64 columns (features), and a vector with one entry per column. -/
abbrev Tab : Type := FVec Ideal S50000x64 .f32
abbrev Col : Type := FVec Ideal S64 .f32

/-- A per-column vector laid along every row of the table: entry c of the vector stands at every (r, c). -/
def rows (v : Col) : Tab :=
  broadcastInDim S50000x64 ![0, 1] bcast_S1x64_S50000x64_0_1 (broadcastInDim S1x64 ![1] bcast_S64_S1x64_1 v)

theorem rows_apply (v : Col) (r : Fin 50000) (c : Fin 64) : rows v (ix2 r c) = v (ix1 c) := by
  unfold rows
  refine (broadcastInDim_apply _ bcast_S1x64_S50000x64_0_1 _ (ix2 r c) (ix2 (0 : Fin 1) c) (fun a => ?_)).trans ?_
  · match a with
    | ⟨0, _⟩ => show 0 = if (1 : Nat) = 1 then 0 else r.val; rw [if_pos rfl]
    | ⟨1, _⟩ => show c.val = if (64 : Nat) = 1 then 0 else c.val; rw [if_neg (by decide)]
  · exact broadcastInDim_apply _ bcast_S64_S1x64_1 v (ix2 (0 : Fin 1) c) (ix1 c) (fun a => match a with
      | ⟨0, _⟩ => by show c.val = if (64 : Nat) = 1 then 0 else c.val; rw [if_neg (by decide)])

/-- One float word at every column. -/
def splat (w : BitVec 32) : Col := broadcastInDim S64 ![] bcast_S_S64 (constant (F := Ideal) S_ .f32 w)

theorem splat_apply (w : BitVec 32) (j : S64.Idx) : splat w j = Ideal.ofBits .f32 w := by
  unfold splat
  exact broadcastInDim_apply _ bcast_S_S64 _ j ix0 (fun a => a.elim0)

/-- The sum of every column over the rows, started from the zero word. -/
def colsum (h : Tab) : Col :=
  Host.reduceAdd h (constant (F := Ideal) S_ .f32 0x00000000#32) reducesTo_S50000x64_S64_d0 h_S_

/-- The zero word the sum starts from is the real zero, so a column's entry is the plain sum over the rows. -/
theorem colsum_apply (h : Tab) (c : Fin 64) : colsum h (ix1 c) = ∑ r : Fin 50000, h (ix2 r c) := by
  unfold colsum
  rw [hostReduceAdd_apply, Ideal.hostReduceAdd_single reducesTo_S50000x64_S64_d0 (by decide)]
  show Ideal.ofBits .f32 0x00000000#32 + _ = _
  rw [Ideal.ofBits_zero_f32, zero_add]
  refine Finset.sum_congr rfl fun k _ => ?_
  exact congrArg h (funext fun a => Fin.ext (by match a with | ⟨0, _⟩ => rfl | ⟨1, _⟩ => rfl))

theorem hostRsqrt_apply (v : Col) (j : S64.Idx) : Host.rsqrt v j = Ideal.rsqrt (v j) := rfl

/-- The mean of every column: its sum over the word of the row count. -/
def refMean (h : Tab) : Col := Host.divf (colsum h) (splat 0x47435000#32)

/-- The table less its column means. -/
def refDev (h : Tab) : Tab := subf h (rows (refMean h))

/-- The variance of every column: the mean of the squared deviations. -/
def refVar (h : Tab) : Col := Host.divf (colsum (mulf (refDev h) (refDev h))) (splat 0x47435000#32)

/-- Batch normalisation as the reference spells it, on whole arrays:
    gamma * (h - mean) * rsqrt (var + eps) + beta, the per-column vectors laid along the rows. -/
def refBn (h : Tab) (g b : Col) : Tab :=
  addf (mulf (mulf (rows g) (refDev h)) (rows (Host.rsqrt (addf (refVar h) (splat 0x3727C5AC#32))))) (rows b)

theorem refMean_apply (h : Tab) (c : Fin 64) : refMean h (ix1 c) = Cert.Spec.mean (Cert.Spec.cur h) c := by
  unfold refMean
  rw [hostDivf_apply, colsum_apply, splat_apply]; rfl

theorem refDev_apply (h : Tab) (r : Fin 50000) (c : Fin 64) :
    refDev h (ix2 r c) = Cert.Spec.cur h r c - Cert.Spec.mean (Cert.Spec.cur h) c := by
  unfold refDev
  rw [subf_apply, rows_apply, refMean_apply]; rfl

theorem refVar_apply (h : Tab) (c : Fin 64) : refVar h (ix1 c) = Cert.Spec.varR (Cert.Spec.cur h) c := by
  unfold refVar
  rw [hostDivf_apply, colsum_apply, splat_apply]
  simp only [mulf_apply, refDev_apply]; rfl

/-- The reference's batch normalisation read at a row and a column is the specification's, with the variance
    as the mean of the squared deviations. -/
theorem refBn_apply (h : Tab) (g b : Col) (r : Fin 50000) (c : Fin 64) :
    refBn h g b (ix2 r c) = Cert.Spec.bnR (Cert.Spec.cur h) (Cert.Spec.vec g) (Cert.Spec.vec b) r c := by
  unfold refBn
  rw [addf_apply, mulf_apply, mulf_apply, rows_apply, rows_apply, rows_apply, refDev_apply, hostRsqrt_apply,
    addf_apply, refVar_apply, splat_apply]
  rfl

theorem refBn_cur (h : Tab) (g b : Col) :
    Cert.Spec.cur (refBn h g b) = Cert.Spec.bnR (Cert.Spec.cur h) (Cert.Spec.vec g) (Cert.Spec.vec b) :=
  funext fun r => funext fun c => refBn_apply h g b r c

end Cert.ReferenceIdeal.RefValue

end
-- ==== Proof.RefLin.lean ====
/-
  The input transform as the reference program spells it, on whole arrays, read at a row and a column.

  The host's product of the [50000,128] inputs with the [128,64] weights contracts the inputs' columns against the
  weights' rows: entry (r, c) is the sum over the inner position k of x(r,k) * w(k,c).  The bias reaches the table
  laid along the rows, so entry (r, c) adds b(c).
-/
import proofs.«131751_j26465588478351_1_alg».proof.Proof.RefBn

noncomputable section

namespace Cert.ReferenceIdeal.RefValue

open Cert.ReferenceIdeal Cert.ReferenceIdeal.Gen Idealize.ShloMosaic Idealize.ShloMosaic.ValueIdx

theorem dot128_lhs0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem dot128_lhs1 (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q
theorem dot128_rhs0 (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q
theorem dot128_rhs1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- The host's product of a table with a weight matrix, read at a row and a column: the sum over the inner
    position of the row's entry times the column's. -/
theorem dot128_apply (a : FVec Ideal S50000x128 .f32) (w : FVec Ideal S128x64 .f32) (r : Fin 50000) (c : Fin 64) :
    Host.dotGeneral dot_S50000x128_S128x64_S50000x64_1_0_0_1_n_n none a w (ix2 r c) = ∑ k : Fin 128, a (ix2 r k) * w (ix2 k c) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx (ix2 r c) ((ValueIdx.contrEquiv1 dot_S50000x128_S128x64_S50000x64_1_0_0_1_n_n 128 rfl rfl).symm k) = ix2 r k := funext fun a => Fin.ext (by
    match a with
    | ⟨0, _⟩ => exact dot128_lhs0 _ _
    | ⟨1, _⟩ => exact (dot128_lhs1 _ _).trans hk)
  have er : dot_S50000x128_S128x64_S50000x64_1_0_0_1_n_n.rhsIdx (ix2 r c) ((ValueIdx.contrEquiv1 dot_S50000x128_S128x64_S50000x64_1_0_0_1_n_n 128 rfl rfl).symm k) = ix2 k c := funext fun a => Fin.ext (by
    match a with
    | ⟨0, _⟩ => exact (dot128_rhs0 _ _).trans hk
    | ⟨1, _⟩ => exact dot128_rhs1 _ _)
  rw [el, er]

/-- The input transform as the reference spells it, on whole arrays: the product with the weights plus the bias
    laid along the rows. -/
def refLin (x : FVec Ideal S50000x128 .f32) (w : FVec Ideal S128x64 .f32) (b : Col) : Tab :=
  addf (Host.dotGeneral dot_S50000x128_S128x64_S50000x64_1_0_0_1_n_n none x w) (rows b)

/-- The reference's transform read at a row and a column is the specification's. -/
theorem refLin_apply (x : FVec Ideal S50000x128 .f32) (w : FVec Ideal S128x64 .f32) (b : Col) (r : Fin 50000) (c : Fin 64) :
    refLin x w b (ix2 r c) = Cert.Spec.lin (Cert.Spec.cur x) (Cert.Spec.cur w) (Cert.Spec.vec b) r c := by
  unfold refLin
  rw [addf_apply, dot128_apply, rows_apply]
  rfl

theorem refLin_cur (x : FVec Ideal S50000x128 .f32) (w : FVec Ideal S128x64 .f32) (b : Col) :
    Cert.Spec.cur (refLin x w b) = Cert.Spec.lin (Cert.Spec.cur x) (Cert.Spec.cur w) (Cert.Spec.vec b) :=
  funext fun r => funext fun c => refLin_apply x w b r c

end Cert.ReferenceIdeal.RefValue

end
-- ==== Proof.RefMlp.lean ====
/-
  The two-layer perceptron of a graph layer as the reference program spells it, on whole arrays, read at a row
  and a column.

  The host's product of a [50000,64] table with a [64,64] matrix contracts the table's columns against the
  matrix's rows; at the exact values its entry (r, c) is the sum over the inner position k of a(r,k) * w(k,c),
  whatever the order of the summation.  A clip compares with the table of zero words, the same word the
  specification keeps.
-/
import proofs.«131751_j26465588478351_1_alg».proof.Proof.Gen.ReferenceIdeal
import proofs.«131751_j26465588478351_1_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The table of zero words a clip compares against. -/
def zeroTab : FVec Ideal S50000x64 .f32 :=
  broadcastInDim S50000x64 ![] bcast_S_S50000x64 (constant (F := Ideal) S_ .f32 0x00000000#32)

theorem zeroTab_apply (j : S50000x64.Idx) : zeroTab j = Cert.Spec.Zw := by
  unfold zeroTab
  exact broadcastInDim_apply _ bcast_S_S50000x64 _ j ix0 (fun a => a.elim0)

theorem dot64_lhs0 (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
  rfl
theorem dot64_lhs1 (i : S50000x64.Idx) (q : dot_S50000x64_S64x64_S50000x64_1_0_0_1_n_n.contr.Idx) :
    (dot_S50000x64_S64x64_S50000x64_1_0_0_1_n_n.lhsIdx i q 1).val = (q ⟨0, by decide⟩).val :=
  dot_S50000x64_S64x64_S50000x64_1_0_0_1_n_n.lhsIdx_val_of_single rfl i q
theorem dot64_rhs0 (i : S50000x64.Idx) (q : dot_S50000x64_S64x64_S50000x64_1_0_0_1_n_n.contr.Idx) :
    (dot_S50000x64_S64x64_S50000x64_1_0_0_1_n_n.rhsIdx i q 0).val = (q ⟨0, by decide⟩).val :=
  dot_S50000x64_S64x64_S50000x64_1_0_0_1_n_n.rhsIdx_val_of_single rfl i q
theorem dot64_rhs1 (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
  rfl

/-- The host's product of a table with a weight matrix, read at a row and a column: the sum over the inner
    position of the row's entry times the column's. -/
theorem dot64_apply (a : FVec Ideal S50000x64 .f32) (w : FVec Ideal S64x64 .f32) (r : Fin 50000) (c : Fin 64) :
    Host.dotGeneral dot_S50000x64_S64x64_S50000x64_1_0_0_1_n_n none a w (ix2 r c) = ∑ k : Fin 64, a (ix2 r k) * w (ix2 k c) := by
  simp only [Host.dotGeneral]
  rw [Ideal.dotGeneral_apply, ← Equiv.sum_comp (ValueIdx.contrEquiv1 dot_S50000x64_S64x64_S50000x64_1_0_0_1_n_n 64 rfl rfl).symm]
  refine Finset.sum_congr rfl fun k _ => ?_
  have hk := ValueIdx.contrEquiv1_symm_val dot_S50000x64_S64x64_S50000x64_1_0_0_1_n_n 64 rfl rfl k
  have el : dot_S50000x64_S64x64_S50000x64_1_0_0_1_n_n.lhsIdx (ix2 r c) ((ValueIdx.contrEquiv1 dot_S50000x64_S64x64_S50000x64_1_0_0_1_n_n 64 rfl rfl).symm k) = ix2 r k := funext fun a => Fin.ext (by
    match a with
    | ⟨0, _⟩ => exact dot64_lhs0 _ _
    | ⟨1, _⟩ => exact (dot64_lhs1 _ _).trans hk)
  have er : dot_S50000x64_S64x64_S50000x64_1_0_0_1_n_n.rhsIdx (ix2 r c) ((ValueIdx.contrEquiv1 dot_S50000x64_S64x64_S50000x64_1_0_0_1_n_n 64 rfl rfl).symm k) = ix2 k c := funext fun a => Fin.ext (by
    match a with
    | ⟨0, _⟩ => exact (dot64_rhs0 _ _).trans hk
    | ⟨1, _⟩ => exact dot64_rhs1 _ _)
  rw [el, er]

/-- The two-layer perceptron of a graph layer as the reference spells it, on whole arrays: product with the
    first weights, clip at zero, product with the second weights, clip at zero. -/
def refMlp (a : FVec Ideal S50000x64 .f32) (w1 w2 : FVec Ideal S64x64 .f32) : FVec Ideal S50000x64 .f32 :=
  maximumf (Host.dotGeneral dot_S50000x64_S64x64_S50000x64_1_0_0_1_n_n none
    (maximumf (Host.dotGeneral dot_S50000x64_S64x64_S50000x64_1_0_0_1_n_n none a w1) zeroTab) w2) zeroTab

/-- The reference's perceptron read at a row and a column is the specification's. -/
theorem refMlp_apply (a : FVec Ideal S50000x64 .f32) (w1 w2 : FVec Ideal S64x64 .f32) (r : Fin 50000) (c : Fin 64) :
    refMlp a w1 w2 (ix2 r c) = Cert.Spec.mlp (Cert.Spec.cur a) (Cert.Spec.cur w1) (Cert.Spec.cur w2) r c := by
  unfold refMlp
  rw [maximumf_apply, dot64_apply, zeroTab_apply]
  simp only [maximumf_apply, dot64_apply, zeroTab_apply]
  rfl

theorem refMlp_cur (a : FVec Ideal S50000x64 .f32) (w1 w2 : FVec Ideal S64x64 .f32) :
    Cert.Spec.cur (refMlp a w1 w2) = Cert.Spec.mlp (Cert.Spec.cur a) (Cert.Spec.cur w1) (Cert.Spec.cur w2) :=
  funext fun r => funext fun c => refMlp_apply a w1 w2 r c

end Cert.ReferenceIdeal.RefValue

end
-- ==== Proof.RefAgg.lean ====
/-
  A graph layer of the reference program on whole arrays: the layers' parameters cut out of their stacks, the
  aggregation over the edges, and the layer as aggregation, perceptron and batch normalisation.

  The three layers' weight matrices arrive stacked as [3,64,64] and their per-column vectors as [3,64]; layer i
  takes plane i (row i) and drops the leading unit axis, so entry (j, c) of its matrix is the stack's (i, j, c) and
  entry c of its vector the stack's (i, c).  The edge list arrives as [2,800000]: row 0 the sources, row 1 the
  destinations.  The aggregation adds to the table, at every destination, the table's rows found at the sources;
  it is kept as one function of whole arrays and never opened: both programs aggregate, and what matters here is
  only that the reference's layers apply this one function.
-/
import proofs.«131751_j26465588478351_1_alg».proof.Proof.RefBn
import proofs.«131751_j26465588478351_1_alg».proof.Proof.RefMlp
import proofs.«131751_j26465588478351_1_alg».proof.Proof.Bridge

noncomputable section

namespace Cert.ReferenceIdeal.RefValue

open Cert.ReferenceIdeal Cert.ReferenceIdeal.Gen Idealize.ShloMosaic Idealize.ShloMosaic.ValueIdx

/-- Layer i's weight matrix: plane i of a stack of three, its leading unit axis dropped. -/
def wSlice (i : Nat) (hs : S3x64x64.Slices ![i, 0, 0] S1x64x64) (x : FVec Ideal S3x64x64 .f32) : FVec Ideal S64x64 .f32 :=
  shapeCast _ (extractStridedSlice S1x64x64 ![i, 0, 0] x hs) shapeCasts_S1x64x64_S64x64

/-- Entry (j, c) of layer i's matrix is the stack's entry (i, j, c). -/
theorem wSlice_apply (i : Nat) (hi : i < 3) (hs : S3x64x64.Slices ![i, 0, 0] S1x64x64) (x : FVec Ideal S3x64x64 .f32)
    (j c : Fin 64) : wSlice i hs x (ix2 j c) = x (ix3 (⟨i, hi⟩ : Fin 3) j c) := by
  unfold wSlice
  refine (shapeCast_apply _ shapeCasts_S1x64x64_S64x64 (ix2 j c) (ix3 (0 : Fin 1) j c) ?_).trans ?_
  · rewrite [Shape.rowMajor_val_three, Shape.rowMajor_val_two]
    show (0 * 64 + j.val) * 64 + c.val = j.val * 64 + c.val
    omega
  · exact extractStridedSlice_apply ![i, 0, 0] x hs (ix3 (0 : Fin 1) j c) (ix3 (⟨i, hi⟩ : Fin 3) j c) (fun a => match a with
      | ⟨0, _⟩ => by show i = i + 0; omega
      | ⟨1, _⟩ => by show j.val = 0 + j.val; omega
      | ⟨2, _⟩ => by show c.val = 0 + c.val; omega)

/-- Layer i's per-column vector: row i of a stack of three, its leading unit axis dropped. -/
def vSlice (i : Nat) (hs : S3x64.Slices ![i, 0] S1x64) (x : FVec Ideal S3x64 .f32) : Col :=
  shapeCast _ (extractStridedSlice S1x64 ![i, 0] x hs) shapeCasts_S1x64_S64

/-- Entry c of layer i's vector is the stack's entry (i, c). -/
theorem vSlice_apply (i : Nat) (hi : i < 3) (hs : S3x64.Slices ![i, 0] S1x64) (x : FVec Ideal S3x64 .f32) (c : Fin 64) :
    vSlice i hs x (ix1 c) = x (ix2 (⟨i, hi⟩ : Fin 3) c) := by
  unfold vSlice
  refine (shapeCast_apply _ shapeCasts_S1x64_S64 (ix1 c) (ix2 (0 : Fin 1) c) ?_).trans ?_
  · rewrite [Shape.rowMajor_val_two, Shape.rowMajor_val_one]
    show 0 * 64 + c.val = c.val
    omega
  · exact extractStridedSlice_apply ![i, 0] x hs (ix2 (0 : Fin 1) c) (ix2 (⟨i, hi⟩ : Fin 3) c) (fun a => match a with
      | ⟨0, _⟩ => by show i = i + 0; omega
      | ⟨1, _⟩ => by show c.val = 0 + c.val; omega)

theorem wSlice_cur (i : Nat) (hi : i < 3) (hs : S3x64x64.Slices ![i, 0, 0] S1x64x64) (x : FVec Ideal S3x64x64 .f32) :
    Cert.Spec.cur (wSlice i hs x) = fun j c => x (ix3 (⟨i, hi⟩ : Fin 3) j c) :=
  funext fun j => funext fun c => wSlice_apply i hi hs x j c

theorem vSlice_vec (i : Nat) (hi : i < 3) (hs : S3x64.Slices ![i, 0] S1x64) (x : FVec Ideal S3x64 .f32) :
    Cert.Spec.vec (vSlice i hs x) = fun c => x (ix2 (⟨i, hi⟩ : Fin 3) c) :=
  funext fun c => vSlice_apply i hi hs x c

/-- The edge list's two rows, its leading unit axis dropped: the sources and the destinations. -/
def eSlice (i : Nat) (hs : S2x800000.Slices ![i, 0] S1x800000) (e : IVec S2x800000 32) : IVec S800000 32 :=
  shapeCast _ (extractStridedSlice S1x800000 ![i, 0] e hs) shapeCasts_S1x800000_S800000

/-- The aggregation of a graph layer as the reference spells it, kept as one function of whole arrays: the
    table plus, scattered and summed into a zero table at the destinations, the table's rows gathered at the
    sources (a negative source first wrapped by the row count). -/
def refAgg (h : Tab) (src dst : IVec S800000 32) : Tab :=
  addf h
    (Host.scatterAdd scatter_S50000x64_S800000x1_S800000x64_1_0_0_1
      (broadcastInDim S50000x64 ![] bcast_S_S50000x64 (constant (F := Ideal) S_ .f32 0x00000000#32))
      (broadcastInDim S800000x1 ![0] bcast_S800000_S800000x1_0 dst)
      (Host.gather gather_S50000x64_S800000x1_S800000x64_1_0_n_n_0_1_164 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))

/-- The sources and the destinations of the edges: rows 0 and 1 of the edge list. -/
def refSrc (e : IVec S2x800000 32) : IVec S800000 32 := eSlice 0 slices_S2x800000_S1x800000_0_0 e
def refDst (e : IVec S2x800000 32) : IVec S800000 32 := eSlice 1 slices_S2x800000_S1x800000_1_0 e

/-- One graph layer on whole arrays: aggregate over the edges, the perceptron, batch normalisation. -/
def refLayer (h : Tab) (src dst : IVec S800000 32) (w1 w2 : FVec Ideal S64x64 .f32) (g b : Col) : Tab :=
  refBn (refMlp (refAgg h src dst) w1 w2) g b

/-- A layer read by row and column: the specification's normalised perceptron of the aggregated table, the
    aggregation itself left as the reference's own function of whole arrays. -/
theorem refLayer_cur (h : Tab) (src dst : IVec S800000 32) (w1 w2 : FVec Ideal S64x64 .f32) (g b : Col) :
    Cert.Spec.cur (refLayer h src dst w1 w2 g b)
      = Cert.Spec.bnR (Cert.Spec.mlp (Cert.Spec.cur (refAgg h src dst)) (Cert.Spec.cur w1) (Cert.Spec.cur w2))
          (Cert.Spec.vec g) (Cert.Spec.vec b) := by
  unfold refLayer
  rw [refBn_cur, refMlp_cur]

/-- A table given by row and column, as an array. -/
def arr (h : Fin 50000 → Fin 64 → EReal) : Tab := fun i => h (i 0) (i 1)

theorem arr_cur (H : Tab) : arr (Cert.Spec.cur H) = H := funext fun i => congrArg H (eq_ix2 i).symm

/-- The aggregation on tables given by row and column: the reference's own function of whole arrays, never opened. -/
def refA (src dst : IVec S800000 32) : Cert.Spec.Tab → Cert.Spec.Tab :=
  fun h => Cert.Spec.cur (refAgg (arr h) src dst)

theorem refA_cur (H : Tab) (src dst : IVec S800000 32) :
    refA src dst (Cert.Spec.cur H) = Cert.Spec.cur (refAgg H src dst) := by
  unfold refA; rw [arr_cur]

/-- A layer read by row and column is the specification's layer over the normalisation with the variance as the
    mean of the squared deviations and over the reference's aggregation. -/
theorem refLayer_layer (h : Tab) (src dst : IVec S800000 32) (w1 w2 : FVec Ideal S64x64 .f32) (g b : Col) :
    Cert.Spec.cur (refLayer h src dst w1 w2 g b)
      = Cert.Spec.layer Cert.Spec.bnR (refA src dst) (Cert.Spec.cur h) (Cert.Spec.cur w1) (Cert.Spec.cur w2)
          (Cert.Spec.vec g) (Cert.Spec.vec b) := by
  unfold Cert.Spec.layer
  rw [refA_cur]
  exact refLayer_cur h src dst w1 w2 g b

end Cert.ReferenceIdeal.RefValue

end
-- ==== Proof.RefStretchA.lean ====
/-
  The reference's operations 0 to 97 read in stretches: the transform and the edge rows, the first normalisation, and the first graph layer.

  The reference program is a list of 218 host operations, and the contents of its buffers after the list is the
  fold of the operations' results.  A stretch of the list is read at its one result buffer: unfolding the fold over
  the stretch's literal operations leaves the operations' functions applied to the contents, before the stretch, of
  the buffers the stretch reads, and that composition is, operation for operation, one of the whole-array functions:
  the transform, the batch normalisation, the aggregation, the perceptron.
-/
import proofs.«131751_j26465588478351_1_alg».proof.Proof.RefRun
import proofs.«131751_j26465588478351_1_alg».proof.Proof.RefLin
import proofs.«131751_j26465588478351_1_alg».proof.Proof.RefAgg

noncomputable section

namespace Cert.ReferenceIdeal.RefValue

open Cert.ReferenceIdeal Cert.ReferenceIdeal.Gen Idealize.ShloMosaic Idealize.ShloMosaic.ValueIdx
open Idealize.ShloMosaic.TcCoe Idealize.SL.Sem Idealize.ShloMosaic.StableHlo Cert.ReferenceIdeal.ValueP

theorem st_lin (W : Valuation τ sig (Elt Ideal)) :
    after ((ops (F := Ideal)).take 8) W (Proc.devRef .tc main_v7)
      = refLin (W (Proc.devRef .tc main_arg0)) (W (Proc.devRef .tc main_arg2)) (W (Proc.devRef .tc main_arg3)) := by
  simp only [ops, List.take_succ_cons, List.take_zero]
  after_results; rfl

theorem st_src (W : Valuation τ sig (Elt Ideal)) :
    after ((ops (F := Ideal)).take 8) W (Proc.devRef .tc main_v1) = refSrc (W (Proc.devRef .tc main_arg1)) := by
  simp only [ops, List.take_succ_cons, List.take_zero]
  after_results; rfl

theorem st_dst (W : Valuation τ sig (Elt Ideal)) :
    after ((ops (F := Ideal)).take 8) W (Proc.devRef .tc main_v3) = refDst (W (Proc.devRef .tc main_arg1)) := by
  simp only [ops, List.take_succ_cons, List.take_zero]
  after_results; rfl

theorem st_bn0 (W : Valuation τ sig (Elt Ideal)) :
    after (((ops (F := Ideal)).drop 8).take 30) W (Proc.devRef .tc main_v32)
      = refBn (W (Proc.devRef .tc main_v7)) (W (Proc.devRef .tc main_arg4)) (W (Proc.devRef .tc main_arg5)) := by
  simp only [ops, List.drop_succ_cons, List.drop_zero, List.take_succ_cons, List.take_zero]
  after_results_simp; rfl

theorem st_agg0 (W : Valuation τ sig (Elt Ideal)) :
    after (((ops (F := Ideal)).drop 38).take 14) W (Proc.devRef .tc main_v43)
      = refAgg (W (Proc.devRef .tc main_v32)) (W (Proc.devRef .tc main_v1)) (W (Proc.devRef .tc main_v3)) := by
  simp only [ops, List.drop_succ_cons, List.drop_zero, List.take_succ_cons, List.take_zero]
  after_results_simp; rfl

theorem st_mlp0 (W : Valuation τ sig (Elt Ideal)) :
    after (((ops (F := Ideal)).drop 52).take 12) W (Proc.devRef .tc main_v51)
      = refMlp (W (Proc.devRef .tc main_v43)) (wSlice 0 slices_S3x64x64_S1x64x64_0_0_0 (W (Proc.devRef .tc main_arg6)))
          (wSlice 0 slices_S3x64x64_S1x64x64_0_0_0 (W (Proc.devRef .tc main_arg7))) := by
  simp only [ops, List.drop_succ_cons, List.drop_zero, List.take_succ_cons, List.take_zero]
  after_results; rfl

theorem st_bn1 (W : Valuation τ sig (Elt Ideal)) :
    after (((ops (F := Ideal)).drop 64).take 34) W (Proc.devRef .tc main_v80)
      = refBn (W (Proc.devRef .tc main_v51)) (vSlice 0 slices_S3x64_S1x64_0_0 (W (Proc.devRef .tc main_arg8)))
          (vSlice 0 slices_S3x64_S1x64_0_0 (W (Proc.devRef .tc main_arg9))) := by
  simp only [ops, List.drop_succ_cons, List.drop_zero, List.take_succ_cons, List.take_zero]
  after_results_simp; rfl

end Cert.ReferenceIdeal.RefValue

end
-- ==== Proof.RefStretchB.lean ====
/-
  The reference's operations 98 to 217 read in stretches: the second and the third graph layer.

  The reference program is a list of 218 host operations, and the contents of its buffers after the list is the
  fold of the operations' results.  A stretch of the list is read at its one result buffer: unfolding the fold over
  the stretch's literal operations leaves the operations' functions applied to the contents, before the stretch, of
  the buffers the stretch reads, and that composition is, operation for operation, one of the whole-array functions:
  the transform, the batch normalisation, the aggregation, the perceptron.
-/
import proofs.«131751_j26465588478351_1_alg».proof.Proof.RefRun
import proofs.«131751_j26465588478351_1_alg».proof.Proof.RefLin
import proofs.«131751_j26465588478351_1_alg».proof.Proof.RefAgg

noncomputable section

namespace Cert.ReferenceIdeal.RefValue

open Cert.ReferenceIdeal Cert.ReferenceIdeal.Gen Idealize.ShloMosaic Idealize.ShloMosaic.ValueIdx
open Idealize.ShloMosaic.TcCoe Idealize.SL.Sem Idealize.ShloMosaic.StableHlo Cert.ReferenceIdeal.ValueP

theorem st_agg1 (W : Valuation τ sig (Elt Ideal)) :
    after (((ops (F := Ideal)).drop 98).take 14) W (Proc.devRef .tc main_v91)
      = refAgg (W (Proc.devRef .tc main_v80)) (W (Proc.devRef .tc main_v1)) (W (Proc.devRef .tc main_v3)) := by
  simp only [ops, List.drop_succ_cons, List.drop_zero, List.take_succ_cons, List.take_zero]
  after_results_simp; rfl

theorem st_mlp1 (W : Valuation τ sig (Elt Ideal)) :
    after (((ops (F := Ideal)).drop 112).take 12) W (Proc.devRef .tc main_v99)
      = refMlp (W (Proc.devRef .tc main_v91)) (wSlice 1 slices_S3x64x64_S1x64x64_1_0_0 (W (Proc.devRef .tc main_arg6)))
          (wSlice 1 slices_S3x64x64_S1x64x64_1_0_0 (W (Proc.devRef .tc main_arg7))) := by
  simp only [ops, List.drop_succ_cons, List.drop_zero, List.take_succ_cons, List.take_zero]
  after_results; rfl

theorem st_bn2 (W : Valuation τ sig (Elt Ideal)) :
    after (((ops (F := Ideal)).drop 124).take 34) W (Proc.devRef .tc main_v128)
      = refBn (W (Proc.devRef .tc main_v99)) (vSlice 1 slices_S3x64_S1x64_1_0 (W (Proc.devRef .tc main_arg8)))
          (vSlice 1 slices_S3x64_S1x64_1_0 (W (Proc.devRef .tc main_arg9))) := by
  simp only [ops, List.drop_succ_cons, List.drop_zero, List.take_succ_cons, List.take_zero]
  after_results_simp; rfl

theorem st_agg2 (W : Valuation τ sig (Elt Ideal)) :
    after (((ops (F := Ideal)).drop 158).take 14) W (Proc.devRef .tc main_v139)
      = refAgg (W (Proc.devRef .tc main_v128)) (W (Proc.devRef .tc main_v1)) (W (Proc.devRef .tc main_v3)) := by
  simp only [ops, List.drop_succ_cons, List.drop_zero, List.take_succ_cons, List.take_zero]
  after_results_simp; rfl

theorem st_mlp2 (W : Valuation τ sig (Elt Ideal)) :
    after (((ops (F := Ideal)).drop 172).take 12) W (Proc.devRef .tc main_v147)
      = refMlp (W (Proc.devRef .tc main_v139)) (wSlice 2 slices_S3x64x64_S1x64x64_2_0_0 (W (Proc.devRef .tc main_arg6)))
          (wSlice 2 slices_S3x64x64_S1x64x64_2_0_0 (W (Proc.devRef .tc main_arg7))) := by
  simp only [ops, List.drop_succ_cons, List.drop_zero, List.take_succ_cons, List.take_zero]
  after_results; rfl

theorem st_bn3 (W : Valuation τ sig (Elt Ideal)) :
    after (((ops (F := Ideal)).drop 184).take 34) W (Proc.devRef .tc main_v176)
      = refBn (W (Proc.devRef .tc main_v147)) (vSlice 2 slices_S3x64_S1x64_2_0 (W (Proc.devRef .tc main_arg8)))
          (vSlice 2 slices_S3x64_S1x64_2_0 (W (Proc.devRef .tc main_arg9))) := by
  simp only [ops, List.drop_succ_cons, List.drop_zero, List.take_succ_cons, List.take_zero]
  after_results_simp; rfl

end Cert.ReferenceIdeal.RefValue

end
-- ==== Proof.RefKept.lean ====
/-
  Which buffers the reference program never writes.

  Every operation of the list writes exactly one buffer, its result.  Going through the 218 operations, none of
  them has an argument of the program as its result; and after the first eight, none has the sources' or the
  destinations' row of the edge list, which operations 1 and 3 write.
-/
import proofs.«131751_j26465588478351_1_alg».proof.Proof.RefRun

noncomputable section

namespace Cert.ReferenceIdeal.RefValue

open Cert.ReferenceIdeal Cert.ReferenceIdeal.Gen Idealize.ShloMosaic Idealize.ShloMosaic.TcCoe Idealize.SL.Sem
  Idealize.ShloMosaic.StableHlo Cert.ReferenceIdeal.ValueP

variable {F : FTy → Type} [FloatOps F]

/-- Operation by operation: the buffer in hand is not the one buffer the operation writes. -/
macro "no_op_writes" : tactic =>
  `(tactic| (simp only [ops, List.drop_succ_cons, List.drop_zero, List.Forall, nullary_writes, unary_writes, binary_writes,
               ternary_writes, reshape_writes, Finset.mem_singleton]
             repeat' apply And.intro
             all_goals exact devRef_ne_of_ne (by decide)))

theorem unwritten_arg0 : ∀ op ∈ (ops (F := F)), Proc.devRef (τ := τ) .tc main_arg0 ∉ op.writes :=
  List.forall_iff_forall_mem.mp (by no_op_writes)
theorem unwritten_arg1 : ∀ op ∈ (ops (F := F)), Proc.devRef (τ := τ) .tc main_arg1 ∉ op.writes :=
  List.forall_iff_forall_mem.mp (by no_op_writes)
theorem unwritten_arg2 : ∀ op ∈ (ops (F := F)), Proc.devRef (τ := τ) .tc main_arg2 ∉ op.writes :=
  List.forall_iff_forall_mem.mp (by no_op_writes)
theorem unwritten_arg3 : ∀ op ∈ (ops (F := F)), Proc.devRef (τ := τ) .tc main_arg3 ∉ op.writes :=
  List.forall_iff_forall_mem.mp (by no_op_writes)
theorem unwritten_arg4 : ∀ op ∈ (ops (F := F)), Proc.devRef (τ := τ) .tc main_arg4 ∉ op.writes :=
  List.forall_iff_forall_mem.mp (by no_op_writes)
theorem unwritten_arg5 : ∀ op ∈ (ops (F := F)), Proc.devRef (τ := τ) .tc main_arg5 ∉ op.writes :=
  List.forall_iff_forall_mem.mp (by no_op_writes)
theorem unwritten_arg6 : ∀ op ∈ (ops (F := F)), Proc.devRef (τ := τ) .tc main_arg6 ∉ op.writes :=
  List.forall_iff_forall_mem.mp (by no_op_writes)
theorem unwritten_arg7 : ∀ op ∈ (ops (F := F)), Proc.devRef (τ := τ) .tc main_arg7 ∉ op.writes :=
  List.forall_iff_forall_mem.mp (by no_op_writes)
theorem unwritten_arg8 : ∀ op ∈ (ops (F := F)), Proc.devRef (τ := τ) .tc main_arg8 ∉ op.writes :=
  List.forall_iff_forall_mem.mp (by no_op_writes)
theorem unwritten_arg9 : ∀ op ∈ (ops (F := F)), Proc.devRef (τ := τ) .tc main_arg9 ∉ op.writes :=
  List.forall_iff_forall_mem.mp (by no_op_writes)
theorem unwritten_v1 : ∀ op ∈ (ops (F := F)).drop 8, Proc.devRef (τ := τ) .tc main_v1 ∉ op.writes :=
  List.forall_iff_forall_mem.mp (by no_op_writes)
theorem unwritten_v3 : ∀ op ∈ (ops (F := F)).drop 8, Proc.devRef (τ := τ) .tc main_v3 ∉ op.writes :=
  List.forall_iff_forall_mem.mp (by no_op_writes)

end Cert.ReferenceIdeal.RefValue

end
-- ==== Proof.RefSide.lean ====
/-
  The reference program's result as one function of its ten arguments, and its frame.

  The contents after the first n operations follow from the contents after the first i by the next n - i
  operations, so the result buffer after all 218 is reached stretch by stretch: the transform and the edge rows
  (operations 0-7), the first normalisation (8-37), then three graph layers, each an aggregation over the edges,
  a perceptron with plane i of the stacked weights, and a normalisation with row i of the stacked scales and shifts.
  Between stretches the arguments and the two edge rows are carried unchanged, because no operation writes them.
  Read by row and column the result is the specification's network over the normalisation whose variance is the
  mean of the squared deviations and over the reference's own aggregation.  The frame follows from the same run:
  every execution terminates without a fault, and the arguments end as launched.
-/
import proofs.«131751_j26465588478351_1_alg».proof.Defs
import proofs.«131751_j26465588478351_1_alg».proof.Proof.Gen.ReferenceIdeal
import proofs.«131751_j26465588478351_1_alg».proof.Proof.Gen.Pre_finite_inputs
import proofs.«131751_j26465588478351_1_alg».proof.Proof.RefRun
import proofs.«131751_j26465588478351_1_alg».proof.Proof.LibAfter
import proofs.«131751_j26465588478351_1_alg».proof.Proof.RefLin
import proofs.«131751_j26465588478351_1_alg».proof.Proof.RefAgg
import proofs.«131751_j26465588478351_1_alg».proof.Proof.RefStretchA
import proofs.«131751_j26465588478351_1_alg».proof.Proof.RefStretchB
import proofs.«131751_j26465588478351_1_alg».proof.Proof.RefKept
import proofs.«131751_j26465588478351_1_alg».proof.Proof.Bridge

noncomputable section

namespace Cert.ReferenceIdeal.RefValue

open Cert.ReferenceIdeal Cert.ReferenceIdeal.Gen Idealize.ShloMosaic Idealize.ShloMosaic.ValueIdx
open Idealize.ShloMosaic.TcCoe Idealize.SL.Sem Idealize.ShloMosaic.StableHlo Cert.ReferenceIdeal.ValueP

/-! ## The contents after the first n operations -/

/-- The contents after the first n operations, from contents V0. -/
def Vat (V0 : Valuation τ sig (Elt Ideal)) (n : ℕ) : Valuation τ sig (Elt Ideal) :=
  after ((ops (F := Ideal)).take n) V0

/-- After the first i + k operations: after the next k, from the contents after the first i. -/
theorem Vat_add (V0 : Valuation τ sig (Elt Ideal)) (i k : ℕ) :
    Vat V0 (i + k) = after (((ops (F := Ideal)).drop i).take k) (Vat V0 i) :=
  Cert.Lib.after_take_add ops i k V0

/-- The list has 218 operations. -/
theorem Vat_all (V0 : Valuation τ sig (Elt Ideal)) : Vat V0 218 = after (ops (F := Ideal)) V0 := by
  have h : (ops (F := Ideal)).take 218 = ops := List.take_of_length_le (Nat.le_of_eq rfl)
  unfold Vat
  rw [h]

/-- A buffer no operation writes holds, after any number of operations, what it held at the start. -/
theorem Vat_kept {b : Ref sig .tc} (hb : ∀ op ∈ (ops (F := Ideal)), Proc.devRef (τ := τ) .tc b ∉ op.writes)
    (V0 : Valuation τ sig (Elt Ideal)) (n : ℕ) : Vat V0 n (Proc.devRef .tc b) = V0 (Proc.devRef .tc b) :=
  after_of_forall_not_mem _ _ fun op hop => hb op (List.mem_of_mem_take hop)

/-- A buffer no operation after the first eight writes holds, from then on, what it held after the eighth. -/
theorem Vat_kept8 {b : Ref sig .tc} (hb : ∀ op ∈ (ops (F := Ideal)).drop 8, Proc.devRef (τ := τ) .tc b ∉ op.writes)
    (V0 : Valuation τ sig (Elt Ideal)) (k : ℕ) : Vat V0 (8 + k) (Proc.devRef .tc b) = Vat V0 8 (Proc.devRef .tc b) := by
  rw [Vat_add]
  exact after_of_forall_not_mem _ _ fun op hop => hb op (List.mem_of_mem_take hop)

/-! ## The network on whole arrays -/

/-- The input transform, normalised. -/
def refH0 (x0 : FVec Ideal S50000x128 .f32) (x2 : FVec Ideal S128x64 .f32) (x3 x4 x5 : Col) : Tab :=
  refBn (refLin x0 x2 x3) x4 x5

/-- Graph layer i with its own planes of the stacked parameters. -/
def refStep (i : ℕ) (hW : S3x64x64.Slices ![i, 0, 0] S1x64x64) (hV : S3x64.Slices ![i, 0] S1x64)
    (x1 : IVec S2x800000 32) (x6 x7 : FVec Ideal S3x64x64 .f32) (x8 x9 : FVec Ideal S3x64 .f32) (h : Tab) : Tab :=
  refLayer h (refSrc x1) (refDst x1) (wSlice i hW x6) (wSlice i hW x7) (vSlice i hV x8) (vSlice i hV x9)

/-- The reference's result as one function of its ten argument arrays. -/
def refNet (x0 : FVec Ideal S50000x128 .f32) (x1 : IVec S2x800000 32) (x2 : FVec Ideal S128x64 .f32) (x3 x4 x5 : Col)
    (x6 x7 : FVec Ideal S3x64x64 .f32) (x8 x9 : FVec Ideal S3x64 .f32) : Tab :=
  refStep 2 slices_S3x64x64_S1x64x64_2_0_0 slices_S3x64_S1x64_2_0 x1 x6 x7 x8 x9
    (refStep 1 slices_S3x64x64_S1x64x64_1_0_0 slices_S3x64_S1x64_1_0 x1 x6 x7 x8 x9
      (refStep 0 slices_S3x64x64_S1x64x64_0_0_0 slices_S3x64_S1x64_0_0 x1 x6 x7 x8 x9 (refH0 x0 x2 x3 x4 x5)))

section Chain

variable (V0 : Valuation τ sig (Elt Ideal))

theorem at8_v7 : Vat V0 8 (Proc.devRef .tc main_v7)
    = refLin (V0 (Proc.devRef .tc main_arg0)) (V0 (Proc.devRef .tc main_arg2)) (V0 (Proc.devRef .tc main_arg3)) :=
  st_lin V0

/-- The sources and the destinations, from the eighth operation on. -/
theorem src_at (k : ℕ) : Vat V0 (8 + k) (Proc.devRef .tc main_v1) = refSrc (V0 (Proc.devRef .tc main_arg1)) :=
  (Vat_kept8 unwritten_v1 V0 k).trans (st_src V0)
theorem dst_at (k : ℕ) : Vat V0 (8 + k) (Proc.devRef .tc main_v3) = refDst (V0 (Proc.devRef .tc main_arg1)) :=
  (Vat_kept8 unwritten_v3 V0 k).trans (st_dst V0)

theorem at38 : Vat V0 38 (Proc.devRef .tc main_v32)
    = refH0 (V0 (Proc.devRef .tc main_arg0)) (V0 (Proc.devRef .tc main_arg2)) (V0 (Proc.devRef .tc main_arg3))
        (V0 (Proc.devRef .tc main_arg4)) (V0 (Proc.devRef .tc main_arg5)) := by
  have e : Vat V0 38 = after (((ops (F := Ideal)).drop 8).take 30) (Vat V0 8) := Vat_add V0 8 30
  rw [e, st_bn0, at8_v7, Vat_kept unwritten_arg4, Vat_kept unwritten_arg5]
  rfl

/-- The first graph layer: the aggregation, the perceptron and the normalisation of operations 38-97. -/
theorem at98 : Vat V0 98 (Proc.devRef .tc main_v80)
    = refStep 0 slices_S3x64x64_S1x64x64_0_0_0 slices_S3x64_S1x64_0_0 (V0 (Proc.devRef .tc main_arg1))
        (V0 (Proc.devRef .tc main_arg6)) (V0 (Proc.devRef .tc main_arg7)) (V0 (Proc.devRef .tc main_arg8))
        (V0 (Proc.devRef .tc main_arg9))
        (refH0 (V0 (Proc.devRef .tc main_arg0)) (V0 (Proc.devRef .tc main_arg2)) (V0 (Proc.devRef .tc main_arg3))
          (V0 (Proc.devRef .tc main_arg4)) (V0 (Proc.devRef .tc main_arg5))) := by
  have e1 : Vat V0 52 = after (((ops (F := Ideal)).drop 38).take 14) (Vat V0 38) := Vat_add V0 38 14
  have e2 : Vat V0 64 = after (((ops (F := Ideal)).drop 52).take 12) (Vat V0 52) := Vat_add V0 52 12
  have e3 : Vat V0 98 = after (((ops (F := Ideal)).drop 64).take 34) (Vat V0 64) := Vat_add V0 64 34
  have hs : Vat V0 38 (Proc.devRef .tc main_v1) = refSrc (V0 (Proc.devRef .tc main_arg1)) := src_at V0 30
  have hd : Vat V0 38 (Proc.devRef .tc main_v3) = refDst (V0 (Proc.devRef .tc main_arg1)) := dst_at V0 30
  rw [e3, st_bn1, e2, st_mlp0, e1, st_agg0, at38, hs, hd, ← e1, Vat_kept unwritten_arg6, Vat_kept unwritten_arg7,
    ← e2, Vat_kept unwritten_arg8, Vat_kept unwritten_arg9]
  rfl

/-- The second graph layer, operations 98-157, from the first layer's table. -/
theorem at158 : Vat V0 158 (Proc.devRef .tc main_v128)
    = refStep 1 slices_S3x64x64_S1x64x64_1_0_0 slices_S3x64_S1x64_1_0 (V0 (Proc.devRef .tc main_arg1))
        (V0 (Proc.devRef .tc main_arg6)) (V0 (Proc.devRef .tc main_arg7)) (V0 (Proc.devRef .tc main_arg8))
        (V0 (Proc.devRef .tc main_arg9)) (Vat V0 98 (Proc.devRef .tc main_v80)) := by
  have e1 : Vat V0 112 = after (((ops (F := Ideal)).drop 98).take 14) (Vat V0 98) := Vat_add V0 98 14
  have e2 : Vat V0 124 = after (((ops (F := Ideal)).drop 112).take 12) (Vat V0 112) := Vat_add V0 112 12
  have e3 : Vat V0 158 = after (((ops (F := Ideal)).drop 124).take 34) (Vat V0 124) := Vat_add V0 124 34
  have hs : Vat V0 98 (Proc.devRef .tc main_v1) = refSrc (V0 (Proc.devRef .tc main_arg1)) := src_at V0 90
  have hd : Vat V0 98 (Proc.devRef .tc main_v3) = refDst (V0 (Proc.devRef .tc main_arg1)) := dst_at V0 90
  rw [e3, st_bn2, e2, st_mlp1, e1, st_agg1, hs, hd, ← e1, Vat_kept unwritten_arg6, Vat_kept unwritten_arg7,
    ← e2, Vat_kept unwritten_arg8, Vat_kept unwritten_arg9]
  rfl

/-- The third graph layer, operations 158-217, from the second layer's table. -/
theorem at218 : Vat V0 218 (Proc.devRef .tc main_v176)
    = refStep 2 slices_S3x64x64_S1x64x64_2_0_0 slices_S3x64_S1x64_2_0 (V0 (Proc.devRef .tc main_arg1))
        (V0 (Proc.devRef .tc main_arg6)) (V0 (Proc.devRef .tc main_arg7)) (V0 (Proc.devRef .tc main_arg8))
        (V0 (Proc.devRef .tc main_arg9)) (Vat V0 158 (Proc.devRef .tc main_v128)) := by
  have e1 : Vat V0 172 = after (((ops (F := Ideal)).drop 158).take 14) (Vat V0 158) := Vat_add V0 158 14
  have e2 : Vat V0 184 = after (((ops (F := Ideal)).drop 172).take 12) (Vat V0 172) := Vat_add V0 172 12
  have e3 : Vat V0 218 = after (((ops (F := Ideal)).drop 184).take 34) (Vat V0 184) := Vat_add V0 184 34
  have hs : Vat V0 158 (Proc.devRef .tc main_v1) = refSrc (V0 (Proc.devRef .tc main_arg1)) := src_at V0 150
  have hd : Vat V0 158 (Proc.devRef .tc main_v3) = refDst (V0 (Proc.devRef .tc main_arg1)) := dst_at V0 150
  rw [e3, st_bn3, e2, st_mlp2, e1, st_agg2, hs, hd, ← e1, Vat_kept unwritten_arg6, Vat_kept unwritten_arg7,
    ← e2, Vat_kept unwritten_arg8, Vat_kept unwritten_arg9]
  rfl

/-- The reference's result buffer after all its operations, as one function of the argument buffers' contents
    at the start. -/
theorem ref_value_of : after (ops (F := Ideal)) V0 (Proc.devRef .tc main_v176)
    = refNet (V0 (Proc.devRef .tc main_arg0)) (V0 (Proc.devRef .tc main_arg1)) (V0 (Proc.devRef .tc main_arg2))
        (V0 (Proc.devRef .tc main_arg3)) (V0 (Proc.devRef .tc main_arg4)) (V0 (Proc.devRef .tc main_arg5))
        (V0 (Proc.devRef .tc main_arg6)) (V0 (Proc.devRef .tc main_arg7)) (V0 (Proc.devRef .tc main_arg8))
        (V0 (Proc.devRef .tc main_arg9)) := by
  rw [← Vat_all, at218, at158, at98]
  rfl

end Chain

/-! ## The result by row and column, and the frame -/

/-- The reference's result read by row and column is the specification's network over the normalisation with the
    variance as the mean of the squared deviations and over the reference's own aggregation; layer i's
    parameters are plane i of the stacked arguments. -/
theorem ref_value_cur (V0 : Valuation τ sig (Elt Ideal)) :
    Cert.Spec.cur (after (ops (F := Ideal)) V0 (Proc.devRef .tc main_v176))
      = Cert.Spec.net Cert.Spec.bnR
          (refA (refSrc (V0 (Proc.devRef .tc main_arg1))) (refDst (V0 (Proc.devRef .tc main_arg1))))
          (Cert.Spec.cur (V0 (Proc.devRef .tc main_arg0) : FVec Ideal S50000x128 .f32))
          (Cert.Spec.cur (V0 (Proc.devRef .tc main_arg2) : FVec Ideal S128x64 .f32))
          (Cert.Spec.vec (V0 (Proc.devRef .tc main_arg3) : Col))
          (Cert.Spec.vec (V0 (Proc.devRef .tc main_arg4) : Col))
          (Cert.Spec.vec (V0 (Proc.devRef .tc main_arg5) : Col))
          (fun i j c => (V0 (Proc.devRef .tc main_arg6) : FVec Ideal S3x64x64 .f32) (ix3 i j c))
          (fun i j c => (V0 (Proc.devRef .tc main_arg7) : FVec Ideal S3x64x64 .f32) (ix3 i j c))
          (fun i c => (V0 (Proc.devRef .tc main_arg8) : FVec Ideal S3x64 .f32) (ix2 i c))
          (fun i c => (V0 (Proc.devRef .tc main_arg9) : FVec Ideal S3x64 .f32) (ix2 i c)) := by
  rw [ref_value_of]
  unfold refNet refStep refH0 Cert.Spec.net
  rw [refLayer_layer, refLayer_layer, refLayer_layer, refBn_cur, refLin_cur]
  simp only [wSlice_cur 0 (by decide), wSlice_cur 1 (by decide), wSlice_cur 2 (by decide),
    vSlice_vec 0 (by decide), vSlice_vec 1 (by decide), vSlice_vec 2 (by decide)]
  rfl

/-- The same from the launch memory of a device. -/
theorem ref_value (m : (ℓ : Loc nD τ sig) → Buf (Elt Ideal) ℓ) (c : Dev nD) :
    after (ops (F := Ideal)) (launchContents m c) (Proc.devRef .tc main_v176)
      = refNet (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) :=
  ref_value_of (launchContents m c)

/-- The result by row and column from the launch memory of a device, the arguments read where the memory holds them. -/
theorem ref_value_cur_at (m : (ℓ : Loc nD τ sig) → Buf (Elt Ideal) ℓ) (c : Dev nD) :
    Cert.Spec.cur (after (ops (F := Ideal)) (launchContents m c) (Proc.devRef .tc main_v176))
      = Cert.Spec.net Cert.Spec.bnR
          (refA (refSrc (m ((c.tc : Thread nD τ).loc main_arg1))) (refDst (m ((c.tc : Thread nD τ).loc main_arg1))))
          (Cert.Spec.cur (m ((c.tc : Thread nD τ).loc main_arg0) : FVec Ideal S50000x128 .f32))
          (Cert.Spec.cur (m ((c.tc : Thread nD τ).loc main_arg2) : FVec Ideal S128x64 .f32))
          (Cert.Spec.vec (m ((c.tc : Thread nD τ).loc main_arg3) : Col))
          (Cert.Spec.vec (m ((c.tc : Thread nD τ).loc main_arg4) : Col))
          (Cert.Spec.vec (m ((c.tc : Thread nD τ).loc main_arg5) : Col))
          (fun i j c' => (m ((c.tc : Thread nD τ).loc main_arg6) : FVec Ideal S3x64x64 .f32) (ix3 i j c'))
          (fun i j c' => (m ((c.tc : Thread nD τ).loc main_arg7) : FVec Ideal S3x64x64 .f32) (ix3 i j c'))
          (fun i c' => (m ((c.tc : Thread nD τ).loc main_arg8) : FVec Ideal S3x64 .f32) (ix2 i c'))
          (fun i c' => (m ((c.tc : Thread nD τ).loc main_arg9) : FVec Ideal S3x64 .f32) (ix2 i c')) :=
  ref_value_cur (launchContents m c)

/-- The reference's run: every execution terminates without a fault, with the result buffer at the fold of the
    operations over the launch contents and every argument as launched. -/
theorem run_ref (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v176) = after (ops (F := Ideal)) (launchContents m c) (Proc.devRef .tc main_v176)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run Cert.ReferenceIdeal.defs _ _).mono (fun _ h c =>
    ⟨h c main_v176,
     (h c main_arg0).trans (after_of_forall_not_mem _ _ unwritten_arg0),
     (h c main_arg1).trans (after_of_forall_not_mem _ _ unwritten_arg1),
     (h c main_arg2).trans (after_of_forall_not_mem _ _ unwritten_arg2),
     (h c main_arg3).trans (after_of_forall_not_mem _ _ unwritten_arg3),
     (h c main_arg4).trans (after_of_forall_not_mem _ _ unwritten_arg4),
     (h c main_arg5).trans (after_of_forall_not_mem _ _ unwritten_arg5),
     (h c main_arg6).trans (after_of_forall_not_mem _ _ unwritten_arg6),
     (h c main_arg7).trans (after_of_forall_not_mem _ _ unwritten_arg7),
     (h c main_arg8).trans (after_of_forall_not_mem _ _ unwritten_arg8),
     (h c main_arg9).trans (after_of_forall_not_mem _ _ unwritten_arg9)⟩)
    (Cert.ReferenceIdeal.ValueP.run_fold (F := Ideal) m ρ)

/-- The reference's frame: the run with the result dropped. -/
theorem frame_ri : Cert.frame_ReferenceIdeal := fun m ρ _ =>
  (θ_run Cert.ReferenceIdeal.defs _ _).mono (fun _ h c => (h c).2) (run_ref m ρ)

end Cert.ReferenceIdeal.RefValue

end
-- ==== Proof.Final.lean ====
/-
  The claims.

  The two kernel programs' frames are the generated ones, and the reference's is its run with the result dropped.
  The idealization rewrote no operation, so there is nothing to preserve.  For the algebraic claim the common result is
  the last boundary's contents at the kernel's result buffer.  Read by row and column, the kernel's result is the network
  over the first spelling of the variance (the mean of the squares less the squared mean) and the reference's is the
  network over the second (the mean of the squared deviations), both over the same aggregation along the edges and, by
  the agreement of the launch memories, of the same arrays.  The precondition makes every float input real-valued, the
  aggregation keeps tables real-valued, and on real-valued tables of 50000 rows the two spellings are one function: so
  the two networks are equal, entry by entry.
-/
import proofs.«131751_j26465588478351_1_alg».proof.Defs
import proofs.«131751_j26465588478351_1_alg».proof.Proof.Gen.Kernel.Frame
import proofs.«131751_j26465588478351_1_alg».proof.Proof.KValue
import proofs.«131751_j26465588478351_1_alg».proof.Proof.PreReal
import proofs.«131751_j26465588478351_1_alg».proof.Proof.RefSide

set_option maxRecDepth 16384

noncomputable section

namespace Cert.Proof.Claims

open Idealize.ShloMosaic Idealize.ShloMosaic.TcCoe Idealize.SL.Sem Idealize.ShloMosaic.ValueIdx Idealize.ShloMosaic.StableHlo
open Cert.Spec Cert.Lib

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := Cert.ReferenceIdeal.RefValue.frame_ri

theorem preserves : Cert.preserves_Kernel_KernelIdeal := trivial

/-- The reference's aggregation along the launched edges and the kernel's are one map of tables: the same host
    operations over the same records. -/
theorem agg_same (m : (ℓ : Loc Cert.KernelIdeal.nD Cert.KernelIdeal.τ Cert.KernelIdeal.sig) → Buf (Elt Ideal) ℓ) (c : Dev Cert.KernelIdeal.nD) :
    Cert.ReferenceIdeal.RefValue.refA (Cert.ReferenceIdeal.RefValue.refSrc (m ((c.tc : Thread Cert.KernelIdeal.nD Cert.KernelIdeal.τ).loc Cert.KernelIdeal.main_arg1))) (Cert.ReferenceIdeal.RefValue.refDst (m ((c.tc : Thread Cert.KernelIdeal.nD Cert.KernelIdeal.τ).loc Cert.KernelIdeal.main_arg1)))
      = Cert.KernelIdeal.KV.aggK m c := rfl

/-- The network over either spelling of the variance, of the launched arrays of a memory satisfying the precondition. -/
theorem nets_eq (m : (ℓ : Loc Cert.KernelIdeal.nD Cert.KernelIdeal.τ Cert.KernelIdeal.sig) → Buf (Elt Ideal) ℓ) (hpre : Cert.Pre_KernelIdeal m) (c : Dev Cert.KernelIdeal.nD) :
    net bnK (Cert.KernelIdeal.KV.aggK m c) (Cert.KernelIdeal.KV.Xt m c) (Cert.KernelIdeal.KV.Wtt m c) (Cert.KernelIdeal.KV.btv m c) (Cert.KernelIdeal.KV.gtv m c) (Cert.KernelIdeal.KV.bbtv m c)
        (Cert.KernelIdeal.KV.W1s m c) (Cert.KernelIdeal.KV.W2s m c) (Cert.KernelIdeal.KV.gams m c) (Cert.KernelIdeal.KV.bets m c)
      = net bnR (Cert.KernelIdeal.KV.aggK m c) (Cert.KernelIdeal.KV.Xt m c) (Cert.KernelIdeal.KV.Wtt m c) (Cert.KernelIdeal.KV.btv m c) (Cert.KernelIdeal.KV.gtv m c) (Cert.KernelIdeal.KV.bbtv m c)
        (Cert.KernelIdeal.KV.W1s m c) (Cert.KernelIdeal.KV.W2s m c) (Cert.KernelIdeal.KV.gams m c) (Cert.KernelIdeal.KV.bets m c) := by
  obtain ⟨r0, r2, r3, r4, r5, r6, r7, r8, r9⟩ := Cert.KernelIdeal.KV.pre_real m hpre c
  exact net_eq (Cert.KernelIdeal.KV.aggK_real m c) (fun r k => r0 r k) (fun k cc => r2 k cc) (fun cc => r3 cc) (fun cc => r4 cc) (fun cc => r5 cc)
    (fun i j cc => r6 i j cc) (fun i j cc => r7 i j cc) (fun i cc => r8 i cc) (fun i cc => r9 i cc)

theorem algebraic : Cert.algebraic_KernelIdeal_ReferenceIdeal := by
  intro m ρ m' ρ' hpre hagree
  refine ⟨fun c => Cert.KernelIdeal.Gen.W16 m ρ c (Proc.devRef .tc Cert.KernelIdeal.main_v101), Cert.KernelIdeal.KV.run_value m ρ, ?_⟩
  refine (θ_run Cert.ReferenceIdeal.defs _ _).mono (fun r h c => ⟨(h c).1.trans ?_, (h c).2⟩) (Cert.ReferenceIdeal.RefValue.run_ref m' ρ')
  obtain ⟨a0, a1, a2, a3, a4, a5, a6, a7, a8, a9⟩ := hagree c
  refine ext2 fun r cc => ?_
  have hr := congrFun (congrFun (Cert.ReferenceIdeal.RefValue.ref_value_cur_at m' c) r) cc
  have hk := congrFun (congrFun (Cert.KernelIdeal.KV.kernel_value m ρ c) r) cc
  have hn := congrFun (congrFun (nets_eq m hpre c) r) cc
  rw [a0, a1, a2, a3, a4, a5, a6, a7, a8, a9, agg_same m c] at hr
  exact hr.trans (hn.symm.trans hk.symm)

end Cert.Proof.Claims

end
-- ==== Proof.lean ====
/- The proof of `Cert.Claim`: a three-layer graph network with batch normalisation, as a chain of kernel launches
   against its array-level reference, equal at the ideal values under finite inputs.

   Both programs compute: the input table times a weight matrix plus a bias, normalised column by column; then three
   times: add to every row the sum of the rows its incoming edges name, multiply by two weight matrices with clipping
   at zero after each, and normalise the columns again.  They differ in one place.  The kernel accumulates, launch by
   launch over 25 blocks of 2000 rows, each column's sum and sum of squares, and takes the variance as the mean of the
   squares less the squared mean; the reference takes it as the mean of the squared deviations from the mean.  Over the
   reals these agree; at the infinities they need not.  So the proof carries "every entry is a real" from the
   precondition through every table: products, clipping, the aggregation (a finite sum of entries), and the
   normalisation (the variance of a real column is a nonnegative real, so its sum with the positive epsilon has a real
   reciprocal square root) all keep it, and on real-valued tables of 50000 rows the two variances are one function.

   Proof/Spec.lean states the layers as functions of a row and a column; Proof/Bridge.lean proves the agreement of the
   two normalisations and of the two networks on real-valued data.  The kernel side reads each launch's output arrays off
   the generated frame (Proof/KLin0*.lean the transform launch with its two accumulators, Proof/KMlp*.lean the three
   perceptron launches, Proof/KNorm*.lean the four normalisation launches), Proof/KHost.lean what the host leaves
   between launches, Proof/KChain*.lean and Proof/KValue.lean the chain through the sixteen segments, Proof/KRun.lean the
   run with the result named.  The reference side (Proof/Ref*.lean) reads the reference's 218 host operations in eleven
   stretches.  Proof/PreReal.lean turns the precondition into real-valued inputs, and Proof/Final.lean states the five
   claims.  The witnesses of the programs' stated facts are the generated instances. -/
import proofs.«131751_j26465588478351_1_alg».proof.Defs
import proofs.«131751_j26465588478351_1_alg».proof.Proof.Gen.Kernel
import proofs.«131751_j26465588478351_1_alg».proof.Proof.Gen.Kernel.Skeleton
import proofs.«131751_j26465588478351_1_alg».proof.Proof.Gen.Kernel.Launch
import proofs.«131751_j26465588478351_1_alg».proof.Proof.Gen.Kernel.Points
import proofs.«131751_j26465588478351_1_alg».proof.Proof.Gen.Kernel.Frame
import proofs.«131751_j26465588478351_1_alg».proof.Proof.Gen.KernelIdeal
import proofs.«131751_j26465588478351_1_alg».proof.Proof.Gen.KernelIdeal.Skeleton
import proofs.«131751_j26465588478351_1_alg».proof.Proof.Gen.KernelIdeal.Launch
import proofs.«131751_j26465588478351_1_alg».proof.Proof.Gen.KernelIdeal.Points
import proofs.«131751_j26465588478351_1_alg».proof.Proof.Gen.KernelIdeal.Frame
import proofs.«131751_j26465588478351_1_alg».proof.Proof.Gen.ReferenceIdeal
import proofs.«131751_j26465588478351_1_alg».proof.Proof.Gen.Pre_finite_inputs
import proofs.«131751_j26465588478351_1_alg».proof.Proof.Final
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
